-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))

def preserves_Kernel_KernelIdeal : Prop :=
  IdealRules.named_const.Statement Cert.KernelIdeal.κ "neg_big" .f32 0xFF333332#32 ⊥

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v21)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v21) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v36) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x2048x1024 : Shape := ⟨3, ![4, 2048, 1024]⟩
abbrev S1024x1024 : Shape := ⟨2, ![1024, 1024]⟩
abbrev S1024 : Shape := ⟨1, ![1024]⟩
abbrev S_ : Shape := ⟨0, ![]⟩

class Facts : Prop where
  bcast_S_S4x2048x1024 : S_.BroadcastsInDim S4x2048x1024 (![] : Fin 0 → Fin S4x2048x1024.rank)
  reducesTo_S4x2048x1024_S_d0_1_2 : S4x2048x1024.ReducesTo [0, 1, 2] S_
  h_S_ : 0 < S_.numel
  bcast_S_S1024x1024 : S_.BroadcastsInDim S1024x1024 (![] : Fin 0 → Fin S1024x1024.rank)
  reducesTo_S1024x1024_S_d0_1 : S1024x1024.ReducesTo [0, 1] S_
  bcast_S_S1024 : S_.BroadcastsInDim S1024 (![] : Fin 0 → Fin S1024.rank)
  reducesTo_S1024_S_d0 : S1024.ReducesTo [0] S_

variable [Facts]

def fn_part2 {F : FTy → Type} [FloatOps F] (main_arg7 : FVec F S1024x1024 .f32) (main_arg8 : FVec F S1024 .f32) (main_v33 : IVec S_ 1) : IVec S_ 1 :=
  let main_v34 : FVec F S1024x1024 .f32 := Host.absf main_arg7
  let main_cst_12 : FVec F S_ .f32 := constant S_ .f32 0x7F800000#32
  let main_v35 : FVec F S1024x1024 .f32 := broadcastInDim S1024x1024 ![] bcast_S_S1024x1024 main_cst_12
  let main_v36 : IVec S1024x1024 1 := cmpf .olt main_v34 main_v35
  let main_c_13 : IVec S_ 1 := constantI S_ 1 1#1
  let main_v37 : IVec S_ 1 := (fun x v => Host.reduce IntOp.andi x v reducesTo_S1024x1024_S_d0_1 h_S_) main_v36 main_c_13
  let main_v38 : IVec S_ 1 := andi main_v33 main_v37
  let main_v39 : FVec F S1024 .f32 := Host.absf main_arg8
  let main_cst_14 : FVec F S_ .f32 := constant S_ .f32 0x7F800000#32
  let main_v40 : FVec F S1024 .f32 := broadcastInDim S1024 ![] bcast_S_S1024 main_cst_14
  let main_v41 : IVec S1024 1 := cmpf .olt main_v39 main_v40
  let main_c_15 : IVec S_ 1 := constantI S_ 1 1#1
  let main_v42 : IVec S_ 1 := (fun x v => Host.reduce IntOp.andi x v reducesTo_S1024_S_d0 h_S_) main_v41 main_c_15
  let main_v43 : IVec S_ 1 := andi main_v38 main_v42
  main_v43

def fn_part1 {F : FTy → Type} [FloatOps F] (main_arg4 : FVec F S1024 .f32) (main_arg5 : FVec F S1024x1024 .f32) (main_arg6 : FVec F S1024 .f32) (main_arg7 : FVec F S1024x1024 .f32) (main_arg8 : FVec F S1024 .f32) (main_v13 : IVec S_ 1) (main_v16 : IVec S1024x1024 1) : IVec S_ 1 :=
  let main_c_5 : IVec S_ 1 := constantI S_ 1 1#1
  let main_v17 : IVec S_ 1 := (fun x v => Host.reduce IntOp.andi x v reducesTo_S1024x1024_S_d0_1 h_S_) main_v16 main_c_5
  let main_v18 : IVec S_ 1 := andi main_v13 main_v17
  let main_v19 : FVec F S1024 .f32 := Host.absf main_arg4
  let main_cst_6 : FVec F S_ .f32 := constant S_ .f32 0x7F800000#32
  let main_v20 : FVec F S1024 .f32 := broadcastInDim S1024 ![] bcast_S_S1024 main_cst_6
  let main_v21 : IVec S1024 1 := cmpf .olt main_v19 main_v20
  let main_c_7 : IVec S_ 1 := constantI S_ 1 1#1
  let main_v22 : IVec S_ 1 := (fun x v => Host.reduce IntOp.andi x v reducesTo_S1024_S_d0 h_S_) main_v21 main_c_7
  let main_v23 : IVec S_ 1 := andi main_v18 main_v22
  let main_v24 : FVec F S1024x1024 .f32 := Host.absf main_arg5
  let main_cst_8 : FVec F S_ .f32 := constant S_ .f32 0x7F800000#32
  let main_v25 : FVec F S1024x1024 .f32 := broadcastInDim S1024x1024 ![] bcast_S_S1024x1024 main_cst_8
  let main_v26 : IVec S1024x1024 1 := cmpf .olt main_v24 main_v25
  let main_c_9 : IVec S_ 1 := constantI S_ 1 1#1
  let main_v27 : IVec S_ 1 := (fun x v => Host.reduce IntOp.andi x v reducesTo_S1024x1024_S_d0_1 h_S_) main_v26 main_c_9
  let main_v28 : IVec S_ 1 := andi main_v23 main_v27
  let main_v29 : FVec F S1024 .f32 := Host.absf main_arg6
  let main_cst_10 : FVec F S_ .f32 := constant S_ .f32 0x7F800000#32
  let main_v30 : FVec F S1024 .f32 := broadcastInDim S1024 ![] bcast_S_S1024 main_cst_10
  let main_v31 : IVec S1024 1 := cmpf .olt main_v29 main_v30
  let main_c_11 : IVec S_ 1 := constantI S_ 1 1#1
  let main_v32 : IVec S_ 1 := (fun x v => Host.reduce IntOp.andi x v reducesTo_S1024_S_d0 h_S_) main_v31 main_c_11
  let main_v33 : IVec S_ 1 := andi main_v28 main_v32
  fn_part2 (F := F) main_arg7 main_arg8 main_v33

def fn {F : FTy → Type} [FloatOps F] (main_arg0 : FVec F S4x2048x1024 .f32) (main_arg1 : FVec F S1024x1024 .f32) (main_arg2 : FVec F S1024 .f32) (main_arg3 : FVec F S1024x1024 .f32) (main_arg4 : FVec F S1024 .f32) (main_arg5 : FVec F S1024x1024 .f32) (main_arg6 : FVec F S1024 .f32) (main_arg7 : FVec F S1024x1024 .f32) (main_arg8 : FVec F S1024 .f32) : IVec S_ 1 :=
  let main_v0 : FVec F S4x2048x1024 .f32 := Host.absf main_arg0
  let main_cst : FVec F S_ .f32 := constant S_ .f32 0x7F800000#32
  let main_v1 : FVec F S4x2048x1024 .f32 := broadcastInDim S4x2048x1024 ![] bcast_S_S4x2048x1024 main_cst
  let main_v2 : IVec S4x2048x1024 1 := cmpf .olt main_v0 main_v1
  let main_c : IVec S_ 1 := constantI S_ 1 1#1
  let main_v3 : IVec S_ 1 := (fun x v => Host.reduce IntOp.andi x v reducesTo_S4x2048x1024_S_d0_1_2 h_S_) main_v2 main_c
  let main_v4 : FVec F S1024x1024 .f32 := Host.absf main_arg1
  let main_cst_0 : FVec F S_ .f32 := constant S_ .f32 0x7F800000#32
  let main_v5 : FVec F S1024x1024 .f32 := broadcastInDim S1024x1024 ![] bcast_S_S1024x1024 main_cst_0
  let main_v6 : IVec S1024x1024 1 := cmpf .olt main_v4 main_v5
  let main_c_1 : IVec S_ 1 := constantI S_ 1 1#1
  let main_v7 : IVec S_ 1 := (fun x v => Host.reduce IntOp.andi x v reducesTo_S1024x1024_S_d0_1 h_S_) main_v6 main_c_1
  let main_v8 : IVec S_ 1 := andi main_v3 main_v7
  let main_v9 : FVec F S1024 .f32 := Host.absf main_arg2
  let main_cst_2 : FVec F S_ .f32 := constant S_ .f32 0x7F800000#32
  let main_v10 : FVec F S1024 .f32 := broadcastInDim S1024 ![] bcast_S_S1024 main_cst_2
  let main_v11 : IVec S1024 1 := cmpf .olt main_v9 main_v10
  let main_c_3 : IVec S_ 1 := constantI S_ 1 1#1
  let main_v12 : IVec S_ 1 := (fun x v => Host.reduce IntOp.andi x v reducesTo_S1024_S_d0 h_S_) main_v11 main_c_3
  let main_v13 : IVec S_ 1 := andi main_v8 main_v12
  let main_v14 : FVec F S1024x1024 .f32 := Host.absf main_arg3
  let main_cst_4 : FVec F S_ .f32 := constant S_ .f32 0x7F800000#32
  let main_v15 : FVec F S1024x1024 .f32 := broadcastInDim S1024x1024 ![] bcast_S_S1024x1024 main_cst_4
  let main_v16 : IVec S1024x1024 1 := cmpf .olt main_v14 main_v15
  fn_part1 (F := F) main_arg4 main_arg5 main_arg6 main_arg7 main_arg8 main_v13 main_v16
-- ==== Kernel.lean ====
abbrev S4x2048x1024 : Shape := ⟨3, ![4, 2048, 1024]⟩
abbrev S1024x1024 : Shape := ⟨2, ![1024, 1024]⟩
abbrev S1024 : Shape := ⟨1, ![1024]⟩
abbrev S8192x1024 : Shape := ⟨2, ![8192, 1024]⟩
abbrev S1024x3072 : Shape := ⟨2, ![1024, 3072]⟩
abbrev S3072 : Shape := ⟨1, ![3072]⟩
abbrev S1x3072 : Shape := ⟨2, ![1, 3072]⟩
abbrev S8192x3072 : Shape := ⟨2, ![8192, 3072]⟩
abbrev S512x1024 : Shape := ⟨2, ![512, 1024]⟩
abbrev S512x3072 : Shape := ⟨2, ![512, 3072]⟩
abbrev S1x512x1024 : Shape := ⟨3, ![1, 512, 1024]⟩
abbrev S512x1 : Shape := ⟨2, ![512, 1]⟩
abbrev S1024x512 : Shape := ⟨2, ![1024, 512]⟩
abbrev S512x512 : Shape := ⟨2, ![512, 512]⟩
abbrev S512 : Shape := ⟨1, ![512]⟩
abbrev S1x1024 : Shape := ⟨2, ![1, 1024]⟩

abbrev nBuf : Space → Nat
  | .hbm => 31
  | .vmem => 23
  | .smem => 0
  | _ => 0

abbrev bufTy : (tb : Table) → Fin (tcTables nBuf tb) → BufTy
  | .hbm, ⟨0, _⟩ => ⟨S4x2048x1024, .f32⟩
  | .hbm, ⟨1, _⟩ => ⟨S1024x1024, .f32⟩
  | .hbm, ⟨2, _⟩ => ⟨S1024, .f32⟩
  | .hbm, ⟨3, _⟩ => ⟨S1024x1024, .f32⟩
  | .hbm, ⟨4, _⟩ => ⟨S1024, .f32⟩
  | .hbm, ⟨5, _⟩ => ⟨S1024x1024, .f32⟩
  | .hbm, ⟨6, _⟩ => ⟨S1024, .f32⟩
  | .hbm, ⟨7, _⟩ => ⟨S1024x1024, .f32⟩
  | .hbm, ⟨8, _⟩ => ⟨S1024, .f32⟩
  | .hbm, ⟨9, _⟩ => ⟨S8192x1024, .f32⟩
  | .hbm, ⟨10, _⟩ => ⟨S1024x1024, .f32⟩
  | .hbm, ⟨11, _⟩ => ⟨S1024x1024, .f32⟩
  | .hbm, ⟨12, _⟩ => ⟨S1024x1024, .f32⟩
  | .hbm, ⟨13, _⟩ => ⟨S1024x3072, .f32⟩
  | .hbm, ⟨14, _⟩ => ⟨S1024x3072, .bf16⟩
  | .hbm, ⟨15, _⟩ => ⟨S3072, .f32⟩
  | .hbm, ⟨16, _⟩ => ⟨S1x3072, .f32⟩
  | .hbm, ⟨17, _⟩ => ⟨S8192x3072, .bf16⟩
  | .hbm, ⟨18, _⟩ => ⟨S8192x1024, .bf16⟩
  | .hbm, ⟨19, _⟩ => ⟨S8192x1024, .bf16⟩
  | .hbm, ⟨20, _⟩ => ⟨S8192x1024, .bf16⟩
  | .hbm, ⟨21, _⟩ => ⟨S4x2048x1024, .bf16⟩
  | .hbm, ⟨22, _⟩ => ⟨S4x2048x1024, .bf16⟩
  | .hbm, ⟨23, _⟩ => ⟨S4x2048x1024, .bf16⟩
  | .hbm, ⟨24, _⟩ => ⟨S4x2048x1024, .bf16⟩
  | .hbm, ⟨25, _⟩ => ⟨S8192x1024, .bf16⟩
  | .hbm, ⟨26, _⟩ => ⟨S1024x1024, .f32⟩
  | .hbm, ⟨27, _⟩ => ⟨S1024x1024, .bf16⟩
  | .hbm, ⟨28, _⟩ => ⟨S1x1024, .f32⟩
  | .hbm, ⟨29, _⟩ => ⟨S8192x1024, .f32⟩
  | .hbm, ⟨30, _⟩ => ⟨S4x2048x1024, .f32⟩
  | .local _ .vmem, ⟨0, _⟩ => ⟨S512x1024, .f32⟩
  | .local _ .vmem, ⟨1, _⟩ => ⟨S512x1024, .f32⟩
  | .local _ .vmem, ⟨2, _⟩ => ⟨S1024x3072, .bf16⟩
  | .local _ .vmem, ⟨3, _⟩ => ⟨S1x3072, .f32⟩
  | .local _ .vmem, ⟨4, _⟩ => ⟨S512x3072, .bf16⟩
  | .local _ .vmem, ⟨5, _⟩ => ⟨S512x3072, .bf16⟩
  | .local _ .vmem, ⟨6, _⟩ => ⟨S1x512x1024, .bf16⟩
  | .local _ .vmem, ⟨7, _⟩ => ⟨S1x512x1024, .bf16⟩
  | .local _ .vmem, ⟨8, _⟩ => ⟨S1x512x1024, .bf16⟩
  | .local _ .vmem, ⟨9, _⟩ => ⟨S1x512x1024, .bf16⟩
  | .local _ .vmem, ⟨10, _⟩ => ⟨S1x512x1024, .bf16⟩
  | .local _ .vmem, ⟨11, _⟩ => ⟨S1x512x1024, .bf16⟩
  | .local _ .vmem, ⟨12, _⟩ => ⟨S1x512x1024, .bf16⟩
  | .local _ .vmem, ⟨13, _⟩ => ⟨S1x512x1024, .bf16⟩
  | .local _ .vmem, ⟨14, _⟩ => ⟨S512x1024, .f32⟩
  | .local _ .vmem, ⟨15, _⟩ => ⟨S512x1, .f32⟩
  | .local _ .vmem, ⟨16, _⟩ => ⟨S512x1, .f32⟩
  | .local _ .vmem, ⟨17, _⟩ => ⟨S512x1024, .bf16⟩
  | .local _ .vmem, ⟨18, _⟩ => ⟨S512x1024, .bf16⟩
  | .local _ .vmem, ⟨19, _⟩ => ⟨S1024x1024, .bf16⟩
  | .local _ .vmem, ⟨20, _⟩ => ⟨S1x1024, .f32⟩
  | .local _ .vmem, ⟨21, _⟩ => ⟨S512x1024, .f32⟩
  | .local _ .vmem, ⟨22, _⟩ => ⟨S512x1024, .f32⟩
  | _, _ => ⟨S4x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg1_1 : Ref sig .tc := ⟨.vmem, 9, rfl⟩
abbrev cc1_stg2_0 : Ref sig .tc := ⟨.vmem, 10, rfl⟩
abbrev cc1_stg2_1 : Ref sig .tc := ⟨.vmem, 11, rfl⟩
abbrev cc1_stg3_0 : Ref sig .tc := ⟨.vmem, 12, rfl⟩
abbrev cc1_stg3_1 : Ref sig .tc := ⟨.vmem, 13, rfl⟩
abbrev cc1_scratch0 : Ref sig .tc := ⟨.vmem, 14, rfl⟩
abbrev cc1_scratch1 : Ref sig .tc := ⟨.vmem, 15, rfl⟩
abbrev cc1_scratch2 : Ref sig .tc := ⟨.vmem, 16, rfl⟩
abbrev cc2_stg0_0 : Ref sig .tc := ⟨.vmem, 17, rfl⟩
abbrev cc2_stg0_1 : Ref sig .tc := ⟨.vmem, 18, rfl⟩
abbrev cc2_stg1_0 : Ref sig .tc := ⟨.vmem, 19, rfl⟩
abbrev cc2_stg2_0 : Ref sig .tc := ⟨.vmem, 20, rfl⟩
abbrev cc2_stg3_0 : Ref sig .tc := ⟨.vmem, 21, rfl⟩
abbrev cc2_stg3_1 : Ref sig .tc := ⟨.vmem, 22, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem2_1 : DmaSem sig := 11
abbrev cc1_sem3_0 : DmaSem sig := 12
abbrev cc1_sem3_1 : DmaSem sig := 13
abbrev cc2_sem0_0 : DmaSem sig := 14
abbrev cc2_sem0_1 : DmaSem sig := 15
abbrev cc2_sem1_0 : DmaSem sig := 16
abbrev cc2_sem2_0 : DmaSem sig := 17
abbrev cc2_sem3_0 : DmaSem sig := 18
abbrev cc2_sem3_1 : DmaSem sig := 19

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x3072 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x3072 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x3072 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨3, ![4, 4, 4], ![false, false, false]⟩

def k1_cond3 (i : grid1.Coords) : BitVec 1 :=
  let arg2 : BitVec 32 := BitVec.ofNat 32 (i 2).val
  let c3_i32 : BitVec 32 := 3#32
  let v6 : BitVec 1 := Scalar.cmpi .eq arg2 c3_i32
  let v7 : BitVec 32 := Scalar.extui v6
  let c0_i32_2 : BitVec 32 := 0#32
  let v8 : BitVec 1 := Scalar.cmpi .ne v7 c0_i32_2
  v8

def cc1_transform_0 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc1_transform_1 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let v0 : BitVec 32 := Scalar.minsi arg2 arg1
  let c0_i32 : BitVec 32 := 0#32
  let c0_i32_0 : BitVec 32 := 0#32
  ![arg0.toNat, v0.toNat, c0_i32.toNat]

def cc1_transform_2 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let v0 : BitVec 32 := Scalar.minsi arg2 arg1
  let c0_i32 : BitVec 32 := 0#32
  let c0_i32_0 : BitVec 32 := 0#32
  ![arg0.toNat, v0.toNat, c0_i32.toNat]

def cc1_transform_3 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

abbrev stage1_0 : Fin 2 → Memref sig .tc .vmem S1x512x1024 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true, false]

abbrev stage1_1 : Fin 2 → Memref sig .tc .vmem S1x512x1024 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, true, true]

abbrev stage1_2 : Fin 2 → Memref sig .tc .vmem S1x512x1024 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true, true]

abbrev stage1_3 : Fin 2 → Memref sig .tc .vmem S1x512x1024 .bf16 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, true, false]

abbrev grid2 : Pipeline.Grid := ⟨1, ![16], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S512x1024 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S1024x1024 .bf16 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S1x1024 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 2 → Memref sig .tc .vmem S512x1024 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

class Facts₀ : Prop where
  shapeCasts_S4x2048x1024_S8192x1024 : S4x2048x1024.ShapeCasts S8192x1024
  transposes_S1024x1024_S1024x1024_1_0 : S1024x1024.Transposes [1, 0] S1024x1024
  concatenates_S1024x1024_S1024x1024_S1024x1024_S1024x3072_d1 : Shape.Concatenates [S1024x1024, S1024x1024, S1024x1024] S1024x3072 1
  bitsLt_bf16_f32 : FTy.bits .bf16 < FTy.bits .f32
  concatenates_S1024_S1024_S1024_S3072_d0 : Shape.Concatenates [S1024, S1024, S1024] S3072 0
  shapeCasts_S3072_S1x3072 : S3072.ShapeCasts S1x3072
  inb_S512x1024_S512x1024_0_0 : ∀ a, (![0, 0] : Fin 2 → Nat) a + S512x1024.size a ≤ S512x1024.size a
  h_S512x1024 : 0 < S512x1024.numel
  shapeCasts_S512x1024_S512x1024 : S512x1024.ShapeCasts S512x1024
  inb_S1024x3072_S1024x3072_0_0 : ∀ a, (![0, 0] : Fin 2 → Nat) a + S1024x3072.size a ≤ S1024x3072.size a
  h_S1024x3072 : 0 < S1024x3072.numel
  shapeCasts_S1024x3072_S1024x3072 : S1024x3072.ShapeCasts S1024x3072
  inb_S1x3072_S1x3072_0_0 : ∀ a, (![0, 0] : Fin 2 → Nat) a + S1x3072.size a ≤ S1x3072.size a
  h_S1x3072 : 0 < S1x3072.numel
  shapeCasts_S1x3072_S1x3072 : S1x3072.ShapeCasts S1x3072
  broadcasts_S1x3072_S512x3072 : S1x3072.Broadcasts S512x3072
  inb_S512x3072_S512x3072_0_0 : ∀ a, (![0, 0] : Fin 2 → Nat) a + S512x3072.size a ≤ S512x3072.size a
  h_S512x3072 : 0 < S512x3072.numel
  packedbf16_S512x3072_S512x3072_0_0 : (Rect.unit (s := S512x3072) ![0, 0] S512x3072.size inb_S512x3072_S512x3072_0_0).PackedRows (EltTy.packing .bf16)
  slices_S8192x3072_S8192x1024_0_0 : S8192x3072.Slices ![0, 0] S8192x1024
  slices_S8192x3072_S8192x1024_0_1024 : S8192x3072.Slices ![0, 1024] S8192x1024
  slices_S8192x3072_S8192x1024_0_2048 : S8192x3072.Slices ![0, 2048] S8192x1024
  shapeCasts_S8192x1024_S4x2048x1024 : S8192x1024.ShapeCasts S4x2048x1024
  inb_S512x1_S512x1_0_0 : ∀ a, (![0, 0] : Fin 2 → Nat) a + S512x1.size a ≤ S512x1.size a
  h_S512x1 : 0 < S512x1.numel
  shapeCasts_S512x1_S512x1 : S512x1.ShapeCasts S512x1
  inb_S1x512x1024_S1x512x1024_0_0_0 : ∀ a, (![0, 0, 0] : Fin 3 → Nat) a + S1x512x1024.size a ≤ S1x512x1024.size a
  h_S1x512x1024 : 0 < S1x512x1024.numel
  shapeCasts_S1x512x1024_S512x1024 : S1x512x1024.ShapeCasts S512x1024
  transposes_S512x1024_p1_0_S1024x512 : S512x1024.Transposes [1, 0] S1024x512
  iota_S512x512_d0_w32 : S512x512.Iotas .tc 32 [0]
  iota_S512x512_d1_w32 : S512x512.Iotas .tc 32 [1]
  reduces_S512x512_S512 : S512x512.Reduces [1] S512
  shapeCasts_S512_S512x1 : S512.ShapeCasts S512x1
  broadcasts_S512x1_S512x512 : S512x1.Broadcasts S512x512
  broadcasts_S512x1_S512x1024 : S512x1.Broadcasts S512x1024
  shapeCasts_S512x1024_S1x512x1024 : S512x1024.ShapeCasts S1x512x1024
  packedbf16_S1x512x1024_S1x512x1024_0_0_0 : (Rect.unit (s := S1x512x1024) ![0, 0, 0] S1x512x1024.size inb_S1x512x1024_S1x512x1024_0_0_0).PackedRows (EltTy.packing .bf16)
  shapeCasts_S1024_S1x1024 : S1024.ShapeCasts S1x1024
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1x1024_S512x1024 : S1x1024.Broadcasts S512x1024
  dot_S512x1024_S1024x3072_S512x3072_1_0_0_1_n_n_wf : DotDims.WF S512x1024 S1024x3072 S512x3072 [1] [0] [0] [1] [] []
  dot_S512x1024_S1024x512_S512x512_1_0_0_1_n_n_wf : DotDims.WF S512x1024 S1024x512 S512x512 [1] [0] [0] [1] [] []
  dot_S512x512_S512x1024_S512x1024_1_0_0_1_n_n_wf : DotDims.WF S512x512 S512x1024 S512x1024 [1] [0] [0] [1] [] []
  dot_S512x1024_S1024x1024_S512x1024_1_0_0_1_n_n_wf : DotDims.WF S512x1024 S1024x1024 S512x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x1024.size a ≤ S8192x1024.size a
  hwx0_0 : ∀ i : grid0.Coords, EltTy.bits .f32 = 32 ∨ (Rect.block (s := S8192x1024) S512x1024.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1024x3072.size a ≤ S1024x3072.size a
  hwx0_1 : ∀ i : grid0.Coords, EltTy.bits .bf16 = 32 ∨ (Rect.block (s := S1024x3072) S1024x3072.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x3072.size a ≤ S1x3072.size a
  hwx0_2 : ∀ i : grid0.Coords, EltTy.bits .f32 = 32 ∨ (Rect.block (s := S1x3072) S1x3072.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S512x3072.size a ≤ S8192x3072.size a
  hwx0_3 : ∀ i : grid0.Coords, EltTy.bits .bf16 = 32 ∨ (Rect.block (s := S8192x3072) S512x3072.size (cc0_transform_3 i) (hinb0_3 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1x512x1024.size a ≤ S4x2048x1024.size a
  hwx1_0 : ∀ i : grid1.Coords, EltTy.bits .bf16 = 32 ∨ (Rect.block (s := S4x2048x1024) S1x512x1024.size (cc1_transform_0 i) (hinb1_0 i)).WholeWords (EltTy.packing .bf16)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1x512x1024.size a ≤ S4x2048x1024.size a
  hwx1_1 : ∀ i : grid1.Coords, EltTy.bits .bf16 = 32 ∨ (Rect.block (s := S4x2048x1024) S1x512x1024.size (cc1_transform_1 i) (hinb1_1 i)).WholeWords (EltTy.packing .bf16)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1x512x1024.size a ≤ S4x2048x1024.size a
  hwx1_2 : ∀ i : grid1.Coords, EltTy.bits .bf16 = 32 ∨ (Rect.block (s := S4x2048x1024) S1x512x1024.size (cc1_transform_2 i) (hinb1_2 i)).WholeWords (EltTy.packing .bf16)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S1x512x1024.size a ≤ S4x2048x1024.size a
  hwx1_3 : ∀ i : grid1.Coords, EltTy.bits .bf16 = 32 ∨ (Rect.block (s := S4x2048x1024) S1x512x1024.size (cc1_transform_3 i) (hinb1_3 i)).WholeWords (EltTy.packing .bf16)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S512x1024.size a ≤ S8192x1024.size a
  hwx2_0 : ∀ i : grid2.Coords, EltTy.bits .bf16 = 32 ∨ (Rect.block (s := S8192x1024) S512x1024.size (cc2_transform_0 i) (hinb2_0 i)).WholeWords (EltTy.packing .bf16)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S1024x1024.size a ≤ S1024x1024.size a
  hwx2_1 : ∀ i : grid2.Coords, EltTy.bits .bf16 = 32 ∨ (Rect.block (s := S1024x1024) S1024x1024.size (cc2_transform_1 i) (hinb2_1 i)).WholeWords (EltTy.packing .bf16)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x1024.size a ≤ S1x1024.size a
  hwx2_2 : ∀ i : grid2.Coords, EltTy.bits .f32 = 32 ∨ (Rect.block (s := S1x1024) S1x1024.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S512x1024.size a ≤ S8192x1024.size a
  hwx2_3 : ∀ i : grid2.Coords, EltTy.bits .f32 = 32 ∨ (Rect.block (s := S8192x1024) S512x1024.size (cc2_transform_3 i) (hinb2_3 i)).WholeWords (EltTy.packing .f32)

variable [Facts₀]

def dot_S512x1024_S1024x3072_S512x3072_1_0_0_1_n_n : DotDims S512x1024 S1024x3072 S512x3072 where
  lhsContracting := [1]
  rhsContracting := [0]
  lhsNonContracting := [0]
  rhsNonContracting := [1]
  lhsBatch := []
  rhsBatch := []
  wf := dot_S512x1024_S1024x3072_S512x3072_1_0_0_1_n_n_wf
def dot_S512x1024_S1024x512_S512x512_1_0_0_1_n_n : DotDims S512x1024 S1024x512 S512x512 where
  lhsContracting := [1]
  rhsContracting := [0]
  lhsNonContracting := [0]
  rhsNonContracting := [1]
  lhsBatch := []
  rhsBatch := []
  wf := dot_S512x1024_S1024x512_S512x512_1_0_0_1_n_n_wf
def dot_S512x512_S512x1024_S512x1024_1_0_0_1_n_n : DotDims S512x512 S512x1024 S512x1024 where
  lhsContracting := [1]
  rhsContracting := [0]
  lhsNonContracting := [0]
  rhsNonContracting := [1]
  lhsBatch := []
  rhsBatch := []
  wf := dot_S512x512_S512x1024_S512x1024_1_0_0_1_n_n_wf
def dot_S512x1024_S1024x1024_S512x1024_1_0_0_1_n_n : DotDims S512x1024 S1024x1024 S512x1024 where
  lhsContracting := [1]
  rhsContracting := [0]
  lhsNonContracting := [0]
  rhsNonContracting := [1]
  lhsBatch := []
  rhsBatch := []
  wf := dot_S512x1024_S1024x1024_S512x1024_1_0_0_1_n_n_wf

abbrev win0_0 : Pipeline.Window sig grid0 :=
  Pipeline.Window.ofSpec (Memref.whole main_v0) S512x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v5) S1024x3072.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v7) S1x3072.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v8) S512x3072.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v12) S1x512x1024.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v13) S1x512x1024.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v14) S1x512x1024.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v15) S1x512x1024.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev idle1 : Fin 4 → grid1.Coords → Bool := fun | 0 => fun _ => false | 1 => fun _ => false | 2 => fun _ => false | 3 => fun i => !(k1_cond3 i == 1#1) | ⟨_ + 4, h⟩ => absurd h (Nat.not_lt.2 (Nat.le_add_left _ _))

abbrev win2_0 : Pipeline.Window sig grid2 :=
  Pipeline.Window.ofSpec (Memref.whole main_v16) S512x1024.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v18) S1024x1024.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v19) S1x1024.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v20) S512x1024.size cc2_transform_3 reads2_3 true false 2 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

class Facts : Prop extends Facts₀ where

variable [Facts]
-- ==== ReferenceIdeal.lean ====
abbrev S4x2048x1024 : Shape := ⟨3, ![4, 2048, 1024]⟩
abbrev S1024x1024 : Shape := ⟨2, ![1024, 1024]⟩
abbrev S1024 : Shape := ⟨1, ![1024]⟩
abbrev S_ : Shape := ⟨0, ![]⟩
abbrev S1x1x1024 : Shape := ⟨3, ![1, 1, 1024]⟩
abbrev S4x2048x2048 : Shape := ⟨3, ![4, 2048, 2048]⟩
abbrev S2048x2048 : Shape := ⟨2, ![2048, 2048]⟩
abbrev S1x2048x2048 : Shape := ⟨3, ![1, 2048, 2048]⟩
abbrev S4x2048 : Shape := ⟨2, ![4, 2048]⟩
abbrev S4x2048x1 : Shape := ⟨3, ![4, 2048, 1]⟩

abbrev nBuf : Space → Nat
  | .hbm => 64
  | .vmem => 0
  | .smem => 0
  | _ => 0

abbrev bufTy : (tb : Table) → Fin (tcTables nBuf tb) → BufTy
  | .hbm, ⟨0, _⟩ => ⟨S4x2048x1024, .f32⟩
  | .hbm, ⟨1, _⟩ => ⟨S1024x1024, .f32⟩
  | .hbm, ⟨2, _⟩ => ⟨S1024, .f32⟩
  | .hbm, ⟨3, _⟩ => ⟨S1024x1024, .f32⟩
  | .hbm, ⟨4, _⟩ => ⟨S1024, .f32⟩
  | .hbm, ⟨5, _⟩ => ⟨S1024x1024, .f32⟩
  | .hbm, ⟨6, _⟩ => ⟨S1024, .f32⟩
  | .hbm, ⟨7, _⟩ => ⟨S1024x1024, .f32⟩
  | .hbm, ⟨8, _⟩ => ⟨S1024, .f32⟩
  | .hbm, ⟨9, _⟩ => ⟨S_, .f32⟩
  | .hbm, ⟨10, _⟩ => ⟨S_, .f32⟩
  | .hbm, ⟨11, _⟩ => ⟨S_, .f32⟩
  | .hbm, ⟨12, _⟩ => ⟨S_, .f32⟩
  | .hbm, ⟨13, _⟩ => ⟨S4x2048x1024, .f32⟩
  | .hbm, ⟨14, _⟩ => ⟨S1x1x1024, .f32⟩
  | .hbm, ⟨15, _⟩ => ⟨S4x2048x1024, .f32⟩
  | .hbm, ⟨16, _⟩ => ⟨S4x2048x1024, .f32⟩
  | .hbm, ⟨17, _⟩ => ⟨S4x2048x1024, .f32⟩
  | .hbm, ⟨18, _⟩ => ⟨S1x1x1024, .f32⟩
  | .hbm, ⟨19, _⟩ => ⟨S4x2048x1024, .f32⟩
  | .hbm, ⟨20, _⟩ => ⟨S4x2048x1024, .f32⟩
  | .hbm, ⟨21, _⟩ => ⟨S4x2048x1024, .f32⟩
  | .hbm, ⟨22, _⟩ => ⟨S1x1x1024, .f32⟩
  | .hbm, ⟨23, _⟩ => ⟨S4x2048x1024, .f32⟩
  | .hbm, ⟨24, _⟩ => ⟨S4x2048x1024, .f32⟩
  | .hbm, ⟨25, _⟩ => ⟨S4x2048x2048, .f32⟩
  | .hbm, ⟨26, _⟩ => ⟨S4x2048x2048, .f32⟩
  | .hbm, ⟨27, _⟩ => ⟨S4x2048x2048, .f32⟩
  | .hbm, ⟨28, _⟩ => ⟨S_, .i1⟩
  | .hbm, ⟨29, _⟩ => ⟨S2048x2048, .i1⟩
  | .hbm, ⟨30, _⟩ => ⟨S2048x2048, .i32⟩
  | .hbm, ⟨31, _⟩ => ⟨S_, .i32⟩
  | .hbm, ⟨32, _⟩ => ⟨S2048x2048, .i32⟩
  | .hbm, ⟨33, _⟩ => ⟨S2048x2048, .i32⟩
  | .hbm, ⟨34, _⟩ => ⟨S2048x2048, .i32⟩
  | .hbm, ⟨35, _⟩ => ⟨S2048x2048, .i1⟩
  | .hbm, ⟨36, _⟩ => ⟨S_, .i1⟩
  | .hbm, ⟨37, _⟩ => ⟨S2048x2048, .i1⟩
  | .hbm, ⟨38, _⟩ => ⟨S2048x2048, .i1⟩
  | .hbm, ⟨39, _⟩ => ⟨S1x2048x2048, .i1⟩
  | .hbm, ⟨40, _⟩ => ⟨S_, .f32⟩
  | .hbm, ⟨41, _⟩ => ⟨S_, .f32⟩
  | .hbm, ⟨42, _⟩ => ⟨S4x2048x2048, .i1⟩
  | .hbm, ⟨43, _⟩ => ⟨S4x2048x2048, .f32⟩
  | .hbm, ⟨44, _⟩ => ⟨S4x2048x2048, .f32⟩
  | .hbm, ⟨45, _⟩ => ⟨S_, .f32⟩
  | .hbm, ⟨46, _⟩ => ⟨S4x2048, .f32⟩
  | .hbm, ⟨47, _⟩ => ⟨S_, .f32⟩
  | .hbm, ⟨48, _⟩ => ⟨S4x2048, .f32⟩
  | .hbm, ⟨49, _⟩ => ⟨S4x2048, .f32⟩
  | .hbm, ⟨50, _⟩ => ⟨S4x2048x1, .f32⟩
  | .hbm, ⟨51, _⟩ => ⟨S4x2048x2048, .f32⟩
  | .hbm, ⟨52, _⟩ => ⟨S4x2048x2048, .f32⟩
  | .hbm, ⟨53, _⟩ => ⟨S4x2048x2048, .f32⟩
  | .hbm, ⟨54, _⟩ => ⟨S_, .f32⟩
  | .hbm, ⟨55, _⟩ => ⟨S4x2048, .f32⟩
  | .hbm, ⟨56, _⟩ => ⟨S4x2048x1, .f32⟩
  | .hbm, ⟨57, _⟩ => ⟨S4x2048x2048, .f32⟩
  | .hbm, ⟨58, _⟩ => ⟨S4x2048x2048, .f32⟩
  | .hbm, ⟨59, _⟩ => ⟨S4x2048x1024, .f32⟩
  | .hbm, ⟨60, _⟩ => ⟨S4x2048x1024, .f32⟩
  | .hbm, ⟨61, _⟩ => ⟨S1x1x1024, .f32⟩
  | .hbm, ⟨62, _⟩ => ⟨S4x2048x1024, .f32⟩
  | .hbm, ⟨63, _⟩ => ⟨S4x2048x1024, .f32⟩
  | _, _ => ⟨S4x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_cst : Ref sig .tc := ⟨.hbm, 9, rfl⟩
abbrev main_v0 : Ref sig .tc := ⟨.hbm, 10, rfl⟩
abbrev main_cst_0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_c : Ref sig .tc := ⟨.hbm, 28, rfl⟩
abbrev main_v17 : Ref sig .tc := ⟨.hbm, 29, rfl⟩
abbrev main_call0_v0 : Ref sig .tc := ⟨.hbm, 30, rfl⟩
abbrev main_call0_c : Ref sig .tc := ⟨.hbm, 31, rfl⟩
abbrev main_call0_v1 : Ref sig .tc := ⟨.hbm, 32, rfl⟩
abbrev main_call0_v2 : Ref sig .tc := ⟨.hbm, 33, rfl⟩
abbrev main_call0_v3 : Ref sig .tc := ⟨.hbm, 34, rfl⟩
abbrev main_call0_v4 : Ref sig .tc := ⟨.hbm, 35, rfl⟩
abbrev main_call0_c_0 : Ref sig .tc := ⟨.hbm, 36, rfl⟩
abbrev main_call0_v5 : Ref sig .tc := ⟨.hbm, 37, rfl⟩
abbrev main_v18 : Ref sig .tc := ⟨.hbm, 38, rfl⟩
abbrev main_v19 : Ref sig .tc := ⟨.hbm, 39, rfl⟩
abbrev main_cst_1 : Ref sig .tc := ⟨.hbm, 40, rfl⟩
abbrev main_call1_v0 : Ref sig .tc := ⟨.hbm, 41, rfl⟩
abbrev main_call1_v1 : Ref sig .tc := ⟨.hbm, 42, rfl⟩
abbrev main_call1_v2 : Ref sig .tc := ⟨.hbm, 43, rfl⟩
abbrev main_v20 : Ref sig .tc := ⟨.hbm, 44, rfl⟩
abbrev main_cst_2 : Ref sig .tc := ⟨.hbm, 45, rfl⟩
abbrev main_v21 : Ref sig .tc := ⟨.hbm, 46, rfl⟩
abbrev main_cst_3 : Ref sig .tc := ⟨.hbm, 47, rfl⟩
abbrev main_v22 : Ref sig .tc := ⟨.hbm, 48, rfl⟩
abbrev main_v23 : Ref sig .tc := ⟨.hbm, 49, rfl⟩
abbrev main_v24 : Ref sig .tc := ⟨.hbm, 50, rfl⟩
abbrev main_v25 : Ref sig .tc := ⟨.hbm, 51, rfl⟩
abbrev main_v26 : Ref sig .tc := ⟨.hbm, 52, rfl⟩
abbrev main_v27 : Ref sig .tc := ⟨.hbm, 53, rfl⟩
abbrev main_cst_4 : Ref sig .tc := ⟨.hbm, 54, rfl⟩
abbrev main_v28 : Ref sig .tc := ⟨.hbm, 55, rfl⟩
abbrev main_v29 : Ref sig .tc := ⟨.hbm, 56, rfl⟩
abbrev main_v30 : Ref sig .tc := ⟨.hbm, 57, rfl⟩
abbrev main_v31 : Ref sig .tc := ⟨.hbm, 58, rfl⟩
abbrev main_v32 : Ref sig .tc := ⟨.hbm, 59, rfl⟩
abbrev main_v33 : Ref sig .tc := ⟨.hbm, 60, rfl⟩
abbrev main_v34 : Ref sig .tc := ⟨.hbm, 61, rfl⟩
abbrev main_v35 : Ref sig .tc := ⟨.hbm, 62, rfl⟩
abbrev main_v36 : Ref sig .tc := ⟨.hbm, 63, rfl⟩

abbrev nD : Nat := 1
abbrev τ : Topo := Topo.v7x

variable {F : FTy → Type} [FloatOps F]

class Facts₀ : Prop where
  bcast_S1024_S1x1x1024_2 : S1024.BroadcastsInDim S1x1x1024 (![2] : Fin 1 → Fin S1x1x1024.rank)
  bcast_S1x1x1024_S4x2048x1024_0_1_2 : S1x1x1024.BroadcastsInDim S4x2048x1024 (![0, 1, 2] : Fin 3 → Fin S4x2048x1024.rank)
  bcast_S_S4x2048x2048 : S_.BroadcastsInDim S4x2048x2048 (![] : Fin 0 → Fin S4x2048x2048.rank)
  bcast_S_S2048x2048 : S_.BroadcastsInDim S2048x2048 (![] : Fin 0 → Fin S2048x2048.rank)
  bcast_S2048x2048_S1x2048x2048_1_2 : S2048x2048.BroadcastsInDim S1x2048x2048 (![1, 2] : Fin 2 → Fin S1x2048x2048.rank)
  bcast_S1x2048x2048_S4x2048x2048_0_1_2 : S1x2048x2048.BroadcastsInDim S4x2048x2048 (![0, 1, 2] : Fin 3 → Fin S4x2048x2048.rank)
  reducesTo_S4x2048x2048_S4x2048_d2 : S4x2048x2048.ReducesTo [2] S4x2048
  h_S_ : 0 < S_.numel
  bcast_S_S4x2048 : S_.BroadcastsInDim S4x2048 (![] : Fin 0 → Fin S4x2048.rank)
  bcast_S4x2048_S4x2048x1_0_1 : S4x2048.BroadcastsInDim S4x2048x1 (![0, 1] : Fin 2 → Fin S4x2048x1.rank)
  bcast_S4x2048x1_S4x2048x2048_0_1_2 : S4x2048x1.BroadcastsInDim S4x2048x2048 (![0, 1, 2] : Fin 3 → Fin S4x2048x2048.rank)
  dot_S4x2048x1024_S1024x1024_S4x2048x1024_2_1_01_0_n_n_wf : DotDims.WF S4x2048x1024 S1024x1024 S4x2048x1024 [2] [1] [0, 1] [0] [] []
  dot_S4x2048x1024_S4x2048x1024_S4x2048x2048_2_2_1_1_0_0_wf : DotDims.WF S4x2048x1024 S4x2048x1024 S4x2048x2048 [2] [2] [1] [1] [0] [0]
  dot_S4x2048x2048_S4x2048x1024_S4x2048x1024_2_1_1_2_0_0_wf : DotDims.WF S4x2048x2048 S4x2048x1024 S4x2048x1024 [2] [1] [1] [2] [0] [0]

variable [Facts₀]

def dot_S4x2048x1024_S1024x1024_S4x2048x1024_2_1_01_0_n_n : DotDims S4x2048x1024 S1024x1024 S4x2048x1024 where
  lhsContracting := [2]
  rhsContracting := [1]
  lhsNonContracting := [0, 1]
  rhsNonContracting := [0]
  lhsBatch := []
  rhsBatch := []
  wf := dot_S4x2048x1024_S1024x1024_S4x2048x1024_2_1_01_0_n_n_wf
def dot_S4x2048x1024_S4x2048x1024_S4x2048x2048_2_2_1_1_0_0 : DotDims S4x2048x1024 S4x2048x1024 S4x2048x2048 where
  lhsContracting := [2]
  rhsContracting := [2]
  lhsNonContracting := [1]
  rhsNonContracting := [1]
  lhsBatch := [0]
  rhsBatch := [0]
  wf := dot_S4x2048x1024_S4x2048x1024_S4x2048x2048_2_2_1_1_0_0_wf
def dot_S4x2048x2048_S4x2048x1024_S4x2048x1024_2_1_1_2_0_0 : DotDims S4x2048x2048 S4x2048x1024 S4x2048x1024 where
  lhsContracting := [2]
  rhsContracting := [1]
  lhsNonContracting := [1]
  rhsNonContracting := [2]
  lhsBatch := [0]
  rhsBatch := [0]
  wf := dot_S4x2048x2048_S4x2048x1024_S4x2048x1024_2_1_1_2_0_0_wf

class Facts : Prop extends Facts₀ where

variable [Facts]
-- ==== Proof.KernelRegion0.lean ====
/- The separation-logic half of REGION 0 of @main (custom_call 0, the linear kernel of pipeline 0: a block of
   rows times the whole weight, plus the bias row, rounded to bf16), at a PARAMETER V — the TensorCore's buffer
   contents when the region is entered. Each window's block at a point (iblk0); what the body leaves in the output
   window's staging buffer as a function of the three input blocks (out0_3, equal to the skeleton's payload
   k0_pay1 of them: out0_3_eq); the body's triple (sound_kernel0); the pipeline's proof data (dat0) and the body
   obligation at every point (body_obligation0). The class is the plainest: one control case, whole-buffer loads,
   one whole-buffer store, no scratch and no semaphore. -/
import proofs.«180477_j74028056314061_2_alg».proof.Proof.Gen.Kernel.Launch
import proofs.«180477_j74028056314061_2_alg».proof.Proof.Gen.Kernel.Skeleton
import proofs.«180477_j74028056314061_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

-- membership in a rectangle of production extents (View.cover_of_tiled): the elaborator's structural look
-- recurses once per coordinate of the long axes
set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered: the parameter every statement below is made at
variable (V : (c : Dev nD) → (b : Ref sig .tc) → Buf (Elt F) ((c : Thread nD τ).loc b))

/-! ## The windows' blocks -/

/-- Window w's block at point t, read off its array as the region finds it (V). -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0 (the rows' block, fetched at every point): its current staging buffer holds its block at every
    point, for ANY proof data whose array is V's and whose body leaves the block in place. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- Input window 1 (the whole weight, fetched at the first point only): unfetched, its block index has not moved,
    so its staging buffer holds its block at every point all the same. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- Input window 2 (the bias row, fetched at the first point only): as window 1. -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-! ## The body's accesses: each staging buffer whole, through the unit rectangle at zero offsets -/

abbrev r0_0 : Rect S512x1024 := Rect.unit (s := S512x1024) ![0, 0] S512x1024.size inb_S512x1024_S512x1024_0_0
abbrev r0_1 : Rect S1024x3072 := Rect.unit (s := S1024x3072) ![0, 0] S1024x3072.size inb_S1024x3072_S1024x3072_0_0
abbrev r0_2 : Rect S1x3072 := Rect.unit (s := S1x3072) ![0, 0] S1x3072.size inb_S1x3072_S1x3072_0_0
abbrev r0_3 : Rect S512x3072 := Rect.unit (s := S512x3072) ![0, 0] S512x3072.size inb_S512x3072_S512x3072_0_0

/-! ## What the body leaves in the output window's buffer -/

/-- Window 3's staging buffer after the body, from the input windows' blocks: its one store as a piece, the payload
    the skeleton's, applied to what the three loads read. -/
def out0_3 (x0 : Vec F S512x1024 .f32) (x1 : Vec F S1024x3072 .bf16) (x2 : Vec F S1x3072 .f32) : Vec F S512x3072 .bf16 :=
  View.canon [⟨r0_3, k0_pay1 (View.ld x0 r0_0) (View.ld x1 r0_1) (View.ld x2 r0_2)⟩]

/-- The offsets of every access of the body are zero. -/
theorem off0_zero : (![0, 0] : Fin 2 → Nat) = fun _ => 0 := by
  funext a; fin_cases a <;> rfl

/-- One whole-buffer store leaves its payload, and a whole-buffer load reads the contents: the output buffer is the
    payload of the three input blocks. -/
theorem out0_3_eq (x0 : Vec F S512x1024 .f32) (x1 : Vec F S1024x3072 .bf16) (x2 : Vec F S1x3072 .f32) :
    out0_3 x0 x1 x2 = k0_pay1 x0 x1 x2 := by
  unfold out0_3
  rw [View.canon_unit_zero off0_zero]
  rw [View.ld_unit_zero (S := S512x1024) off0_zero, View.ld_unit_zero (S := S1024x3072) off0_zero,
    View.ld_unit_zero (S := S1x3072) off0_zero]

/-- The store tiles the buffer (checked by evaluation), so it covers it. -/
theorem cover0_3 (p0 : Vec F S512x3072 .bf16) (y : S512x3072.Idx) :
    ∃ pc ∈ ([⟨r0_3, p0⟩] : List (View.Piece (Elt F) S512x3072 .bf16)), y ∈ pc.1.set :=
  View.cover_of_tiled [⟨r0_3, p0⟩] S512x3072.size (by rfl) y

/-! ## The body's triple -/

set_option maxHeartbeats 1000000 in
/-- The kernel body on whole staging memrefs, the inputs' at read contents x0, x1, x2 and the output's at anything,
    runs to the continuation holding the inputs' as they were and the output's at out0_3 of the inputs': the printed
    function is its skeleton, three loads of the inputs, a load of the output buffer (its value unused) and the one
    store. -/
theorem sound_kernel0 (c : Dev nD) (E : Set ℕ) (i : grid0.Coords)
    (arg1 : Memref sig .tc .vmem S512x1024 .f32) (harg1 : arg1.IsWhole)
    (arg2 : Memref sig .tc .vmem S1024x3072 .bf16) (harg2 : arg2.IsWhole)
    (arg3 : Memref sig .tc .vmem S1x3072 .f32) (harg3 : arg3.IsWhole)
    (arg4 : Memref sig .tc .vmem S512x3072 .bf16) (harg4 : arg4.IsWhole)
    (x0 : Vec F S512x1024 .f32) (x1 : Vec F S1024x3072 .bf16) (x2 : Vec F S1x3072 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (out0_3 x0 x1 x2)) -∗ K ⟨⟩))
      ⊢ wp frame (wpE (defs₀ (F := F)) Variants.none c none) E (cc0__linear_kernel i arg1 harg1 arg2 harg2 arg3 harg3 arg4 harg4) K := by
  simp only [cc0__linear_kernel_eq_skeleton]; unfold cc0__linear_kernel_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover0_3 _)

/-! ## The pipeline's proof data -/

/-- The proof data of pipeline 0 on core c: the arrays as the region finds them (V); after the body at point t each
    input's buffer at its block and the output's at out0_3 of the input blocks; the invariant the class's (the scoped
    rest and the generator register, untouched); nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => out0_3 (iblk0 V c 0 t) (iblk0 V c 1 t) (iblk0 V c 2 t)
  Φ _ := Pipeline.ΦA spec0 c
  q _ := fullShare
  owed _ := 0

/-- The proof data's arrays are the region-entry contents. -/
theorem A_eq0 (c : Dev nD) (w : Fin cfg0.W) : (dat0 V c).A w = V c (Pipeline.arrRef spec0 w) := by
  dsimp only [dat0]

/-- What the body leaves, window by window. -/
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) :
    (dat0 V c).after 3 t = out0_3 (iblk0 V c 0 t) (iblk0 V c 1 t) (iblk0 V c 2 t) := by dsimp only [dat0]

/-- The invariant is the class's at every index. -/
theorem Phi0 (c : Dev nD) (j) : (dat0 V c).Φ j = Pipeline.ΦA spec0 c := by dsimp only [dat0]

/-- Each input's current staging buffer holds its block at every point, fetched there or not. -/
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d

/-! ## The body obligation, at a generic point -/

/-- What the body is called with at point t (the obligation's precondition, the windows one by one), -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t))

/-- The body at any point: the inputs' memrefs hold their blocks, so the body's triple applies; the invariant and the
    core's debt pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2]
  rw [show (dat0 V c).Φ t.succ = (dat0 V c).Φ t.castSucc from rfl,
    show (dat0 V c).owesAt () t.succ = (dat0 V c).owesAt () t.castSucc from rfl,
    after0_0, after0_1, after0_2, after0_3]
  iintro ⟨HΦ, Ho, ⟨%d0, H0⟩, ⟨%d1, H1⟩, ⟨%d2, H2⟩, ⟨%d3, H3⟩⟩
  iapply (sound_kernel0 c Set.univ (grid0.coords t) _ _ _ _ _ _ _ _ (iblk0 V c 0 t) (iblk0 V c 1 t) (iblk0 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The library's body obligation, at every point. -/
theorem body_obligation0 (c : Dev nD) : BodyObligation (dat0 (F := F) V c) (defs₀ (F := F)) Variants.none () Set.univ := fun t => by
  rw [bigSep_W0, bigSep_W0]
  exact sound_body0 V c t

end Cert.Kernel.Hand

end
-- ==== Proof.KernelRegion1Base.lean ====
import proofs.«180477_j74028056314061_2_alg».proof.Proof.Gen.Kernel.Launch
import proofs.«180477_j74028056314061_2_alg».proof.Proof.Gen.Kernel.Skeleton
import proofs.«180477_j74028056314061_2_alg».proof.Proof.Gen.Kernel.Points
import Idealize.ShloMosaic.Lib.Pipeline.FrameBody
import Idealize.ShloMosaic.Lib.Pipeline.Value
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # Region 1 (the attention kernel): what its five control cases share -/

/-! ## The body's branch conditions, from the grid coordinates -/

/-- The first conditional's condition: the key-block coordinate is zero. -/
abbrev cond1_0 (i : grid1.Coords) : Prop :=
  (Scalar.cmpi .ne (Scalar.extui (Scalar.cmpi .eq (BitVec.ofNat 32 (i 2).val) 0#32)) 0#32) = 1#1
/-- The second conditional's condition: the key-block coordinate is at most the query-block coordinate. -/
abbrev cond1_1 (i : grid1.Coords) : Prop :=
  (Scalar.cmpi .ne (Scalar.extui (Scalar.cmpi .sle (BitVec.ofNat 32 (i 2).val) (BitVec.ofNat 32 (i 1).val))) 0#32) = 1#1
/-- The third conditional's condition: the key-block coordinate is the last. -/
abbrev cond1_2 (i : grid1.Coords) : Prop := k1_cond3 i = 1#1

/-- The first holds at the points ≡ 0 (mod 4). -/
theorem hcond1_0 : ∀ t : Fin cfg1.N, cond1_0 (grid1.coords t) ↔ t.val % 4 = 0 :=
  (by decide +kernel : ∀ t : Fin grid1.N, cond1_0 (grid1.coords t) ↔ t.val % 4 = 0)
/-- The second holds where the key-block coordinate (t mod 4) is at most the query-block coordinate (t / 4 mod 4). -/
theorem hcond1_1 : ∀ t : Fin cfg1.N, cond1_1 (grid1.coords t) ↔ t.val % 4 ≤ (t.val / 4) % 4 :=
  (by decide +kernel : ∀ t : Fin grid1.N, cond1_1 (grid1.coords t) ↔ t.val % 4 ≤ (t.val / 4) % 4)
/-- The third holds at the points ≡ 3 (mod 4). -/
theorem hcond1_2 : ∀ t : Fin cfg1.N, cond1_2 (grid1.coords t) ↔ t.val % 4 = 3 :=
  (by decide +kernel : ∀ t : Fin grid1.N, cond1_2 (grid1.coords t) ↔ t.val % 4 = 3)

/-! ## Where the windows are idle -/

theorem liveAt1_0 : ∀ t : Fin cfg1.N, cfg1.idle 0 (grid1.coords t) = false := by decide +kernel
theorem liveAt1_1 : ∀ t : Fin cfg1.N, cfg1.idle 1 (grid1.coords t) = false := by decide +kernel
theorem liveAt1_2 : ∀ t : Fin cfg1.N, cfg1.idle 2 (grid1.coords t) = false := by decide +kernel
/-- Where the third conditional is not taken the output window is idle, -/
theorem idleAt1_3 : ∀ t : Fin cfg1.N, ¬cond1_2 (grid1.coords t) → cfg1.idle 3 (grid1.coords t) = true := by decide +kernel
/-- and its block is not written back there; -/
theorem noFlush1_3 : ∀ t : Fin cfg1.N, ¬cond1_2 (grid1.coords t) → (cfg1.win 3).flush t = false := by decide +kernel
/-- where it is taken the window is live. -/
theorem liveAt1_3 : ∀ t : Fin cfg1.N, cond1_2 (grid1.coords t) → cfg1.idle 3 (grid1.coords t) = false := by decide +kernel

/-! ## The memrefs the body is called with -/

abbrev ms1_0 (t : Fin cfg1.N) : Memref sig .tc .vmem S1x512x1024 .bf16 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S1x512x1024 .bf16 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S1x512x1024 .bf16 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S1x512x1024 .bf16 := win1_3.stage (cfg1.slots t 3)
abbrev hs1_3 (t : Fin cfg1.N) : (ms1_3 t).IsWhole := hstage1_3 ((cfg1.slots t 3).cast nbuf1_3)
/-- The scratch operands: the accumulator, the running maximum, the running normaliser. -/
abbrev scM1_0 : Memref sig .tc .vmem S512x1024 .f32 := Memref.whole cc1_scratch0
abbrev scM1_1 : Memref sig .tc .vmem S512x1 .f32 := Memref.whole cc1_scratch1
abbrev scM1_2 : Memref sig .tc .vmem S512x1 .f32 := Memref.whole cc1_scratch2

/-! ## The carried state as pure functions of the payloads -/

/-- The carried state: the accumulator, the running maximum, the running normaliser. -/
abbrev St1 : Type := Vec F S512x1024 .f32 × Vec F S512x1 .f32 × Vec F S512x1 .f32

/-- What the first conditional stores: a zero accumulator, a running maximum of minus infinity, a zero normaliser. -/
def init1 : St1 (F := F) := (k1_pay3, k1_pay1, k1_pay2)

/-- What the second conditional leaves from the state `s` and the blocks `q`, `k`, `v` at the coordinates `i`:
    the online-softmax step. -/
def step1 (i : grid1.Coords) (q k v : Vec F S1x512x1024 .bf16) (s : St1 (F := F)) : St1 (F := F) :=
  (k1_pay4 (k1_pay7 v) (k1_pay10 (BitVec.ofNat 32 (i 1).val) (BitVec.ofNat 32 (i 2).val) q k s.2.1)
      (k1_pay11 (BitVec.ofNat 32 (i 1).val) (BitVec.ofNat 32 (i 2).val) q k s.2.1) s.1,
   k1_pay5 (k1_pay9 (BitVec.ofNat 32 (i 1).val) (BitVec.ofNat 32 (i 2).val) q k s.2.1),
   k1_pay12 (BitVec.ofNat 32 (i 1).val) (BitVec.ofNat 32 (i 2).val) q k s.2.1 s.2.2)

/-! ## Whole-buffer loads and stores -/

theorem hz2 : (![0, 0] : Fin 2 → Nat) = fun _ => 0 := by funext a; fin_cases a <;> rfl
theorem hz3 : (![0, 0, 0] : Fin 3 → Nat) = fun _ => 0 := by funext a; fin_cases a <;> rfl

/-- A store through the whole-shape rectangle at zero offsets, last, leaves its payload whatever the earlier stores
    and the prior contents were. -/
theorem read_writes_unit_zero {Val : EltTy → Type} {sig' : RefSig} {κ' : Kind} {sp' : Space} {S : Shape} {e : EltTy}
    (v : View sig' κ' sp' S e) (f : v.ty.Contents Val) {off : Fin S.rank → Nat} (h : off = fun _ => 0)
    (inb : ∀ a, off a + S.size a ≤ S.size a) (w : S.Idx → Val e) (L : List (View.Piece Val S e)) :
    v.read Val (v.writes Val f ((⟨Rect.unit off S.size inb, w⟩ : View.Piece Val S e) :: L)) = w := by
  subst h; funext y
  have e := View.read_writes_cons_emb v f (Rect.whole S) w L y
  rw [Rect.emb_whole_apply] at e
  exact e

/-! ## The region invariant's scoped rest, the three scratch buffers taken out -/

/-- The core's scoped buffers that are neither a staging buffer of this call nor one of its three scratch buffers,
    each whole at some contents. -/
def others1 (c : Dev nD) : sProp 𝕄 :=
  iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg3_1), ((c : Thread nD τ).loc cc0_stg3_1) ↦{fullShare} f) ∗ (∃ f : Buf (Elt F) ((c : Thread nD τ).loc cc2_stg0_0), ((c : Thread nD τ).loc cc2_stg0_0) ↦{fullShare} f) ∗ (∃ f : Buf (Elt F) ((c : Thread nD τ).loc cc2_stg0_1), ((c : Thread nD τ).loc cc2_stg0_1) ↦{fullShare} f) ∗ (∃ f : Buf (Elt F) ((c : Thread nD τ).loc cc2_stg1_0), ((c : Thread nD τ).loc cc2_stg1_0) ↦{fullShare} f) ∗ (∃ f : Buf (Elt F) ((c : Thread nD τ).loc cc2_stg2_0), ((c : Thread nD τ).loc cc2_stg2_0) ↦{fullShare} f) ∗ (∃ f : Buf (Elt F) ((c : Thread nD τ).loc cc2_stg3_0), ((c : Thread nD τ).loc cc2_stg3_0) ↦{fullShare} f) ∗ (∃ f : Buf (Elt F) ((c : Thread nD τ).loc cc2_stg3_1), ((c : Thread nD τ).loc cc2_stg3_1) ↦{fullShare} f))

/-- The region invariant gives the three scratch buffers at some contents, the other scoped buffers and the
    generator register, -/
theorem PhiA1_split (c : Dev nD) :
    (Pipeline.ΦA spec1 c : sProp 𝕄) ⊢ iprop((∃ d, owns (c : Thread nD τ) scM1_0 fullShare d) ∗ (∃ d, owns (c : Thread nD τ) scM1_1 fullShare d)
      ∗ (∃ d, owns (c : Thread nD τ) scM1_2 fullShare d) ∗ others1 (F := F) c ∗ (∃ r, prngReg c r)) := by
  unfold Pipeline.ΦA others1; rw [scopedRest1_eq]; simp only [scM1_0, scM1_1, scM1_2, owns_whole]
  iintro ⟨⟨A1, A2, A3, A4, A5, A6, S0, S1, S2, B1, B2, B3, B4, B5, B6⟩, Hg⟩
  isplitl [S0]; · iexact S0
  isplitl [S1]; · iexact S1
  isplitl [S2]; · iexact S2
  isplitr [Hg]
  · isplitl [A1]; · iexact A1
    isplitl [A2]; · iexact A2
    isplitl [A3]; · iexact A3
    isplitl [A4]; · iexact A4
    isplitl [A5]; · iexact A5
    isplitl [A6]; · iexact A6
    isplitl [B1]; · iexact B1
    isplitl [B2]; · iexact B2
    isplitl [B3]; · iexact B3
    isplitl [B4]; · iexact B4
    isplitl [B5]; · iexact B5
    iexact B6
  iexact Hg

/-- and takes them back. -/
theorem PhiA1_join (c : Dev nD) :
    iprop((∃ d, owns (c : Thread nD τ) scM1_0 fullShare d) ∗ (∃ d, owns (c : Thread nD τ) scM1_1 fullShare d)
      ∗ (∃ d, owns (c : Thread nD τ) scM1_2 fullShare d) ∗ others1 (F := F) c ∗ (∃ r, prngReg c r)) ⊢ (Pipeline.ΦA spec1 c : sProp 𝕄) := by
  unfold Pipeline.ΦA others1; rw [scopedRest1_eq]; simp only [scM1_0, scM1_1, scM1_2, owns_whole]
  iintro ⟨S0, S1, S2, ⟨A1, A2, A3, A4, A5, A6, B1, B2, B3, B4, B5, B6⟩, Hg⟩
  isplitr [Hg]
  · isplitl [A1]; · iexact A1
    isplitl [A2]; · iexact A2
    isplitl [A3]; · iexact A3
    isplitl [A4]; · iexact A4
    isplitl [A5]; · iexact A5
    isplitl [A6]; · iexact A6
    isplitl [S0]; · iexact S0
    isplitl [S1]; · iexact S1
    isplitl [S2]; · iexact S2
    isplitl [B1]; · iexact B1
    isplitl [B2]; · iexact B2
    isplitl [B3]; · iexact B3
    isplitl [B4]; · iexact B4
    isplitl [B5]; · iexact B5
    iexact B6
  iexact Hg

end Cert.Kernel.Hand

end
-- ==== Proof.KernelRegion1RunB.lean ====
import proofs.«180477_j74028056314061_2_alg».proof.Proof.KernelRegion1Base

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # Region 1, case B: the key block is neither the first nor the last and lies at or below the diagonal -/

set_option maxHeartbeats 1000000 in
/-- Only the second conditional is taken: on whole memrefs, the query, key and value blocks at `q`, `k`, `v` and the
    scratch at the state `(a, mx, l)`, the body runs to the continuation holding the blocks as they were and the
    scratch at the online-softmax step of that state. -/
theorem run1_B (c : Dev nD) (i : grid1.Coords) (arg3 : Memref sig .tc .vmem S1x512x1024 .bf16) (harg3 : arg3.IsWhole) (arg4 : Memref sig .tc .vmem S1x512x1024 .bf16) (harg4 : arg4.IsWhole) (arg5 : Memref sig .tc .vmem S1x512x1024 .bf16) (harg5 : arg5.IsWhole) (arg6 : Memref sig .tc .vmem S1x512x1024 .bf16) (harg6 : arg6.IsWhole) (arg7 : Memref sig .tc .vmem S512x1024 .f32) (harg7 : arg7.IsWhole) (arg8 : Memref sig .tc .vmem S512x1 .f32) (harg8 : arg8.IsWhole) (arg9 : Memref sig .tc .vmem S512x1 .f32) (harg9 : arg9.IsWhole)
    (hc0 : ¬cond1_0 i) (hc1 : cond1_1 i) (hc2 : ¬cond1_2 i)
    (q k v : Vec F S1x512x1024 .bf16) (a : Vec F S512x1024 .f32) (mx l : Vec F S512x1 .f32) (E : Set ℕ) (K : PUnit → sProp 𝕄) :
    iprop(owns (c : Thread nD τ) arg3 fullShare q ∗ owns (c : Thread nD τ) arg4 fullShare k ∗ owns (c : Thread nD τ) arg5 fullShare v
        ∗ owns (c : Thread nD τ) arg7 fullShare a ∗ owns (c : Thread nD τ) arg8 fullShare mx ∗ owns (c : Thread nD τ) arg9 fullShare l
        ∗ (iprop(owns (c : Thread nD τ) arg3 fullShare q ∗ owns (c : Thread nD τ) arg4 fullShare k ∗ owns (c : Thread nD τ) arg5 fullShare v
            ∗ owns (c : Thread nD τ) arg7 fullShare (step1 i q k v (a, mx, l)).1 ∗ owns (c : Thread nD τ) arg8 fullShare (step1 i q k v (a, mx, l)).2.1
            ∗ owns (c : Thread nD τ) arg9 fullShare (step1 i q k v (a, mx, l)).2.2) -∗ K ⟨⟩))
      ⊢ wp frame (wpE (defs₀ (F := F)) Variants.none c none) E (cc1__attn_kernel i arg3 harg3 arg4 harg4 arg5 harg5 arg6 harg6 arg7 harg7 arg8 harg8 arg9 harg9) K := by
  simp only [cc1__attn_kernel_eq_skeleton, k1_part1_eq_skeleton]; unfold cc1__attn_kernel_skel
  unfold owns
  iintro ⟨⟨%f3, %hf3, H3⟩, ⟨%f4, %hf4, H4⟩, ⟨%f5, %hf5, H5⟩, ⟨%f7, %hf7, H7⟩, ⟨%f8, %hf8, H8⟩, ⟨%f9, %hf9, H9⟩, Hk⟩
  subst hf3 hf4 hf5 hf7 hf8 hf9
  sl_exec (disch := first | exact hc0 | exact hc1 | exact hc2)
  sl_step
  iapply Hk
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H7]
  · iexists _; isplitr
    swap; · iexact H7
    ipureintro
    rw [read_writes_unit_zero (S := S512x1024) _ _ hz2]
    sl_unfold_run_names
    simp only [View.readAt_eq_ld, View.ld_unit_zero (S := S512x1024) hz2, View.ld_unit_zero (S := S512x1) hz2, View.ld_unit_zero (S := S1x512x1024) hz3]
    rfl
  isplitl [H8]
  · iexists _; isplitr
    swap; · iexact H8
    ipureintro
    rw [read_writes_unit_zero (S := S512x1) _ _ hz2]
    sl_unfold_run_names
    simp only [View.readAt_eq_ld, View.ld_unit_zero (S := S512x1024) hz2, View.ld_unit_zero (S := S512x1) hz2, View.ld_unit_zero (S := S1x512x1024) hz3]
    rfl
  iexists _; isplitr
  swap; · iexact H9
  ipureintro
  rw [read_writes_unit_zero (S := S512x1) _ _ hz2]
  sl_unfold_run_names
  simp only [View.readAt_eq_ld, View.ld_unit_zero (S := S512x1024) hz2, View.ld_unit_zero (S := S512x1) hz2, View.ld_unit_zero (S := S1x512x1024) hz3]
  rfl

end Cert.Kernel.Hand

end
-- ==== Proof.KernelRegion1RunA.lean ====
import proofs.«180477_j74028056314061_2_alg».proof.Proof.KernelRegion1RunB

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # Region 1, case A: the first key block of a query block -/

set_option maxHeartbeats 1000000 in
/-- The first and second conditionals are taken: on whole memrefs, the query, key and value blocks at `q`, `k`, `v` and
    the scratch at anything, the body runs to the continuation holding the blocks as they were and the scratch at the
    online-softmax step of the initial state. -/
theorem run1_A (c : Dev nD) (i : grid1.Coords) (arg3 : Memref sig .tc .vmem S1x512x1024 .bf16) (harg3 : arg3.IsWhole) (arg4 : Memref sig .tc .vmem S1x512x1024 .bf16) (harg4 : arg4.IsWhole) (arg5 : Memref sig .tc .vmem S1x512x1024 .bf16) (harg5 : arg5.IsWhole) (arg6 : Memref sig .tc .vmem S1x512x1024 .bf16) (harg6 : arg6.IsWhole) (arg7 : Memref sig .tc .vmem S512x1024 .f32) (harg7 : arg7.IsWhole) (arg8 : Memref sig .tc .vmem S512x1 .f32) (harg8 : arg8.IsWhole) (arg9 : Memref sig .tc .vmem S512x1 .f32) (harg9 : arg9.IsWhole)
    (hc0 : cond1_0 i) (hc1 : cond1_1 i) (hc2 : ¬cond1_2 i)
    (q k v : Vec F S1x512x1024 .bf16) (E : Set ℕ) (K : PUnit → sProp 𝕄) :
    iprop(owns (c : Thread nD τ) arg3 fullShare q ∗ owns (c : Thread nD τ) arg4 fullShare k ∗ owns (c : Thread nD τ) arg5 fullShare v
        ∗ (∃ d, owns (c : Thread nD τ) arg7 fullShare d) ∗ (∃ d, owns (c : Thread nD τ) arg8 fullShare d) ∗ (∃ d, owns (c : Thread nD τ) arg9 fullShare d)
        ∗ (iprop(owns (c : Thread nD τ) arg3 fullShare q ∗ owns (c : Thread nD τ) arg4 fullShare k ∗ owns (c : Thread nD τ) arg5 fullShare v
            ∗ owns (c : Thread nD τ) arg7 fullShare (step1 i q k v init1).1 ∗ owns (c : Thread nD τ) arg8 fullShare (step1 i q k v init1).2.1
            ∗ owns (c : Thread nD τ) arg9 fullShare (step1 i q k v init1).2.2) -∗ K ⟨⟩))
      ⊢ wp frame (wpE (defs₀ (F := F)) Variants.none c none) E (cc1__attn_kernel i arg3 harg3 arg4 harg4 arg5 harg5 arg6 harg6 arg7 harg7 arg8 harg8 arg9 harg9) K := by
  simp only [cc1__attn_kernel_eq_skeleton, k1_part1_eq_skeleton]; unfold cc1__attn_kernel_skel
  unfold owns
  iintro ⟨⟨%f3, %hf3, H3⟩, ⟨%f4, %hf4, H4⟩, ⟨%f5, %hf5, H5⟩, ⟨%d7, %f7, -, H7⟩, ⟨%d8, %f8, -, H8⟩, ⟨%d9, %f9, -, H9⟩, Hk⟩
  subst hf3 hf4 hf5
  sl_exec (disch := first | exact hc0 | exact hc1 | exact hc2)
  sl_step
  iapply Hk
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H7]
  · iexists _; isplitr
    swap; · iexact H7
    ipureintro
    rw [read_writes_unit_zero (S := S512x1024) _ _ hz2]
    sl_unfold_run_names
    simp only [View.readAt_eq_ld, View.ld_unit_zero (S := S512x1024) hz2, View.ld_unit_zero (S := S512x1) hz2, View.ld_unit_zero (S := S1x512x1024) hz3,
      View.readCov_unit_zero (S := S512x1024) arg7.view hz2, View.readCov_unit_zero (S := S512x1) arg8.view hz2, View.readCov_unit_zero (S := S512x1) arg9.view hz2]
    rfl
  isplitl [H8]
  · iexists _; isplitr
    swap; · iexact H8
    ipureintro
    rw [read_writes_unit_zero (S := S512x1) _ _ hz2]
    sl_unfold_run_names
    simp only [View.readAt_eq_ld, View.ld_unit_zero (S := S512x1024) hz2, View.ld_unit_zero (S := S512x1) hz2, View.ld_unit_zero (S := S1x512x1024) hz3,
      View.readCov_unit_zero (S := S512x1024) arg7.view hz2, View.readCov_unit_zero (S := S512x1) arg8.view hz2, View.readCov_unit_zero (S := S512x1) arg9.view hz2]
    rfl
  iexists _; isplitr
  swap; · iexact H9
  ipureintro
  rw [read_writes_unit_zero (S := S512x1) _ _ hz2]
  sl_unfold_run_names
  simp only [View.readAt_eq_ld, View.ld_unit_zero (S := S512x1024) hz2, View.ld_unit_zero (S := S512x1) hz2, View.ld_unit_zero (S := S1x512x1024) hz3,
      View.readCov_unit_zero (S := S512x1024) arg7.view hz2, View.readCov_unit_zero (S := S512x1) arg8.view hz2, View.readCov_unit_zero (S := S512x1) arg9.view hz2]
  rfl

end Cert.Kernel.Hand

end
-- ==== Proof.KernelRegion1RunC.lean ====
import proofs.«180477_j74028056314061_2_alg».proof.Proof.KernelRegion1RunA

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # Region 1, case C: a key block above the diagonal that is neither the first nor the last -/

set_option maxHeartbeats 1000000 in
/-- No conditional is taken: the body touches no memory and runs to the continuation. -/
theorem run1_C (c : Dev nD) (i : grid1.Coords) (arg3 : Memref sig .tc .vmem S1x512x1024 .bf16) (harg3 : arg3.IsWhole) (arg4 : Memref sig .tc .vmem S1x512x1024 .bf16) (harg4 : arg4.IsWhole) (arg5 : Memref sig .tc .vmem S1x512x1024 .bf16) (harg5 : arg5.IsWhole) (arg6 : Memref sig .tc .vmem S1x512x1024 .bf16) (harg6 : arg6.IsWhole) (arg7 : Memref sig .tc .vmem S512x1024 .f32) (harg7 : arg7.IsWhole) (arg8 : Memref sig .tc .vmem S512x1 .f32) (harg8 : arg8.IsWhole) (arg9 : Memref sig .tc .vmem S512x1 .f32) (harg9 : arg9.IsWhole)
    (hc0 : ¬cond1_0 i) (hc1 : ¬cond1_1 i) (hc2 : ¬cond1_2 i) (E : Set ℕ) (K : PUnit → sProp 𝕄) :
    K ⟨⟩ ⊢ wp frame (wpE (defs₀ (F := F)) Variants.none c none) E (cc1__attn_kernel i arg3 harg3 arg4 harg4 arg5 harg5 arg6 harg6 arg7 harg7 arg8 harg8 arg9 harg9) K := by
  simp only [cc1__attn_kernel_eq_skeleton, k1_part1_eq_skeleton]; unfold cc1__attn_kernel_skel
  iintro Hk
  sl_exec (disch := first | exact hc0 | exact hc1 | exact hc2)
  sl_step
  iexact Hk

end Cert.Kernel.Hand

end
-- ==== Proof.KernelRegion1RunD.lean ====
import proofs.«180477_j74028056314061_2_alg».proof.Proof.KernelRegion1RunC

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # Region 1, case D: the last key block, on the diagonal -/

set_option maxHeartbeats 1000000 in
/-- The second and third conditionals are taken: on whole memrefs, the query, key and value blocks at `q`, `k`, `v`, the
    scratch at the state `(a, mx, l)` and the output block at anything, the body runs to the continuation holding the
    input blocks as they were, the scratch at the online-softmax step of that state and the output block at the
    normalised accumulator of the new state. -/
theorem run1_D (c : Dev nD) (i : grid1.Coords) (arg3 : Memref sig .tc .vmem S1x512x1024 .bf16) (harg3 : arg3.IsWhole) (arg4 : Memref sig .tc .vmem S1x512x1024 .bf16) (harg4 : arg4.IsWhole) (arg5 : Memref sig .tc .vmem S1x512x1024 .bf16) (harg5 : arg5.IsWhole) (arg6 : Memref sig .tc .vmem S1x512x1024 .bf16) (harg6 : arg6.IsWhole) (arg7 : Memref sig .tc .vmem S512x1024 .f32) (harg7 : arg7.IsWhole) (arg8 : Memref sig .tc .vmem S512x1 .f32) (harg8 : arg8.IsWhole) (arg9 : Memref sig .tc .vmem S512x1 .f32) (harg9 : arg9.IsWhole)
    (hc0 : ¬cond1_0 i) (hc1 : cond1_1 i) (hc2 : cond1_2 i)
    (q k v : Vec F S1x512x1024 .bf16) (a : Vec F S512x1024 .f32) (mx l : Vec F S512x1 .f32) (E : Set ℕ) (K : PUnit → sProp 𝕄) :
    iprop(owns (c : Thread nD τ) arg3 fullShare q ∗ owns (c : Thread nD τ) arg4 fullShare k ∗ owns (c : Thread nD τ) arg5 fullShare v ∗ (∃ d, owns (c : Thread nD τ) arg6 fullShare d)
        ∗ owns (c : Thread nD τ) arg7 fullShare a ∗ owns (c : Thread nD τ) arg8 fullShare mx ∗ owns (c : Thread nD τ) arg9 fullShare l
        ∗ (iprop(owns (c : Thread nD τ) arg3 fullShare q ∗ owns (c : Thread nD τ) arg4 fullShare k ∗ owns (c : Thread nD τ) arg5 fullShare v
            ∗ owns (c : Thread nD τ) arg6 fullShare (k1_pay6 (step1 i q k v (a, mx, l)).1 (step1 i q k v (a, mx, l)).2.2)
            ∗ owns (c : Thread nD τ) arg7 fullShare (step1 i q k v (a, mx, l)).1 ∗ owns (c : Thread nD τ) arg8 fullShare (step1 i q k v (a, mx, l)).2.1
            ∗ owns (c : Thread nD τ) arg9 fullShare (step1 i q k v (a, mx, l)).2.2) -∗ K ⟨⟩))
      ⊢ wp frame (wpE (defs₀ (F := F)) Variants.none c none) E (cc1__attn_kernel i arg3 harg3 arg4 harg4 arg5 harg5 arg6 harg6 arg7 harg7 arg8 harg8 arg9 harg9) K := by
  simp only [cc1__attn_kernel_eq_skeleton, k1_part1_eq_skeleton]; unfold cc1__attn_kernel_skel
  unfold owns
  iintro ⟨⟨%f3, %hf3, H3⟩, ⟨%f4, %hf4, H4⟩, ⟨%f5, %hf5, H5⟩, ⟨%d6, %f6, -, H6⟩, ⟨%f7, %hf7, H7⟩, ⟨%f8, %hf8, H8⟩, ⟨%f9, %hf9, H9⟩, Hk⟩
  subst hf3 hf4 hf5 hf7 hf8 hf9
  sl_exec (disch := first | exact hc0 | exact hc1 | exact hc2)
  sl_step
  iapply Hk
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists _; isplitr
    swap; · iexact H6
    ipureintro
    sl_unfold_run_names
    rw [read_writes_unit_zero (S := S1x512x1024) _ _ hz3]
    simp only [View.readAt_eq_ld, View.ld_unit_zero (S := S512x1024) hz2, View.ld_unit_zero (S := S512x1) hz2, View.ld_unit_zero (S := S1x512x1024) hz3,
      View.readCov_unit_zero (S := S512x1024) arg7.view hz2, View.readCov_unit_zero (S := S512x1) arg8.view hz2, View.readCov_unit_zero (S := S512x1) arg9.view hz2]
    rfl
  isplitl [H7]
  · iexists _; isplitr
    swap; · iexact H7
    ipureintro
    sl_unfold_run_names
    rw [read_writes_unit_zero (S := S512x1024) _ _ hz2]
    simp only [View.readAt_eq_ld, View.ld_unit_zero (S := S512x1024) hz2, View.ld_unit_zero (S := S512x1) hz2, View.ld_unit_zero (S := S1x512x1024) hz3,
      View.readCov_unit_zero (S := S512x1024) arg7.view hz2, View.readCov_unit_zero (S := S512x1) arg8.view hz2, View.readCov_unit_zero (S := S512x1) arg9.view hz2]
    rfl
  isplitl [H8]
  · iexists _; isplitr
    swap; · iexact H8
    ipureintro
    sl_unfold_run_names
    rw [read_writes_unit_zero (S := S512x1) _ _ hz2]
    simp only [View.readAt_eq_ld, View.ld_unit_zero (S := S512x1024) hz2, View.ld_unit_zero (S := S512x1) hz2, View.ld_unit_zero (S := S1x512x1024) hz3,
      View.readCov_unit_zero (S := S512x1024) arg7.view hz2, View.readCov_unit_zero (S := S512x1) arg8.view hz2, View.readCov_unit_zero (S := S512x1) arg9.view hz2]
    rfl
  iexists _; isplitr
  swap; · iexact H9
  ipureintro
  sl_unfold_run_names
  rw [read_writes_unit_zero (S := S512x1) _ _ hz2]
  simp only [View.readAt_eq_ld, View.ld_unit_zero (S := S512x1024) hz2, View.ld_unit_zero (S := S512x1) hz2, View.ld_unit_zero (S := S1x512x1024) hz3,
      View.readCov_unit_zero (S := S512x1024) arg7.view hz2, View.readCov_unit_zero (S := S512x1) arg8.view hz2, View.readCov_unit_zero (S := S512x1) arg9.view hz2]
  rfl

end Cert.Kernel.Hand

end
-- ==== Proof.KernelRegion1RunE.lean ====
import proofs.«180477_j74028056314061_2_alg».proof.Proof.KernelRegion1RunD

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # Region 1, case E: the last key block, above the diagonal -/

set_option maxHeartbeats 1000000 in
/-- Only the third conditional is taken: on whole memrefs, the accumulator at `a`, the normaliser at `l` and the output
    block at anything, the body runs to the continuation holding the two scratch buffers as they were and the output
    block at the normalised accumulator. -/
theorem run1_E (c : Dev nD) (i : grid1.Coords) (arg3 : Memref sig .tc .vmem S1x512x1024 .bf16) (harg3 : arg3.IsWhole) (arg4 : Memref sig .tc .vmem S1x512x1024 .bf16) (harg4 : arg4.IsWhole) (arg5 : Memref sig .tc .vmem S1x512x1024 .bf16) (harg5 : arg5.IsWhole) (arg6 : Memref sig .tc .vmem S1x512x1024 .bf16) (harg6 : arg6.IsWhole) (arg7 : Memref sig .tc .vmem S512x1024 .f32) (harg7 : arg7.IsWhole) (arg8 : Memref sig .tc .vmem S512x1 .f32) (harg8 : arg8.IsWhole) (arg9 : Memref sig .tc .vmem S512x1 .f32) (harg9 : arg9.IsWhole)
    (hc0 : ¬cond1_0 i) (hc1 : ¬cond1_1 i) (hc2 : cond1_2 i)
    (a : Vec F S512x1024 .f32) (l : Vec F S512x1 .f32) (E : Set ℕ) (K : PUnit → sProp 𝕄) :
    iprop((∃ d, owns (c : Thread nD τ) arg6 fullShare d) ∗ owns (c : Thread nD τ) arg7 fullShare a ∗ owns (c : Thread nD τ) arg9 fullShare l
        ∗ (iprop(owns (c : Thread nD τ) arg6 fullShare (k1_pay6 a l) ∗ owns (c : Thread nD τ) arg7 fullShare a ∗ owns (c : Thread nD τ) arg9 fullShare l) -∗ K ⟨⟩))
      ⊢ wp frame (wpE (defs₀ (F := F)) Variants.none c none) E (cc1__attn_kernel i arg3 harg3 arg4 harg4 arg5 harg5 arg6 harg6 arg7 harg7 arg8 harg8 arg9 harg9) K := by
  simp only [cc1__attn_kernel_eq_skeleton, k1_part1_eq_skeleton]; unfold cc1__attn_kernel_skel
  unfold owns
  iintro ⟨⟨%d6, %f6, -, H6⟩, ⟨%f7, %hf7, H7⟩, ⟨%f9, %hf9, H9⟩, Hk⟩
  subst hf7 hf9
  sl_exec (disch := first | exact hc0 | exact hc1 | exact hc2)
  sl_step
  iapply Hk
  isplitl [H6]
  · iexists _; isplitr
    swap; · iexact H6
    ipureintro
    sl_unfold_run_names
    rw [read_writes_unit_zero (S := S1x512x1024) _ _ hz3]
    simp only [View.readAt_eq_ld, View.ld_unit_zero (S := S512x1024) hz2, View.ld_unit_zero (S := S512x1) hz2, View.ld_unit_zero (S := S1x512x1024) hz3,
      View.readCov_unit_zero (S := S512x1024) arg7.view hz2, View.readCov_unit_zero (S := S512x1) arg8.view hz2, View.readCov_unit_zero (S := S512x1) arg9.view hz2]
  isplitl [H7]
  · iexists f7; isplitr; · ipureintro; rfl
    iexact H7
  iexists f9; isplitr; · ipureintro; rfl
  iexact H9

end Cert.Kernel.Hand

end
-- ==== Proof.KernelRegion1.lean ====
import proofs.«180477_j74028056314061_2_alg».proof.Proof.KernelRegion1RunE

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # Region 1 (the attention kernel) at the entry contents `V`: the carried scratch point by point, the proof data,
    the body obligation -/

section Region1
-- the TensorCore's buffer contents when the region is entered
variable (V : (c : Dev nD) → (b : Ref sig .tc) → Buf (Elt F) ((c : Thread nD τ).loc b))

/-! ## The windows' blocks -/

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- An input window's current staging buffer holds its block at every point, fetched there or not (unfetched, the
    block index has not moved), for any proof data whose array is the entry contents and whose body leaves the block
    in place. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-! ## The carried scratch after each point -/

/-- The scratch (accumulator, running maximum, running normaliser) after the first `n` points: at a point whose
    key-block coordinate is zero the online-softmax step from the initial state; at a later key block at or below the
    diagonal the step from what the point before left; above the diagonal what the point before left. (Before the
    first point the scratch holds anything: the value at zero is a placeholder nothing consults.) -/
def scrAt1 (c : Dev nD) : (n : ℕ) → n ≤ cfg1.N → St1 (F := F)
  | 0, _ => init1
  | n + 1, hn =>
    if n % 4 = 0 then
      step1 (grid1.coords ⟨n, hn⟩) (iblk1 V c 0 ⟨n, hn⟩) (iblk1 V c 1 ⟨n, hn⟩) (iblk1 V c 2 ⟨n, hn⟩) init1
    else if n % 4 ≤ (n / 4) % 4 then
      step1 (grid1.coords ⟨n, hn⟩) (iblk1 V c 0 ⟨n, hn⟩) (iblk1 V c 1 ⟨n, hn⟩) (iblk1 V c 2 ⟨n, hn⟩) (scrAt1 c n (Nat.le_of_lt hn))
    else scrAt1 c n (Nat.le_of_lt hn)

/-- At a point of the first key block: the step from the initial state. -/
theorem scrAt1_A (c : Dev nD) (t : Fin cfg1.N) (h0 : t.val % 4 = 0) :
    scrAt1 V c (t.val + 1) t.isLt = step1 (grid1.coords t) (iblk1 V c 0 t) (iblk1 V c 1 t) (iblk1 V c 2 t) init1 := by
  obtain ⟨n, hn⟩ := t
  exact if_pos h0

/-- At a later key block at or below the diagonal: the step from what the point before left. -/
theorem scrAt1_step (c : Dev nD) (t : Fin cfg1.N) (h0 : ¬t.val % 4 = 0) (h1 : t.val % 4 ≤ (t.val / 4) % 4) :
    scrAt1 V c (t.val + 1) t.isLt = step1 (grid1.coords t) (iblk1 V c 0 t) (iblk1 V c 1 t) (iblk1 V c 2 t) (scrAt1 V c t.val (Nat.le_of_lt t.isLt)) := by
  obtain ⟨n, hn⟩ := t
  exact (if_neg h0).trans (if_pos h1)

/-- At a key block above the diagonal: what the point before left. -/
theorem scrAt1_keep (c : Dev nD) (t : Fin cfg1.N) (h0 : ¬t.val % 4 = 0) (h1 : ¬t.val % 4 ≤ (t.val / 4) % 4) :
    scrAt1 V c (t.val + 1) t.isLt = (scrAt1 V c t.val (Nat.le_of_lt t.isLt)) := by
  obtain ⟨n, hn⟩ := t
  exact (if_neg h0).trans (if_neg h1)

/-- Case B: a middle key block at or below the diagonal. -/
theorem scrAt1_B (c : Dev nD) (t : Fin cfg1.N) (h0 : ¬t.val % 4 = 0) (h3 : ¬t.val % 4 = 3) (h1 : t.val % 4 ≤ (t.val / 4) % 4) :
    scrAt1 V c (t.val + 1) t.isLt = step1 (grid1.coords t) (iblk1 V c 0 t) (iblk1 V c 1 t) (iblk1 V c 2 t) (scrAt1 V c t.val (Nat.le_of_lt t.isLt)) := scrAt1_step V c t h0 h1
/-- Case C: a middle key block above the diagonal. -/
theorem scrAt1_C (c : Dev nD) (t : Fin cfg1.N) (h0 : ¬t.val % 4 = 0) (h3 : ¬t.val % 4 = 3) (h1 : ¬t.val % 4 ≤ (t.val / 4) % 4) :
    scrAt1 V c (t.val + 1) t.isLt = (scrAt1 V c t.val (Nat.le_of_lt t.isLt)) := scrAt1_keep V c t h0 h1
/-- Case D: the last key block, on the diagonal. -/
theorem scrAt1_D (c : Dev nD) (t : Fin cfg1.N) (h3 : t.val % 4 = 3) (h1 : t.val % 4 ≤ (t.val / 4) % 4) :
    scrAt1 V c (t.val + 1) t.isLt = step1 (grid1.coords t) (iblk1 V c 0 t) (iblk1 V c 1 t) (iblk1 V c 2 t) (scrAt1 V c t.val (Nat.le_of_lt t.isLt)) := scrAt1_step V c t (by omega) h1
/-- Case E: the last key block, above the diagonal. -/
theorem scrAt1_E (c : Dev nD) (t : Fin cfg1.N) (h3 : t.val % 4 = 3) (h1 : ¬t.val % 4 ≤ (t.val / 4) % 4) :
    scrAt1 V c (t.val + 1) t.isLt = (scrAt1 V c t.val (Nat.le_of_lt t.isLt)) := scrAt1_keep V c t (by omega) h1

/-! ## The invariant -/

/-- The region invariant before position `n`: before the first point the class's (every scratch buffer at anything);
    afterwards the three scratch buffers at what the points so far left in them, the other scoped buffers at anything
    and the generator register at some state. -/
def PhiS1 (c : Dev nD) : (n : ℕ) → n ≤ cfg1.N → sProp 𝕄
  | 0, _ => Pipeline.ΦA spec1 c
  | n + 1, hn => iprop(owns (c : Thread nD τ) scM1_0 fullShare (scrAt1 V c (n + 1) hn).1 ∗ owns (c : Thread nD τ) scM1_1 fullShare (scrAt1 V c (n + 1) hn).2.1 ∗ owns (c : Thread nD τ) scM1_2 fullShare (scrAt1 V c (n + 1) hn).2.2 ∗ others1 (F := F) c ∗ (∃ r, prngReg c r))

theorem PhiS1_zero (c : Dev nD) (n : ℕ) (h : n ≤ cfg1.N) (hz : n = 0) : PhiS1 V c n h = Pipeline.ΦA spec1 c := by
  subst hz; rfl

theorem PhiS1_succ (c : Dev nD) (n : ℕ) (hn : n < cfg1.N) :
    PhiS1 V c (n + 1) hn = iprop(owns (c : Thread nD τ) scM1_0 fullShare (scrAt1 V c (n + 1) hn).1 ∗ owns (c : Thread nD τ) scM1_1 fullShare (scrAt1 V c (n + 1) hn).2.1 ∗ owns (c : Thread nD τ) scM1_2 fullShare (scrAt1 V c (n + 1) hn).2.2 ∗ others1 (F := F) c ∗ (∃ r, prngReg c r)) := rfl

theorem PhiS1_pos (c : Dev nD) (n : ℕ) (h : n ≤ cfg1.N) (hz : n ≠ 0) :
    PhiS1 V c n h = iprop(owns (c : Thread nD τ) scM1_0 fullShare (scrAt1 V c n h).1 ∗ owns (c : Thread nD τ) scM1_1 fullShare (scrAt1 V c n h).2.1 ∗ owns (c : Thread nD τ) scM1_2 fullShare (scrAt1 V c n h).2.2 ∗ others1 (F := F) c ∗ (∃ r, prngReg c r)) := by
  cases n with
  | zero => exact absurd rfl hz
  | succ n => rfl

/-! ## The pipeline's proof data -/

/-- The proof data of the attention pipeline on core `c`: the arrays as the region finds them; after the body at point
    `t` each input's buffer at its block and the output's at the normalised accumulator of the scratch after the point
    (what the last key block's store leaves; at the other points, where the window is idle and not written back,
    a value nothing consults); the invariant tracking the scratch; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => k1_pay6 (scrAt1 V c (t.val + 1) t.isLt).1 (scrAt1 V c (t.val + 1) t.isLt).2.2
  Φ t := PhiS1 V c t.val (Nat.le_of_lt_succ t.isLt)
  q _ := fullShare
  owed _ := 0

theorem A_eq1 (c : Dev nD) (w : Fin cfg1.W) : (dat1 V c).A w = V c (Pipeline.arrRef spec1 w) := by
  dsimp only [dat1]

theorem PhiS1_castSucc (c : Dev nD) (t : Fin cfg1.N) :
    (dat1 V c).Φ t.castSucc = PhiS1 V c t.val (Nat.le_of_lt t.isLt) := by
  dsimp only [dat1]; simp only [Fin.coe_castSucc]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3' (c : Dev nD) (t : Fin cfg1.N) :
    (dat1 V c).after 3 t = k1_pay6 (scrAt1 V c (t.val + 1) t.isLt).1 (scrAt1 V c (t.val + 1) t.isLt).2.2 := by dsimp only [dat1]
/-- What the write-back at a last key block writes: the normalised accumulator of the scratch after that point. -/
theorem after1_3 (c : Dev nD) (t : Fin cfg1.N) (h : t.val % 4 = 3) :
    (dat1 V c).after 3 t = k1_pay6 (scrAt1 V c (t.val + 1) t.isLt).1 (scrAt1 V c (t.val + 1) t.isLt).2.2 := after1_3' V c t

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d

/-! ## The body obligation, at a generic point -/

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d)))

/-- and what it returns. -/
def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t)

set_option maxHeartbeats 4800000 in
/-- The body at any point: the inputs' memrefs hold their blocks; the closed forms say which of the five control cases
    the point is in, so that case's run applies; the invariant hands the body the scratch at what the points so far left
    (at anything at the first point) and takes it back at this point's contents; where the third conditional is not taken
    the output's buffer is handed back untouched, and where it is taken it holds the normalised accumulator. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).owesAt () t.succ = (dat1 V c).owesAt () t.castSucc from rfl]
  rw [show (dat1 V c).Φ t.succ = PhiS1 V c (t.val + 1) t.isLt from rfl, PhiS1_succ]
  rw [show (dat1 V c).leavesExact 0 t = owns (c : Thread nD τ) (ms1_0 t) fullShare ((dat1 V c).after 0 t) from by
    unfold Dat.leavesExact; rw [liveAt1_0 t], after1_0]
  rw [show (dat1 V c).leavesExact 1 t = owns (c : Thread nD τ) (ms1_1 t) fullShare ((dat1 V c).after 1 t) from by
    unfold Dat.leavesExact; rw [liveAt1_1 t], after1_1]
  rw [show (dat1 V c).leavesExact 2 t = owns (c : Thread nD τ) (ms1_2 t) fullShare ((dat1 V c).after 2 t) from by
    unfold Dat.leavesExact; rw [liveAt1_2 t], after1_2]
  have hN : t.val < 64 := lt_of_lt_of_eq t.isLt (show cfg1.N = 64 from N_1)
  by_cases h0 : t.val % 4 = 0
  · -- case A
    have h1 : t.val % 4 ≤ (t.val / 4) % 4 := by omega
    have h3 : ¬t.val % 4 = 3 := by omega
    rw [Dat.leavesExact_idle (dat1 V c) 3 t (idleAt1_3 t (fun h => h3 ((hcond1_2 t).mp h))) (noFlush1_3 t (fun h => h3 ((hcond1_2 t).mp h)))]
    rw [scrAt1_A V c t h0]
    by_cases hz : t.val = 0
    · rw [PhiS1_castSucc V c t, PhiS1_zero V c _ _ hz]
      iintro ⟨HΦ, Ho, ⟨%d0, H0⟩, ⟨%d1, H1⟩, ⟨%d2, H2⟩, H3⟩
      ihave HΦ' := (PhiA1_split (F := F) c) $$ HΦ
      icases HΦ' with ⟨HS0, HS1, HS2, Hoth, Hg⟩
      iapply (run1_A c (grid1.coords t) _ _ _ _ _ _ _ _ _ _ _ _ _ _ ((hcond1_0 t).mpr h0) ((hcond1_1 t).mpr h1) (fun h => h3 ((hcond1_2 t).mp h)) (iblk1 V c 0 t) (iblk1 V c 1 t) (iblk1 V c 2 t) Set.univ _)
      isplitl [H0]; · iexact H0
      isplitl [H1]; · iexact H1
      isplitl [H2]; · iexact H2
      isplitl [HS0]; · iexact HS0
      isplitl [HS1]; · iexact HS1
      isplitl [HS2]; · iexact HS2
      iintro ⟨H0, H1, H2, HS0, HS1, HS2⟩
      isplitl [HS0 HS1 HS2 Hoth Hg]
      · isplitl [HS0]; · iexact HS0
        isplitl [HS1]; · iexact HS1
        isplitl [HS2]; · iexact HS2
        isplitl [Hoth]; · iexact Hoth
        iexact Hg
      isplitl [Ho]; · iexact Ho
      isplitl [H0]; · iexact H0
      isplitl [H1]; · iexact H1
      isplitl [H2]; · iexact H2
      iexact H3
    · rw [PhiS1_castSucc V c t, PhiS1_pos V c _ _ hz]
      iintro ⟨⟨HS0, HS1, HS2, Hoth, Hg⟩, Ho, ⟨%d0, H0⟩, ⟨%d1, H1⟩, ⟨%d2, H2⟩, H3⟩
      iapply (run1_A c (grid1.coords t) _ _ _ _ _ _ _ _ _ _ _ _ _ _ ((hcond1_0 t).mpr h0) ((hcond1_1 t).mpr h1) (fun h => h3 ((hcond1_2 t).mp h)) (iblk1 V c 0 t) (iblk1 V c 1 t) (iblk1 V c 2 t) Set.univ _)
      isplitl [H0]; · iexact H0
      isplitl [H1]; · iexact H1
      isplitl [H2]; · iexact H2
      isplitl [HS0]; · iexists _; iexact HS0
      isplitl [HS1]; · iexists _; iexact HS1
      isplitl [HS2]; · iexists _; iexact HS2
      iintro ⟨H0, H1, H2, HS0, HS1, HS2⟩
      isplitl [HS0 HS1 HS2 Hoth Hg]
      · isplitl [HS0]; · iexact HS0
        isplitl [HS1]; · iexact HS1
        isplitl [HS2]; · iexact HS2
        isplitl [Hoth]; · iexact Hoth
        iexact Hg
      isplitl [Ho]; · iexact Ho
      isplitl [H0]; · iexact H0
      isplitl [H1]; · iexact H1
      isplitl [H2]; · iexact H2
      iexact H3
  · have hz : t.val ≠ 0 := fun e => h0 (by rw [e])
    by_cases h3 : t.val % 4 = 3
    · rw [show (dat1 V c).leavesExact 3 t = owns (c : Thread nD τ) (ms1_3 t) fullShare ((dat1 V c).after 3 t) from by
        unfold Dat.leavesExact; rw [liveAt1_3 t ((hcond1_2 t).mpr h3)], after1_3']
      by_cases h1 : t.val % 4 ≤ (t.val / 4) % 4
      · -- case D
        rw [scrAt1_D V c t h3 h1]
        rw [PhiS1_castSucc V c t, PhiS1_pos V c _ _ hz]
        iintro ⟨⟨HS0, HS1, HS2, Hoth, Hg⟩, Ho, ⟨%d0, H0⟩, ⟨%d1, H1⟩, ⟨%d2, H2⟩, ⟨%d3, H3⟩⟩
        iapply (run1_D c (grid1.coords t) _ _ _ _ _ _ _ _ _ _ _ _ _ _ (fun h => h0 ((hcond1_0 t).mp h)) ((hcond1_1 t).mpr h1) ((hcond1_2 t).mpr h3) (iblk1 V c 0 t) (iblk1 V c 1 t) (iblk1 V c 2 t) (scrAt1 V c t.val (Nat.le_of_lt t.isLt)).1 (scrAt1 V c t.val (Nat.le_of_lt t.isLt)).2.1 (scrAt1 V c t.val (Nat.le_of_lt t.isLt)).2.2 Set.univ _)
        isplitl [H0]; · iexact H0
        isplitl [H1]; · iexact H1
        isplitl [H2]; · iexact H2
        isplitl [H3]; · iexists _; iexact H3
        isplitl [HS0]; · iexact HS0
        isplitl [HS1]; · iexact HS1
        isplitl [HS2]; · iexact HS2
        iintro ⟨H0, H1, H2, H3, HS0, HS1, HS2⟩
        isplitl [HS0 HS1 HS2 Hoth Hg]
        · isplitl [HS0]; · iexact HS0
          isplitl [HS1]; · iexact HS1
          isplitl [HS2]; · iexact HS2
          isplitl [Hoth]; · iexact Hoth
          iexact Hg
        isplitl [Ho]; · iexact Ho
        isplitl [H0]; · iexact H0
        isplitl [H1]; · iexact H1
        isplitl [H2]; · iexact H2
        iexact H3
      · -- case E
        rw [scrAt1_E V c t h3 h1]
        rw [PhiS1_castSucc V c t, PhiS1_pos V c _ _ hz]
        iintro ⟨⟨HS0, HS1, HS2, Hoth, Hg⟩, Ho, ⟨%d0, H0⟩, ⟨%d1, H1⟩, ⟨%d2, H2⟩, ⟨%d3, H3⟩⟩
        iapply (run1_E c (grid1.coords t) _ _ _ _ _ _ _ _ _ _ _ _ _ _ (fun h => h0 ((hcond1_0 t).mp h)) (fun h => h1 ((hcond1_1 t).mp h)) ((hcond1_2 t).mpr h3) (scrAt1 V c t.val (Nat.le_of_lt t.isLt)).1 (scrAt1 V c t.val (Nat.le_of_lt t.isLt)).2.2 Set.univ _)
        isplitl [H3]; · iexists _; iexact H3
        isplitl [HS0]; · iexact HS0
        isplitl [HS2]; · iexact HS2
        iintro ⟨H3, HS0, HS2⟩
        isplitl [HS0 HS1 HS2 Hoth Hg]
        · isplitl [HS0]; · iexact HS0
          isplitl [HS1]; · iexact HS1
          isplitl [HS2]; · iexact HS2
          isplitl [Hoth]; · iexact Hoth
          iexact Hg
        isplitl [Ho]; · iexact Ho
        isplitl [H0]; · iexact H0
        isplitl [H1]; · iexact H1
        isplitl [H2]; · iexact H2
        iexact H3
    · rw [Dat.leavesExact_idle (dat1 V c) 3 t (idleAt1_3 t (fun h => h3 ((hcond1_2 t).mp h))) (noFlush1_3 t (fun h => h3 ((hcond1_2 t).mp h)))]
      by_cases h1 : t.val % 4 ≤ (t.val / 4) % 4
      · -- case B
        rw [scrAt1_B V c t h0 h3 h1]
        rw [PhiS1_castSucc V c t, PhiS1_pos V c _ _ hz]
        iintro ⟨⟨HS0, HS1, HS2, Hoth, Hg⟩, Ho, ⟨%d0, H0⟩, ⟨%d1, H1⟩, ⟨%d2, H2⟩, H3⟩
        iapply (run1_B c (grid1.coords t) _ _ _ _ _ _ _ _ _ _ _ _ _ _ (fun h => h0 ((hcond1_0 t).mp h)) ((hcond1_1 t).mpr h1) (fun h => h3 ((hcond1_2 t).mp h)) (iblk1 V c 0 t) (iblk1 V c 1 t) (iblk1 V c 2 t) (scrAt1 V c t.val (Nat.le_of_lt t.isLt)).1 (scrAt1 V c t.val (Nat.le_of_lt t.isLt)).2.1 (scrAt1 V c t.val (Nat.le_of_lt t.isLt)).2.2 Set.univ _)
        isplitl [H0]; · iexact H0
        isplitl [H1]; · iexact H1
        isplitl [H2]; · iexact H2
        isplitl [HS0]; · iexact HS0
        isplitl [HS1]; · iexact HS1
        isplitl [HS2]; · iexact HS2
        iintro ⟨H0, H1, H2, HS0, HS1, HS2⟩
        isplitl [HS0 HS1 HS2 Hoth Hg]
        · isplitl [HS0]; · iexact HS0
          isplitl [HS1]; · iexact HS1
          isplitl [HS2]; · iexact HS2
          isplitl [Hoth]; · iexact Hoth
          iexact Hg
        isplitl [Ho]; · iexact Ho
        isplitl [H0]; · iexact H0
        isplitl [H1]; · iexact H1
        isplitl [H2]; · iexact H2
        iexact H3
      · -- case C
        rw [scrAt1_C V c t h0 h3 h1]
        rw [PhiS1_castSucc V c t, PhiS1_pos V c _ _ hz]
        iintro ⟨⟨HS0, HS1, HS2, Hoth, Hg⟩, Ho, ⟨%d0, H0⟩, ⟨%d1, H1⟩, ⟨%d2, H2⟩, H3⟩
        iapply (run1_C c (grid1.coords t) _ _ _ _ _ _ _ _ _ _ _ _ _ _ (fun h => h0 ((hcond1_0 t).mp h)) (fun h => h1 ((hcond1_1 t).mp h)) (fun h => h3 ((hcond1_2 t).mp h)) Set.univ _)
        isplitl [HS0 HS1 HS2 Hoth Hg]
        · isplitl [HS0]; · iexact HS0
          isplitl [HS1]; · iexact HS1
          isplitl [HS2]; · iexact HS2
          isplitl [Hoth]; · iexact Hoth
          iexact Hg
        isplitl [Ho]; · iexact Ho
        isplitl [H0]; · iexact H0
        isplitl [H1]; · iexact H1
        isplitl [H2]; · iexact H2
        iexact H3

/-- The library's body obligation, at every point. -/
theorem body_obligation1 (c : Dev nD) : BodyObligation (dat1 (F := F) V c) (defs₀ (F := F)) Variants.none () Set.univ := fun t => by
  rw [bigSep_W1, bigSep_W1]
  exact sound_body1 V c t

/-- What the launch hands the region is the invariant before the first point. -/
theorem hin1 (c : Dev nD) : Pipeline.ΦA spec1 c ⊢ (dat1 V c).Φ 0 := by
  rw [show (dat1 V c).Φ 0 = PhiS1 V c 0 (Nat.zero_le _) from rfl, PhiS1_zero V c 0 _ rfl]

/-- After any point but the first the invariant gives the class's back: the scratch's named contents are forgotten. -/
theorem Phi_out1 (c : Dev nD) (t : Fin (cfg1.N + 1)) (ht : t.val ≠ 0) : (dat1 V c).Φ t ⊢ Pipeline.ΦA spec1 c := by
  rw [show (dat1 V c).Φ t = PhiS1 V c t.val (Nat.le_of_lt_succ t.isLt) from rfl, PhiS1_pos V c _ _ ht]
  iintro ⟨HS0, HS1, HS2, Hoth, Hg⟩
  iapply (PhiA1_join (F := F) c)
  isplitl [HS0]; · iexists _; iexact HS0
  isplitl [HS1]; · iexists _; iexact HS1
  isplitl [HS2]; · iexists _; iexact HS2
  isplitl [Hoth]; · iexact Hoth
  iexact Hg

/-- The same after the last point. -/
theorem hout1 (c : Dev nD) : (dat1 V c).Φ (Fin.last cfg1.N) ⊢ Pipeline.ΦA spec1 c :=
  Phi_out1 V c _ (by rw [Fin.val_last]; have : cfg1.N = 64 := N_1; omega)

end Region1

end Cert.Kernel.Hand

end
-- ==== Proof.KernelRegion2.lean ====
/- The separation-logic half of REGION 2 of @main (custom_call 2, the linear kernel of pipeline 2: a block of
   rows times the whole weight, plus the bias row, kept in f32), at a PARAMETER V — the TensorCore's buffer
   contents when the region is entered. Each window's block at a point (iblk2); what the body leaves in the output
   window's staging buffer as a function of the three input blocks (out2_3, equal to the skeleton's payload
   k2_pay1 of them: out2_3_eq); the body's triple (sound_kernel2); the pipeline's proof data (dat2) and the body
   obligation at every point (body_obligation2). The class is the plainest: one control case, whole-buffer loads,
   one whole-buffer store, no scratch and no semaphore. -/
import proofs.«180477_j74028056314061_2_alg».proof.Proof.Gen.Kernel.Launch
import proofs.«180477_j74028056314061_2_alg».proof.Proof.Gen.Kernel.Skeleton
import proofs.«180477_j74028056314061_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

-- membership in a rectangle of production extents (View.cover_of_tiled): the elaborator's structural look
-- recurses once per coordinate of the long axes
set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered: the parameter every statement below is made at
variable (V : (c : Dev nD) → (b : Ref sig .tc) → Buf (Elt F) ((c : Thread nD τ).loc b))

/-! ## The windows' blocks -/

/-- Window w's block at point t, read off its array as the region finds it (V). -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- Input window 0 (the rows' block, fetched at every point): its current staging buffer holds its block at every
    point, for ANY proof data whose array is V's and whose body leaves the block in place. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)

/-- Input window 1 (the whole weight, fetched at the first point only): unfetched, its block index has not moved,
    so its staging buffer holds its block at every point all the same. -/
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

/-- Input window 2 (the bias row, fetched at the first point only): as window 1. -/
theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)

/-! ## The body's accesses: each staging buffer whole, through the unit rectangle at zero offsets -/

abbrev r2_0 : Rect S512x1024 := Rect.unit (s := S512x1024) ![0, 0] S512x1024.size inb_S512x1024_S512x1024_0_0
abbrev r2_1 : Rect S1024x1024 := Rect.unit (s := S1024x1024) ![0, 0] S1024x1024.size inb_S1024x1024_S1024x1024_0_0
abbrev r2_2 : Rect S1x1024 := Rect.unit (s := S1x1024) ![0, 0] S1x1024.size inb_S1x1024_S1x1024_0_0
abbrev r2_3 : Rect S512x1024 := Rect.unit (s := S512x1024) ![0, 0] S512x1024.size inb_S512x1024_S512x1024_0_0

/-! ## What the body leaves in the output window's buffer -/

/-- Window 3's staging buffer after the body, from the input windows' blocks: its one store as a piece, the payload
    the skeleton's, applied to what the three loads read. -/
def out2_3 (x0 : Vec F S512x1024 .bf16) (x1 : Vec F S1024x1024 .bf16) (x2 : Vec F S1x1024 .f32) : Vec F S512x1024 .f32 :=
  View.canon [⟨r2_3, k2_pay1 (View.ld x0 r2_0) (View.ld x1 r2_1) (View.ld x2 r2_2)⟩]

/-- The offsets of every access of the body are zero. -/
theorem off2_zero : (![0, 0] : Fin 2 → Nat) = fun _ => 0 := by
  funext a; fin_cases a <;> rfl

/-- One whole-buffer store leaves its payload, and a whole-buffer load reads the contents: the output buffer is the
    payload of the three input blocks. -/
theorem out2_3_eq (x0 : Vec F S512x1024 .bf16) (x1 : Vec F S1024x1024 .bf16) (x2 : Vec F S1x1024 .f32) :
    out2_3 x0 x1 x2 = k2_pay1 x0 x1 x2 := by
  unfold out2_3
  rw [View.canon_unit_zero off2_zero]
  rw [View.ld_unit_zero (S := S512x1024) off2_zero, View.ld_unit_zero (S := S1024x1024) off2_zero,
    View.ld_unit_zero (S := S1x1024) off2_zero]

/-- The store tiles the buffer (checked by evaluation), so it covers it. -/
theorem cover2_3 (p0 : Vec F S512x1024 .f32) (y : S512x1024.Idx) :
    ∃ pc ∈ ([⟨r2_3, p0⟩] : List (View.Piece (Elt F) S512x1024 .f32)), y ∈ pc.1.set :=
  View.cover_of_tiled [⟨r2_3, p0⟩] S512x1024.size (by rfl) y

/-! ## The body's triple -/

set_option maxHeartbeats 1000000 in
/-- The kernel body on whole staging memrefs, the inputs' at read contents x0, x1, x2 and the output's at anything,
    runs to the continuation holding the inputs' as they were and the output's at out2_3 of the inputs': the printed
    function is its skeleton, three loads of the inputs, a load of the output buffer (its value unused) and the one
    store. -/
theorem sound_kernel2 (c : Dev nD) (E : Set ℕ) (i : grid2.Coords)
    (arg1 : Memref sig .tc .vmem S512x1024 .bf16) (harg1 : arg1.IsWhole)
    (arg2 : Memref sig .tc .vmem S1024x1024 .bf16) (harg2 : arg2.IsWhole)
    (arg3 : Memref sig .tc .vmem S1x1024 .f32) (harg3 : arg3.IsWhole)
    (arg4 : Memref sig .tc .vmem S512x1024 .f32) (harg4 : arg4.IsWhole)
    (x0 : Vec F S512x1024 .bf16) (x1 : Vec F S1024x1024 .bf16) (x2 : Vec F S1x1024 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (out2_3 x0 x1 x2)) -∗ K ⟨⟩))
      ⊢ wp frame (wpE (defs₀ (F := F)) Variants.none c none) E (cc2__linear_kernel i arg1 harg1 arg2 harg2 arg3 harg3 arg4 harg4) K := by
  simp only [cc2__linear_kernel_eq_skeleton]; unfold cc2__linear_kernel_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover2_3 _)

/-! ## The pipeline's proof data -/

/-- The proof data of pipeline 2 on core c: the arrays as the region finds them (V); after the body at point t each
    input's buffer at its block and the output's at out2_3 of the input blocks; the invariant the class's (the scoped
    rest and the generator register, untouched); nothing owed; full shares. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => out2_3 (iblk2 V c 0 t) (iblk2 V c 1 t) (iblk2 V c 2 t)
  Φ _ := Pipeline.ΦA spec2 c
  q _ := fullShare
  owed _ := 0

/-- The proof data's arrays are the region-entry contents. -/
theorem A_eq2 (c : Dev nD) (w : Fin cfg2.W) : (dat2 V c).A w = V c (Pipeline.arrRef spec2 w) := by
  dsimp only [dat2]

/-- What the body leaves, window by window. -/
theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) :
    (dat2 V c).after 3 t = out2_3 (iblk2 V c 0 t) (iblk2 V c 1 t) (iblk2 V c 2 t) := by dsimp only [dat2]

/-- The invariant is the class's at every index. -/
theorem Phi2 (c : Dev nD) (j) : (dat2 V c).Φ j = Pipeline.ΦA spec2 c := by dsimp only [dat2]

/-- Each input's current staging buffer holds its block at every point, fetched there or not. -/
theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d

/-! ## The body obligation, at a generic point -/

/-- What the body is called with at point t (the obligation's precondition, the windows one by one), -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d)))

/-- and what it returns. -/
def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ owns (c : Thread nD τ) (st2_3 t) fullShare ((dat2 V c).after 3 t))

/-- The body at any point: the inputs' memrefs hold their blocks, so the body's triple applies; the invariant and the
    core's debt pass through unread. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2]
  rw [show (dat2 V c).Φ t.succ = (dat2 V c).Φ t.castSucc from rfl,
    show (dat2 V c).owesAt () t.succ = (dat2 V c).owesAt () t.castSucc from rfl,
    after2_0, after2_1, after2_2, after2_3]
  iintro ⟨HΦ, Ho, ⟨%d0, H0⟩, ⟨%d1, H1⟩, ⟨%d2, H2⟩, ⟨%d3, H3⟩⟩
  iapply (sound_kernel2 c Set.univ (grid2.coords t) _ _ _ _ _ _ _ _ (iblk2 V c 0 t) (iblk2 V c 1 t) (iblk2 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The library's body obligation, at every point. -/
theorem body_obligation2 (c : Dev nD) : BodyObligation (dat2 (F := F) V c) (defs₀ (F := F)) Variants.none () Set.univ := fun t => by
  rw [bigSep_W2, bigSep_W2]
  exact sound_body2 V c t

end Cert.Kernel.Hand

end
-- ==== Proof.KernelRun.lean ====
/-
  The kernel program's run.  @main is seven items: a stretch of host operations (the reshape of x, the
  transposes and the concatenations that build the fused weight and bias), the first linear region,
  a stretch (the three column slices and their reshapes), the attention region, a stretch (a reshape,
  the transpose of the last weight, a reshape of its bias), the last linear region, and the final
  reshape.  The buffer contents at every boundary are a fold from the launch memory: a host stretch
  applies its operations, a region leaves each of its windows' arrays at what its write-backs made
  of it and every other buffer as it was.  Every weakly fair execution terminates, nothing faults,
  and every final state holds each unscoped buffer at the last boundary's contents.
-/
import proofs.«180477_j74028056314061_2_alg».proof.Proof.KernelRegion0
import proofs.«180477_j74028056314061_2_alg».proof.Proof.KernelRegion1
import proofs.«180477_j74028056314061_2_alg».proof.Proof.KernelRegion2
import Idealize.ShloMosaic.Lib.Pipeline.Regions

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each boundary -/

/-- Core `c`'s buffers at launch. -/
abbrev W0 : Dev nD → Valuation τ sig (Elt F) := fun c b => (s₀ m ρ).mem ((c : Dev nD), b)
/-- After the first host stretch (the first region's entry). -/
abbrev W1 : Dev nD → Valuation τ sig (Elt F) := fun c => StableHlo.after hostOps0 (W0 m ρ c)
abbrev V1 : (c : Dev nD) → (b : Ref sig .tc) → Buf (Elt F) ((c : Thread nD τ).loc b) := fun c b => W1 m ρ c b
/-- At the first region's exit: its arrays at what the pipeline leaves, every other buffer as entered. -/
def W2 (c : Dev nD) : Valuation τ sig (Elt F) :=
  Pipeline.withArrays spec0 c (W1 m ρ c) fun w => (dat0 (V1 m ρ) c).arrAt w cfg0.N
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
abbrev V2 : (c : Dev nD) → (b : Ref sig .tc) → Buf (Elt F) ((c : Thread nD τ).loc b) := fun c b => W2 m ρ c b
theorem hF0 (c : Dev nD) (w : Fin cfg0.W) : (dat0 (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)

/-- After the second host stretch (the attention region's entry). -/
abbrev W3 : Dev nD → Valuation τ sig (Elt F) := fun c => StableHlo.after hostOps1 (W2 m ρ c)
abbrev V3 : (c : Dev nD) → (b : Ref sig .tc) → Buf (Elt F) ((c : Thread nD τ).loc b) := fun c b => W3 m ρ c b
/-- At the attention region's exit. -/
def W4 (c : Dev nD) : Valuation τ sig (Elt F) :=
  Pipeline.withArrays spec1 c (W3 m ρ c) fun w => (dat1 (V3 m ρ) c).arrAt w cfg1.N
theorem W4_arr (c : Dev nD) (w : Fin cfg1.W) :
    W4 m ρ c (Proc.devRef .tc (Pipeline.arrRef spec1 w)) = (dat1 (V3 m ρ) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m ρ c (Proc.devRef .tc b) = W3 m ρ c (Proc.devRef .tc b) := by
  unfold W4; exact Pipeline.withArrays_of_ne spec1 c _ _ b hb
abbrev V4 : (c : Dev nD) → (b : Ref sig .tc) → Buf (Elt F) ((c : Thread nD τ).loc b) := fun c b => W4 m ρ c b
theorem hF1 (c : Dev nD) (w : Fin cfg1.W) : (dat1 (V3 m ρ) c).arrAt w cfg1.N = V4 m ρ c (Pipeline.arrRef spec1 w) :=
  (W4_arr m ρ c w).symm
theorem hrest1 (c : Dev nD) : ∀ b, b ∉ Finset.univ.image (Pipeline.arrRef spec1) → V4 m ρ c b = V3 m ρ c b :=
  fun b hb => W4_of_ne m ρ c b fun w e => hb (Finset.mem_image.mpr ⟨w, Finset.mem_univ _, e⟩)

/-- After the third host stretch (the last region's entry). -/
abbrev W5 : Dev nD → Valuation τ sig (Elt F) := fun c => StableHlo.after hostOps2 (W4 m ρ c)
abbrev V5 : (c : Dev nD) → (b : Ref sig .tc) → Buf (Elt F) ((c : Thread nD τ).loc b) := fun c b => W5 m ρ c b
/-- At the last region's exit. -/
def W6 (c : Dev nD) : Valuation τ sig (Elt F) :=
  Pipeline.withArrays spec2 c (W5 m ρ c) fun w => (dat2 (V5 m ρ) c).arrAt w cfg2.N
theorem W6_arr (c : Dev nD) (w : Fin cfg2.W) :
    W6 m ρ c (Proc.devRef .tc (Pipeline.arrRef spec2 w)) = (dat2 (V5 m ρ) c).arrAt w cfg2.N := by
  unfold W6; exact Pipeline.withArrays_arr spec2 launch2.win.arr_inj c _ _ w
theorem W6_of_ne (c : Dev nD) (b : Ref sig .tc) (hb : ∀ w, Pipeline.arrRef spec2 w ≠ b) :
    W6 m ρ c (Proc.devRef .tc b) = W5 m ρ c (Proc.devRef .tc b) := by
  unfold W6; exact Pipeline.withArrays_of_ne spec2 c _ _ b hb
abbrev V6 : (c : Dev nD) → (b : Ref sig .tc) → Buf (Elt F) ((c : Thread nD τ).loc b) := fun c b => W6 m ρ c b
theorem hF2 (c : Dev nD) (w : Fin cfg2.W) : (dat2 (V5 m ρ) c).arrAt w cfg2.N = V6 m ρ c (Pipeline.arrRef spec2 w) :=
  (W6_arr m ρ c w).symm
theorem hrest2 (c : Dev nD) : ∀ b, b ∉ Finset.univ.image (Pipeline.arrRef spec2) → V6 m ρ c b = V5 m ρ c b :=
  fun b hb => W6_of_ne m ρ c b fun w e => hb (Finset.mem_image.mpr ⟨w, Finset.mem_univ _, e⟩)

/-- After the final reshape: the contents the program ends with. -/
abbrev W7 : Dev nD → Valuation τ sig (Elt F) := fun c => StableHlo.after hostOps3 (W6 m ρ c)

/-! ## The proof data family and the thread state -/

/-- No pipeline has a prefetched table. -/
abbrev admH : (p : Fin 3) → (pcfgs (F := F) p).Adm := fun p => (cfgs p).toPCfg_adm
/-- Every pipeline's proof data, each at its region's entry contents. -/
def pdatsH : (p : Fin 3) → (c : Dev nD) → Dat τ (Elt F) Unit ℕ (UR sig nD τ) ℕ (Pipeline.pin (pcfgs (F := F)) admH p) c
  | ⟨0, _⟩ => fun c => dat0 (V1 m ρ) c
  | ⟨1, _⟩ => fun c => dat1 (V3 m ρ) c
  | ⟨2, _⟩ => fun c => dat2 (V5 m ρ) c
abbrev 𝒱H : Variants := Variants.none
/-- No core owes another anything. -/
abbrev LH : GSem nD τ sig → Finset Unit := fun _ => ∅
abbrev lvH : GSem nD τ sig → Unit → ℕ := fun _ _ => 0
/-- What rides beside the buffers through every item: the core's generator register at some state and its
    `owes`, at nothing. -/
abbrev RH (c : Dev nD) : sProp 𝕄 := iprop((∃ r, prngReg c r) ∗ ∃ W, owes (c : Thread nD τ) (0 : CellTallies nD τ sig Unit) W)
/-- A host stretch as a segment over the unscoped references from the contents `W`. -/
abbrev hsegH (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱H LH lvH :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W RH

theorem hostOps0_freshH : (hostOps0 : List (HloOp τ sig (Elt F))).Forall fun op => op.fresh = ∅ := by
  simp only [List.Forall]; repeat' constructor
theorem hostOps1_freshH : (hostOps1 : List (HloOp τ sig (Elt F))).Forall fun op => op.fresh = ∅ := by
  simp only [List.Forall]; repeat' constructor
theorem hostOps2_freshH : (hostOps2 : List (HloOp τ sig (Elt F))).Forall fun op => op.fresh = ∅ := by
  simp only [List.Forall]; repeat' constructor
theorem hostOps3_freshH : (hostOps3 : List (HloOp τ sig (Elt F))).Forall fun op => op.fresh = ∅ := by
  simp only [List.Forall]; repeat' constructor
/-- An unscoped TensorCore reference is among those the thread state holds. -/
theorem mem_ucH (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the `owes`. -/
abbrev TnH (c : Dev nD) : sProp 𝕄 := iprop(StableHlo.held (c : Thread nD τ) (Pipeline.ucRefs τ sig) (W7 m ρ c) ∗ ∃ r, prngReg c r)

/-! ## The regions as segments -/

set_option backward.isDefEq.respectTransparency.types false in
/-- The first linear region over the thread state: entered from every unscoped buffer at `W1`, left at `W2`. -/
def reg0 : Pipeline.RegionSeg (pcfgs (F := F)) admH (pdatsH m ρ) () defs₀ 𝒱H LH lvH 0 where
  win := launch0.win.to₀
  block_pos := launch0.block_pos
  stage_whole := launch0.stage_whole
  K := PEmpty
  osem k := k.elim
  ho := Pipeline.OwnSemFacts.none _
  hbody c := (body_obligation0 (V1 m ρ) c).loose
  hwaits := Pipeline.hwaits_of_owed_zero _ _ _ _ LH lvH 0 fun _ _ => rfl
  pre c := iprop(StableHlo.held (c : Thread nD τ) (Pipeline.ucRefs τ sig) (W1 m ρ c) ∗ RH c)
  post c := iprop(StableHlo.held (c : Thread nD τ) (Pipeline.ucRefs τ sig) (W2 m ρ c) ∗ RH c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) admH (pdatsH m ρ) launch0.win launch0.arr_whole c
      ((pdatsH m ρ 0 c).share_full fun _ => rfl) (V1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdatsH m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdatsH m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) admH (Ix := Unit) (Name := ℕ) (U := UR sig nD τ) (Lvl := ℕ)
      launch0.win launch0.arr_whole c (pdatsH m ρ) ((pdatsH m ρ 0 c).share_full fun _ => rfl)
      (V1 m ρ c) (V2 m ρ c) ((pdatsH m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The attention region over the thread state: entered from every unscoped buffer at `W3`, left at `W4`.  Its
    invariant takes the scoped rest and the generator register at the first point (the scratch buffers are found
    among the scoped rest) and gives them back at the last. -/
def reg1 : Pipeline.RegionSeg (pcfgs (F := F)) admH (pdatsH m ρ) () defs₀ 𝒱H LH lvH 1 where
  win := launch1.win.to₀
  block_pos := launch1.block_pos
  stage_whole := launch1.stage_whole
  K := PEmpty
  osem k := k.elim
  ho := Pipeline.OwnSemFacts.none _
  hbody c := (body_obligation1 (V3 m ρ) c).loose
  hwaits := Pipeline.hwaits_of_owed_zero _ _ _ _ LH lvH 1 fun _ _ => rfl
  pre c := iprop(StableHlo.held (c : Thread nD τ) (Pipeline.ucRefs τ sig) (W3 m ρ c) ∗ RH c)
  post c := iprop(StableHlo.held (c : Thread nD τ) (Pipeline.ucRefs τ sig) (W4 m ρ c) ∗ RH c)
  X c := iprop(∃ r, prngReg c r)
  Y c := iprop(∃ r, prngReg c r)
  Z c := Pipeline.unscopedRest (Ix := Unit) (Name := ℕ) (U := UR sig nD τ) (Lvl := ℕ) spec1 c (V3 m ρ c)
  hentry c := by
    rw [Pipeline.ownSems0_none]
    have hsplit := Pipeline.arrays_of_unscopedBufs (p := 1) (pcfgs (F := F)) admH (pdatsH m ρ) launch1.win launch1.arr_whole c
      ((pdatsH m ρ 1 c).share_full fun _ => rfl) (V3 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdatsH m ρ 1 c).Φ 0 = (dat1 (V3 m ρ) c).Φ 0 from rfl]
    have h1 := hin1 (V3 m ρ) c
    unfold Pipeline.ΦA at h1
    iintro ⟨Hp, -, Hr⟩
    iapply h1
    isplitl [Hr]; · iexact Hr
    iexact Hp
  hout c := by
    rw [Pipeline.ownSems0_none, show (pdatsH m ρ 1 c).Φ (Fin.last _) = (dat1 (V3 m ρ) c).Φ (Fin.last cfg1.N) from rfl]
    have h1 := hout1 (V3 m ρ) c
    unfold Pipeline.ΦA at h1
    iintro Hf
    ihave H := h1 $$ Hf
    icases H with ⟨Hr, Hp⟩
    isplitl [Hp]; · iexact Hp
    isplitr; · iempintro
    iexact Hr
  hexit c := by
    have hjoin := Pipeline.unscopedBufs_of_arrays (p := 1) (pcfgs (F := F)) admH (Ix := Unit) (Name := ℕ) (U := UR sig nD τ) (Lvl := ℕ)
      launch1.win launch1.arr_whole c (pdatsH m ρ) ((pdatsH m ρ 1 c).share_full fun _ => rfl)
      (V3 m ρ c) (V4 m ρ c) ((pdatsH m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The last linear region over the thread state: entered from every unscoped buffer at `W5`, left at `W6`. -/
def reg2 : Pipeline.RegionSeg (pcfgs (F := F)) admH (pdatsH m ρ) () defs₀ 𝒱H LH lvH 2 where
  win := launch2.win.to₀
  block_pos := launch2.block_pos
  stage_whole := launch2.stage_whole
  K := PEmpty
  osem k := k.elim
  ho := Pipeline.OwnSemFacts.none _
  hbody c := (body_obligation2 (V5 m ρ) c).loose
  hwaits := Pipeline.hwaits_of_owed_zero _ _ _ _ LH lvH 2 fun _ _ => rfl
  pre c := iprop(StableHlo.held (c : Thread nD τ) (Pipeline.ucRefs τ sig) (W5 m ρ c) ∗ RH c)
  post c := iprop(StableHlo.held (c : Thread nD τ) (Pipeline.ucRefs τ sig) (W6 m ρ c) ∗ RH c)
  X c := iprop(∃ r, prngReg c r)
  Y c := iprop(∃ r, prngReg c r)
  Z c := Pipeline.unscopedRest (Ix := Unit) (Name := ℕ) (U := UR sig nD τ) (Lvl := ℕ) spec2 c (V5 m ρ c)
  hentry c := by
    rw [Pipeline.ownSems0_none]
    have hsplit := Pipeline.arrays_of_unscopedBufs (p := 2) (pcfgs (F := F)) admH (pdatsH m ρ) launch2.win launch2.arr_whole c
      ((pdatsH m ρ 2 c).share_full fun _ => rfl) (V5 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdatsH m ρ 2 c).Φ 0 = Pipeline.ΦA spec2 c from rfl]; unfold Pipeline.ΦA
    iintro ⟨Hp, -, Hr⟩
    isplitl [Hr]; · iexact Hr
    iexact Hp
  hout c := by
    rw [Pipeline.ownSems0_none, show (pdatsH m ρ 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) admH (Ix := Unit) (Name := ℕ) (U := UR sig nD τ) (Lvl := ℕ)
      launch2.win launch2.arr_whole c (pdatsH m ρ) ((pdatsH m ρ 2 c).share_full fun _ => rfl)
      (V5 m ρ c) (V6 m ρ c) ((pdatsH m ρ 2 c).arrAt · cfg2.N) (hF2 m ρ c) (hrest2 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## @main as segments, and the launch -/

/-- @main's seven segments in order. -/
abbrev segsH : List (Pipeline.Seg (pcfgs (F := F)) admH (pdatsH m ρ) () defs₀ 𝒱H LH lvH) :=
  [ .host (hsegH hostOps0 hostOps0_sub hostOps0_freshH (W0 m ρ)),
    .region (reg0 m ρ),
    .host (hsegH hostOps1 hostOps1_sub hostOps1_freshH (W2 m ρ)),
    .region (reg1 m ρ),
    .host (hsegH hostOps2 hostOps2_sub hostOps2_freshH (W4 m ρ)),
    .region (reg2 m ρ),
    .host (hsegH hostOps3 hostOps3_sub hostOps3_freshH (W6 m ρ)) ]
/-- @main is the run of the segments. -/
theorem main_runH (c : Dev nD) : main (F := F) c = Pipeline.Seg.run (segsH m ρ) := (main_chain c).trans (by chain_rfl)

set_option backward.isDefEq.respectTransparency.types false in
/-- **The run.**  From any memory with zero counters, every weakly fair execution of @main on the TensorCores
    terminates, nothing faulting, and every final state holds every unscoped buffer at the last boundary's
    contents `W7`: the arguments (which no item writes) and the result among them. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W7 m ρ c b) :=
  Pipeline.θ_run_regions_kit (pcfgs (F := F)) admH (pdatsH m ρ) () cellOf_inj emb₁ defs₀ 𝒱H LH lvH m ρ main (segsH m ρ)
    (fun c Q => by rw [main_runH m ρ c])
    (by simp only [segsH, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ RH c)) (Tₙ := TnH m ρ)
    (hch := ⟨fun _ => .rfl, fun _ => .rfl, fun _ => .rfl, fun _ => .rfl, fun _ => .rfl, fun _ => .rfl, fun _ => .rfl, fun c => by
      show iprop(StableHlo.held (c : Thread nD τ) (Pipeline.ucRefs τ sig) (W7 m ρ c) ∗ RH c) ⊢ _
      iintro ⟨Hh, Hp, HO⟩
      isplitr [HO]
      · isplitl [Hh]; · iexact Hh
        iexact Hp
      iexact HO⟩)
    (hinit := by
      refine Pipeline.initEach LH lvH fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W7 m ρ c b)
    (hfin := fun c s' => by
      iintro ⟨⟨Hh, -⟩, HSI⟩
      unfold StableHlo.held
      imodintro
      iapply (pointsTo_read_all (Pipeline.ucRefs τ sig) (fun b => (((c : Thread nD τ)).1, b)) (W7 m ρ c) s')
      isplitl [Hh] <;> iassumption)
    (hQ := fun s h => h)

end Cert.Kernel.Hand

end
-- ==== Proof.KernelHostKept.lean ====
/- Each stretch of host operations of @main leaves every array it does not write as it found it.  A stretch is a
   list of operations, each writing exactly one array (its result); an array that is no operation's result holds after
   the stretch what it held before.  Stated for any float instance and any valuation of the buffers before the stretch,
   one lemma per stretch quantified over the array, with the list of the arrays the stretch writes. -/
import proofs.«180477_j74028056314061_2_alg».proof.Proof.Gen.Kernel.Launch
import Idealize.ShloMosaic.Lib.StableHlo.Run

noncomputable section

namespace Cert.Kernel.Hand

open Cert.Kernel Cert.Kernel.Gen
open Idealize.ShloMosaic Idealize.ShloMosaic.TcCoe

variable {F : FTy → Type} [FloatOps F]

/-- The arrays stretch 0 writes: the merged rows, the three transposed weights, the fused weight before and after its conversion, the fused bias and its one-row form. -/
abbrev keptW0 : List (Ref sig .tc) := [main_v0, main_v1, main_v2, main_v3, main_v4, main_v5, main_v6, main_v7]

/-- Every operation of stretch 0 writes one of them. -/
theorem kept0_writes : (hostOps0 : List (HloOp τ sig (Elt F))).Forall fun op =>
    op.writes ⊆ (keptW0.map (Proc.devRef (τ := τ) .tc)).toFinset := by
  simp only [List.Forall]
  refine ⟨?_, ?_, ?_, ?_, ?_, ?_, ?_, ?_⟩ <;>
    (simp only [StableHlo.nullary_writes, StableHlo.unary_writes, StableHlo.binary_writes, StableHlo.ternary_writes,
      StableHlo.quaternary_writes, StableHlo.reshape_writes, StableHlo.binaryIndexed_writes, StableHlo.unaryIndexed_writes,
      StableHlo.nary_writes, Finset.singleton_subset_iff, List.mem_toFinset];
     exact List.mem_map_of_mem (by decide))

/-- Stretch 0 leaves every other array as it found it. -/
theorem kept0 (W : Valuation τ sig (Elt F)) (b : Ref sig .tc)
    (hb : b ∉ ([main_v0, main_v1, main_v2, main_v3, main_v4, main_v5, main_v6, main_v7] : List (Ref sig .tc))) :
    StableHlo.after (hostOps0 (F := F)) W (Proc.devRef .tc b) = W (Proc.devRef .tc b) :=
  StableHlo.after_of_writes_sub hostOps0 W kept0_writes hb

/-- The arrays stretch 1 writes: the three column bands of the fused product and their batched forms. -/
abbrev keptW1 : List (Ref sig .tc) := [main_v9, main_v10, main_v11, main_v12, main_v13, main_v14]

/-- Every operation of stretch 1 writes one of them. -/
theorem kept1_writes : (hostOps1 : List (HloOp τ sig (Elt F))).Forall fun op =>
    op.writes ⊆ (keptW1.map (Proc.devRef (τ := τ) .tc)).toFinset := by
  simp only [List.Forall]
  refine ⟨?_, ?_, ?_, ?_, ?_, ?_⟩ <;>
    (simp only [StableHlo.nullary_writes, StableHlo.unary_writes, StableHlo.binary_writes, StableHlo.ternary_writes,
      StableHlo.quaternary_writes, StableHlo.reshape_writes, StableHlo.binaryIndexed_writes, StableHlo.unaryIndexed_writes,
      StableHlo.nary_writes, Finset.singleton_subset_iff, List.mem_toFinset];
     exact List.mem_map_of_mem (by decide))

/-- Stretch 1 leaves every other array as it found it. -/
theorem kept1 (W : Valuation τ sig (Elt F)) (b : Ref sig .tc)
    (hb : b ∉ ([main_v9, main_v10, main_v11, main_v12, main_v13, main_v14] : List (Ref sig .tc))) :
    StableHlo.after (hostOps1 (F := F)) W (Proc.devRef .tc b) = W (Proc.devRef .tc b) :=
  StableHlo.after_of_writes_sub hostOps1 W kept1_writes hb

/-- The arrays stretch 2 writes: the merged attention output, the transposed output weight before and after its conversion, the one-row output bias. -/
abbrev keptW2 : List (Ref sig .tc) := [main_v16, main_v17, main_v18, main_v19]

/-- Every operation of stretch 2 writes one of them. -/
theorem kept2_writes : (hostOps2 : List (HloOp τ sig (Elt F))).Forall fun op =>
    op.writes ⊆ (keptW2.map (Proc.devRef (τ := τ) .tc)).toFinset := by
  simp only [List.Forall]
  refine ⟨?_, ?_, ?_, ?_⟩ <;>
    (simp only [StableHlo.nullary_writes, StableHlo.unary_writes, StableHlo.binary_writes, StableHlo.ternary_writes,
      StableHlo.quaternary_writes, StableHlo.reshape_writes, StableHlo.binaryIndexed_writes, StableHlo.unaryIndexed_writes,
      StableHlo.nary_writes, Finset.singleton_subset_iff, List.mem_toFinset];
     exact List.mem_map_of_mem (by decide))

/-- Stretch 2 leaves every other array as it found it. -/
theorem kept2 (W : Valuation τ sig (Elt F)) (b : Ref sig .tc)
    (hb : b ∉ ([main_v16, main_v17, main_v18, main_v19] : List (Ref sig .tc))) :
    StableHlo.after (hostOps2 (F := F)) W (Proc.devRef .tc b) = W (Proc.devRef .tc b) :=
  StableHlo.after_of_writes_sub hostOps2 W kept2_writes hb

/-- The arrays stretch 3 writes: the batched result. -/
abbrev keptW3 : List (Ref sig .tc) := [main_v21]

/-- Every operation of stretch 3 writes one of them. -/
theorem kept3_writes : (hostOps3 : List (HloOp τ sig (Elt F))).Forall fun op =>
    op.writes ⊆ (keptW3.map (Proc.devRef (τ := τ) .tc)).toFinset := by
  simp only [List.Forall]
  (simp only [StableHlo.nullary_writes, StableHlo.unary_writes, StableHlo.binary_writes, StableHlo.ternary_writes,
      StableHlo.quaternary_writes, StableHlo.reshape_writes, StableHlo.binaryIndexed_writes, StableHlo.unaryIndexed_writes,
      StableHlo.nary_writes, Finset.singleton_subset_iff, List.mem_toFinset];
     exact List.mem_map_of_mem (by decide))

/-- Stretch 3 leaves every other array as it found it. -/
theorem kept3 (W : Valuation τ sig (Elt F)) (b : Ref sig .tc)
    (hb : b ∉ ([main_v21] : List (Ref sig .tc))) :
    StableHlo.after (hostOps3 (F := F)) W (Proc.devRef .tc b) = W (Proc.devRef .tc b) :=
  StableHlo.after_of_writes_sub hostOps3 W kept3_writes hb

/-! ## The arguments -/

/-- No stretch writes an argument: each of the nine is in none of the four lists. -/
theorem args_not_written (b : Ref sig .tc)
    (hb : b ∈ ([main_arg0, main_arg1, main_arg2, main_arg3, main_arg4, main_arg5, main_arg6, main_arg7, main_arg8] :
      List (Ref sig .tc))) :
    b ∉ keptW0 ∧ b ∉ keptW1 ∧ b ∉ keptW2 ∧ b ∉ keptW3 := by
  revert b
  decide

end Cert.Kernel.Hand
-- ==== Proof.KernelEnds.lean ====
/-
  What the run ends with.  No host stretch writes an argument array and no region's output window is an
  argument, so at the last boundary each of the nine argument buffers holds its launch contents: the
  program's frame.
-/
import proofs.«180477_j74028056314061_2_alg».proof.Proof.KernelRun
import proofs.«180477_j74028056314061_2_alg».proof.Proof.KernelHostKept

set_option maxRecDepth 16384

noncomputable section

namespace Cert.Kernel.Hand

open Cert.Kernel Cert.Kernel.Gen
open Idealize.ShloMosaic Idealize.ShloMosaic.TcCoe
open Idealize.SL Idealize.SL.Sem

variable {F : FTy → Type} [FloatOps F]

variable (m : (ℓ : Loc nD τ sig) → Buf (Elt F) ℓ) (ρ : Dev nD → PrngReg)

/-- The first region's windows are the reshaped x, the fused weight, the fused bias and the fused product. -/
theorem arr0_ne (b : Ref sig .tc) (hb : b ∉ ([main_v0, main_v5, main_v7, main_v8] : List (Ref sig .tc))) :
    ∀ w, Pipeline.arrRef spec0 w ≠ b := by
  intro w e
  fin_cases w <;> (subst e; simp at hb)

/-- The attention region's windows are the three batched bands and the attention output. -/
theorem arr1_ne (b : Ref sig .tc) (hb : b ∉ ([main_v12, main_v13, main_v14, main_v15] : List (Ref sig .tc))) :
    ∀ w, Pipeline.arrRef spec1 w ≠ b := by
  intro w e
  fin_cases w <;> (subst e; simp at hb)

/-- The last region's windows are the merged attention output, the transposed output weight, its bias row and the product. -/
theorem arr2_ne (b : Ref sig .tc) (hb : b ∉ ([main_v16, main_v18, main_v19, main_v20] : List (Ref sig .tc))) :
    ∀ w, Pipeline.arrRef spec2 w ≠ b := by
  intro w e
  fin_cases w <;> (subst e; simp at hb)

/-- An argument buffer holds its launch contents at the last boundary. -/
theorem W7_arg (c : Dev nD) (b : Ref sig .tc)
    (hb : b ∈ ([main_arg0, main_arg1, main_arg2, main_arg3, main_arg4, main_arg5, main_arg6, main_arg7, main_arg8] : List (Ref sig .tc))) :
    W7 m ρ c (Proc.devRef .tc b) = m ((c : Thread nD τ).loc b) := by
  obtain ⟨h0, h1, h2, h3⟩ := args_not_written b hb
  have hn0 : b ∉ ([main_v0, main_v5, main_v7, main_v8] : List (Ref sig .tc)) := by
    simp only [List.mem_cons, List.mem_nil_iff, or_false] at hb ⊢
    rcases hb with rfl | rfl | rfl | rfl | rfl | rfl | rfl | rfl | rfl <;> decide
  have hn1 : b ∉ ([main_v12, main_v13, main_v14, main_v15] : List (Ref sig .tc)) := by
    simp only [List.mem_cons, List.mem_nil_iff, or_false] at hb ⊢
    rcases hb with rfl | rfl | rfl | rfl | rfl | rfl | rfl | rfl | rfl <;> decide
  have hn2 : b ∉ ([main_v16, main_v18, main_v19, main_v20] : List (Ref sig .tc)) := by
    simp only [List.mem_cons, List.mem_nil_iff, or_false] at hb ⊢
    rcases hb with rfl | rfl | rfl | rfl | rfl | rfl | rfl | rfl | rfl <;> decide
  calc W7 m ρ c (Proc.devRef .tc b)
      _ = W6 m ρ c (Proc.devRef .tc b) := kept3 _ b h3
      _ = W5 m ρ c (Proc.devRef .tc b) := W6_of_ne m ρ c b (arr2_ne b hn2)
      _ = W4 m ρ c (Proc.devRef .tc b) := kept2 _ b h2
      _ = W3 m ρ c (Proc.devRef .tc b) := W4_of_ne m ρ c b (arr1_ne b hn1)
      _ = W2 m ρ c (Proc.devRef .tc b) := kept1 _ b h1
      _ = W1 m ρ c (Proc.devRef .tc b) := W2_of_ne m ρ c b (arr0_ne b hn0)
      _ = W0 m ρ c (Proc.devRef .tc b) := kept0 _ b h0
      _ = m ((c : Thread nD τ).loc b) := rfl

/-- An argument is an unscoped TensorCore reference. -/
theorem arg_uc (b : Ref sig .tc)
    (hb : b ∈ ([main_arg0, main_arg1, main_arg2, main_arg3, main_arg4, main_arg5, main_arg6, main_arg7, main_arg8, main_v21] : List (Ref sig .tc))) :
    Proc.devRef .tc b ∈ Pipeline.ucRefs τ sig := by
  simp only [List.mem_cons, List.mem_nil_iff, or_false] at hb
  rcases hb with rfl | rfl | rfl | rfl | rfl | rfl | rfl | rfl | rfl | rfl <;> exact mem_ucH _ (by decide)

/-- **The frame**: every weakly fair execution terminates, nothing faults, and the nine argument arrays end as
    launched; and the result buffer ends at the last boundary's contents. -/
theorem run_ends : θ_run defs (onTc (τ := τ) (main (F := F))) ⟨m, fun _ => 0, ρ⟩ (fun r => ∀ c : Dev nD,
      r.2.mem ((c.tc : Thread nD τ).loc main_v21) = W7 m ρ c (Proc.devRef .tc main_v21)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  (θ_run defs _ _).mono (fun r h c =>
    ⟨h c _ (arg_uc main_v21 (by decide)),
     (h c _ (arg_uc main_arg0 (by decide))).trans (W7_arg m ρ c main_arg0 (by decide)),
     (h c _ (arg_uc main_arg1 (by decide))).trans (W7_arg m ρ c main_arg1 (by decide)),
     (h c _ (arg_uc main_arg2 (by decide))).trans (W7_arg m ρ c main_arg2 (by decide)),
     (h c _ (arg_uc main_arg3 (by decide))).trans (W7_arg m ρ c main_arg3 (by decide)),
     (h c _ (arg_uc main_arg4 (by decide))).trans (W7_arg m ρ c main_arg4 (by decide)),
     (h c _ (arg_uc main_arg5 (by decide))).trans (W7_arg m ρ c main_arg5 (by decide)),
     (h c _ (arg_uc main_arg6 (by decide))).trans (W7_arg m ρ c main_arg6 (by decide)),
     (h c _ (arg_uc main_arg7 (by decide))).trans (W7_arg m ρ c main_arg7 (by decide)),
     (h c _ (arg_uc main_arg8 (by decide))).trans (W7_arg m ρ c main_arg8 (by decide))⟩)
    (run_all m ρ)

end Cert.Kernel.Hand

end
-- ==== Proof.IdealRegion0.lean ====
/- The separation-logic half of REGION 0 of @main (custom_call 0, the linear kernel of pipeline 0: a block of
   rows times the whole weight, plus the bias row, rounded to bf16), at a PARAMETER V — the TensorCore's buffer
   contents when the region is entered. Each window's block at a point (iblk0); what the body leaves in the output
   window's staging buffer as a function of the three input blocks (out0_3, equal to the skeleton's payload
   k0_pay1 of them: out0_3_eq); the body's triple (sound_kernel0); the pipeline's proof data (dat0) and the body
   obligation at every point (body_obligation0). The class is the plainest: one control case, whole-buffer loads,
   one whole-buffer store, no scratch and no semaphore. -/
import proofs.«180477_j74028056314061_2_alg».proof.Proof.Gen.KernelIdeal.Launch
import proofs.«180477_j74028056314061_2_alg».proof.Proof.Gen.KernelIdeal.Skeleton
import proofs.«180477_j74028056314061_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

-- membership in a rectangle of production extents (View.cover_of_tiled): the elaborator's structural look
-- recurses once per coordinate of the long axes
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

-- the TensorCore's buffer contents when the region is entered: the parameter every statement below is made at
variable (V : (c : Dev nD) → (b : Ref sig .tc) → Buf (Elt F) ((c : Thread nD τ).loc b))

/-! ## The windows' blocks -/

/-- Window w's block at point t, read off its array as the region finds it (V). -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0 (the rows' block, fetched at every point): its current staging buffer holds its block at every
    point, for ANY proof data whose array is V's and whose body leaves the block in place. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- Input window 1 (the whole weight, fetched at the first point only): unfetched, its block index has not moved,
    so its staging buffer holds its block at every point all the same. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- Input window 2 (the bias row, fetched at the first point only): as window 1. -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-! ## The body's accesses: each staging buffer whole, through the unit rectangle at zero offsets -/

abbrev r0_0 : Rect S512x1024 := Rect.unit (s := S512x1024) ![0, 0] S512x1024.size inb_S512x1024_S512x1024_0_0
abbrev r0_1 : Rect S1024x3072 := Rect.unit (s := S1024x3072) ![0, 0] S1024x3072.size inb_S1024x3072_S1024x3072_0_0
abbrev r0_2 : Rect S1x3072 := Rect.unit (s := S1x3072) ![0, 0] S1x3072.size inb_S1x3072_S1x3072_0_0
abbrev r0_3 : Rect S512x3072 := Rect.unit (s := S512x3072) ![0, 0] S512x3072.size inb_S512x3072_S512x3072_0_0

/-! ## What the body leaves in the output window's buffer -/

/-- Window 3's staging buffer after the body, from the input windows' blocks: its one store as a piece, the payload
    the skeleton's, applied to what the three loads read. -/
def out0_3 (x0 : Vec F S512x1024 .f32) (x1 : Vec F S1024x3072 .bf16) (x2 : Vec F S1x3072 .f32) : Vec F S512x3072 .bf16 :=
  View.canon [⟨r0_3, k0_pay1 (View.ld x0 r0_0) (View.ld x1 r0_1) (View.ld x2 r0_2)⟩]

/-- The offsets of every access of the body are zero. -/
theorem off0_zero : (![0, 0] : Fin 2 → Nat) = fun _ => 0 := by
  funext a; fin_cases a <;> rfl

/-- One whole-buffer store leaves its payload, and a whole-buffer load reads the contents: the output buffer is the
    payload of the three input blocks. -/
theorem out0_3_eq (x0 : Vec F S512x1024 .f32) (x1 : Vec F S1024x3072 .bf16) (x2 : Vec F S1x3072 .f32) :
    out0_3 x0 x1 x2 = k0_pay1 x0 x1 x2 := by
  unfold out0_3
  rw [View.canon_unit_zero off0_zero]
  rw [View.ld_unit_zero (S := S512x1024) off0_zero, View.ld_unit_zero (S := S1024x3072) off0_zero,
    View.ld_unit_zero (S := S1x3072) off0_zero]

/-- The store tiles the buffer (checked by evaluation), so it covers it. -/
theorem cover0_3 (p0 : Vec F S512x3072 .bf16) (y : S512x3072.Idx) :
    ∃ pc ∈ ([⟨r0_3, p0⟩] : List (View.Piece (Elt F) S512x3072 .bf16)), y ∈ pc.1.set :=
  View.cover_of_tiled [⟨r0_3, p0⟩] S512x3072.size (by rfl) y

/-! ## The body's triple -/

set_option maxHeartbeats 1000000 in
/-- The kernel body on whole staging memrefs, the inputs' at read contents x0, x1, x2 and the output's at anything,
    runs to the continuation holding the inputs' as they were and the output's at out0_3 of the inputs': the printed
    function is its skeleton, three loads of the inputs, a load of the output buffer (its value unused) and the one
    store. -/
theorem sound_kernel0 (c : Dev nD) (E : Set ℕ) (i : grid0.Coords)
    (arg1 : Memref sig .tc .vmem S512x1024 .f32) (harg1 : arg1.IsWhole)
    (arg2 : Memref sig .tc .vmem S1024x3072 .bf16) (harg2 : arg2.IsWhole)
    (arg3 : Memref sig .tc .vmem S1x3072 .f32) (harg3 : arg3.IsWhole)
    (arg4 : Memref sig .tc .vmem S512x3072 .bf16) (harg4 : arg4.IsWhole)
    (x0 : Vec F S512x1024 .f32) (x1 : Vec F S1024x3072 .bf16) (x2 : Vec F S1x3072 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (out0_3 x0 x1 x2)) -∗ K ⟨⟩))
      ⊢ wp frame (wpE (defs₀ (F := F)) Variants.none c none) E (cc0__linear_kernel i arg1 harg1 arg2 harg2 arg3 harg3 arg4 harg4) K := by
  simp only [cc0__linear_kernel_eq_skeleton]; unfold cc0__linear_kernel_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover0_3 _)

/-! ## The pipeline's proof data -/

/-- The proof data of pipeline 0 on core c: the arrays as the region finds them (V); after the body at point t each
    input's buffer at its block and the output's at out0_3 of the input blocks; the invariant the class's (the scoped
    rest and the generator register, untouched); nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => out0_3 (iblk0 V c 0 t) (iblk0 V c 1 t) (iblk0 V c 2 t)
  Φ _ := Pipeline.ΦA spec0 c
  q _ := fullShare
  owed _ := 0

/-- The proof data's arrays are the region-entry contents. -/
theorem A_eq0 (c : Dev nD) (w : Fin cfg0.W) : (dat0 V c).A w = V c (Pipeline.arrRef spec0 w) := by
  dsimp only [dat0]

/-- What the body leaves, window by window. -/
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) :
    (dat0 V c).after 3 t = out0_3 (iblk0 V c 0 t) (iblk0 V c 1 t) (iblk0 V c 2 t) := by dsimp only [dat0]

/-- The invariant is the class's at every index. -/
theorem Phi0 (c : Dev nD) (j) : (dat0 V c).Φ j = Pipeline.ΦA spec0 c := by dsimp only [dat0]

/-- Each input's current staging buffer holds its block at every point, fetched there or not. -/
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d

/-! ## The body obligation, at a generic point -/

/-- What the body is called with at point t (the obligation's precondition, the windows one by one), -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t))

/-- The body at any point: the inputs' memrefs hold their blocks, so the body's triple applies; the invariant and the
    core's debt pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2]
  rw [show (dat0 V c).Φ t.succ = (dat0 V c).Φ t.castSucc from rfl,
    show (dat0 V c).owesAt () t.succ = (dat0 V c).owesAt () t.castSucc from rfl,
    after0_0, after0_1, after0_2, after0_3]
  iintro ⟨HΦ, Ho, ⟨%d0, H0⟩, ⟨%d1, H1⟩, ⟨%d2, H2⟩, ⟨%d3, H3⟩⟩
  iapply (sound_kernel0 c Set.univ (grid0.coords t) _ _ _ _ _ _ _ _ (iblk0 V c 0 t) (iblk0 V c 1 t) (iblk0 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The library's body obligation, at every point. -/
theorem body_obligation0 (c : Dev nD) : BodyObligation (dat0 (F := F) V c) (defs₀ (F := F)) Variants.none () Set.univ := fun t => by
  rw [bigSep_W0, bigSep_W0]
  exact sound_body0 V c t

end Cert.KernelIdeal.Hand

end
-- ==== Proof.IdealRegion1Base.lean ====
import proofs.«180477_j74028056314061_2_alg».proof.Proof.Gen.KernelIdeal.Launch
import proofs.«180477_j74028056314061_2_alg».proof.Proof.Gen.KernelIdeal.Skeleton
import proofs.«180477_j74028056314061_2_alg».proof.Proof.Gen.KernelIdeal.Points
import Idealize.ShloMosaic.Lib.Pipeline.FrameBody
import Idealize.ShloMosaic.Lib.Pipeline.Value
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

/-! # Region 1 (the attention kernel): what its five control cases share -/

/-! ## The body's branch conditions, from the grid coordinates -/

/-- The first conditional's condition: the key-block coordinate is zero. -/
abbrev cond1_0 (i : grid1.Coords) : Prop :=
  (Scalar.cmpi .ne (Scalar.extui (Scalar.cmpi .eq (BitVec.ofNat 32 (i 2).val) 0#32)) 0#32) = 1#1
/-- The second conditional's condition: the key-block coordinate is at most the query-block coordinate. -/
abbrev cond1_1 (i : grid1.Coords) : Prop :=
  (Scalar.cmpi .ne (Scalar.extui (Scalar.cmpi .sle (BitVec.ofNat 32 (i 2).val) (BitVec.ofNat 32 (i 1).val))) 0#32) = 1#1
/-- The third conditional's condition: the key-block coordinate is the last. -/
abbrev cond1_2 (i : grid1.Coords) : Prop := k1_cond3 i = 1#1

/-- The first holds at the points ≡ 0 (mod 4). -/
theorem hcond1_0 : ∀ t : Fin cfg1.N, cond1_0 (grid1.coords t) ↔ t.val % 4 = 0 :=
  (by decide +kernel : ∀ t : Fin grid1.N, cond1_0 (grid1.coords t) ↔ t.val % 4 = 0)
/-- The second holds where the key-block coordinate (t mod 4) is at most the query-block coordinate (t / 4 mod 4). -/
theorem hcond1_1 : ∀ t : Fin cfg1.N, cond1_1 (grid1.coords t) ↔ t.val % 4 ≤ (t.val / 4) % 4 :=
  (by decide +kernel : ∀ t : Fin grid1.N, cond1_1 (grid1.coords t) ↔ t.val % 4 ≤ (t.val / 4) % 4)
/-- The third holds at the points ≡ 3 (mod 4). -/
theorem hcond1_2 : ∀ t : Fin cfg1.N, cond1_2 (grid1.coords t) ↔ t.val % 4 = 3 :=
  (by decide +kernel : ∀ t : Fin grid1.N, cond1_2 (grid1.coords t) ↔ t.val % 4 = 3)

/-! ## Where the windows are idle -/

theorem liveAt1_0 : ∀ t : Fin cfg1.N, cfg1.idle 0 (grid1.coords t) = false := by decide +kernel
theorem liveAt1_1 : ∀ t : Fin cfg1.N, cfg1.idle 1 (grid1.coords t) = false := by decide +kernel
theorem liveAt1_2 : ∀ t : Fin cfg1.N, cfg1.idle 2 (grid1.coords t) = false := by decide +kernel
/-- Where the third conditional is not taken the output window is idle, -/
theorem idleAt1_3 : ∀ t : Fin cfg1.N, ¬cond1_2 (grid1.coords t) → cfg1.idle 3 (grid1.coords t) = true := by decide +kernel
/-- and its block is not written back there; -/
theorem noFlush1_3 : ∀ t : Fin cfg1.N, ¬cond1_2 (grid1.coords t) → (cfg1.win 3).flush t = false := by decide +kernel
/-- where it is taken the window is live. -/
theorem liveAt1_3 : ∀ t : Fin cfg1.N, cond1_2 (grid1.coords t) → cfg1.idle 3 (grid1.coords t) = false := by decide +kernel

/-! ## The memrefs the body is called with -/

abbrev ms1_0 (t : Fin cfg1.N) : Memref sig .tc .vmem S1x512x1024 .bf16 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S1x512x1024 .bf16 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S1x512x1024 .bf16 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S1x512x1024 .bf16 := win1_3.stage (cfg1.slots t 3)
abbrev hs1_3 (t : Fin cfg1.N) : (ms1_3 t).IsWhole := hstage1_3 ((cfg1.slots t 3).cast nbuf1_3)
/-- The scratch operands: the accumulator, the running maximum, the running normaliser. -/
abbrev scM1_0 : Memref sig .tc .vmem S512x1024 .f32 := Memref.whole cc1_scratch0
abbrev scM1_1 : Memref sig .tc .vmem S512x1 .f32 := Memref.whole cc1_scratch1
abbrev scM1_2 : Memref sig .tc .vmem S512x1 .f32 := Memref.whole cc1_scratch2

/-! ## The carried state as pure functions of the payloads -/

/-- The carried state: the accumulator, the running maximum, the running normaliser. -/
abbrev St1 : Type := Vec F S512x1024 .f32 × Vec F S512x1 .f32 × Vec F S512x1 .f32

/-- What the first conditional stores: a zero accumulator, a running maximum of minus infinity, a zero normaliser. -/
def init1 : St1 (F := F) := (k1_pay3, k1_pay1, k1_pay2)

/-- What the second conditional leaves from the state `s` and the blocks `q`, `k`, `v` at the coordinates `i`:
    the online-softmax step. -/
def step1 (i : grid1.Coords) (q k v : Vec F S1x512x1024 .bf16) (s : St1 (F := F)) : St1 (F := F) :=
  (k1_pay4 (k1_pay7 v) (k1_pay10 (BitVec.ofNat 32 (i 1).val) (BitVec.ofNat 32 (i 2).val) q k s.2.1)
      (k1_pay11 (BitVec.ofNat 32 (i 1).val) (BitVec.ofNat 32 (i 2).val) q k s.2.1) s.1,
   k1_pay5 (k1_pay9 (BitVec.ofNat 32 (i 1).val) (BitVec.ofNat 32 (i 2).val) q k s.2.1),
   k1_pay12 (BitVec.ofNat 32 (i 1).val) (BitVec.ofNat 32 (i 2).val) q k s.2.1 s.2.2)

/-! ## Whole-buffer loads and stores -/

theorem hz2 : (![0, 0] : Fin 2 → Nat) = fun _ => 0 := by funext a; fin_cases a <;> rfl
theorem hz3 : (![0, 0, 0] : Fin 3 → Nat) = fun _ => 0 := by funext a; fin_cases a <;> rfl

/-- A store through the whole-shape rectangle at zero offsets, last, leaves its payload whatever the earlier stores
    and the prior contents were. -/
theorem read_writes_unit_zero {Val : EltTy → Type} {sig' : RefSig} {κ' : Kind} {sp' : Space} {S : Shape} {e : EltTy}
    (v : View sig' κ' sp' S e) (f : v.ty.Contents Val) {off : Fin S.rank → Nat} (h : off = fun _ => 0)
    (inb : ∀ a, off a + S.size a ≤ S.size a) (w : S.Idx → Val e) (L : List (View.Piece Val S e)) :
    v.read Val (v.writes Val f ((⟨Rect.unit off S.size inb, w⟩ : View.Piece Val S e) :: L)) = w := by
  subst h; funext y
  have e := View.read_writes_cons_emb v f (Rect.whole S) w L y
  rw [Rect.emb_whole_apply] at e
  exact e

/-! ## The region invariant's scoped rest, the three scratch buffers taken out -/

/-- The core's scoped buffers that are neither a staging buffer of this call nor one of its three scratch buffers,
    each whole at some contents. -/
def others1 (c : Dev nD) : sProp 𝕄 :=
  iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg3_1), ((c : Thread nD τ).loc cc0_stg3_1) ↦{fullShare} f) ∗ (∃ f : Buf (Elt F) ((c : Thread nD τ).loc cc2_stg0_0), ((c : Thread nD τ).loc cc2_stg0_0) ↦{fullShare} f) ∗ (∃ f : Buf (Elt F) ((c : Thread nD τ).loc cc2_stg0_1), ((c : Thread nD τ).loc cc2_stg0_1) ↦{fullShare} f) ∗ (∃ f : Buf (Elt F) ((c : Thread nD τ).loc cc2_stg1_0), ((c : Thread nD τ).loc cc2_stg1_0) ↦{fullShare} f) ∗ (∃ f : Buf (Elt F) ((c : Thread nD τ).loc cc2_stg2_0), ((c : Thread nD τ).loc cc2_stg2_0) ↦{fullShare} f) ∗ (∃ f : Buf (Elt F) ((c : Thread nD τ).loc cc2_stg3_0), ((c : Thread nD τ).loc cc2_stg3_0) ↦{fullShare} f) ∗ (∃ f : Buf (Elt F) ((c : Thread nD τ).loc cc2_stg3_1), ((c : Thread nD τ).loc cc2_stg3_1) ↦{fullShare} f))

/-- The region invariant gives the three scratch buffers at some contents, the other scoped buffers and the
    generator register, -/
theorem PhiA1_split (c : Dev nD) :
    (Pipeline.ΦA spec1 c : sProp 𝕄) ⊢ iprop((∃ d, owns (c : Thread nD τ) scM1_0 fullShare d) ∗ (∃ d, owns (c : Thread nD τ) scM1_1 fullShare d)
      ∗ (∃ d, owns (c : Thread nD τ) scM1_2 fullShare d) ∗ others1 (F := F) c ∗ (∃ r, prngReg c r)) := by
  unfold Pipeline.ΦA others1; rw [scopedRest1_eq]; simp only [scM1_0, scM1_1, scM1_2, owns_whole]
  iintro ⟨⟨A1, A2, A3, A4, A5, A6, S0, S1, S2, B1, B2, B3, B4, B5, B6⟩, Hg⟩
  isplitl [S0]; · iexact S0
  isplitl [S1]; · iexact S1
  isplitl [S2]; · iexact S2
  isplitr [Hg]
  · isplitl [A1]; · iexact A1
    isplitl [A2]; · iexact A2
    isplitl [A3]; · iexact A3
    isplitl [A4]; · iexact A4
    isplitl [A5]; · iexact A5
    isplitl [A6]; · iexact A6
    isplitl [B1]; · iexact B1
    isplitl [B2]; · iexact B2
    isplitl [B3]; · iexact B3
    isplitl [B4]; · iexact B4
    isplitl [B5]; · iexact B5
    iexact B6
  iexact Hg

/-- and takes them back. -/
theorem PhiA1_join (c : Dev nD) :
    iprop((∃ d, owns (c : Thread nD τ) scM1_0 fullShare d) ∗ (∃ d, owns (c : Thread nD τ) scM1_1 fullShare d)
      ∗ (∃ d, owns (c : Thread nD τ) scM1_2 fullShare d) ∗ others1 (F := F) c ∗ (∃ r, prngReg c r)) ⊢ (Pipeline.ΦA spec1 c : sProp 𝕄) := by
  unfold Pipeline.ΦA others1; rw [scopedRest1_eq]; simp only [scM1_0, scM1_1, scM1_2, owns_whole]
  iintro ⟨S0, S1, S2, ⟨A1, A2, A3, A4, A5, A6, B1, B2, B3, B4, B5, B6⟩, Hg⟩
  isplitr [Hg]
  · isplitl [A1]; · iexact A1
    isplitl [A2]; · iexact A2
    isplitl [A3]; · iexact A3
    isplitl [A4]; · iexact A4
    isplitl [A5]; · iexact A5
    isplitl [A6]; · iexact A6
    isplitl [S0]; · iexact S0
    isplitl [S1]; · iexact S1
    isplitl [S2]; · iexact S2
    isplitl [B1]; · iexact B1
    isplitl [B2]; · iexact B2
    isplitl [B3]; · iexact B3
    isplitl [B4]; · iexact B4
    isplitl [B5]; · iexact B5
    iexact B6
  iexact Hg

end Cert.KernelIdeal.Hand

end
-- ==== Proof.IdealRegion1RunB.lean ====
import proofs.«180477_j74028056314061_2_alg».proof.Proof.IdealRegion1Base

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

/-! # Region 1, case B: the key block is neither the first nor the last and lies at or below the diagonal -/

set_option maxHeartbeats 1000000 in
/-- Only the second conditional is taken: on whole memrefs, the query, key and value blocks at `q`, `k`, `v` and the
    scratch at the state `(a, mx, l)`, the body runs to the continuation holding the blocks as they were and the
    scratch at the online-softmax step of that state. -/
theorem run1_B (c : Dev nD) (i : grid1.Coords) (arg3 : Memref sig .tc .vmem S1x512x1024 .bf16) (harg3 : arg3.IsWhole) (arg4 : Memref sig .tc .vmem S1x512x1024 .bf16) (harg4 : arg4.IsWhole) (arg5 : Memref sig .tc .vmem S1x512x1024 .bf16) (harg5 : arg5.IsWhole) (arg6 : Memref sig .tc .vmem S1x512x1024 .bf16) (harg6 : arg6.IsWhole) (arg7 : Memref sig .tc .vmem S512x1024 .f32) (harg7 : arg7.IsWhole) (arg8 : Memref sig .tc .vmem S512x1 .f32) (harg8 : arg8.IsWhole) (arg9 : Memref sig .tc .vmem S512x1 .f32) (harg9 : arg9.IsWhole)
    (hc0 : ¬cond1_0 i) (hc1 : cond1_1 i) (hc2 : ¬cond1_2 i)
    (q k v : Vec F S1x512x1024 .bf16) (a : Vec F S512x1024 .f32) (mx l : Vec F S512x1 .f32) (E : Set ℕ) (K : PUnit → sProp 𝕄) :
    iprop(owns (c : Thread nD τ) arg3 fullShare q ∗ owns (c : Thread nD τ) arg4 fullShare k ∗ owns (c : Thread nD τ) arg5 fullShare v
        ∗ owns (c : Thread nD τ) arg7 fullShare a ∗ owns (c : Thread nD τ) arg8 fullShare mx ∗ owns (c : Thread nD τ) arg9 fullShare l
        ∗ (iprop(owns (c : Thread nD τ) arg3 fullShare q ∗ owns (c : Thread nD τ) arg4 fullShare k ∗ owns (c : Thread nD τ) arg5 fullShare v
            ∗ owns (c : Thread nD τ) arg7 fullShare (step1 i q k v (a, mx, l)).1 ∗ owns (c : Thread nD τ) arg8 fullShare (step1 i q k v (a, mx, l)).2.1
            ∗ owns (c : Thread nD τ) arg9 fullShare (step1 i q k v (a, mx, l)).2.2) -∗ K ⟨⟩))
      ⊢ wp frame (wpE (defs₀ (F := F)) Variants.none c none) E (cc1__attn_kernel i arg3 harg3 arg4 harg4 arg5 harg5 arg6 harg6 arg7 harg7 arg8 harg8 arg9 harg9) K := by
  simp only [cc1__attn_kernel_eq_skeleton, k1_part1_eq_skeleton]; unfold cc1__attn_kernel_skel
  unfold owns
  iintro ⟨⟨%f3, %hf3, H3⟩, ⟨%f4, %hf4, H4⟩, ⟨%f5, %hf5, H5⟩, ⟨%f7, %hf7, H7⟩, ⟨%f8, %hf8, H8⟩, ⟨%f9, %hf9, H9⟩, Hk⟩
  subst hf3 hf4 hf5 hf7 hf8 hf9
  sl_exec (disch := first | exact hc0 | exact hc1 | exact hc2)
  sl_step
  iapply Hk
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H7]
  · iexists _; isplitr
    swap; · iexact H7
    ipureintro
    rw [read_writes_unit_zero (S := S512x1024) _ _ hz2]
    sl_unfold_run_names
    simp only [View.readAt_eq_ld, View.ld_unit_zero (S := S512x1024) hz2, View.ld_unit_zero (S := S512x1) hz2, View.ld_unit_zero (S := S1x512x1024) hz3]
    rfl
  isplitl [H8]
  · iexists _; isplitr
    swap; · iexact H8
    ipureintro
    rw [read_writes_unit_zero (S := S512x1) _ _ hz2]
    sl_unfold_run_names
    simp only [View.readAt_eq_ld, View.ld_unit_zero (S := S512x1024) hz2, View.ld_unit_zero (S := S512x1) hz2, View.ld_unit_zero (S := S1x512x1024) hz3]
    rfl
  iexists _; isplitr
  swap; · iexact H9
  ipureintro
  rw [read_writes_unit_zero (S := S512x1) _ _ hz2]
  sl_unfold_run_names
  simp only [View.readAt_eq_ld, View.ld_unit_zero (S := S512x1024) hz2, View.ld_unit_zero (S := S512x1) hz2, View.ld_unit_zero (S := S1x512x1024) hz3]
  rfl

end Cert.KernelIdeal.Hand

end
-- ==== Proof.IdealRegion1RunA.lean ====
import proofs.«180477_j74028056314061_2_alg».proof.Proof.IdealRegion1RunB

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

/-! # Region 1, case A: the first key block of a query block -/

set_option maxHeartbeats 1000000 in
/-- The first and second conditionals are taken: on whole memrefs, the query, key and value blocks at `q`, `k`, `v` and
    the scratch at anything, the body runs to the continuation holding the blocks as they were and the scratch at the
    online-softmax step of the initial state. -/
theorem run1_A (c : Dev nD) (i : grid1.Coords) (arg3 : Memref sig .tc .vmem S1x512x1024 .bf16) (harg3 : arg3.IsWhole) (arg4 : Memref sig .tc .vmem S1x512x1024 .bf16) (harg4 : arg4.IsWhole) (arg5 : Memref sig .tc .vmem S1x512x1024 .bf16) (harg5 : arg5.IsWhole) (arg6 : Memref sig .tc .vmem S1x512x1024 .bf16) (harg6 : arg6.IsWhole) (arg7 : Memref sig .tc .vmem S512x1024 .f32) (harg7 : arg7.IsWhole) (arg8 : Memref sig .tc .vmem S512x1 .f32) (harg8 : arg8.IsWhole) (arg9 : Memref sig .tc .vmem S512x1 .f32) (harg9 : arg9.IsWhole)
    (hc0 : cond1_0 i) (hc1 : cond1_1 i) (hc2 : ¬cond1_2 i)
    (q k v : Vec F S1x512x1024 .bf16) (E : Set ℕ) (K : PUnit → sProp 𝕄) :
    iprop(owns (c : Thread nD τ) arg3 fullShare q ∗ owns (c : Thread nD τ) arg4 fullShare k ∗ owns (c : Thread nD τ) arg5 fullShare v
        ∗ (∃ d, owns (c : Thread nD τ) arg7 fullShare d) ∗ (∃ d, owns (c : Thread nD τ) arg8 fullShare d) ∗ (∃ d, owns (c : Thread nD τ) arg9 fullShare d)
        ∗ (iprop(owns (c : Thread nD τ) arg3 fullShare q ∗ owns (c : Thread nD τ) arg4 fullShare k ∗ owns (c : Thread nD τ) arg5 fullShare v
            ∗ owns (c : Thread nD τ) arg7 fullShare (step1 i q k v init1).1 ∗ owns (c : Thread nD τ) arg8 fullShare (step1 i q k v init1).2.1
            ∗ owns (c : Thread nD τ) arg9 fullShare (step1 i q k v init1).2.2) -∗ K ⟨⟩))
      ⊢ wp frame (wpE (defs₀ (F := F)) Variants.none c none) E (cc1__attn_kernel i arg3 harg3 arg4 harg4 arg5 harg5 arg6 harg6 arg7 harg7 arg8 harg8 arg9 harg9) K := by
  simp only [cc1__attn_kernel_eq_skeleton, k1_part1_eq_skeleton]; unfold cc1__attn_kernel_skel
  unfold owns
  iintro ⟨⟨%f3, %hf3, H3⟩, ⟨%f4, %hf4, H4⟩, ⟨%f5, %hf5, H5⟩, ⟨%d7, %f7, -, H7⟩, ⟨%d8, %f8, -, H8⟩, ⟨%d9, %f9, -, H9⟩, Hk⟩
  subst hf3 hf4 hf5
  sl_exec (disch := first | exact hc0 | exact hc1 | exact hc2)
  sl_step
  iapply Hk
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H7]
  · iexists _; isplitr
    swap; · iexact H7
    ipureintro
    rw [read_writes_unit_zero (S := S512x1024) _ _ hz2]
    sl_unfold_run_names
    simp only [View.readAt_eq_ld, View.ld_unit_zero (S := S512x1024) hz2, View.ld_unit_zero (S := S512x1) hz2, View.ld_unit_zero (S := S1x512x1024) hz3,
      View.readCov_unit_zero (S := S512x1024) arg7.view hz2, View.readCov_unit_zero (S := S512x1) arg8.view hz2, View.readCov_unit_zero (S := S512x1) arg9.view hz2]
    rfl
  isplitl [H8]
  · iexists _; isplitr
    swap; · iexact H8
    ipureintro
    rw [read_writes_unit_zero (S := S512x1) _ _ hz2]
    sl_unfold_run_names
    simp only [View.readAt_eq_ld, View.ld_unit_zero (S := S512x1024) hz2, View.ld_unit_zero (S := S512x1) hz2, View.ld_unit_zero (S := S1x512x1024) hz3,
      View.readCov_unit_zero (S := S512x1024) arg7.view hz2, View.readCov_unit_zero (S := S512x1) arg8.view hz2, View.readCov_unit_zero (S := S512x1) arg9.view hz2]
    rfl
  iexists _; isplitr
  swap; · iexact H9
  ipureintro
  rw [read_writes_unit_zero (S := S512x1) _ _ hz2]
  sl_unfold_run_names
  simp only [View.readAt_eq_ld, View.ld_unit_zero (S := S512x1024) hz2, View.ld_unit_zero (S := S512x1) hz2, View.ld_unit_zero (S := S1x512x1024) hz3,
      View.readCov_unit_zero (S := S512x1024) arg7.view hz2, View.readCov_unit_zero (S := S512x1) arg8.view hz2, View.readCov_unit_zero (S := S512x1) arg9.view hz2]
  rfl

end Cert.KernelIdeal.Hand

end
-- ==== Proof.IdealRegion1RunC.lean ====
import proofs.«180477_j74028056314061_2_alg».proof.Proof.IdealRegion1RunA

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

/-! # Region 1, case C: a key block above the diagonal that is neither the first nor the last -/

set_option maxHeartbeats 1000000 in
/-- No conditional is taken: the body touches no memory and runs to the continuation. -/
theorem run1_C (c : Dev nD) (i : grid1.Coords) (arg3 : Memref sig .tc .vmem S1x512x1024 .bf16) (harg3 : arg3.IsWhole) (arg4 : Memref sig .tc .vmem S1x512x1024 .bf16) (harg4 : arg4.IsWhole) (arg5 : Memref sig .tc .vmem S1x512x1024 .bf16) (harg5 : arg5.IsWhole) (arg6 : Memref sig .tc .vmem S1x512x1024 .bf16) (harg6 : arg6.IsWhole) (arg7 : Memref sig .tc .vmem S512x1024 .f32) (harg7 : arg7.IsWhole) (arg8 : Memref sig .tc .vmem S512x1 .f32) (harg8 : arg8.IsWhole) (arg9 : Memref sig .tc .vmem S512x1 .f32) (harg9 : arg9.IsWhole)
    (hc0 : ¬cond1_0 i) (hc1 : ¬cond1_1 i) (hc2 : ¬cond1_2 i) (E : Set ℕ) (K : PUnit → sProp 𝕄) :
    K ⟨⟩ ⊢ wp frame (wpE (defs₀ (F := F)) Variants.none c none) E (cc1__attn_kernel i arg3 harg3 arg4 harg4 arg5 harg5 arg6 harg6 arg7 harg7 arg8 harg8 arg9 harg9) K := by
  simp only [cc1__attn_kernel_eq_skeleton, k1_part1_eq_skeleton]; unfold cc1__attn_kernel_skel
  iintro Hk
  sl_exec (disch := first | exact hc0 | exact hc1 | exact hc2)
  sl_step
  iexact Hk

end Cert.KernelIdeal.Hand

end
-- ==== Proof.IdealRegion1RunD.lean ====
import proofs.«180477_j74028056314061_2_alg».proof.Proof.IdealRegion1RunC

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

/-! # Region 1, case D: the last key block, on the diagonal -/

set_option maxHeartbeats 1000000 in
/-- The second and third conditionals are taken: on whole memrefs, the query, key and value blocks at `q`, `k`, `v`, the
    scratch at the state `(a, mx, l)` and the output block at anything, the body runs to the continuation holding the
    input blocks as they were, the scratch at the online-softmax step of that state and the output block at the
    normalised accumulator of the new state. -/
theorem run1_D (c : Dev nD) (i : grid1.Coords) (arg3 : Memref sig .tc .vmem S1x512x1024 .bf16) (harg3 : arg3.IsWhole) (arg4 : Memref sig .tc .vmem S1x512x1024 .bf16) (harg4 : arg4.IsWhole) (arg5 : Memref sig .tc .vmem S1x512x1024 .bf16) (harg5 : arg5.IsWhole) (arg6 : Memref sig .tc .vmem S1x512x1024 .bf16) (harg6 : arg6.IsWhole) (arg7 : Memref sig .tc .vmem S512x1024 .f32) (harg7 : arg7.IsWhole) (arg8 : Memref sig .tc .vmem S512x1 .f32) (harg8 : arg8.IsWhole) (arg9 : Memref sig .tc .vmem S512x1 .f32) (harg9 : arg9.IsWhole)
    (hc0 : ¬cond1_0 i) (hc1 : cond1_1 i) (hc2 : cond1_2 i)
    (q k v : Vec F S1x512x1024 .bf16) (a : Vec F S512x1024 .f32) (mx l : Vec F S512x1 .f32) (E : Set ℕ) (K : PUnit → sProp 𝕄) :
    iprop(owns (c : Thread nD τ) arg3 fullShare q ∗ owns (c : Thread nD τ) arg4 fullShare k ∗ owns (c : Thread nD τ) arg5 fullShare v ∗ (∃ d, owns (c : Thread nD τ) arg6 fullShare d)
        ∗ owns (c : Thread nD τ) arg7 fullShare a ∗ owns (c : Thread nD τ) arg8 fullShare mx ∗ owns (c : Thread nD τ) arg9 fullShare l
        ∗ (iprop(owns (c : Thread nD τ) arg3 fullShare q ∗ owns (c : Thread nD τ) arg4 fullShare k ∗ owns (c : Thread nD τ) arg5 fullShare v
            ∗ owns (c : Thread nD τ) arg6 fullShare (k1_pay6 (step1 i q k v (a, mx, l)).1 (step1 i q k v (a, mx, l)).2.2)
            ∗ owns (c : Thread nD τ) arg7 fullShare (step1 i q k v (a, mx, l)).1 ∗ owns (c : Thread nD τ) arg8 fullShare (step1 i q k v (a, mx, l)).2.1
            ∗ owns (c : Thread nD τ) arg9 fullShare (step1 i q k v (a, mx, l)).2.2) -∗ K ⟨⟩))
      ⊢ wp frame (wpE (defs₀ (F := F)) Variants.none c none) E (cc1__attn_kernel i arg3 harg3 arg4 harg4 arg5 harg5 arg6 harg6 arg7 harg7 arg8 harg8 arg9 harg9) K := by
  simp only [cc1__attn_kernel_eq_skeleton, k1_part1_eq_skeleton]; unfold cc1__attn_kernel_skel
  unfold owns
  iintro ⟨⟨%f3, %hf3, H3⟩, ⟨%f4, %hf4, H4⟩, ⟨%f5, %hf5, H5⟩, ⟨%d6, %f6, -, H6⟩, ⟨%f7, %hf7, H7⟩, ⟨%f8, %hf8, H8⟩, ⟨%f9, %hf9, H9⟩, Hk⟩
  subst hf3 hf4 hf5 hf7 hf8 hf9
  sl_exec (disch := first | exact hc0 | exact hc1 | exact hc2)
  sl_step
  iapply Hk
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists _; isplitr
    swap; · iexact H6
    ipureintro
    sl_unfold_run_names
    rw [read_writes_unit_zero (S := S1x512x1024) _ _ hz3]
    simp only [View.readAt_eq_ld, View.ld_unit_zero (S := S512x1024) hz2, View.ld_unit_zero (S := S512x1) hz2, View.ld_unit_zero (S := S1x512x1024) hz3,
      View.readCov_unit_zero (S := S512x1024) arg7.view hz2, View.readCov_unit_zero (S := S512x1) arg8.view hz2, View.readCov_unit_zero (S := S512x1) arg9.view hz2]
    rfl
  isplitl [H7]
  · iexists _; isplitr
    swap; · iexact H7
    ipureintro
    sl_unfold_run_names
    rw [read_writes_unit_zero (S := S512x1024) _ _ hz2]
    simp only [View.readAt_eq_ld, View.ld_unit_zero (S := S512x1024) hz2, View.ld_unit_zero (S := S512x1) hz2, View.ld_unit_zero (S := S1x512x1024) hz3,
      View.readCov_unit_zero (S := S512x1024) arg7.view hz2, View.readCov_unit_zero (S := S512x1) arg8.view hz2, View.readCov_unit_zero (S := S512x1) arg9.view hz2]
    rfl
  isplitl [H8]
  · iexists _; isplitr
    swap; · iexact H8
    ipureintro
    sl_unfold_run_names
    rw [read_writes_unit_zero (S := S512x1) _ _ hz2]
    simp only [View.readAt_eq_ld, View.ld_unit_zero (S := S512x1024) hz2, View.ld_unit_zero (S := S512x1) hz2, View.ld_unit_zero (S := S1x512x1024) hz3,
      View.readCov_unit_zero (S := S512x1024) arg7.view hz2, View.readCov_unit_zero (S := S512x1) arg8.view hz2, View.readCov_unit_zero (S := S512x1) arg9.view hz2]
    rfl
  iexists _; isplitr
  swap; · iexact H9
  ipureintro
  sl_unfold_run_names
  rw [read_writes_unit_zero (S := S512x1) _ _ hz2]
  simp only [View.readAt_eq_ld, View.ld_unit_zero (S := S512x1024) hz2, View.ld_unit_zero (S := S512x1) hz2, View.ld_unit_zero (S := S1x512x1024) hz3,
      View.readCov_unit_zero (S := S512x1024) arg7.view hz2, View.readCov_unit_zero (S := S512x1) arg8.view hz2, View.readCov_unit_zero (S := S512x1) arg9.view hz2]
  rfl

end Cert.KernelIdeal.Hand

end
-- ==== Proof.IdealRegion1RunE.lean ====
import proofs.«180477_j74028056314061_2_alg».proof.Proof.IdealRegion1RunD

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

/-! # Region 1, case E: the last key block, above the diagonal -/

set_option maxHeartbeats 1000000 in
/-- Only the third conditional is taken: on whole memrefs, the accumulator at `a`, the normaliser at `l` and the output
    block at anything, the body runs to the continuation holding the two scratch buffers as they were and the output
    block at the normalised accumulator. -/
theorem run1_E (c : Dev nD) (i : grid1.Coords) (arg3 : Memref sig .tc .vmem S1x512x1024 .bf16) (harg3 : arg3.IsWhole) (arg4 : Memref sig .tc .vmem S1x512x1024 .bf16) (harg4 : arg4.IsWhole) (arg5 : Memref sig .tc .vmem S1x512x1024 .bf16) (harg5 : arg5.IsWhole) (arg6 : Memref sig .tc .vmem S1x512x1024 .bf16) (harg6 : arg6.IsWhole) (arg7 : Memref sig .tc .vmem S512x1024 .f32) (harg7 : arg7.IsWhole) (arg8 : Memref sig .tc .vmem S512x1 .f32) (harg8 : arg8.IsWhole) (arg9 : Memref sig .tc .vmem S512x1 .f32) (harg9 : arg9.IsWhole)
    (hc0 : ¬cond1_0 i) (hc1 : ¬cond1_1 i) (hc2 : cond1_2 i)
    (a : Vec F S512x1024 .f32) (l : Vec F S512x1 .f32) (E : Set ℕ) (K : PUnit → sProp 𝕄) :
    iprop((∃ d, owns (c : Thread nD τ) arg6 fullShare d) ∗ owns (c : Thread nD τ) arg7 fullShare a ∗ owns (c : Thread nD τ) arg9 fullShare l
        ∗ (iprop(owns (c : Thread nD τ) arg6 fullShare (k1_pay6 a l) ∗ owns (c : Thread nD τ) arg7 fullShare a ∗ owns (c : Thread nD τ) arg9 fullShare l) -∗ K ⟨⟩))
      ⊢ wp frame (wpE (defs₀ (F := F)) Variants.none c none) E (cc1__attn_kernel i arg3 harg3 arg4 harg4 arg5 harg5 arg6 harg6 arg7 harg7 arg8 harg8 arg9 harg9) K := by
  simp only [cc1__attn_kernel_eq_skeleton, k1_part1_eq_skeleton]; unfold cc1__attn_kernel_skel
  unfold owns
  iintro ⟨⟨%d6, %f6, -, H6⟩, ⟨%f7, %hf7, H7⟩, ⟨%f9, %hf9, H9⟩, Hk⟩
  subst hf7 hf9
  sl_exec (disch := first | exact hc0 | exact hc1 | exact hc2)
  sl_step
  iapply Hk
  isplitl [H6]
  · iexists _; isplitr
    swap; · iexact H6
    ipureintro
    sl_unfold_run_names
    rw [read_writes_unit_zero (S := S1x512x1024) _ _ hz3]
    simp only [View.readAt_eq_ld, View.ld_unit_zero (S := S512x1024) hz2, View.ld_unit_zero (S := S512x1) hz2, View.ld_unit_zero (S := S1x512x1024) hz3,
      View.readCov_unit_zero (S := S512x1024) arg7.view hz2, View.readCov_unit_zero (S := S512x1) arg8.view hz2, View.readCov_unit_zero (S := S512x1) arg9.view hz2]
  isplitl [H7]
  · iexists f7; isplitr; · ipureintro; rfl
    iexact H7
  iexists f9; isplitr; · ipureintro; rfl
  iexact H9

end Cert.KernelIdeal.Hand

end
-- ==== Proof.IdealRegion1.lean ====
import proofs.«180477_j74028056314061_2_alg».proof.Proof.IdealRegion1RunE

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

/-! # Region 1 (the attention kernel) at the entry contents `V`: the carried scratch point by point, the proof data,
    the body obligation -/

section Region1
-- the TensorCore's buffer contents when the region is entered
variable (V : (c : Dev nD) → (b : Ref sig .tc) → Buf (Elt F) ((c : Thread nD τ).loc b))

/-! ## The windows' blocks -/

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- An input window's current staging buffer holds its block at every point, fetched there or not (unfetched, the
    block index has not moved), for any proof data whose array is the entry contents and whose body leaves the block
    in place. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-! ## The carried scratch after each point -/

/-- The scratch (accumulator, running maximum, running normaliser) after the first `n` points: at a point whose
    key-block coordinate is zero the online-softmax step from the initial state; at a later key block at or below the
    diagonal the step from what the point before left; above the diagonal what the point before left. (Before the
    first point the scratch holds anything: the value at zero is a placeholder nothing consults.) -/
def scrAt1 (c : Dev nD) : (n : ℕ) → n ≤ cfg1.N → St1 (F := F)
  | 0, _ => init1
  | n + 1, hn =>
    if n % 4 = 0 then
      step1 (grid1.coords ⟨n, hn⟩) (iblk1 V c 0 ⟨n, hn⟩) (iblk1 V c 1 ⟨n, hn⟩) (iblk1 V c 2 ⟨n, hn⟩) init1
    else if n % 4 ≤ (n / 4) % 4 then
      step1 (grid1.coords ⟨n, hn⟩) (iblk1 V c 0 ⟨n, hn⟩) (iblk1 V c 1 ⟨n, hn⟩) (iblk1 V c 2 ⟨n, hn⟩) (scrAt1 c n (Nat.le_of_lt hn))
    else scrAt1 c n (Nat.le_of_lt hn)

/-- At a point of the first key block: the step from the initial state. -/
theorem scrAt1_A (c : Dev nD) (t : Fin cfg1.N) (h0 : t.val % 4 = 0) :
    scrAt1 V c (t.val + 1) t.isLt = step1 (grid1.coords t) (iblk1 V c 0 t) (iblk1 V c 1 t) (iblk1 V c 2 t) init1 := by
  obtain ⟨n, hn⟩ := t
  exact if_pos h0

/-- At a later key block at or below the diagonal: the step from what the point before left. -/
theorem scrAt1_step (c : Dev nD) (t : Fin cfg1.N) (h0 : ¬t.val % 4 = 0) (h1 : t.val % 4 ≤ (t.val / 4) % 4) :
    scrAt1 V c (t.val + 1) t.isLt = step1 (grid1.coords t) (iblk1 V c 0 t) (iblk1 V c 1 t) (iblk1 V c 2 t) (scrAt1 V c t.val (Nat.le_of_lt t.isLt)) := by
  obtain ⟨n, hn⟩ := t
  exact (if_neg h0).trans (if_pos h1)

/-- At a key block above the diagonal: what the point before left. -/
theorem scrAt1_keep (c : Dev nD) (t : Fin cfg1.N) (h0 : ¬t.val % 4 = 0) (h1 : ¬t.val % 4 ≤ (t.val / 4) % 4) :
    scrAt1 V c (t.val + 1) t.isLt = (scrAt1 V c t.val (Nat.le_of_lt t.isLt)) := by
  obtain ⟨n, hn⟩ := t
  exact (if_neg h0).trans (if_neg h1)

/-- Case B: a middle key block at or below the diagonal. -/
theorem scrAt1_B (c : Dev nD) (t : Fin cfg1.N) (h0 : ¬t.val % 4 = 0) (h3 : ¬t.val % 4 = 3) (h1 : t.val % 4 ≤ (t.val / 4) % 4) :
    scrAt1 V c (t.val + 1) t.isLt = step1 (grid1.coords t) (iblk1 V c 0 t) (iblk1 V c 1 t) (iblk1 V c 2 t) (scrAt1 V c t.val (Nat.le_of_lt t.isLt)) := scrAt1_step V c t h0 h1
/-- Case C: a middle key block above the diagonal. -/
theorem scrAt1_C (c : Dev nD) (t : Fin cfg1.N) (h0 : ¬t.val % 4 = 0) (h3 : ¬t.val % 4 = 3) (h1 : ¬t.val % 4 ≤ (t.val / 4) % 4) :
    scrAt1 V c (t.val + 1) t.isLt = (scrAt1 V c t.val (Nat.le_of_lt t.isLt)) := scrAt1_keep V c t h0 h1
/-- Case D: the last key block, on the diagonal. -/
theorem scrAt1_D (c : Dev nD) (t : Fin cfg1.N) (h3 : t.val % 4 = 3) (h1 : t.val % 4 ≤ (t.val / 4) % 4) :
    scrAt1 V c (t.val + 1) t.isLt = step1 (grid1.coords t) (iblk1 V c 0 t) (iblk1 V c 1 t) (iblk1 V c 2 t) (scrAt1 V c t.val (Nat.le_of_lt t.isLt)) := scrAt1_step V c t (by omega) h1
/-- Case E: the last key block, above the diagonal. -/
theorem scrAt1_E (c : Dev nD) (t : Fin cfg1.N) (h3 : t.val % 4 = 3) (h1 : ¬t.val % 4 ≤ (t.val / 4) % 4) :
    scrAt1 V c (t.val + 1) t.isLt = (scrAt1 V c t.val (Nat.le_of_lt t.isLt)) := scrAt1_keep V c t (by omega) h1

/-! ## The invariant -/

/-- The region invariant before position `n`: before the first point the class's (every scratch buffer at anything);
    afterwards the three scratch buffers at what the points so far left in them, the other scoped buffers at anything
    and the generator register at some state. -/
def PhiS1 (c : Dev nD) : (n : ℕ) → n ≤ cfg1.N → sProp 𝕄
  | 0, _ => Pipeline.ΦA spec1 c
  | n + 1, hn => iprop(owns (c : Thread nD τ) scM1_0 fullShare (scrAt1 V c (n + 1) hn).1 ∗ owns (c : Thread nD τ) scM1_1 fullShare (scrAt1 V c (n + 1) hn).2.1 ∗ owns (c : Thread nD τ) scM1_2 fullShare (scrAt1 V c (n + 1) hn).2.2 ∗ others1 (F := F) c ∗ (∃ r, prngReg c r))

theorem PhiS1_zero (c : Dev nD) (n : ℕ) (h : n ≤ cfg1.N) (hz : n = 0) : PhiS1 V c n h = Pipeline.ΦA spec1 c := by
  subst hz; rfl

theorem PhiS1_succ (c : Dev nD) (n : ℕ) (hn : n < cfg1.N) :
    PhiS1 V c (n + 1) hn = iprop(owns (c : Thread nD τ) scM1_0 fullShare (scrAt1 V c (n + 1) hn).1 ∗ owns (c : Thread nD τ) scM1_1 fullShare (scrAt1 V c (n + 1) hn).2.1 ∗ owns (c : Thread nD τ) scM1_2 fullShare (scrAt1 V c (n + 1) hn).2.2 ∗ others1 (F := F) c ∗ (∃ r, prngReg c r)) := rfl

theorem PhiS1_pos (c : Dev nD) (n : ℕ) (h : n ≤ cfg1.N) (hz : n ≠ 0) :
    PhiS1 V c n h = iprop(owns (c : Thread nD τ) scM1_0 fullShare (scrAt1 V c n h).1 ∗ owns (c : Thread nD τ) scM1_1 fullShare (scrAt1 V c n h).2.1 ∗ owns (c : Thread nD τ) scM1_2 fullShare (scrAt1 V c n h).2.2 ∗ others1 (F := F) c ∗ (∃ r, prngReg c r)) := by
  cases n with
  | zero => exact absurd rfl hz
  | succ n => rfl

/-! ## The pipeline's proof data -/

/-- The proof data of the attention pipeline on core `c`: the arrays as the region finds them; after the body at point
    `t` each input's buffer at its block and the output's at the normalised accumulator of the scratch after the point
    (what the last key block's store leaves; at the other points, where the window is idle and not written back,
    a value nothing consults); the invariant tracking the scratch; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => k1_pay6 (scrAt1 V c (t.val + 1) t.isLt).1 (scrAt1 V c (t.val + 1) t.isLt).2.2
  Φ t := PhiS1 V c t.val (Nat.le_of_lt_succ t.isLt)
  q _ := fullShare
  owed _ := 0

theorem A_eq1 (c : Dev nD) (w : Fin cfg1.W) : (dat1 V c).A w = V c (Pipeline.arrRef spec1 w) := by
  dsimp only [dat1]

theorem PhiS1_castSucc (c : Dev nD) (t : Fin cfg1.N) :
    (dat1 V c).Φ t.castSucc = PhiS1 V c t.val (Nat.le_of_lt t.isLt) := by
  dsimp only [dat1]; simp only [Fin.coe_castSucc]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3' (c : Dev nD) (t : Fin cfg1.N) :
    (dat1 V c).after 3 t = k1_pay6 (scrAt1 V c (t.val + 1) t.isLt).1 (scrAt1 V c (t.val + 1) t.isLt).2.2 := by dsimp only [dat1]
/-- What the write-back at a last key block writes: the normalised accumulator of the scratch after that point. -/
theorem after1_3 (c : Dev nD) (t : Fin cfg1.N) (h : t.val % 4 = 3) :
    (dat1 V c).after 3 t = k1_pay6 (scrAt1 V c (t.val + 1) t.isLt).1 (scrAt1 V c (t.val + 1) t.isLt).2.2 := after1_3' V c t

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d

/-! ## The body obligation, at a generic point -/

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d)))

/-- and what it returns. -/
def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t)

set_option maxHeartbeats 4800000 in
/-- The body at any point: the inputs' memrefs hold their blocks; the closed forms say which of the five control cases
    the point is in, so that case's run applies; the invariant hands the body the scratch at what the points so far left
    (at anything at the first point) and takes it back at this point's contents; where the third conditional is not taken
    the output's buffer is handed back untouched, and where it is taken it holds the normalised accumulator. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).owesAt () t.succ = (dat1 V c).owesAt () t.castSucc from rfl]
  rw [show (dat1 V c).Φ t.succ = PhiS1 V c (t.val + 1) t.isLt from rfl, PhiS1_succ]
  rw [show (dat1 V c).leavesExact 0 t = owns (c : Thread nD τ) (ms1_0 t) fullShare ((dat1 V c).after 0 t) from by
    unfold Dat.leavesExact; rw [liveAt1_0 t], after1_0]
  rw [show (dat1 V c).leavesExact 1 t = owns (c : Thread nD τ) (ms1_1 t) fullShare ((dat1 V c).after 1 t) from by
    unfold Dat.leavesExact; rw [liveAt1_1 t], after1_1]
  rw [show (dat1 V c).leavesExact 2 t = owns (c : Thread nD τ) (ms1_2 t) fullShare ((dat1 V c).after 2 t) from by
    unfold Dat.leavesExact; rw [liveAt1_2 t], after1_2]
  have hN : t.val < 64 := lt_of_lt_of_eq t.isLt (show cfg1.N = 64 from N_1)
  by_cases h0 : t.val % 4 = 0
  · -- case A
    have h1 : t.val % 4 ≤ (t.val / 4) % 4 := by omega
    have h3 : ¬t.val % 4 = 3 := by omega
    rw [Dat.leavesExact_idle (dat1 V c) 3 t (idleAt1_3 t (fun h => h3 ((hcond1_2 t).mp h))) (noFlush1_3 t (fun h => h3 ((hcond1_2 t).mp h)))]
    rw [scrAt1_A V c t h0]
    by_cases hz : t.val = 0
    · rw [PhiS1_castSucc V c t, PhiS1_zero V c _ _ hz]
      iintro ⟨HΦ, Ho, ⟨%d0, H0⟩, ⟨%d1, H1⟩, ⟨%d2, H2⟩, H3⟩
      ihave HΦ' := (PhiA1_split (F := F) c) $$ HΦ
      icases HΦ' with ⟨HS0, HS1, HS2, Hoth, Hg⟩
      iapply (run1_A c (grid1.coords t) _ _ _ _ _ _ _ _ _ _ _ _ _ _ ((hcond1_0 t).mpr h0) ((hcond1_1 t).mpr h1) (fun h => h3 ((hcond1_2 t).mp h)) (iblk1 V c 0 t) (iblk1 V c 1 t) (iblk1 V c 2 t) Set.univ _)
      isplitl [H0]; · iexact H0
      isplitl [H1]; · iexact H1
      isplitl [H2]; · iexact H2
      isplitl [HS0]; · iexact HS0
      isplitl [HS1]; · iexact HS1
      isplitl [HS2]; · iexact HS2
      iintro ⟨H0, H1, H2, HS0, HS1, HS2⟩
      isplitl [HS0 HS1 HS2 Hoth Hg]
      · isplitl [HS0]; · iexact HS0
        isplitl [HS1]; · iexact HS1
        isplitl [HS2]; · iexact HS2
        isplitl [Hoth]; · iexact Hoth
        iexact Hg
      isplitl [Ho]; · iexact Ho
      isplitl [H0]; · iexact H0
      isplitl [H1]; · iexact H1
      isplitl [H2]; · iexact H2
      iexact H3
    · rw [PhiS1_castSucc V c t, PhiS1_pos V c _ _ hz]
      iintro ⟨⟨HS0, HS1, HS2, Hoth, Hg⟩, Ho, ⟨%d0, H0⟩, ⟨%d1, H1⟩, ⟨%d2, H2⟩, H3⟩
      iapply (run1_A c (grid1.coords t) _ _ _ _ _ _ _ _ _ _ _ _ _ _ ((hcond1_0 t).mpr h0) ((hcond1_1 t).mpr h1) (fun h => h3 ((hcond1_2 t).mp h)) (iblk1 V c 0 t) (iblk1 V c 1 t) (iblk1 V c 2 t) Set.univ _)
      isplitl [H0]; · iexact H0
      isplitl [H1]; · iexact H1
      isplitl [H2]; · iexact H2
      isplitl [HS0]; · iexists _; iexact HS0
      isplitl [HS1]; · iexists _; iexact HS1
      isplitl [HS2]; · iexists _; iexact HS2
      iintro ⟨H0, H1, H2, HS0, HS1, HS2⟩
      isplitl [HS0 HS1 HS2 Hoth Hg]
      · isplitl [HS0]; · iexact HS0
        isplitl [HS1]; · iexact HS1
        isplitl [HS2]; · iexact HS2
        isplitl [Hoth]; · iexact Hoth
        iexact Hg
      isplitl [Ho]; · iexact Ho
      isplitl [H0]; · iexact H0
      isplitl [H1]; · iexact H1
      isplitl [H2]; · iexact H2
      iexact H3
  · have hz : t.val ≠ 0 := fun e => h0 (by rw [e])
    by_cases h3 : t.val % 4 = 3
    · rw [show (dat1 V c).leavesExact 3 t = owns (c : Thread nD τ) (ms1_3 t) fullShare ((dat1 V c).after 3 t) from by
        unfold Dat.leavesExact; rw [liveAt1_3 t ((hcond1_2 t).mpr h3)], after1_3']
      by_cases h1 : t.val % 4 ≤ (t.val / 4) % 4
      · -- case D
        rw [scrAt1_D V c t h3 h1]
        rw [PhiS1_castSucc V c t, PhiS1_pos V c _ _ hz]
        iintro ⟨⟨HS0, HS1, HS2, Hoth, Hg⟩, Ho, ⟨%d0, H0⟩, ⟨%d1, H1⟩, ⟨%d2, H2⟩, ⟨%d3, H3⟩⟩
        iapply (run1_D c (grid1.coords t) _ _ _ _ _ _ _ _ _ _ _ _ _ _ (fun h => h0 ((hcond1_0 t).mp h)) ((hcond1_1 t).mpr h1) ((hcond1_2 t).mpr h3) (iblk1 V c 0 t) (iblk1 V c 1 t) (iblk1 V c 2 t) (scrAt1 V c t.val (Nat.le_of_lt t.isLt)).1 (scrAt1 V c t.val (Nat.le_of_lt t.isLt)).2.1 (scrAt1 V c t.val (Nat.le_of_lt t.isLt)).2.2 Set.univ _)
        isplitl [H0]; · iexact H0
        isplitl [H1]; · iexact H1
        isplitl [H2]; · iexact H2
        isplitl [H3]; · iexists _; iexact H3
        isplitl [HS0]; · iexact HS0
        isplitl [HS1]; · iexact HS1
        isplitl [HS2]; · iexact HS2
        iintro ⟨H0, H1, H2, H3, HS0, HS1, HS2⟩
        isplitl [HS0 HS1 HS2 Hoth Hg]
        · isplitl [HS0]; · iexact HS0
          isplitl [HS1]; · iexact HS1
          isplitl [HS2]; · iexact HS2
          isplitl [Hoth]; · iexact Hoth
          iexact Hg
        isplitl [Ho]; · iexact Ho
        isplitl [H0]; · iexact H0
        isplitl [H1]; · iexact H1
        isplitl [H2]; · iexact H2
        iexact H3
      · -- case E
        rw [scrAt1_E V c t h3 h1]
        rw [PhiS1_castSucc V c t, PhiS1_pos V c _ _ hz]
        iintro ⟨⟨HS0, HS1, HS2, Hoth, Hg⟩, Ho, ⟨%d0, H0⟩, ⟨%d1, H1⟩, ⟨%d2, H2⟩, ⟨%d3, H3⟩⟩
        iapply (run1_E c (grid1.coords t) _ _ _ _ _ _ _ _ _ _ _ _ _ _ (fun h => h0 ((hcond1_0 t).mp h)) (fun h => h1 ((hcond1_1 t).mp h)) ((hcond1_2 t).mpr h3) (scrAt1 V c t.val (Nat.le_of_lt t.isLt)).1 (scrAt1 V c t.val (Nat.le_of_lt t.isLt)).2.2 Set.univ _)
        isplitl [H3]; · iexists _; iexact H3
        isplitl [HS0]; · iexact HS0
        isplitl [HS2]; · iexact HS2
        iintro ⟨H3, HS0, HS2⟩
        isplitl [HS0 HS1 HS2 Hoth Hg]
        · isplitl [HS0]; · iexact HS0
          isplitl [HS1]; · iexact HS1
          isplitl [HS2]; · iexact HS2
          isplitl [Hoth]; · iexact Hoth
          iexact Hg
        isplitl [Ho]; · iexact Ho
        isplitl [H0]; · iexact H0
        isplitl [H1]; · iexact H1
        isplitl [H2]; · iexact H2
        iexact H3
    · rw [Dat.leavesExact_idle (dat1 V c) 3 t (idleAt1_3 t (fun h => h3 ((hcond1_2 t).mp h))) (noFlush1_3 t (fun h => h3 ((hcond1_2 t).mp h)))]
      by_cases h1 : t.val % 4 ≤ (t.val / 4) % 4
      · -- case B
        rw [scrAt1_B V c t h0 h3 h1]
        rw [PhiS1_castSucc V c t, PhiS1_pos V c _ _ hz]
        iintro ⟨⟨HS0, HS1, HS2, Hoth, Hg⟩, Ho, ⟨%d0, H0⟩, ⟨%d1, H1⟩, ⟨%d2, H2⟩, H3⟩
        iapply (run1_B c (grid1.coords t) _ _ _ _ _ _ _ _ _ _ _ _ _ _ (fun h => h0 ((hcond1_0 t).mp h)) ((hcond1_1 t).mpr h1) (fun h => h3 ((hcond1_2 t).mp h)) (iblk1 V c 0 t) (iblk1 V c 1 t) (iblk1 V c 2 t) (scrAt1 V c t.val (Nat.le_of_lt t.isLt)).1 (scrAt1 V c t.val (Nat.le_of_lt t.isLt)).2.1 (scrAt1 V c t.val (Nat.le_of_lt t.isLt)).2.2 Set.univ _)
        isplitl [H0]; · iexact H0
        isplitl [H1]; · iexact H1
        isplitl [H2]; · iexact H2
        isplitl [HS0]; · iexact HS0
        isplitl [HS1]; · iexact HS1
        isplitl [HS2]; · iexact HS2
        iintro ⟨H0, H1, H2, HS0, HS1, HS2⟩
        isplitl [HS0 HS1 HS2 Hoth Hg]
        · isplitl [HS0]; · iexact HS0
          isplitl [HS1]; · iexact HS1
          isplitl [HS2]; · iexact HS2
          isplitl [Hoth]; · iexact Hoth
          iexact Hg
        isplitl [Ho]; · iexact Ho
        isplitl [H0]; · iexact H0
        isplitl [H1]; · iexact H1
        isplitl [H2]; · iexact H2
        iexact H3
      · -- case C
        rw [scrAt1_C V c t h0 h3 h1]
        rw [PhiS1_castSucc V c t, PhiS1_pos V c _ _ hz]
        iintro ⟨⟨HS0, HS1, HS2, Hoth, Hg⟩, Ho, ⟨%d0, H0⟩, ⟨%d1, H1⟩, ⟨%d2, H2⟩, H3⟩
        iapply (run1_C c (grid1.coords t) _ _ _ _ _ _ _ _ _ _ _ _ _ _ (fun h => h0 ((hcond1_0 t).mp h)) (fun h => h1 ((hcond1_1 t).mp h)) (fun h => h3 ((hcond1_2 t).mp h)) Set.univ _)
        isplitl [HS0 HS1 HS2 Hoth Hg]
        · isplitl [HS0]; · iexact HS0
          isplitl [HS1]; · iexact HS1
          isplitl [HS2]; · iexact HS2
          isplitl [Hoth]; · iexact Hoth
          iexact Hg
        isplitl [Ho]; · iexact Ho
        isplitl [H0]; · iexact H0
        isplitl [H1]; · iexact H1
        isplitl [H2]; · iexact H2
        iexact H3

/-- The library's body obligation, at every point. -/
theorem body_obligation1 (c : Dev nD) : BodyObligation (dat1 (F := F) V c) (defs₀ (F := F)) Variants.none () Set.univ := fun t => by
  rw [bigSep_W1, bigSep_W1]
  exact sound_body1 V c t

/-- What the launch hands the region is the invariant before the first point. -/
theorem hin1 (c : Dev nD) : Pipeline.ΦA spec1 c ⊢ (dat1 V c).Φ 0 := by
  rw [show (dat1 V c).Φ 0 = PhiS1 V c 0 (Nat.zero_le _) from rfl, PhiS1_zero V c 0 _ rfl]

/-- After any point but the first the invariant gives the class's back: the scratch's named contents are forgotten. -/
theorem Phi_out1 (c : Dev nD) (t : Fin (cfg1.N + 1)) (ht : t.val ≠ 0) : (dat1 V c).Φ t ⊢ Pipeline.ΦA spec1 c := by
  rw [show (dat1 V c).Φ t = PhiS1 V c t.val (Nat.le_of_lt_succ t.isLt) from rfl, PhiS1_pos V c _ _ ht]
  iintro ⟨HS0, HS1, HS2, Hoth, Hg⟩
  iapply (PhiA1_join (F := F) c)
  isplitl [HS0]; · iexists _; iexact HS0
  isplitl [HS1]; · iexists _; iexact HS1
  isplitl [HS2]; · iexists _; iexact HS2
  isplitl [Hoth]; · iexact Hoth
  iexact Hg

/-- The same after the last point. -/
theorem hout1 (c : Dev nD) : (dat1 V c).Φ (Fin.last cfg1.N) ⊢ Pipeline.ΦA spec1 c :=
  Phi_out1 V c _ (by rw [Fin.val_last]; have : cfg1.N = 64 := N_1; omega)

end Region1

end Cert.KernelIdeal.Hand

end
-- ==== Proof.IdealRegion2.lean ====
/- The separation-logic half of REGION 2 of @main (custom_call 2, the linear kernel of pipeline 2: a block of
   rows times the whole weight, plus the bias row, kept in f32), at a PARAMETER V — the TensorCore's buffer
   contents when the region is entered. Each window's block at a point (iblk2); what the body leaves in the output
   window's staging buffer as a function of the three input blocks (out2_3, equal to the skeleton's payload
   k2_pay1 of them: out2_3_eq); the body's triple (sound_kernel2); the pipeline's proof data (dat2) and the body
   obligation at every point (body_obligation2). The class is the plainest: one control case, whole-buffer loads,
   one whole-buffer store, no scratch and no semaphore. -/
import proofs.«180477_j74028056314061_2_alg».proof.Proof.Gen.KernelIdeal.Launch
import proofs.«180477_j74028056314061_2_alg».proof.Proof.Gen.KernelIdeal.Skeleton
import proofs.«180477_j74028056314061_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

-- membership in a rectangle of production extents (View.cover_of_tiled): the elaborator's structural look
-- recurses once per coordinate of the long axes
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

-- the TensorCore's buffer contents when the region is entered: the parameter every statement below is made at
variable (V : (c : Dev nD) → (b : Ref sig .tc) → Buf (Elt F) ((c : Thread nD τ).loc b))

/-! ## The windows' blocks -/

/-- Window w's block at point t, read off its array as the region finds it (V). -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- Input window 0 (the rows' block, fetched at every point): its current staging buffer holds its block at every
    point, for ANY proof data whose array is V's and whose body leaves the block in place. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)

/-- Input window 1 (the whole weight, fetched at the first point only): unfetched, its block index has not moved,
    so its staging buffer holds its block at every point all the same. -/
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

/-- Input window 2 (the bias row, fetched at the first point only): as window 1. -/
theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)

/-! ## The body's accesses: each staging buffer whole, through the unit rectangle at zero offsets -/

abbrev r2_0 : Rect S512x1024 := Rect.unit (s := S512x1024) ![0, 0] S512x1024.size inb_S512x1024_S512x1024_0_0
abbrev r2_1 : Rect S1024x1024 := Rect.unit (s := S1024x1024) ![0, 0] S1024x1024.size inb_S1024x1024_S1024x1024_0_0
abbrev r2_2 : Rect S1x1024 := Rect.unit (s := S1x1024) ![0, 0] S1x1024.size inb_S1x1024_S1x1024_0_0
abbrev r2_3 : Rect S512x1024 := Rect.unit (s := S512x1024) ![0, 0] S512x1024.size inb_S512x1024_S512x1024_0_0

/-! ## What the body leaves in the output window's buffer -/

/-- Window 3's staging buffer after the body, from the input windows' blocks: its one store as a piece, the payload
    the skeleton's, applied to what the three loads read. -/
def out2_3 (x0 : Vec F S512x1024 .bf16) (x1 : Vec F S1024x1024 .bf16) (x2 : Vec F S1x1024 .f32) : Vec F S512x1024 .f32 :=
  View.canon [⟨r2_3, k2_pay1 (View.ld x0 r2_0) (View.ld x1 r2_1) (View.ld x2 r2_2)⟩]

/-- The offsets of every access of the body are zero. -/
theorem off2_zero : (![0, 0] : Fin 2 → Nat) = fun _ => 0 := by
  funext a; fin_cases a <;> rfl

/-- One whole-buffer store leaves its payload, and a whole-buffer load reads the contents: the output buffer is the
    payload of the three input blocks. -/
theorem out2_3_eq (x0 : Vec F S512x1024 .bf16) (x1 : Vec F S1024x1024 .bf16) (x2 : Vec F S1x1024 .f32) :
    out2_3 x0 x1 x2 = k2_pay1 x0 x1 x2 := by
  unfold out2_3
  rw [View.canon_unit_zero off2_zero]
  rw [View.ld_unit_zero (S := S512x1024) off2_zero, View.ld_unit_zero (S := S1024x1024) off2_zero,
    View.ld_unit_zero (S := S1x1024) off2_zero]

/-- The store tiles the buffer (checked by evaluation), so it covers it. -/
theorem cover2_3 (p0 : Vec F S512x1024 .f32) (y : S512x1024.Idx) :
    ∃ pc ∈ ([⟨r2_3, p0⟩] : List (View.Piece (Elt F) S512x1024 .f32)), y ∈ pc.1.set :=
  View.cover_of_tiled [⟨r2_3, p0⟩] S512x1024.size (by rfl) y

/-! ## The body's triple -/

set_option maxHeartbeats 1000000 in
/-- The kernel body on whole staging memrefs, the inputs' at read contents x0, x1, x2 and the output's at anything,
    runs to the continuation holding the inputs' as they were and the output's at out2_3 of the inputs': the printed
    function is its skeleton, three loads of the inputs, a load of the output buffer (its value unused) and the one
    store. -/
theorem sound_kernel2 (c : Dev nD) (E : Set ℕ) (i : grid2.Coords)
    (arg1 : Memref sig .tc .vmem S512x1024 .bf16) (harg1 : arg1.IsWhole)
    (arg2 : Memref sig .tc .vmem S1024x1024 .bf16) (harg2 : arg2.IsWhole)
    (arg3 : Memref sig .tc .vmem S1x1024 .f32) (harg3 : arg3.IsWhole)
    (arg4 : Memref sig .tc .vmem S512x1024 .f32) (harg4 : arg4.IsWhole)
    (x0 : Vec F S512x1024 .bf16) (x1 : Vec F S1024x1024 .bf16) (x2 : Vec F S1x1024 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (out2_3 x0 x1 x2)) -∗ K ⟨⟩))
      ⊢ wp frame (wpE (defs₀ (F := F)) Variants.none c none) E (cc2__linear_kernel i arg1 harg1 arg2 harg2 arg3 harg3 arg4 harg4) K := by
  simp only [cc2__linear_kernel_eq_skeleton]; unfold cc2__linear_kernel_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover2_3 _)

/-! ## The pipeline's proof data -/

/-- The proof data of pipeline 2 on core c: the arrays as the region finds them (V); after the body at point t each
    input's buffer at its block and the output's at out2_3 of the input blocks; the invariant the class's (the scoped
    rest and the generator register, untouched); nothing owed; full shares. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => out2_3 (iblk2 V c 0 t) (iblk2 V c 1 t) (iblk2 V c 2 t)
  Φ _ := Pipeline.ΦA spec2 c
  q _ := fullShare
  owed _ := 0

/-- The proof data's arrays are the region-entry contents. -/
theorem A_eq2 (c : Dev nD) (w : Fin cfg2.W) : (dat2 V c).A w = V c (Pipeline.arrRef spec2 w) := by
  dsimp only [dat2]

/-- What the body leaves, window by window. -/
theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) :
    (dat2 V c).after 3 t = out2_3 (iblk2 V c 0 t) (iblk2 V c 1 t) (iblk2 V c 2 t) := by dsimp only [dat2]

/-- The invariant is the class's at every index. -/
theorem Phi2 (c : Dev nD) (j) : (dat2 V c).Φ j = Pipeline.ΦA spec2 c := by dsimp only [dat2]

/-- Each input's current staging buffer holds its block at every point, fetched there or not. -/
theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d

/-! ## The body obligation, at a generic point -/

/-- What the body is called with at point t (the obligation's precondition, the windows one by one), -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d)))

/-- and what it returns. -/
def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ owns (c : Thread nD τ) (st2_3 t) fullShare ((dat2 V c).after 3 t))

/-- The body at any point: the inputs' memrefs hold their blocks, so the body's triple applies; the invariant and the
    core's debt pass through unread. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2]
  rw [show (dat2 V c).Φ t.succ = (dat2 V c).Φ t.castSucc from rfl,
    show (dat2 V c).owesAt () t.succ = (dat2 V c).owesAt () t.castSucc from rfl,
    after2_0, after2_1, after2_2, after2_3]
  iintro ⟨HΦ, Ho, ⟨%d0, H0⟩, ⟨%d1, H1⟩, ⟨%d2, H2⟩, ⟨%d3, H3⟩⟩
  iapply (sound_kernel2 c Set.univ (grid2.coords t) _ _ _ _ _ _ _ _ (iblk2 V c 0 t) (iblk2 V c 1 t) (iblk2 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The library's body obligation, at every point. -/
theorem body_obligation2 (c : Dev nD) : BodyObligation (dat2 (F := F) V c) (defs₀ (F := F)) Variants.none () Set.univ := fun t => by
  rw [bigSep_W2, bigSep_W2]
  exact sound_body2 V c t

end Cert.KernelIdeal.Hand

end
-- ==== Proof.IdealRun.lean ====
/-
  The kernel program's run.  @main is seven items: a stretch of host operations (the reshape of x, the
  transposes and the concatenations that build the fused weight and bias), the first linear region,
  a stretch (the three column slices and their reshapes), the attention region, a stretch (a reshape,
  the transpose of the last weight, a reshape of its bias), the last linear region, and the final
  reshape.  The buffer contents at every boundary are a fold from the launch memory: a host stretch
  applies its operations, a region leaves each of its windows' arrays at what its write-backs made
  of it and every other buffer as it was.  Every weakly fair execution terminates, nothing faults,
  and every final state holds each unscoped buffer at the last boundary's contents.
-/
import proofs.«180477_j74028056314061_2_alg».proof.Proof.IdealRegion0
import proofs.«180477_j74028056314061_2_alg».proof.Proof.IdealRegion1
import proofs.«180477_j74028056314061_2_alg».proof.Proof.IdealRegion2
import Idealize.ShloMosaic.Lib.Pipeline.Regions

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-! ## The buffer contents at each boundary -/

/-- Core `c`'s buffers at launch. -/
abbrev W0 : Dev nD → Valuation τ sig (Elt F) := fun c b => (s₀ m ρ).mem ((c : Dev nD), b)
/-- After the first host stretch (the first region's entry). -/
abbrev W1 : Dev nD → Valuation τ sig (Elt F) := fun c => StableHlo.after hostOps0 (W0 m ρ c)
abbrev V1 : (c : Dev nD) → (b : Ref sig .tc) → Buf (Elt F) ((c : Thread nD τ).loc b) := fun c b => W1 m ρ c b
/-- At the first region's exit: its arrays at what the pipeline leaves, every other buffer as entered. -/
def W2 (c : Dev nD) : Valuation τ sig (Elt F) :=
  Pipeline.withArrays spec0 c (W1 m ρ c) fun w => (dat0 (V1 m ρ) c).arrAt w cfg0.N
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
abbrev V2 : (c : Dev nD) → (b : Ref sig .tc) → Buf (Elt F) ((c : Thread nD τ).loc b) := fun c b => W2 m ρ c b
theorem hF0 (c : Dev nD) (w : Fin cfg0.W) : (dat0 (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)

/-- After the second host stretch (the attention region's entry). -/
abbrev W3 : Dev nD → Valuation τ sig (Elt F) := fun c => StableHlo.after hostOps1 (W2 m ρ c)
abbrev V3 : (c : Dev nD) → (b : Ref sig .tc) → Buf (Elt F) ((c : Thread nD τ).loc b) := fun c b => W3 m ρ c b
/-- At the attention region's exit. -/
def W4 (c : Dev nD) : Valuation τ sig (Elt F) :=
  Pipeline.withArrays spec1 c (W3 m ρ c) fun w => (dat1 (V3 m ρ) c).arrAt w cfg1.N
theorem W4_arr (c : Dev nD) (w : Fin cfg1.W) :
    W4 m ρ c (Proc.devRef .tc (Pipeline.arrRef spec1 w)) = (dat1 (V3 m ρ) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m ρ c (Proc.devRef .tc b) = W3 m ρ c (Proc.devRef .tc b) := by
  unfold W4; exact Pipeline.withArrays_of_ne spec1 c _ _ b hb
abbrev V4 : (c : Dev nD) → (b : Ref sig .tc) → Buf (Elt F) ((c : Thread nD τ).loc b) := fun c b => W4 m ρ c b
theorem hF1 (c : Dev nD) (w : Fin cfg1.W) : (dat1 (V3 m ρ) c).arrAt w cfg1.N = V4 m ρ c (Pipeline.arrRef spec1 w) :=
  (W4_arr m ρ c w).symm
theorem hrest1 (c : Dev nD) : ∀ b, b ∉ Finset.univ.image (Pipeline.arrRef spec1) → V4 m ρ c b = V3 m ρ c b :=
  fun b hb => W4_of_ne m ρ c b fun w e => hb (Finset.mem_image.mpr ⟨w, Finset.mem_univ _, e⟩)

/-- After the third host stretch (the last region's entry). -/
abbrev W5 : Dev nD → Valuation τ sig (Elt F) := fun c => StableHlo.after hostOps2 (W4 m ρ c)
abbrev V5 : (c : Dev nD) → (b : Ref sig .tc) → Buf (Elt F) ((c : Thread nD τ).loc b) := fun c b => W5 m ρ c b
/-- At the last region's exit. -/
def W6 (c : Dev nD) : Valuation τ sig (Elt F) :=
  Pipeline.withArrays spec2 c (W5 m ρ c) fun w => (dat2 (V5 m ρ) c).arrAt w cfg2.N
theorem W6_arr (c : Dev nD) (w : Fin cfg2.W) :
    W6 m ρ c (Proc.devRef .tc (Pipeline.arrRef spec2 w)) = (dat2 (V5 m ρ) c).arrAt w cfg2.N := by
  unfold W6; exact Pipeline.withArrays_arr spec2 launch2.win.arr_inj c _ _ w
theorem W6_of_ne (c : Dev nD) (b : Ref sig .tc) (hb : ∀ w, Pipeline.arrRef spec2 w ≠ b) :
    W6 m ρ c (Proc.devRef .tc b) = W5 m ρ c (Proc.devRef .tc b) := by
  unfold W6; exact Pipeline.withArrays_of_ne spec2 c _ _ b hb
abbrev V6 : (c : Dev nD) → (b : Ref sig .tc) → Buf (Elt F) ((c : Thread nD τ).loc b) := fun c b => W6 m ρ c b
theorem hF2 (c : Dev nD) (w : Fin cfg2.W) : (dat2 (V5 m ρ) c).arrAt w cfg2.N = V6 m ρ c (Pipeline.arrRef spec2 w) :=
  (W6_arr m ρ c w).symm
theorem hrest2 (c : Dev nD) : ∀ b, b ∉ Finset.univ.image (Pipeline.arrRef spec2) → V6 m ρ c b = V5 m ρ c b :=
  fun b hb => W6_of_ne m ρ c b fun w e => hb (Finset.mem_image.mpr ⟨w, Finset.mem_univ _, e⟩)

/-- After the final reshape: the contents the program ends with. -/
abbrev W7 : Dev nD → Valuation τ sig (Elt F) := fun c => StableHlo.after hostOps3 (W6 m ρ c)

/-! ## The proof data family and the thread state -/

/-- No pipeline has a prefetched table. -/
abbrev admH : (p : Fin 3) → (pcfgs (F := F) p).Adm := fun p => (cfgs p).toPCfg_adm
/-- Every pipeline's proof data, each at its region's entry contents. -/
def pdatsH : (p : Fin 3) → (c : Dev nD) → Dat τ (Elt F) Unit ℕ (UR sig nD τ) ℕ (Pipeline.pin (pcfgs (F := F)) admH p) c
  | ⟨0, _⟩ => fun c => dat0 (V1 m ρ) c
  | ⟨1, _⟩ => fun c => dat1 (V3 m ρ) c
  | ⟨2, _⟩ => fun c => dat2 (V5 m ρ) c
abbrev 𝒱H : Variants := Variants.none
/-- No core owes another anything. -/
abbrev LH : GSem nD τ sig → Finset Unit := fun _ => ∅
abbrev lvH : GSem nD τ sig → Unit → ℕ := fun _ _ => 0
/-- What rides beside the buffers through every item: the core's generator register at some state and its
    `owes`, at nothing. -/
abbrev RH (c : Dev nD) : sProp 𝕄 := iprop((∃ r, prngReg c r) ∗ ∃ W, owes (c : Thread nD τ) (0 : CellTallies nD τ sig Unit) W)
/-- A host stretch as a segment over the unscoped references from the contents `W`. -/
abbrev hsegH (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱H LH lvH :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W RH

theorem hostOps0_freshH : (hostOps0 : List (HloOp τ sig (Elt F))).Forall fun op => op.fresh = ∅ := by
  simp only [List.Forall]; repeat' constructor
theorem hostOps1_freshH : (hostOps1 : List (HloOp τ sig (Elt F))).Forall fun op => op.fresh = ∅ := by
  simp only [List.Forall]; repeat' constructor
theorem hostOps2_freshH : (hostOps2 : List (HloOp τ sig (Elt F))).Forall fun op => op.fresh = ∅ := by
  simp only [List.Forall]; repeat' constructor
theorem hostOps3_freshH : (hostOps3 : List (HloOp τ sig (Elt F))).Forall fun op => op.fresh = ∅ := by
  simp only [List.Forall]; repeat' constructor
/-- An unscoped TensorCore reference is among those the thread state holds. -/
theorem mem_ucH (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the `owes`. -/
abbrev TnH (c : Dev nD) : sProp 𝕄 := iprop(StableHlo.held (c : Thread nD τ) (Pipeline.ucRefs τ sig) (W7 m ρ c) ∗ ∃ r, prngReg c r)

/-! ## The regions as segments -/

set_option backward.isDefEq.respectTransparency.types false in
/-- The first linear region over the thread state: entered from every unscoped buffer at `W1`, left at `W2`. -/
def reg0 : Pipeline.RegionSeg (pcfgs (F := F)) admH (pdatsH m ρ) () defs₀ 𝒱H LH lvH 0 where
  win := launch0.win.to₀
  block_pos := launch0.block_pos
  stage_whole := launch0.stage_whole
  K := PEmpty
  osem k := k.elim
  ho := Pipeline.OwnSemFacts.none _
  hbody c := (body_obligation0 (V1 m ρ) c).loose
  hwaits := Pipeline.hwaits_of_owed_zero _ _ _ _ LH lvH 0 fun _ _ => rfl
  pre c := iprop(StableHlo.held (c : Thread nD τ) (Pipeline.ucRefs τ sig) (W1 m ρ c) ∗ RH c)
  post c := iprop(StableHlo.held (c : Thread nD τ) (Pipeline.ucRefs τ sig) (W2 m ρ c) ∗ RH c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) admH (pdatsH m ρ) launch0.win launch0.arr_whole c
      ((pdatsH m ρ 0 c).share_full fun _ => rfl) (V1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdatsH m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdatsH m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) admH (Ix := Unit) (Name := ℕ) (U := UR sig nD τ) (Lvl := ℕ)
      launch0.win launch0.arr_whole c (pdatsH m ρ) ((pdatsH m ρ 0 c).share_full fun _ => rfl)
      (V1 m ρ c) (V2 m ρ c) ((pdatsH m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The attention region over the thread state: entered from every unscoped buffer at `W3`, left at `W4`.  Its
    invariant takes the scoped rest and the generator register at the first point (the scratch buffers are found
    among the scoped rest) and gives them back at the last. -/
def reg1 : Pipeline.RegionSeg (pcfgs (F := F)) admH (pdatsH m ρ) () defs₀ 𝒱H LH lvH 1 where
  win := launch1.win.to₀
  block_pos := launch1.block_pos
  stage_whole := launch1.stage_whole
  K := PEmpty
  osem k := k.elim
  ho := Pipeline.OwnSemFacts.none _
  hbody c := (body_obligation1 (V3 m ρ) c).loose
  hwaits := Pipeline.hwaits_of_owed_zero _ _ _ _ LH lvH 1 fun _ _ => rfl
  pre c := iprop(StableHlo.held (c : Thread nD τ) (Pipeline.ucRefs τ sig) (W3 m ρ c) ∗ RH c)
  post c := iprop(StableHlo.held (c : Thread nD τ) (Pipeline.ucRefs τ sig) (W4 m ρ c) ∗ RH c)
  X c := iprop(∃ r, prngReg c r)
  Y c := iprop(∃ r, prngReg c r)
  Z c := Pipeline.unscopedRest (Ix := Unit) (Name := ℕ) (U := UR sig nD τ) (Lvl := ℕ) spec1 c (V3 m ρ c)
  hentry c := by
    rw [Pipeline.ownSems0_none]
    have hsplit := Pipeline.arrays_of_unscopedBufs (p := 1) (pcfgs (F := F)) admH (pdatsH m ρ) launch1.win launch1.arr_whole c
      ((pdatsH m ρ 1 c).share_full fun _ => rfl) (V3 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdatsH m ρ 1 c).Φ 0 = (dat1 (V3 m ρ) c).Φ 0 from rfl]
    have h1 := hin1 (V3 m ρ) c
    unfold Pipeline.ΦA at h1
    iintro ⟨Hp, -, Hr⟩
    iapply h1
    isplitl [Hr]; · iexact Hr
    iexact Hp
  hout c := by
    rw [Pipeline.ownSems0_none, show (pdatsH m ρ 1 c).Φ (Fin.last _) = (dat1 (V3 m ρ) c).Φ (Fin.last cfg1.N) from rfl]
    have h1 := hout1 (V3 m ρ) c
    unfold Pipeline.ΦA at h1
    iintro Hf
    ihave H := h1 $$ Hf
    icases H with ⟨Hr, Hp⟩
    isplitl [Hp]; · iexact Hp
    isplitr; · iempintro
    iexact Hr
  hexit c := by
    have hjoin := Pipeline.unscopedBufs_of_arrays (p := 1) (pcfgs (F := F)) admH (Ix := Unit) (Name := ℕ) (U := UR sig nD τ) (Lvl := ℕ)
      launch1.win launch1.arr_whole c (pdatsH m ρ) ((pdatsH m ρ 1 c).share_full fun _ => rfl)
      (V3 m ρ c) (V4 m ρ c) ((pdatsH m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The last linear region over the thread state: entered from every unscoped buffer at `W5`, left at `W6`. -/
def reg2 : Pipeline.RegionSeg (pcfgs (F := F)) admH (pdatsH m ρ) () defs₀ 𝒱H LH lvH 2 where
  win := launch2.win.to₀
  block_pos := launch2.block_pos
  stage_whole := launch2.stage_whole
  K := PEmpty
  osem k := k.elim
  ho := Pipeline.OwnSemFacts.none _
  hbody c := (body_obligation2 (V5 m ρ) c).loose
  hwaits := Pipeline.hwaits_of_owed_zero _ _ _ _ LH lvH 2 fun _ _ => rfl
  pre c := iprop(StableHlo.held (c : Thread nD τ) (Pipeline.ucRefs τ sig) (W5 m ρ c) ∗ RH c)
  post c := iprop(StableHlo.held (c : Thread nD τ) (Pipeline.ucRefs τ sig) (W6 m ρ c) ∗ RH c)
  X c := iprop(∃ r, prngReg c r)
  Y c := iprop(∃ r, prngReg c r)
  Z c := Pipeline.unscopedRest (Ix := Unit) (Name := ℕ) (U := UR sig nD τ) (Lvl := ℕ) spec2 c (V5 m ρ c)
  hentry c := by
    rw [Pipeline.ownSems0_none]
    have hsplit := Pipeline.arrays_of_unscopedBufs (p := 2) (pcfgs (F := F)) admH (pdatsH m ρ) launch2.win launch2.arr_whole c
      ((pdatsH m ρ 2 c).share_full fun _ => rfl) (V5 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdatsH m ρ 2 c).Φ 0 = Pipeline.ΦA spec2 c from rfl]; unfold Pipeline.ΦA
    iintro ⟨Hp, -, Hr⟩
    isplitl [Hr]; · iexact Hr
    iexact Hp
  hout c := by
    rw [Pipeline.ownSems0_none, show (pdatsH m ρ 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) admH (Ix := Unit) (Name := ℕ) (U := UR sig nD τ) (Lvl := ℕ)
      launch2.win launch2.arr_whole c (pdatsH m ρ) ((pdatsH m ρ 2 c).share_full fun _ => rfl)
      (V5 m ρ c) (V6 m ρ c) ((pdatsH m ρ 2 c).arrAt · cfg2.N) (hF2 m ρ c) (hrest2 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## @main as segments, and the launch -/

/-- @main's seven segments in order. -/
abbrev segsH : List (Pipeline.Seg (pcfgs (F := F)) admH (pdatsH m ρ) () defs₀ 𝒱H LH lvH) :=
  [ .host (hsegH hostOps0 hostOps0_sub hostOps0_freshH (W0 m ρ)),
    .region (reg0 m ρ),
    .host (hsegH hostOps1 hostOps1_sub hostOps1_freshH (W2 m ρ)),
    .region (reg1 m ρ),
    .host (hsegH hostOps2 hostOps2_sub hostOps2_freshH (W4 m ρ)),
    .region (reg2 m ρ),
    .host (hsegH hostOps3 hostOps3_sub hostOps3_freshH (W6 m ρ)) ]
/-- @main is the run of the segments. -/
theorem main_runH (c : Dev nD) : main (F := F) c = Pipeline.Seg.run (segsH m ρ) := (main_chain c).trans (by chain_rfl)

set_option backward.isDefEq.respectTransparency.types false in
/-- **The run.**  From any memory with zero counters, every weakly fair execution of @main on the TensorCores
    terminates, nothing faulting, and every final state holds every unscoped buffer at the last boundary's
    contents `W7`: the arguments (which no item writes) and the result among them. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W7 m ρ c b) :=
  Pipeline.θ_run_regions_kit (pcfgs (F := F)) admH (pdatsH m ρ) () cellOf_inj emb₁ defs₀ 𝒱H LH lvH m ρ main (segsH m ρ)
    (fun c Q => by rw [main_runH m ρ c])
    (by simp only [segsH, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ RH c)) (Tₙ := TnH m ρ)
    (hch := ⟨fun _ => .rfl, fun _ => .rfl, fun _ => .rfl, fun _ => .rfl, fun _ => .rfl, fun _ => .rfl, fun _ => .rfl, fun c => by
      show iprop(StableHlo.held (c : Thread nD τ) (Pipeline.ucRefs τ sig) (W7 m ρ c) ∗ RH c) ⊢ _
      iintro ⟨Hh, Hp, HO⟩
      isplitr [HO]
      · isplitl [Hh]; · iexact Hh
        iexact Hp
      iexact HO⟩)
    (hinit := by
      refine Pipeline.initEach LH lvH fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W7 m ρ c b)
    (hfin := fun c s' => by
      iintro ⟨⟨Hh, -⟩, HSI⟩
      unfold StableHlo.held
      imodintro
      iapply (pointsTo_read_all (Pipeline.ucRefs τ sig) (fun b => (((c : Thread nD τ)).1, b)) (W7 m ρ c) s')
      isplitl [Hh] <;> iassumption)
    (hQ := fun s h => h)

end Cert.KernelIdeal.Hand

end
-- ==== Proof.IdealHostKept.lean ====
/- Each stretch of host operations of @main leaves every array it does not write as it found it.  A stretch is a
   list of operations, each writing exactly one array (its result); an array that is no operation's result holds after
   the stretch what it held before.  Stated for any float instance and any valuation of the buffers before the stretch,
   one lemma per stretch quantified over the array, with the list of the arrays the stretch writes. -/
import proofs.«180477_j74028056314061_2_alg».proof.Proof.Gen.KernelIdeal.Launch
import Idealize.ShloMosaic.Lib.StableHlo.Run

noncomputable section

namespace Cert.KernelIdeal.Hand

open Cert.KernelIdeal Cert.KernelIdeal.Gen
open Idealize.ShloMosaic Idealize.ShloMosaic.TcCoe

variable {F : FTy → Type} [FloatOps F] [Named F]

/-- The arrays stretch 0 writes: the merged rows, the three transposed weights, the fused weight before and after its conversion, the fused bias and its one-row form. -/
abbrev keptW0 : List (Ref sig .tc) := [main_v0, main_v1, main_v2, main_v3, main_v4, main_v5, main_v6, main_v7]

/-- Every operation of stretch 0 writes one of them. -/
theorem kept0_writes : (hostOps0 : List (HloOp τ sig (Elt F))).Forall fun op =>
    op.writes ⊆ (keptW0.map (Proc.devRef (τ := τ) .tc)).toFinset := by
  simp only [List.Forall]
  refine ⟨?_, ?_, ?_, ?_, ?_, ?_, ?_, ?_⟩ <;>
    (simp only [StableHlo.nullary_writes, StableHlo.unary_writes, StableHlo.binary_writes, StableHlo.ternary_writes,
      StableHlo.quaternary_writes, StableHlo.reshape_writes, StableHlo.binaryIndexed_writes, StableHlo.unaryIndexed_writes,
      StableHlo.nary_writes, Finset.singleton_subset_iff, List.mem_toFinset];
     exact List.mem_map_of_mem (by decide))

/-- Stretch 0 leaves every other array as it found it. -/
theorem kept0 (W : Valuation τ sig (Elt F)) (b : Ref sig .tc)
    (hb : b ∉ ([main_v0, main_v1, main_v2, main_v3, main_v4, main_v5, main_v6, main_v7] : List (Ref sig .tc))) :
    StableHlo.after (hostOps0 (F := F)) W (Proc.devRef .tc b) = W (Proc.devRef .tc b) :=
  StableHlo.after_of_writes_sub hostOps0 W kept0_writes hb

/-- The arrays stretch 1 writes: the three column bands of the fused product and their batched forms. -/
abbrev keptW1 : List (Ref sig .tc) := [main_v9, main_v10, main_v11, main_v12, main_v13, main_v14]

/-- Every operation of stretch 1 writes one of them. -/
theorem kept1_writes : (hostOps1 : List (HloOp τ sig (Elt F))).Forall fun op =>
    op.writes ⊆ (keptW1.map (Proc.devRef (τ := τ) .tc)).toFinset := by
  simp only [List.Forall]
  refine ⟨?_, ?_, ?_, ?_, ?_, ?_⟩ <;>
    (simp only [StableHlo.nullary_writes, StableHlo.unary_writes, StableHlo.binary_writes, StableHlo.ternary_writes,
      StableHlo.quaternary_writes, StableHlo.reshape_writes, StableHlo.binaryIndexed_writes, StableHlo.unaryIndexed_writes,
      StableHlo.nary_writes, Finset.singleton_subset_iff, List.mem_toFinset];
     exact List.mem_map_of_mem (by decide))

/-- Stretch 1 leaves every other array as it found it. -/
theorem kept1 (W : Valuation τ sig (Elt F)) (b : Ref sig .tc)
    (hb : b ∉ ([main_v9, main_v10, main_v11, main_v12, main_v13, main_v14] : List (Ref sig .tc))) :
    StableHlo.after (hostOps1 (F := F)) W (Proc.devRef .tc b) = W (Proc.devRef .tc b) :=
  StableHlo.after_of_writes_sub hostOps1 W kept1_writes hb

/-- The arrays stretch 2 writes: the merged attention output, the transposed output weight before and after its conversion, the one-row output bias. -/
abbrev keptW2 : List (Ref sig .tc) := [main_v16, main_v17, main_v18, main_v19]

/-- Every operation of stretch 2 writes one of them. -/
theorem kept2_writes : (hostOps2 : List (HloOp τ sig (Elt F))).Forall fun op =>
    op.writes ⊆ (keptW2.map (Proc.devRef (τ := τ) .tc)).toFinset := by
  simp only [List.Forall]
  refine ⟨?_, ?_, ?_, ?_⟩ <;>
    (simp only [StableHlo.nullary_writes, StableHlo.unary_writes, StableHlo.binary_writes, StableHlo.ternary_writes,
      StableHlo.quaternary_writes, StableHlo.reshape_writes, StableHlo.binaryIndexed_writes, StableHlo.unaryIndexed_writes,
      StableHlo.nary_writes, Finset.singleton_subset_iff, List.mem_toFinset];
     exact List.mem_map_of_mem (by decide))

/-- Stretch 2 leaves every other array as it found it. -/
theorem kept2 (W : Valuation τ sig (Elt F)) (b : Ref sig .tc)
    (hb : b ∉ ([main_v16, main_v17, main_v18, main_v19] : List (Ref sig .tc))) :
    StableHlo.after (hostOps2 (F := F)) W (Proc.devRef .tc b) = W (Proc.devRef .tc b) :=
  StableHlo.after_of_writes_sub hostOps2 W kept2_writes hb

/-- The arrays stretch 3 writes: the batched result. -/
abbrev keptW3 : List (Ref sig .tc) := [main_v21]

/-- Every operation of stretch 3 writes one of them. -/
theorem kept3_writes : (hostOps3 : List (HloOp τ sig (Elt F))).Forall fun op =>
    op.writes ⊆ (keptW3.map (Proc.devRef (τ := τ) .tc)).toFinset := by
  simp only [List.Forall]
  (simp only [StableHlo.nullary_writes, StableHlo.unary_writes, StableHlo.binary_writes, StableHlo.ternary_writes,
      StableHlo.quaternary_writes, StableHlo.reshape_writes, StableHlo.binaryIndexed_writes, StableHlo.unaryIndexed_writes,
      StableHlo.nary_writes, Finset.singleton_subset_iff, List.mem_toFinset];
     exact List.mem_map_of_mem (by decide))

/-- Stretch 3 leaves every other array as it found it. -/
theorem kept3 (W : Valuation τ sig (Elt F)) (b : Ref sig .tc)
    (hb : b ∉ ([main_v21] : List (Ref sig .tc))) :
    StableHlo.after (hostOps3 (F := F)) W (Proc.devRef .tc b) = W (Proc.devRef .tc b) :=
  StableHlo.after_of_writes_sub hostOps3 W kept3_writes hb

/-! ## The arguments -/

/-- No stretch writes an argument: each of the nine is in none of the four lists. -/
theorem args_not_written (b : Ref sig .tc)
    (hb : b ∈ ([main_arg0, main_arg1, main_arg2, main_arg3, main_arg4, main_arg5, main_arg6, main_arg7, main_arg8] :
      List (Ref sig .tc))) :
    b ∉ keptW0 ∧ b ∉ keptW1 ∧ b ∉ keptW2 ∧ b ∉ keptW3 := by
  revert b
  decide

end Cert.KernelIdeal.Hand
-- ==== Proof.IdealEnds.lean ====
/-
  What the run ends with.  No host stretch writes an argument array and no region's output window is an
  argument, so at the last boundary each of the nine argument buffers holds its launch contents: the
  program's frame.
-/
import proofs.«180477_j74028056314061_2_alg».proof.Proof.IdealRun
import proofs.«180477_j74028056314061_2_alg».proof.Proof.IdealHostKept

set_option maxRecDepth 16384

noncomputable section

namespace Cert.KernelIdeal.Hand

open Cert.KernelIdeal Cert.KernelIdeal.Gen
open Idealize.ShloMosaic Idealize.ShloMosaic.TcCoe
open Idealize.SL Idealize.SL.Sem

variable {F : FTy → Type} [FloatOps F] [Named F]

variable (m : (ℓ : Loc nD τ sig) → Buf (Elt F) ℓ) (ρ : Dev nD → PrngReg)

/-- The first region's windows are the reshaped x, the fused weight, the fused bias and the fused product. -/
theorem arr0_ne (b : Ref sig .tc) (hb : b ∉ ([main_v0, main_v5, main_v7, main_v8] : List (Ref sig .tc))) :
    ∀ w, Pipeline.arrRef spec0 w ≠ b := by
  intro w e
  fin_cases w <;> (subst e; simp at hb)

/-- The attention region's windows are the three batched bands and the attention output. -/
theorem arr1_ne (b : Ref sig .tc) (hb : b ∉ ([main_v12, main_v13, main_v14, main_v15] : List (Ref sig .tc))) :
    ∀ w, Pipeline.arrRef spec1 w ≠ b := by
  intro w e
  fin_cases w <;> (subst e; simp at hb)

/-- The last region's windows are the merged attention output, the transposed output weight, its bias row and the product. -/
theorem arr2_ne (b : Ref sig .tc) (hb : b ∉ ([main_v16, main_v18, main_v19, main_v20] : List (Ref sig .tc))) :
    ∀ w, Pipeline.arrRef spec2 w ≠ b := by
  intro w e
  fin_cases w <;> (subst e; simp at hb)

/-- An argument buffer holds its launch contents at the last boundary. -/
theorem W7_arg (c : Dev nD) (b : Ref sig .tc)
    (hb : b ∈ ([main_arg0, main_arg1, main_arg2, main_arg3, main_arg4, main_arg5, main_arg6, main_arg7, main_arg8] : List (Ref sig .tc))) :
    W7 m ρ c (Proc.devRef .tc b) = m ((c : Thread nD τ).loc b) := by
  obtain ⟨h0, h1, h2, h3⟩ := args_not_written b hb
  have hn0 : b ∉ ([main_v0, main_v5, main_v7, main_v8] : List (Ref sig .tc)) := by
    simp only [List.mem_cons, List.mem_nil_iff, or_false] at hb ⊢
    rcases hb with rfl | rfl | rfl | rfl | rfl | rfl | rfl | rfl | rfl <;> decide
  have hn1 : b ∉ ([main_v12, main_v13, main_v14, main_v15] : List (Ref sig .tc)) := by
    simp only [List.mem_cons, List.mem_nil_iff, or_false] at hb ⊢
    rcases hb with rfl | rfl | rfl | rfl | rfl | rfl | rfl | rfl | rfl <;> decide
  have hn2 : b ∉ ([main_v16, main_v18, main_v19, main_v20] : List (Ref sig .tc)) := by
    simp only [List.mem_cons, List.mem_nil_iff, or_false] at hb ⊢
    rcases hb with rfl | rfl | rfl | rfl | rfl | rfl | rfl | rfl | rfl <;> decide
  calc W7 m ρ c (Proc.devRef .tc b)
      _ = W6 m ρ c (Proc.devRef .tc b) := kept3 _ b h3
      _ = W5 m ρ c (Proc.devRef .tc b) := W6_of_ne m ρ c b (arr2_ne b hn2)
      _ = W4 m ρ c (Proc.devRef .tc b) := kept2 _ b h2
      _ = W3 m ρ c (Proc.devRef .tc b) := W4_of_ne m ρ c b (arr1_ne b hn1)
      _ = W2 m ρ c (Proc.devRef .tc b) := kept1 _ b h1
      _ = W1 m ρ c (Proc.devRef .tc b) := W2_of_ne m ρ c b (arr0_ne b hn0)
      _ = W0 m ρ c (Proc.devRef .tc b) := kept0 _ b h0
      _ = m ((c : Thread nD τ).loc b) := rfl

/-- An argument is an unscoped TensorCore reference. -/
theorem arg_uc (b : Ref sig .tc)
    (hb : b ∈ ([main_arg0, main_arg1, main_arg2, main_arg3, main_arg4, main_arg5, main_arg6, main_arg7, main_arg8, main_v21] : List (Ref sig .tc))) :
    Proc.devRef .tc b ∈ Pipeline.ucRefs τ sig := by
  simp only [List.mem_cons, List.mem_nil_iff, or_false] at hb
  rcases hb with rfl | rfl | rfl | rfl | rfl | rfl | rfl | rfl | rfl | rfl <;> exact mem_ucH _ (by decide)

/-- **The frame**: every weakly fair execution terminates, nothing faults, and the nine argument arrays end as
    launched; and the result buffer ends at the last boundary's contents. -/
theorem run_ends : θ_run defs (onTc (τ := τ) (main (F := F))) ⟨m, fun _ => 0, ρ⟩ (fun r => ∀ c : Dev nD,
      r.2.mem ((c.tc : Thread nD τ).loc main_v21) = W7 m ρ c (Proc.devRef .tc main_v21)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  (θ_run defs _ _).mono (fun r h c =>
    ⟨h c _ (arg_uc main_v21 (by decide)),
     (h c _ (arg_uc main_arg0 (by decide))).trans (W7_arg m ρ c main_arg0 (by decide)),
     (h c _ (arg_uc main_arg1 (by decide))).trans (W7_arg m ρ c main_arg1 (by decide)),
     (h c _ (arg_uc main_arg2 (by decide))).trans (W7_arg m ρ c main_arg2 (by decide)),
     (h c _ (arg_uc main_arg3 (by decide))).trans (W7_arg m ρ c main_arg3 (by decide)),
     (h c _ (arg_uc main_arg4 (by decide))).trans (W7_arg m ρ c main_arg4 (by decide)),
     (h c _ (arg_uc main_arg5 (by decide))).trans (W7_arg m ρ c main_arg5 (by decide)),
     (h c _ (arg_uc main_arg6 (by decide))).trans (W7_arg m ρ c main_arg6 (by decide)),
     (h c _ (arg_uc main_arg7 (by decide))).trans (W7_arg m ρ c main_arg7 (by decide)),
     (h c _ (arg_uc main_arg8 (by decide))).trans (W7_arg m ρ c main_arg8 (by decide))⟩)
    (run_all m ρ)

end Cert.KernelIdeal.Hand

end
-- ==== Proof.Spec.lean ====
/-
  The function both programs compute, on the extended reals, index by index: one head of causal
  self-attention between four linear layers.

  With x : [4, 2048, 1024] and, for each of the query, key, value and output layers, a weight
  W : [1024, 1024] and a bias b : [1024]:
    q, k, v  =  x Wᵀ + b                          (a row of x against a row of W, plus the bias entry)
    score (n, s, t)  =  ⟨q(n, s, ·), k(n, t, ·)⟩ / 32   when t ≤ s,   −∞ otherwise    (32 = √1024)
    weight (n, s, t)  =  exp (score − the row's maximum)  /  the row's sum of such exponentials
    ctx (n, s, d)  =  Σ_t weight (n, s, t) · v(n, t, d)
    out  =  ctx Woᵀ + bo.
  Every operation is the exact one on [−∞, +∞]: the exponential sends −∞ to 0, so a masked score
  weighs nothing; the row's maximum is a supremum, and a row always holds the finite score t = 0.
-/
import Idealize.ShloMosaic.PureOps.Ideal
import Idealize.ShloMosaic.Lib.ValueIdx

noncomputable section

namespace Cert.Attn

open Idealize.ShloMosaic Idealize.ShloMosaic.ValueIdx
open scoped BigOperators

/-- Arrays of the three shapes the programs take, as functions of an index. -/
abbrev Arr3 : Type := (⟨3, ![4, 2048, 1024]⟩ : Shape).Idx → EReal
abbrev Arr2 : Type := (⟨2, ![1024, 1024]⟩ : Shape).Idx → EReal
abbrev Arr1 : Type := (⟨1, ![1024]⟩ : Shape).Idx → EReal

/-- An activation by coordinates: batch entry, position, feature. -/
abbrev Act : Type := Fin 4 → Fin 2048 → Fin 1024 → EReal

/-- A linear layer, y = x Wᵀ + b: entry (n, s, e) contracts row (n, s) of x with row e of W. -/
def lin (x : Act) (W : Arr2) (b : Arr1) : Act :=
  fun n s e => (∑ d : Fin 1024, x n s d * W (ix2 e d)) + b (ix1 e)

/-- The scale 1 / √1024 = 1 / 32. -/
def scale : EReal := ((1 / 32 : ℝ) : EReal)

/-- The causal score of key position t for query position s: the scaled inner product when the
    key does not come after the query, −∞ when it does. -/
def score (q k : Act) (n : Fin 4) (s t : Fin 2048) : EReal :=
  if t.val ≤ s.val then (∑ d : Fin 1024, q n s d * k n t d) * scale else ⊥

/-- The largest score of a query's row. -/
def rowMax (q k : Act) (n : Fin 4) (s : Fin 2048) : EReal :=
  (Finset.univ : Finset (Fin 2048)).sup (fun t => score q k n s t)

/-- A key's unnormalised weight: the exponential of its score less the row's maximum. -/
def wexp (q k : Act) (n : Fin 4) (s t : Fin 2048) : EReal :=
  Ideal.exp (score q k n s t - rowMax q k n s)

/-- The row's normaliser. -/
def rowSum (q k : Act) (n : Fin 4) (s : Fin 2048) : EReal :=
  ∑ t : Fin 2048, wexp q k n s t

/-- The attention output before the last layer: the values averaged with the softmax weights. -/
def ctx (q k v : Act) : Act :=
  fun n s d => ∑ t : Fin 2048, Ideal.div (wexp q k n s t) (rowSum q k n s) * v n t d

/-- An array of shape [4, 2048, 1024] read by coordinates. -/
def act (x : Arr3) : Act := fun n s d => x (ix3 n s d)

/-- The whole function: the result array at index i from the nine argument arrays. -/
def G (x : Arr3) (Wq : Arr2) (bq : Arr1) (Wk : Arr2) (bk : Arr1) (Wv : Arr2) (bv : Arr1)
    (Wo : Arr2) (bo : Arr1) : Arr3 :=
  fun i => lin (ctx (lin (act x) Wq bq) (lin (act x) Wk bk) (lin (act x) Wv bv)) Wo bo
    ⟨(i 0).val, (i 0).isLt⟩ ⟨(i 1).val, (i 1).isLt⟩ ⟨(i 2).val, (i 2).isLt⟩

end Cert.Attn

end
-- ==== Proof.LibOnlineSoftmax.lean ====
import Idealize.ShloMosaic.PureOps.Ideal

/-!
# The online softmax recurrence computes the plain softmax-weighted sum

A row of finite scores is read in `J` tiles of `K` scores each.  A state
`(m, l, a)` — running maximum, running normaliser, running weighted sum — starts at
`(⊥, 0, 0)` and is updated tile by tile: the maximum is raised to cover the new tile, the
old normaliser and weighted sum are rescaled by `exp (m - m')`, and the new tile's terms
`exp (e k - m')` (times the value `h k` for the weighted sum) are added.  After all the
tiles, `m` is the maximum of the whole row, `l` is `∑ exp (e - max)`, and `a / l` is the
softmax-weighted sum `∑ (exp (e - max) / l) * h`.

Everything is stated on the extended reals, with the exponential that sends `⊥` to `0`,
so that the empty history contributes nothing to the first tile.
-/

noncomputable section

namespace Cert.Online

open Idealize.ShloMosaic
open scoped BigOperators

/-- One tile's update of (running maximum, running normaliser, running weighted sum). -/
def upd {K : ℕ} (e h : Fin K → EReal) (s : EReal × EReal × EReal) : EReal × EReal × EReal :=
  (max s.1 ((Finset.univ : Finset (Fin K)).fold max ⊥ e),
   Ideal.exp (s.1 - max s.1 ((Finset.univ : Finset (Fin K)).fold max ⊥ e)) * s.2.1 + ∑ k : Fin K, Ideal.exp (e k - max s.1 ((Finset.univ : Finset (Fin K)).fold max ⊥ e)),
   Ideal.exp (s.1 - max s.1 ((Finset.univ : Finset (Fin K)).fold max ⊥ e)) * s.2.2 + ∑ k : Fin K, Ideal.exp (e k - max s.1 ((Finset.univ : Finset (Fin K)).fold max ⊥ e)) * h k)

/-- The state after the first n tiles. -/
def after {J K : ℕ} (e h : Fin J → Fin K → EReal) : (n : ℕ) → n ≤ J → EReal × EReal × EReal
  | 0, _ => (⊥, 0, 0)
  | n + 1, hn => upd (e ⟨n, hn⟩) (h ⟨n, hn⟩) (after e h n (Nat.le_of_succ_le hn))

/-- The coercion of the reals into the extended reals commutes with finite sums. -/
theorem coe_sum {ι : Type*} (s : Finset ι) (f : ι → ℝ) :
    ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- The coercion of the reals into the extended reals commutes with binary maxima. -/
theorem coe_max (x y : ℝ) : ((max x y : ℝ) : EReal) = max (x : EReal) (y : EReal) :=
  EReal.coe_strictMono.monotone.map_max

/-- A maximum folded from `⊥` over a finite set is that set's supremum. -/
theorem fold_max_eq_sup {ι : Type*} (s : Finset ι) (f : ι → EReal) : s.fold max ⊥ f = s.sup f := rfl

/-- The supremum in the extended reals of finitely many reals, at least one, is a real. -/
theorem exists_coe_eq_sup {ι : Type*} (s : Finset ι) (hs : s.Nonempty) (f : ι → ℝ) :
    ∃ m : ℝ, (m : EReal) = s.sup (fun i => (f i : EReal)) := by
  obtain ⟨i, _, hi⟩ := Finset.exists_mem_eq_sup s hs (fun i => (f i : EReal))
  exact ⟨f i, hi.symm⟩

/-- One tile's update of a state of three reals, the tile's scores and values being real and
    `T` the tile's maximum: the new state is again three reals, given by the same formulas
    read in the reals. -/
theorem upd_coe {K : ℕ} (e h : Fin K → ℝ) (M l a T : ℝ)
    (hT : (T : EReal) = (Finset.univ : Finset (Fin K)).sup (fun k => (e k : EReal))) :
    upd (fun k => (e k : EReal)) (fun k => (h k : EReal)) ((M : EReal), (l : EReal), (a : EReal))
      = (((max M T : ℝ) : EReal),
         ((Real.exp (M - max M T) * l + ∑ k, Real.exp (e k - max M T) : ℝ) : EReal),
         ((Real.exp (M - max M T) * a + ∑ k, Real.exp (e k - max M T) * h k : ℝ) : EReal)) := by
  have hmax : max (M : EReal) ((Finset.univ : Finset (Fin K)).fold max ⊥ (fun k => (e k : EReal)))
      = ((max M T : ℝ) : EReal) := by
    rw [fold_max_eq_sup, ← hT, coe_max]
  simp only [upd, hmax, ← EReal.coe_sub, Ideal.exp_coe, ← EReal.coe_mul, ← coe_sum, ← EReal.coe_add]

/-- The first tile's update, from the empty history `(⊥, 0, 0)`: the rescaling factor is
    `exp ⊥ = 0`, and the state becomes the tile's own maximum, normaliser and weighted sum. -/
theorem upd_bot {K : ℕ} (e h : Fin K → ℝ) (T : ℝ)
    (hT : (T : EReal) = (Finset.univ : Finset (Fin K)).sup (fun k => (e k : EReal))) :
    upd (fun k => (e k : EReal)) (fun k => (h k : EReal)) (⊥, 0, 0)
      = ((T : EReal), ((∑ k, Real.exp (e k - T) : ℝ) : EReal),
         ((∑ k, Real.exp (e k - T) * h k : ℝ) : EReal)) := by
  have hmax : max (⊥ : EReal) ((Finset.univ : Finset (Fin K)).fold max ⊥ (fun k => (e k : EReal)))
      = (T : EReal) := by
    rw [fold_max_eq_sup, ← hT, max_bot_left]
  simp only [upd, hmax, EReal.bot_sub, Ideal.exp_bot, zero_mul, zero_add, ← EReal.coe_sub,
    Ideal.exp_coe, ← EReal.coe_mul, ← coe_sum]

/-- The exponential rescaling of one term when the reference maximum moves from `M` to `M'`. -/
theorem exp_rescale (M M' x : ℝ) : Real.exp (M - M') * Real.exp (x - M) = Real.exp (x - M') := by
  rw [← Real.exp_add]; congr 1; ring

/-- The invariant of the recurrence.  After `n + 1` tiles of real scores and values the state
    is three reals: the maximum `M` of the scores read so far, the sum of `exp (e - M)` over
    them, and the sum of `exp (e - M) * h` over them. -/
theorem after_succ_coe {J K : ℕ} (hK : 0 < K) (e h : Fin J → Fin K → ℝ) :
    ∀ (n : ℕ) (hn : n + 1 ≤ J), ∃ M : ℝ,
      (M : EReal) = (Finset.univ.filter (fun j : Fin J => j.val < n + 1)).sup
          (fun j => (Finset.univ : Finset (Fin K)).sup (fun k => ((e j k : ℝ) : EReal)))
      ∧ after (fun j k => ((e j k : ℝ) : EReal)) (fun j k => ((h j k : ℝ) : EReal)) (n + 1) hn
        = ((M : EReal),
           ((∑ j ∈ Finset.univ.filter (fun j : Fin J => j.val < n + 1), ∑ k, Real.exp (e j k - M) : ℝ) : EReal),
           ((∑ j ∈ Finset.univ.filter (fun j : Fin J => j.val < n + 1), ∑ k, Real.exp (e j k - M) * h j k : ℝ) : EReal)) := by
  intro n
  induction n with
  | zero =>
    intro hn
    obtain ⟨T, hT⟩ := exists_coe_eq_sup Finset.univ ⟨⟨0, hK⟩, Finset.mem_univ _⟩ (e ⟨0, hn⟩)
    have hS : Finset.univ.filter (fun j : Fin J => j.val < 0 + 1) = {⟨0, hn⟩} := by
      ext j; simp [Fin.ext_iff]
    refine ⟨T, ?_, ?_⟩
    · rw [hS, Finset.sup_singleton]; exact hT
    · rw [hS, Finset.sum_singleton, Finset.sum_singleton]
      exact upd_bot (e ⟨0, hn⟩) (h ⟨0, hn⟩) T hT
  | succ n ih =>
    intro hn
    obtain ⟨M, hM, hA⟩ := ih (Nat.le_of_succ_le hn)
    obtain ⟨T, hT⟩ := exists_coe_eq_sup Finset.univ ⟨⟨0, hK⟩, Finset.mem_univ _⟩ (e ⟨n + 1, hn⟩)
    have hS : Finset.univ.filter (fun j : Fin J => j.val < n + 1 + 1)
        = insert ⟨n + 1, hn⟩ (Finset.univ.filter (fun j : Fin J => j.val < n + 1)) := by
      ext j; simp [Fin.ext_iff]; omega
    have hnot : (⟨n + 1, hn⟩ : Fin J) ∉ Finset.univ.filter (fun j : Fin J => j.val < n + 1) := by
      simp
    refine ⟨max M T, ?_, ?_⟩
    · rw [hS, Finset.sup_insert, ← hM, ← hT, coe_max, max_comm]
    · have step : after (fun j k => ((e j k : ℝ) : EReal)) (fun j k => ((h j k : ℝ) : EReal)) (n + 1 + 1) hn
          = upd (fun k => ((e ⟨n + 1, hn⟩ k : ℝ) : EReal)) (fun k => ((h ⟨n + 1, hn⟩ k : ℝ) : EReal))
              (after (fun j k => ((e j k : ℝ) : EReal)) (fun j k => ((h j k : ℝ) : EReal)) (n + 1)
                (Nat.le_of_succ_le hn)) := rfl
      rw [step, hA, upd_coe _ _ M _ _ T hT, hS, Finset.sum_insert hnot, Finset.sum_insert hnot]
      have e1 : Real.exp (M - max M T)
            * ∑ j ∈ Finset.univ.filter (fun j : Fin J => j.val < n + 1), ∑ k, Real.exp (e j k - M)
          = ∑ j ∈ Finset.univ.filter (fun j : Fin J => j.val < n + 1), ∑ k, Real.exp (e j k - max M T) := by
        rw [Finset.mul_sum]
        refine Finset.sum_congr rfl fun j _ => ?_
        rw [Finset.mul_sum]
        exact Finset.sum_congr rfl fun k _ => exp_rescale _ _ _
      have e2 : Real.exp (M - max M T)
            * ∑ j ∈ Finset.univ.filter (fun j : Fin J => j.val < n + 1), ∑ k, Real.exp (e j k - M) * h j k
          = ∑ j ∈ Finset.univ.filter (fun j : Fin J => j.val < n + 1), ∑ k, Real.exp (e j k - max M T) * h j k := by
        rw [Finset.mul_sum]
        refine Finset.sum_congr rfl fun j _ => ?_
        rw [Finset.mul_sum]
        refine Finset.sum_congr rfl fun k _ => ?_
        rw [← mul_assoc, exp_rescale]
      rw [e1, e2, add_comm (∑ j ∈ _, ∑ k, Real.exp (e j k - max M T)),
        add_comm (∑ j ∈ _, ∑ k, Real.exp (e j k - max M T) * h j k)]

/-- **The online softmax recurrence is the plain softmax.**  For `J ≥ 1` tiles of `K ≥ 1` real
    scores `e j k` with real values `h j k`, the state `(m, l, a)` after all `J` tiles satisfies:
    `m` is the maximum of all the scores; `l` is the sum over all scores of `exp (e - m)`; and the
    quotient `a / l` is the softmax-weighted sum of the values, `∑ (exp (e - m) / l) * h`. -/
theorem after_all {J K : ℕ} (hJ : 0 < J) (hK : 0 < K) (e h : Fin J → Fin K → ℝ) :
    (after (fun j k => ((e j k : ℝ) : EReal)) (fun j k => ((h j k : ℝ) : EReal)) J le_rfl).1
        = (Finset.univ : Finset (Fin J)).sup (fun j => (Finset.univ : Finset (Fin K)).sup (fun k => ((e j k : ℝ) : EReal)))
    ∧ (after (fun j k => ((e j k : ℝ) : EReal)) (fun j k => ((h j k : ℝ) : EReal)) J le_rfl).2.1
        = ∑ j : Fin J, ∑ k : Fin K, Ideal.exp (((e j k : ℝ) : EReal) - (Finset.univ : Finset (Fin J)).sup (fun j => (Finset.univ : Finset (Fin K)).sup (fun k => ((e j k : ℝ) : EReal))))
    ∧ Ideal.div (after (fun j k => ((e j k : ℝ) : EReal)) (fun j k => ((h j k : ℝ) : EReal)) J le_rfl).2.2 (after (fun j k => ((e j k : ℝ) : EReal)) (fun j k => ((h j k : ℝ) : EReal)) J le_rfl).2.1
        = ∑ j : Fin J, ∑ k : Fin K, Ideal.div (Ideal.exp (((e j k : ℝ) : EReal) - (Finset.univ : Finset (Fin J)).sup (fun j => (Finset.univ : Finset (Fin K)).sup (fun k => ((e j k : ℝ) : EReal))))) (∑ j : Fin J, ∑ k : Fin K, Ideal.exp (((e j k : ℝ) : EReal) - (Finset.univ : Finset (Fin J)).sup (fun j => (Finset.univ : Finset (Fin K)).sup (fun k => ((e j k : ℝ) : EReal))))) * ((h j k : ℝ) : EReal) := by
  obtain ⟨n, rfl⟩ : ∃ n, J = n + 1 := ⟨J - 1, by omega⟩
  obtain ⟨M, hM, hA⟩ := after_succ_coe hK e h n le_rfl
  have hS : Finset.univ.filter (fun j : Fin (n + 1) => j.val < n + 1) = Finset.univ :=
    Finset.filter_true_of_mem fun j _ => j.isLt
  rw [hS] at hM hA
  rw [hA, ← hM]
  -- the normaliser is a positive real
  have hl : (0 : ℝ) < ∑ j : Fin (n + 1), ∑ k : Fin K, Real.exp (e j k - M) := by
    haveI : Nonempty (Fin K) := ⟨⟨0, hK⟩⟩
    exact Finset.sum_pos (fun j _ => Finset.sum_pos (fun k _ => Real.exp_pos _) Finset.univ_nonempty)
      Finset.univ_nonempty
  have hsum : ∑ j : Fin (n + 1), ∑ k : Fin K, Ideal.exp (((e j k : ℝ) : EReal) - (M : EReal))
      = ((∑ j : Fin (n + 1), ∑ k : Fin K, Real.exp (e j k - M) : ℝ) : EReal) := by
    simp only [← EReal.coe_sub, Ideal.exp_coe, ← coe_sum]
  refine ⟨rfl, hsum.symm, ?_⟩
  rw [hsum]
  simp only [Ideal.div_coe hl.ne', ← EReal.coe_sub, Ideal.exp_coe, ← EReal.coe_mul, ← coe_sum]
  congr 1
  rw [Finset.sum_mul]
  refine Finset.sum_congr rfl fun j _ => ?_
  rw [Finset.sum_mul]
  refine Finset.sum_congr rfl fun k _ => ?_
  ring

end Cert.Online
-- ==== Proof.SpecReal.lean ====
/-
  A linear layer of real-valued arrays is real-valued: a finite sum of products of reals plus a real.
-/
import proofs.«180477_j74028056314061_2_alg».proof.Proof.Spec
import proofs.«180477_j74028056314061_2_alg».proof.Proof.LibOnlineSoftmax

noncomputable section

namespace Cert.Attn

open Idealize.ShloMosaic Idealize.ShloMosaic.ValueIdx
open scoped BigOperators

/-- If every entry of x, W and b is a real, so is every entry of x Wᵀ + b. -/
theorem lin_real (x : Act) (W : Arr2) (b : Arr1) (hx : ∀ n s d, ∃ r : ℝ, x n s d = (r : EReal))
    (hW : ∀ i, ∃ r : ℝ, W i = (r : EReal)) (hb : ∀ i, ∃ r : ℝ, b i = (r : EReal)) (n : Fin 4) (s : Fin 2048) (e : Fin 1024) :
    ∃ r : ℝ, lin x W b n s e = (r : EReal) := by
  choose xr hxr using hx
  choose Wr hWr using hW
  choose br hbr using hb
  refine ⟨(∑ d : Fin 1024, xr n s d * Wr (ix2 e d)) + br (ix1 e), ?_⟩
  unfold lin
  simp only [hxr, hWr, hbr, ← EReal.coe_mul, ← Cert.Online.coe_sum, ← EReal.coe_add]

/-- An array of reals read by coordinates is real-valued. -/
theorem act_real (x : Arr3) (hx : ∀ i, ∃ r : ℝ, x i = (r : EReal)) (n : Fin 4) (s : Fin 2048) (d : Fin 1024) :
    ∃ r : ℝ, act x n s d = (r : EReal) := hx _

end Cert.Attn

end
-- ==== Proof.Finite.lean ====
/-
  The precondition read: every entry of every argument array is a real number.

  The printed predicate is the conjunction, over the nine arrays, of "all entries have absolute
  value below +∞".  On the extended reals an entry whose absolute value max x (−x) is below +∞
  is neither +∞ nor −∞, so it is a real.
-/
import proofs.«180477_j74028056314061_2_alg».proof.Pre_finite_inputs
import Idealize.ShloMosaic.Lib.ReduceAll
import Idealize.ShloMosaic.Lib.Affine
import Idealize.ShloMosaic.Lib.ValueIdx
import Idealize.ShloMosaic.Lib.Pipeline.Value
import Idealize.ShloMosaic.PureOps.Ideal

noncomputable section

namespace Cert.Pre_finite_inputs.Hand

open Idealize.ShloMosaic Cert.Pre_finite_inputs Cert.Pre_finite_inputs.Facts

variable [Facts]

instance : Subsingleton S_.Idx := ⟨fun a b => funext fun d => d.elim0⟩

/-- The word 0x7F800000 is +∞. -/
theorem ofBits_inf : Ideal.ofBits .f32 0x7F800000#32 = ⊤ := by
  simp [Ideal.ofBits, Ideal.ieee]

/-- An extended real whose absolute value is below +∞ is a real. -/
theorem real_of_abs_lt (x : EReal) (h : Ideal.cmp .olt (max x (-x)) ⊤ = 1#1) : ∃ r : ℝ, x = (r : EReal) := by
  induction x using EReal.rec with
  | bot => simp [Ideal.cmp] at h
  | coe r => exact ⟨r, rfl⟩
  | top => simp [Ideal.cmp] at h

/-- One conjunct: if all entries of an array pass "|x| < the word 0x7F800000 spread over the shape", every entry is a real. -/
theorem all_real {s : Shape} (bc : S_.BroadcastsInDim s (![] : Fin 0 → Fin s.rank)) {axes : List (Fin s.rank)} (hred : s.ReducesTo axes S_)
    (a : FVec Ideal s .f32)
    (h : Host.reduce IntOp.andi (cmpf .olt (Host.absf a) (broadcastInDim s ![] bc (constant S_ .f32 0x7F800000#32)))
        (constantI S_ 1 1#1) hred h_S_ ValueIdx.ix0 = 1#1) (i : s.Idx) : ∃ r : ℝ, a i = (r : EReal) := by
  have hi := Host.reduce_andi_all _ _ _ _ _ h i
  have hb : broadcastInDim s ![] bc (constant (F := Ideal) S_ .f32 0x7F800000#32) i = ⊤ := by
    rw [broadcastInDim_apply _ bc _ i (fun a => a.elim0) (fun a => a.elim0)]
    exact ofBits_inf
  have hc : Ideal.cmp .olt (max (a i) (-(a i))) ⊤ = 1#1 := by
    rw [← hb]; exact hi
  exact real_of_abs_lt _ hc

/-- **The precondition decoded**: if the printed predicate answers 1, every entry of each of the nine arrays is a real. -/
theorem finite_of_pre (a0 : FVec Ideal S4x2048x1024 .f32) (a1 : FVec Ideal S1024x1024 .f32) (a2 : FVec Ideal S1024 .f32)
    (a3 : FVec Ideal S1024x1024 .f32) (a4 : FVec Ideal S1024 .f32) (a5 : FVec Ideal S1024x1024 .f32) (a6 : FVec Ideal S1024 .f32)
    (a7 : FVec Ideal S1024x1024 .f32) (a8 : FVec Ideal S1024 .f32)
    (h : fn (F := Ideal) a0 a1 a2 a3 a4 a5 a6 a7 a8 = fun _ => 1#1) :
    (∀ i, ∃ r : ℝ, a0 i = (r : EReal)) ∧ (∀ i, ∃ r : ℝ, a1 i = (r : EReal)) ∧ (∀ i, ∃ r : ℝ, a2 i = (r : EReal))
    ∧ (∀ i, ∃ r : ℝ, a3 i = (r : EReal)) ∧ (∀ i, ∃ r : ℝ, a4 i = (r : EReal)) ∧ (∀ i, ∃ r : ℝ, a5 i = (r : EReal))
    ∧ (∀ i, ∃ r : ℝ, a6 i = (r : EReal)) ∧ (∀ i, ∃ r : ℝ, a7 i = (r : EReal)) ∧ (∀ i, ∃ r : ℝ, a8 i = (r : EReal)) := by
  have h0 := congrFun h ValueIdx.ix0
  dsimp only [fn, fn_part1, fn_part2] at h0
  obtain ⟨h8', h42⟩ := IntOp.andi_eq_one.mp h0
  obtain ⟨h7', h37⟩ := IntOp.andi_eq_one.mp h8'
  obtain ⟨h6', h32⟩ := IntOp.andi_eq_one.mp h7'
  obtain ⟨h5', h27⟩ := IntOp.andi_eq_one.mp h6'
  obtain ⟨h4', h22⟩ := IntOp.andi_eq_one.mp h5'
  obtain ⟨h3', h17⟩ := IntOp.andi_eq_one.mp h4'
  obtain ⟨h2', h12⟩ := IntOp.andi_eq_one.mp h3'
  obtain ⟨h3, h7⟩ := IntOp.andi_eq_one.mp h2'
  exact ⟨all_real _ _ a0 h3, all_real _ _ a1 h7, all_real _ _ a2 h12, all_real _ _ a3 h17, all_real _ _ a4 h22,
    all_real _ _ a5 h27, all_real _ _ a6 h32, all_real _ _ a7 h37, all_real _ _ a8 h42⟩

end Cert.Pre_finite_inputs.Hand

end
-- ==== Proof.LibConcat.lean ====
import Idealize.ShloMosaic.Lib.Pipeline.Value
import Idealize.ShloMosaic.Lib.ValueIdx

/-!
# A concatenation of three arrays read at an index

Three arrays laid end to end along an axis make one array whose extent along that axis is the
sum of the three extents, `n0 + n1 + n2`.  Read at an index whose coordinate along the axis is `c`,
the concatenation is the first array at `c` when `c < n0`, the second at `c - n0` when
`n0 ≤ c < n0 + n1`, and the third at `c - n0 - n1` when `n0 + n1 ≤ c`; the coordinates off the axis
are kept.  Each case is the general statement "a concatenation at an index is the piece whose
span holds the axis coordinate, at the coordinate less the extents before it", instantiated at
piece 0, 1 or 2 with the extents before it `0`, `n0`, `n0 + n1`.

Two settings, for any extents and any element type: matrices `[m, n0]`, `[m, n1]`, `[m, n2]` side by
side along axis 1 into `[m, n]` (indices written by their two coordinates), and vectors `[n0]`, `[n1]`,
`[n2]` end to end along axis 0 into `[n]` (indices written by their one coordinate).  That the shapes
concatenate is a hypothesis; it forces `n0 + n1 + n2 = n` (`extent_axis1`, `extent_axis0`).  For each
setting there is one lemma per range, and one lemma with the three cases under `if`.
-/

namespace Cert.LibConcat

open Idealize.ShloMosaic
open Idealize.ShloMosaic.ValueIdx

variable {α : Type}

/-! ## Matrices side by side: rank 2, along axis 1 -/

/-- Three matrices concatenate along axis 1 only if their widths add up to the result's. -/
theorem extent_axis1 {m n0 n1 n2 n : Nat}
    (h : Shape.Concatenates [⟨2, ![m, n0]⟩, ⟨2, ![m, n1]⟩, ⟨2, ![m, n2]⟩] ⟨2, ![m, n]⟩ 1) :
    n0 + n1 + n2 = n := by
  have h3 : n0 + (n1 + (n2 + 0)) = n := h.2.2
  omega

/-- At a column below the first width: the first matrix, at the same row and column. -/
theorem concat3_axis1_first {m n0 n1 n2 n : Nat}
    (x0 : (⟨2, ![m, n0]⟩ : Shape).Idx → α) (x1 : (⟨2, ![m, n1]⟩ : Shape).Idx → α)
    (x2 : (⟨2, ![m, n2]⟩ : Shape).Idx → α)
    (h : Shape.Concatenates [⟨2, ![m, n0]⟩, ⟨2, ![m, n1]⟩, ⟨2, ![m, n2]⟩] ⟨2, ![m, n]⟩ 1)
    (r : Fin m) (c : Fin n) (hc : c.val < n0) :
    concatenate ⟨2, ![m, n]⟩ 1 [⟨⟨2, ![m, n0]⟩, x0⟩, ⟨⟨2, ![m, n1]⟩, x1⟩, ⟨⟨2, ![m, n2]⟩, x2⟩] h (ix2 r c)
      = x0 (ix2 r ⟨c.val, hc⟩) := by
  refine concatenate_apply_piece (t := ⟨2, ![m, n]⟩) 1 [⟨⟨2, ![m, n0]⟩, x0⟩, ⟨⟨2, ![m, n1]⟩, x1⟩, ⟨⟨2, ![m, n2]⟩, x2⟩] h (ix2 r c) 0 (by simp)
    ⟨2, ![m, n0]⟩ x0 rfl rfl 0 rfl (ix2 r ⟨c.val, hc⟩) ?_ ?_
  · intro b hb
    match b with
    | ⟨0, _⟩ => rfl
    | ⟨1, _⟩ => exact absurd rfl hb
  · exact Nat.zero_add _

/-- At a column from the first width up to the first two: the second matrix, at the same row and
    the column less the first width. -/
theorem concat3_axis1_second {m n0 n1 n2 n : Nat}
    (x0 : (⟨2, ![m, n0]⟩ : Shape).Idx → α) (x1 : (⟨2, ![m, n1]⟩ : Shape).Idx → α)
    (x2 : (⟨2, ![m, n2]⟩ : Shape).Idx → α)
    (h : Shape.Concatenates [⟨2, ![m, n0]⟩, ⟨2, ![m, n1]⟩, ⟨2, ![m, n2]⟩] ⟨2, ![m, n]⟩ 1)
    (r : Fin m) (c : Fin n) (hlo : n0 ≤ c.val) (hhi : c.val < n0 + n1) :
    concatenate ⟨2, ![m, n]⟩ 1 [⟨⟨2, ![m, n0]⟩, x0⟩, ⟨⟨2, ![m, n1]⟩, x1⟩, ⟨⟨2, ![m, n2]⟩, x2⟩] h (ix2 r c)
      = x1 (ix2 r ⟨c.val - n0, by omega⟩) := by
  refine concatenate_apply_piece (t := ⟨2, ![m, n]⟩) 1 [⟨⟨2, ![m, n0]⟩, x0⟩, ⟨⟨2, ![m, n1]⟩, x1⟩, ⟨⟨2, ![m, n2]⟩, x2⟩] h (ix2 r c) 1 (by simp)
    ⟨2, ![m, n1]⟩ x1 rfl rfl n0 rfl (ix2 r ⟨c.val - n0, by omega⟩) ?_ ?_
  · intro b hb
    match b with
    | ⟨0, _⟩ => rfl
    | ⟨1, _⟩ => exact absurd rfl hb
  · show n0 + (c.val - n0) = c.val
    omega

/-- At a column from the first two widths on: the third matrix, at the same row and the column
    less the first two widths. -/
theorem concat3_axis1_third {m n0 n1 n2 n : Nat}
    (x0 : (⟨2, ![m, n0]⟩ : Shape).Idx → α) (x1 : (⟨2, ![m, n1]⟩ : Shape).Idx → α)
    (x2 : (⟨2, ![m, n2]⟩ : Shape).Idx → α)
    (h : Shape.Concatenates [⟨2, ![m, n0]⟩, ⟨2, ![m, n1]⟩, ⟨2, ![m, n2]⟩] ⟨2, ![m, n]⟩ 1)
    (r : Fin m) (c : Fin n) (hlo : n0 + n1 ≤ c.val) :
    concatenate ⟨2, ![m, n]⟩ 1 [⟨⟨2, ![m, n0]⟩, x0⟩, ⟨⟨2, ![m, n1]⟩, x1⟩, ⟨⟨2, ![m, n2]⟩, x2⟩] h (ix2 r c)
      = x2 (ix2 r ⟨c.val - n0 - n1, by have := extent_axis1 h; have := c.isLt; omega⟩) := by
  refine concatenate_apply_piece (t := ⟨2, ![m, n]⟩) 1 [⟨⟨2, ![m, n0]⟩, x0⟩, ⟨⟨2, ![m, n1]⟩, x1⟩, ⟨⟨2, ![m, n2]⟩, x2⟩] h (ix2 r c) 2 (by simp)
    ⟨2, ![m, n2]⟩ x2 rfl rfl (n0 + n1) ?_
    (ix2 r ⟨c.val - n0 - n1, by have := extent_axis1 h; have := c.isLt; omega⟩) ?_ ?_
  · show n0 + (n1 + 0) = n0 + n1
    rfl
  · intro b hb
    match b with
    | ⟨0, _⟩ => rfl
    | ⟨1, _⟩ => exact absurd rfl hb
  · show n0 + n1 + (c.val - n0 - n1) = c.val
    omega

/-- A three-matrix concatenation along axis 1 at any index, the three ranges under `if`. -/
theorem concat3_axis1_apply {m n0 n1 n2 n : Nat}
    (x0 : (⟨2, ![m, n0]⟩ : Shape).Idx → α) (x1 : (⟨2, ![m, n1]⟩ : Shape).Idx → α)
    (x2 : (⟨2, ![m, n2]⟩ : Shape).Idx → α)
    (h : Shape.Concatenates [⟨2, ![m, n0]⟩, ⟨2, ![m, n1]⟩, ⟨2, ![m, n2]⟩] ⟨2, ![m, n]⟩ 1)
    (r : Fin m) (c : Fin n) :
    concatenate ⟨2, ![m, n]⟩ 1 [⟨⟨2, ![m, n0]⟩, x0⟩, ⟨⟨2, ![m, n1]⟩, x1⟩, ⟨⟨2, ![m, n2]⟩, x2⟩] h (ix2 r c)
      = if h0 : c.val < n0 then x0 (ix2 r ⟨c.val, h0⟩)
        else if h1 : c.val < n0 + n1 then x1 (ix2 r ⟨c.val - n0, by omega⟩)
        else x2 (ix2 r ⟨c.val - n0 - n1, by have := extent_axis1 h; have := c.isLt; omega⟩) := by
  by_cases h0 : c.val < n0
  · rw [dif_pos h0]
    exact concat3_axis1_first x0 x1 x2 h r c h0
  · rw [dif_neg h0]
    by_cases h1 : c.val < n0 + n1
    · rw [dif_pos h1]
      exact concat3_axis1_second x0 x1 x2 h r c (by omega) h1
    · rw [dif_neg h1]
      exact concat3_axis1_third x0 x1 x2 h r c (by omega)

/-! ## Vectors end to end: rank 1, along axis 0 -/

/-- Three vectors concatenate only if their lengths add up to the result's. -/
theorem extent_axis0 {n0 n1 n2 n : Nat}
    (h : Shape.Concatenates [⟨1, ![n0]⟩, ⟨1, ![n1]⟩, ⟨1, ![n2]⟩] ⟨1, ![n]⟩ 0) :
    n0 + n1 + n2 = n := by
  have h3 : n0 + (n1 + (n2 + 0)) = n := h.2.2
  omega

/-- At a position below the first length: the first vector, at the same position. -/
theorem concat3_axis0_first {n0 n1 n2 n : Nat}
    (x0 : (⟨1, ![n0]⟩ : Shape).Idx → α) (x1 : (⟨1, ![n1]⟩ : Shape).Idx → α)
    (x2 : (⟨1, ![n2]⟩ : Shape).Idx → α)
    (h : Shape.Concatenates [⟨1, ![n0]⟩, ⟨1, ![n1]⟩, ⟨1, ![n2]⟩] ⟨1, ![n]⟩ 0)
    (c : Fin n) (hc : c.val < n0) :
    concatenate ⟨1, ![n]⟩ 0 [⟨⟨1, ![n0]⟩, x0⟩, ⟨⟨1, ![n1]⟩, x1⟩, ⟨⟨1, ![n2]⟩, x2⟩] h (ix1 c)
      = x0 (ix1 ⟨c.val, hc⟩) := by
  refine concatenate_apply_piece (t := ⟨1, ![n]⟩) 0 [⟨⟨1, ![n0]⟩, x0⟩, ⟨⟨1, ![n1]⟩, x1⟩, ⟨⟨1, ![n2]⟩, x2⟩] h (ix1 c) 0 (by simp)
    ⟨1, ![n0]⟩ x0 rfl rfl 0 rfl (ix1 ⟨c.val, hc⟩) ?_ ?_
  · intro b hb
    match b with
    | ⟨0, _⟩ => exact absurd rfl hb
  · exact Nat.zero_add _

/-- At a position from the first length up to the first two: the second vector, at the position
    less the first length. -/
theorem concat3_axis0_second {n0 n1 n2 n : Nat}
    (x0 : (⟨1, ![n0]⟩ : Shape).Idx → α) (x1 : (⟨1, ![n1]⟩ : Shape).Idx → α)
    (x2 : (⟨1, ![n2]⟩ : Shape).Idx → α)
    (h : Shape.Concatenates [⟨1, ![n0]⟩, ⟨1, ![n1]⟩, ⟨1, ![n2]⟩] ⟨1, ![n]⟩ 0)
    (c : Fin n) (hlo : n0 ≤ c.val) (hhi : c.val < n0 + n1) :
    concatenate ⟨1, ![n]⟩ 0 [⟨⟨1, ![n0]⟩, x0⟩, ⟨⟨1, ![n1]⟩, x1⟩, ⟨⟨1, ![n2]⟩, x2⟩] h (ix1 c)
      = x1 (ix1 ⟨c.val - n0, by omega⟩) := by
  refine concatenate_apply_piece (t := ⟨1, ![n]⟩) 0 [⟨⟨1, ![n0]⟩, x0⟩, ⟨⟨1, ![n1]⟩, x1⟩, ⟨⟨1, ![n2]⟩, x2⟩] h (ix1 c) 1 (by simp)
    ⟨1, ![n1]⟩ x1 rfl rfl n0 rfl (ix1 ⟨c.val - n0, by omega⟩) ?_ ?_
  · intro b hb
    match b with
    | ⟨0, _⟩ => exact absurd rfl hb
  · show n0 + (c.val - n0) = c.val
    omega

/-- At a position from the first two lengths on: the third vector, at the position less the first
    two lengths. -/
theorem concat3_axis0_third {n0 n1 n2 n : Nat}
    (x0 : (⟨1, ![n0]⟩ : Shape).Idx → α) (x1 : (⟨1, ![n1]⟩ : Shape).Idx → α)
    (x2 : (⟨1, ![n2]⟩ : Shape).Idx → α)
    (h : Shape.Concatenates [⟨1, ![n0]⟩, ⟨1, ![n1]⟩, ⟨1, ![n2]⟩] ⟨1, ![n]⟩ 0)
    (c : Fin n) (hlo : n0 + n1 ≤ c.val) :
    concatenate ⟨1, ![n]⟩ 0 [⟨⟨1, ![n0]⟩, x0⟩, ⟨⟨1, ![n1]⟩, x1⟩, ⟨⟨1, ![n2]⟩, x2⟩] h (ix1 c)
      = x2 (ix1 ⟨c.val - n0 - n1, by have := extent_axis0 h; have := c.isLt; omega⟩) := by
  refine concatenate_apply_piece (t := ⟨1, ![n]⟩) 0 [⟨⟨1, ![n0]⟩, x0⟩, ⟨⟨1, ![n1]⟩, x1⟩, ⟨⟨1, ![n2]⟩, x2⟩] h (ix1 c) 2 (by simp)
    ⟨1, ![n2]⟩ x2 rfl rfl (n0 + n1) ?_
    (ix1 ⟨c.val - n0 - n1, by have := extent_axis0 h; have := c.isLt; omega⟩) ?_ ?_
  · show n0 + (n1 + 0) = n0 + n1
    rfl
  · intro b hb
    match b with
    | ⟨0, _⟩ => exact absurd rfl hb
  · show n0 + n1 + (c.val - n0 - n1) = c.val
    omega

/-- A three-vector concatenation at any position, the three ranges under `if`. -/
theorem concat3_axis0_apply {n0 n1 n2 n : Nat}
    (x0 : (⟨1, ![n0]⟩ : Shape).Idx → α) (x1 : (⟨1, ![n1]⟩ : Shape).Idx → α)
    (x2 : (⟨1, ![n2]⟩ : Shape).Idx → α)
    (h : Shape.Concatenates [⟨1, ![n0]⟩, ⟨1, ![n1]⟩, ⟨1, ![n2]⟩] ⟨1, ![n]⟩ 0)
    (c : Fin n) :
    concatenate ⟨1, ![n]⟩ 0 [⟨⟨1, ![n0]⟩, x0⟩, ⟨⟨1, ![n1]⟩, x1⟩, ⟨⟨1, ![n2]⟩, x2⟩] h (ix1 c)
      = if h0 : c.val < n0 then x0 (ix1 ⟨c.val, h0⟩)
        else if h1 : c.val < n0 + n1 then x1 (ix1 ⟨c.val - n0, by omega⟩)
        else x2 (ix1 ⟨c.val - n0 - n1, by have := extent_axis0 h; have := c.isLt; omega⟩) := by
  by_cases h0 : c.val < n0
  · rw [dif_pos h0]
    exact concat3_axis0_first x0 x1 x2 h c h0
  · rw [dif_neg h0]
    by_cases h1 : c.val < n0 + n1
    · rw [dif_pos h1]
      exact concat3_axis0_second x0 x1 x2 h c (by omega) h1
    · rw [dif_neg h1]
      exact concat3_axis0_third x0 x1 x2 h c (by omega)

end Cert.LibConcat
-- ==== Proof.LibLayoutHost.lean ====
import Idealize.ShloMosaic.Lib.Pipeline.Value
import Idealize.ShloMosaic.Lib.ValueIdx

/-!
# A reshape that splits or merges the two leading axes, read at an index

A matrix `[m, c]` with `m = a * b` rows and an array `[a, b, c]` hold the same entries in the same
row-major order: row `r = b * n + s` of the matrix is row `s` of slab `n` of the array.  So the reshape of
the matrix to the array, read at `(n, s, d)`, is the matrix at `(b * n + s, d)`; and the reshape of the array
to the matrix, read at `(r, d)`, is the array at `(n, s, d)` whenever `r = b * n + s` — in particular at
`n = r / b`, `s = r % b`.  Both are the general statement "a reshape read at an index is the operand at the
index with the same row-major position", with the two positions `r * c + d` and `(n * b + s) * c + d`
written out.  The caller names the other index and gives the one equation between the rows; any extents,
any element type.
-/

namespace Cert.LibLayoutHost

open Idealize.ShloMosaic
open Idealize.ShloMosaic.ValueIdx

variable {α : Type}

/-- Row `s` of slab `n` is below `a * b`: the row `b * n + s` of the merged matrix exists. -/
theorem split_row_lt {a b : ℕ} (n : Fin a) (s : Fin b) : b * n.val + s.val < a * b :=
  calc b * n.val + s.val < b * n.val + b := Nat.add_lt_add_left s.isLt _
    _ = b * (n.val + 1) := (Nat.mul_succ b n.val).symm
    _ ≤ b * a := Nat.mul_le_mul_left b n.isLt
    _ = a * b := Nat.mul_comm b a

/-- A matrix `[m, c]` reshaped to `[a, b, c]` reads, at `(n, s, d)`, the matrix at `(r, d)` with
    `r = b * n + s`. -/
theorem shapeCast_mc_abc_apply {m a b c : ℕ} (x : (⟨2, ![m, c]⟩ : Shape).Idx → α)
    (h : (⟨2, ![m, c]⟩ : Shape).ShapeCasts ⟨3, ![a, b, c]⟩) (n : Fin a) (s : Fin b) (d : Fin c)
    (r : Fin m) (hr : r.val = b * n.val + s.val) :
    shapeCast ⟨3, ![a, b, c]⟩ x h (ix3 n s d) = x (ix2 r d) :=
  shapeCast_apply x h _ _ (by
    rw [Shape.rowMajor_val_two, Shape.rowMajor_val_three]
    show r.val * c + d.val = (n.val * b + s.val) * c + d.val
    rw [hr, Nat.mul_comm b n.val])

/-- An array `[a, b, c]` reshaped to a matrix `[m, c]` reads, at `(r, d)`, the array at `(n, s, d)` with
    `r = b * n + s`. -/
theorem shapeCast_abc_mc_apply {a b c m : ℕ} (x : (⟨3, ![a, b, c]⟩ : Shape).Idx → α)
    (h : (⟨3, ![a, b, c]⟩ : Shape).ShapeCasts ⟨2, ![m, c]⟩) (r : Fin m) (d : Fin c)
    (n : Fin a) (s : Fin b) (hr : r.val = b * n.val + s.val) :
    shapeCast ⟨2, ![m, c]⟩ x h (ix2 r d) = x (ix3 n s d) :=
  shapeCast_apply x h _ _ (by
    rw [Shape.rowMajor_val_two, Shape.rowMajor_val_three]
    show (n.val * b + s.val) * c + d.val = r.val * c + d.val
    rw [hr, Nat.mul_comm b n.val])

/-- The split with the matrix row written out, for a matrix of exactly `a * b` rows. -/
theorem shapeCast_mc_abc_eq {a b c : ℕ} (x : (⟨2, ![a * b, c]⟩ : Shape).Idx → α)
    (h : (⟨2, ![a * b, c]⟩ : Shape).ShapeCasts ⟨3, ![a, b, c]⟩) (n : Fin a) (s : Fin b) (d : Fin c) :
    shapeCast ⟨3, ![a, b, c]⟩ x h (ix3 n s d) = x (ix2 ⟨b * n.val + s.val, split_row_lt n s⟩ d) :=
  shapeCast_mc_abc_apply x h n s d _ rfl

/-- The merge with the slab and the row within it written out, `r / b` and `r % b`, for a matrix of
    exactly `a * b` rows. -/
theorem shapeCast_abc_mc_eq {a b c : ℕ} (x : (⟨3, ![a, b, c]⟩ : Shape).Idx → α)
    (h : (⟨3, ![a, b, c]⟩ : Shape).ShapeCasts ⟨2, ![a * b, c]⟩) (r : Fin (a * b)) (d : Fin c)
    (hb : 0 < b) :
    shapeCast ⟨2, ![a * b, c]⟩ x h (ix2 r d)
      = x (ix3 ⟨r.val / b, (Nat.div_lt_iff_lt_mul hb).2 r.isLt⟩ ⟨r.val % b, Nat.mod_lt _ hb⟩ d) :=
  shapeCast_abc_mc_apply x h r d _ _ (Nat.div_add_mod r.val b).symm

end Cert.LibLayoutHost
-- ==== Proof.IdealHostGlue.lean ====
/- The HOST operations of @main read at an index, at the ideal instance.  @main runs four stretches of host
   operations around its three kernel regions: reshapes, transposes, column slices, concatenations and format
   conversions.  Each of them moves entries without changing them (a conversion between float formats is the identity
   on the extended reals), so every entry of every array a stretch writes is ONE entry of an array the stretch found.
   This file names that entry, array by array, over an ARBITRARY valuation W of the buffers before the stretch:
   * stretch 0: the rows [4, 2048, 1024] merged to [8192, 1024]; the fused weight [1024, 3072], whose column e is row e,
     e - 1024 or e - 2048 of the first, second or third weight matrix (each transposed, then laid side by side); the
     fused bias [1, 3072], whose entry e is entry e, e - 1024 or e - 2048 of the first, second or third bias;
   * stretch 1: the three column bands [0, 1024), [1024, 2048), [2048, 3072) of the [8192, 3072] product, each split
     to [4, 2048, 1024]: entry (n, s, d) is the product's entry (2048 n + s, o + d) for the band's offset o;
   * stretch 2: the attention output [4, 2048, 1024] merged to [8192, 1024]; the output weight transposed; the output
     bias as one row;
   * stretch 3: the result [8192, 1024] split to [4, 2048, 1024].
   And each stretch leaves every array it does not write as it found it, the program's nine arguments among them. -/
import proofs.«180477_j74028056314061_2_alg».proof.Proof.Gen.KernelIdeal.Launch
import proofs.«180477_j74028056314061_2_alg».proof.Proof.LibConcat
import proofs.«180477_j74028056314061_2_alg».proof.Proof.LibLayoutHost
import Idealize.ShloMosaic.Lib.Pipeline.Value
import Idealize.ShloMosaic.Lib.ValueIdx
import Idealize.ShloMosaic.Lib.ValueLayout
import Idealize.ShloMosaic.Lib.StableHlo.Run

set_option maxRecDepth 16384

noncomputable section

namespace Cert.KernelIdeal.Hand

open Cert.KernelIdeal Cert.KernelIdeal.Gen
open Idealize.ShloMosaic Idealize.ShloMosaic.TcCoe Idealize.ShloMosaic.ValueIdx
open Cert.LibConcat Cert.LibLayoutHost

/-! ## An operation over three literal operands

The result of an n-ary host operation is its function applied to the family of its operands' contents.  Over a
literal family of three references the family is the three contents in order, each at its own reference; stated so,
the operands' contents can be rewritten further. -/

section Nary3
variable {τ' : Topo} {sig' : RefSig} {Val : EltTy → Type} {x a b y : Ref sig' .tc}

theorem nary3_result
    (f : ((k : Fin 3) → ((![x, a, b] : Fin 3 → Ref sig' .tc) k).ty.Contents Val) → y.ty.Contents Val) (hxs hy)
    (G : Valuation τ' sig' Val) :
    (StableHlo.nary (τ := τ') ![x, a, b] y f hxs hy).result G (Proc.devRef .tc y)
      = f (Fin.cons (G (Proc.devRef .tc x)) (Fin.cons (G (Proc.devRef .tc a))
          (Fin.cons (G (Proc.devRef .tc b)) (fun i => i.elim0)))) := by
  rw [StableHlo.nary_result]; congr 1; funext k; fin_cases k <;> rfl

end Nary3

/-- The results of a literal line of host operations with three-operand concatenations in it: each operation's
    result at its own array is its function's value, at any other array what was there. -/
macro "host_results3" : tactic =>
  `(tactic| (simp only [StableHlo.after_cons, StableHlo.after_nil]
             repeat (first
               | rw [nary3_result] | rw [StableHlo.unary_result] | rw [StableHlo.reshape_result]
               | (rw [StableHlo.unary_result_ne]; rotate_left; decide)
               | (rw [StableHlo.reshape_result_ne]; rotate_left; decide)
               | (rw [StableHlo.nary_result_ne]; rotate_left; decide))))

-- the buffers' contents before a stretch: every statement below is made at an arbitrary one
variable (W : Valuation τ sig (Elt Ideal))

/-! ## Stretch 3: the result split into batches -/

/-- The result array after stretch 3 is the last region's output reshaped. -/
theorem g3_v21_term :
    (StableHlo.after (hostOps3 (F := Ideal)) W (Proc.devRef .tc main_v21) : S4x2048x1024.Idx → EReal)
      = shapeCast S4x2048x1024 (W (Proc.devRef .tc main_v20) : S8192x1024.Idx → EReal)
          shapeCasts_S8192x1024_S4x2048x1024 := by
  after_results; rfl

/-- Entry (n, s, e) of the result is entry (2048 n + s, e) of the last region's output. -/
theorem g3_v21 (n : Fin 4) (s : Fin 2048) (e : Fin 1024) :
    (StableHlo.after (hostOps3 (F := Ideal)) W (Proc.devRef .tc main_v21) : S4x2048x1024.Idx → EReal) (ix3 n s e)
      = (W (Proc.devRef .tc main_v20) : S8192x1024.Idx → EReal)
          (ix2 ⟨2048 * n.val + s.val, by have := n.isLt; have := s.isLt; omega⟩ e) := by
  rw [g3_v21_term]
  exact shapeCast_mc_abc_apply _ _ n s e _ rfl

/-! ## Stretch 2: the operands of the output projection -/

/-- The projection's rows after stretch 2 are the attention output reshaped. -/
theorem g2_v16_term :
    (StableHlo.after (hostOps2 (F := Ideal)) W (Proc.devRef .tc main_v16) : S8192x1024.Idx → EReal)
      = shapeCast S8192x1024 (W (Proc.devRef .tc main_v15) : S4x2048x1024.Idx → EReal)
          shapeCasts_S4x2048x1024_S8192x1024 := by
  after_results; rfl

/-- Entry (r, d) of the projection's rows is entry (r / 2048, r % 2048, d) of the attention output. -/
theorem g2_v16 (r : Fin 8192) (d : Fin 1024) :
    (StableHlo.after (hostOps2 (F := Ideal)) W (Proc.devRef .tc main_v16) : S8192x1024.Idx → EReal) (ix2 r d)
      = (W (Proc.devRef .tc main_v15) : S4x2048x1024.Idx → EReal)
          (ix3 ⟨r.val / 2048, by have := r.isLt; omega⟩ ⟨r.val % 2048, by omega⟩ d) := by
  rw [g2_v16_term]
  exact shapeCast_abc_mc_apply _ _ r d _ _ (by show r.val = 2048 * (r.val / 2048) + r.val % 2048; omega)

/-- The projection's weight after stretch 2 is the output weight transposed, then converted. -/
theorem g2_v18_term :
    (StableHlo.after (hostOps2 (F := Ideal)) W (Proc.devRef .tc main_v18) : FVec Ideal S1024x1024 .bf16)
      = truncf (F := Ideal) .bf16 (transpose S1024x1024 [1, 0] (W (Proc.devRef .tc main_arg7) : FVec Ideal S1024x1024 .f32)
          transposes_S1024x1024_S1024x1024_1_0) bitsLt_bf16_f32 := by
  after_results

/-- Entry (k, e) of the projection's weight is entry (e, k) of the output weight. -/
theorem g2_v18 (k e : Fin 1024) :
    (StableHlo.after (hostOps2 (F := Ideal)) W (Proc.devRef .tc main_v18) : S1024x1024.Idx → EReal) (ix2 k e)
      = (W (Proc.devRef .tc main_arg7) : S1024x1024.Idx → EReal) (ix2 e k) := by
  rw [g2_v18_term, truncf_apply]
  exact transpose_ix2_apply _ _ k e

/-- The projection's bias row after stretch 2 is the output bias reshaped. -/
theorem g2_v19_term :
    (StableHlo.after (hostOps2 (F := Ideal)) W (Proc.devRef .tc main_v19) : S1x1024.Idx → EReal)
      = shapeCast S1x1024 (W (Proc.devRef .tc main_arg8) : S1024.Idx → EReal) shapeCasts_S1024_S1x1024 := by
  after_results; rfl

/-- Entry (0, e) of the projection's bias row is entry e of the output bias. -/
theorem g2_v19 (e : Fin 1024) :
    (StableHlo.after (hostOps2 (F := Ideal)) W (Proc.devRef .tc main_v19) : S1x1024.Idx → EReal) (ix2 (0 : Fin 1) e)
      = (W (Proc.devRef .tc main_arg8) : S1024.Idx → EReal) (ix1 e) := by
  rw [g2_v19_term]
  exact shapeCast_a_1a_apply _ _ 0 e

/-! ## Stretch 1: the three column bands of the fused product, split into batches -/

/-- Array 12 after stretch 1 is the band of the fused product from column 0, reshaped. -/
theorem g1_v12_term :
    (StableHlo.after (hostOps1 (F := Ideal)) W (Proc.devRef .tc main_v12) : S4x2048x1024.Idx → EReal)
      = shapeCast S4x2048x1024
          (extractStridedSlice S8192x1024 ![0, 0] (W (Proc.devRef .tc main_v8) : S8192x3072.Idx → EReal)
            slices_S8192x3072_S8192x1024_0_0)
          shapeCasts_S8192x1024_S4x2048x1024 := by
  after_results; rfl

/-- Entry (n, s, d) of array 12 is entry (2048 n + s, 0 + d) of the fused product. -/
theorem g1_v12 (n : Fin 4) (s : Fin 2048) (d : Fin 1024) :
    (StableHlo.after (hostOps1 (F := Ideal)) W (Proc.devRef .tc main_v12) : S4x2048x1024.Idx → EReal) (ix3 n s d)
      = (W (Proc.devRef .tc main_v8) : S8192x3072.Idx → EReal)
          (ix2 ⟨2048 * n.val + s.val, by have := n.isLt; have := s.isLt; omega⟩
            ⟨0 + d.val, by have := d.isLt; omega⟩) := by
  rw [g1_v12_term]
  refine (shapeCast_mc_abc_apply _ _ n s d
    ⟨2048 * n.val + s.val, by have := n.isLt; have := s.isLt; omega⟩ rfl).trans ?_
  exact slice2_axis1_apply 0 _ _ _ d ⟨0 + d.val, by have := d.isLt; omega⟩ rfl

/-- Array 13 after stretch 1 is the band of the fused product from column 1024, reshaped. -/
theorem g1_v13_term :
    (StableHlo.after (hostOps1 (F := Ideal)) W (Proc.devRef .tc main_v13) : S4x2048x1024.Idx → EReal)
      = shapeCast S4x2048x1024
          (extractStridedSlice S8192x1024 ![0, 1024] (W (Proc.devRef .tc main_v8) : S8192x3072.Idx → EReal)
            slices_S8192x3072_S8192x1024_0_1024)
          shapeCasts_S8192x1024_S4x2048x1024 := by
  after_results; rfl

/-- Entry (n, s, d) of array 13 is entry (2048 n + s, 1024 + d) of the fused product. -/
theorem g1_v13 (n : Fin 4) (s : Fin 2048) (d : Fin 1024) :
    (StableHlo.after (hostOps1 (F := Ideal)) W (Proc.devRef .tc main_v13) : S4x2048x1024.Idx → EReal) (ix3 n s d)
      = (W (Proc.devRef .tc main_v8) : S8192x3072.Idx → EReal)
          (ix2 ⟨2048 * n.val + s.val, by have := n.isLt; have := s.isLt; omega⟩
            ⟨1024 + d.val, by have := d.isLt; omega⟩) := by
  rw [g1_v13_term]
  refine (shapeCast_mc_abc_apply _ _ n s d
    ⟨2048 * n.val + s.val, by have := n.isLt; have := s.isLt; omega⟩ rfl).trans ?_
  exact slice2_axis1_apply 1024 _ _ _ d ⟨1024 + d.val, by have := d.isLt; omega⟩ rfl

/-- Array 14 after stretch 1 is the band of the fused product from column 2048, reshaped. -/
theorem g1_v14_term :
    (StableHlo.after (hostOps1 (F := Ideal)) W (Proc.devRef .tc main_v14) : S4x2048x1024.Idx → EReal)
      = shapeCast S4x2048x1024
          (extractStridedSlice S8192x1024 ![0, 2048] (W (Proc.devRef .tc main_v8) : S8192x3072.Idx → EReal)
            slices_S8192x3072_S8192x1024_0_2048)
          shapeCasts_S8192x1024_S4x2048x1024 := by
  after_results; rfl

/-- Entry (n, s, d) of array 14 is entry (2048 n + s, 2048 + d) of the fused product. -/
theorem g1_v14 (n : Fin 4) (s : Fin 2048) (d : Fin 1024) :
    (StableHlo.after (hostOps1 (F := Ideal)) W (Proc.devRef .tc main_v14) : S4x2048x1024.Idx → EReal) (ix3 n s d)
      = (W (Proc.devRef .tc main_v8) : S8192x3072.Idx → EReal)
          (ix2 ⟨2048 * n.val + s.val, by have := n.isLt; have := s.isLt; omega⟩
            ⟨2048 + d.val, by have := d.isLt; omega⟩) := by
  rw [g1_v14_term]
  refine (shapeCast_mc_abc_apply _ _ n s d
    ⟨2048 * n.val + s.val, by have := n.isLt; have := s.isLt; omega⟩ rfl).trans ?_
  exact slice2_axis1_apply 2048 _ _ _ d ⟨2048 + d.val, by have := d.isLt; omega⟩ rfl

/-! ## Stretch 0: the operands of the fused projection -/

/-- The fused projection's rows after stretch 0 are the input reshaped. -/
theorem g0a_v0_term :
    (StableHlo.after (hostOps0 (F := Ideal)) W (Proc.devRef .tc main_v0) : S8192x1024.Idx → EReal)
      = shapeCast S8192x1024 (W (Proc.devRef .tc main_arg0) : S4x2048x1024.Idx → EReal)
          shapeCasts_S4x2048x1024_S8192x1024 := by
  after_results; rfl

/-- Entry (r, k) of the fused projection's rows is entry (r / 2048, r % 2048, k) of the input. -/
theorem g0a_v0 (r : Fin 8192) (k : Fin 1024) :
    (StableHlo.after (hostOps0 (F := Ideal)) W (Proc.devRef .tc main_v0) : S8192x1024.Idx → EReal) (ix2 r k)
      = (W (Proc.devRef .tc main_arg0) : S4x2048x1024.Idx → EReal)
          (ix3 ⟨r.val / 2048, by have := r.isLt; omega⟩ ⟨r.val % 2048, by omega⟩ k) := by
  rw [g0a_v0_term]
  exact shapeCast_abc_mc_apply _ _ r k _ _ (by show r.val = 2048 * (r.val / 2048) + r.val % 2048; omega)

/-- The fused weight after stretch 0: the three weight matrices, each transposed, side by side, then converted. -/
theorem g0b_v5_term :
    (StableHlo.after (hostOps0 (F := Ideal)) W (Proc.devRef .tc main_v5) : FVec Ideal S1024x3072 .bf16)
      = truncf (F := Ideal) .bf16
          (concatenate S1024x3072 1
            [⟨S1024x1024, transpose S1024x1024 [1, 0] (W (Proc.devRef .tc main_arg1) : FVec Ideal S1024x1024 .f32)
              transposes_S1024x1024_S1024x1024_1_0⟩,
             ⟨S1024x1024, transpose S1024x1024 [1, 0] (W (Proc.devRef .tc main_arg3) : FVec Ideal S1024x1024 .f32)
              transposes_S1024x1024_S1024x1024_1_0⟩,
             ⟨S1024x1024, transpose S1024x1024 [1, 0] (W (Proc.devRef .tc main_arg5) : FVec Ideal S1024x1024 .f32)
              transposes_S1024x1024_S1024x1024_1_0⟩]
            concatenates_S1024x1024_S1024x1024_S1024x1024_S1024x3072_d1)
          bitsLt_bf16_f32 := by
  host_results3
  rfl

/-- Entry (k, e) of the fused weight, first band: entry (e, k) of the first weight matrix. -/
theorem g0b_v5_first (k : Fin 1024) (e : Fin 3072) (he : e.val < 1024) :
    (StableHlo.after (hostOps0 (F := Ideal)) W (Proc.devRef .tc main_v5) : S1024x3072.Idx → EReal) (ix2 k e)
      = (W (Proc.devRef .tc main_arg1) : S1024x1024.Idx → EReal) (ix2 ⟨e.val, he⟩ k) := by
  rw [g0b_v5_term, truncf_apply]
  refine (concat3_axis1_first _ _ _ _ k e he).trans ?_
  exact transpose_ix2_apply _ _ k ⟨e.val, he⟩

/-- Entry (k, e) of the fused weight, second band: entry (e - 1024, k) of the second weight matrix. -/
theorem g0b_v5_second (k : Fin 1024) (e : Fin 3072) (h1 : 1024 ≤ e.val) (h2 : e.val < 2048) :
    (StableHlo.after (hostOps0 (F := Ideal)) W (Proc.devRef .tc main_v5) : S1024x3072.Idx → EReal) (ix2 k e)
      = (W (Proc.devRef .tc main_arg3) : S1024x1024.Idx → EReal) (ix2 ⟨e.val - 1024, by omega⟩ k) := by
  rw [g0b_v5_term, truncf_apply]
  refine (concat3_axis1_second _ _ _ _ k e h1 (by omega)).trans ?_
  exact transpose_ix2_apply _ _ k ⟨e.val - 1024, by omega⟩

/-- Entry (k, e) of the fused weight, third band: entry (e - 2048, k) of the third weight matrix. -/
theorem g0b_v5_third (k : Fin 1024) (e : Fin 3072) (h1 : 2048 ≤ e.val) :
    (StableHlo.after (hostOps0 (F := Ideal)) W (Proc.devRef .tc main_v5) : S1024x3072.Idx → EReal) (ix2 k e)
      = (W (Proc.devRef .tc main_arg5) : S1024x1024.Idx → EReal) (ix2 ⟨e.val - 1024 - 1024, by have := e.isLt; omega⟩ k) := by
  rw [g0b_v5_term, truncf_apply]
  refine (concat3_axis1_third _ _ _ _ k e (by omega)).trans ?_
  exact transpose_ix2_apply _ _ k ⟨e.val - 1024 - 1024, by have := e.isLt; omega⟩

/-- The fused bias row after stretch 0: the three biases end to end, as one row. -/
theorem g0c_v7_term :
    (StableHlo.after (hostOps0 (F := Ideal)) W (Proc.devRef .tc main_v7) : S1x3072.Idx → EReal)
      = shapeCast S1x3072
          (concatenate S3072 0
            [⟨S1024, (W (Proc.devRef .tc main_arg2) : S1024.Idx → EReal)⟩,
             ⟨S1024, (W (Proc.devRef .tc main_arg4) : S1024.Idx → EReal)⟩,
             ⟨S1024, (W (Proc.devRef .tc main_arg6) : S1024.Idx → EReal)⟩]
            concatenates_S1024_S1024_S1024_S3072_d0)
          shapeCasts_S3072_S1x3072 := by
  host_results3
  rfl

/-- Entry (0, e) of the fused bias row, first band: entry e of the first bias. -/
theorem g0c_v7_first (e : Fin 3072) (he : e.val < 1024) :
    (StableHlo.after (hostOps0 (F := Ideal)) W (Proc.devRef .tc main_v7) : S1x3072.Idx → EReal) (ix2 (0 : Fin 1) e)
      = (W (Proc.devRef .tc main_arg2) : S1024.Idx → EReal) (ix1 ⟨e.val, he⟩) := by
  rw [g0c_v7_term]
  refine (shapeCast_a_1a_apply _ _ 0 e).trans ?_
  exact concat3_axis0_first _ _ _ _ e he

/-- Entry (0, e) of the fused bias row, second band: entry e - 1024 of the second bias. -/
theorem g0c_v7_second (e : Fin 3072) (h1 : 1024 ≤ e.val) (h2 : e.val < 2048) :
    (StableHlo.after (hostOps0 (F := Ideal)) W (Proc.devRef .tc main_v7) : S1x3072.Idx → EReal) (ix2 (0 : Fin 1) e)
      = (W (Proc.devRef .tc main_arg4) : S1024.Idx → EReal) (ix1 ⟨e.val - 1024, by omega⟩) := by
  rw [g0c_v7_term]
  refine (shapeCast_a_1a_apply _ _ 0 e).trans ?_
  exact concat3_axis0_second _ _ _ _ e h1 (by omega)

/-- Entry (0, e) of the fused bias row, third band: entry e - 2048 of the third bias. -/
theorem g0c_v7_third (e : Fin 3072) (h1 : 2048 ≤ e.val) :
    (StableHlo.after (hostOps0 (F := Ideal)) W (Proc.devRef .tc main_v7) : S1x3072.Idx → EReal) (ix2 (0 : Fin 1) e)
      = (W (Proc.devRef .tc main_arg6) : S1024.Idx → EReal) (ix1 ⟨e.val - 1024 - 1024, by have := e.isLt; omega⟩) := by
  rw [g0c_v7_term]
  refine (shapeCast_a_1a_apply _ _ 0 e).trans ?_
  exact concat3_axis0_third _ _ _ _ e (by omega)

end Cert.KernelIdeal.Hand
-- ==== Proof.IdealValue0.lean ====
/- The VALUE of region 0 of @main at the extended reals: what the output array holds after the region, as ONE
   function of the arrays the region was entered with. Here: the rows' array (8192×1024) times the
   weight (1024×3072) plus the bias row (1×3072), index by index.
   First the body's payload at an index (pay0_apply): a rounding is the identity at the extended reals, a cast to the
   same shape is the identity, the product into a zero accumulator at (p, e) is the sum over the one contracted axis,
   and the bias row broadcast over the rows reads the bias at e. Then from blocks to the array: the index maps
   decided over the grid (blockIdx0, rowBlock0); what point t writes back is block t of the one function lin0 of the
   arrays (flushed0_3_eq); the output's blocks fill the array (mem_blk0_3, covered0_3); so the array ends holding
   lin0 of the arrays (final0). An input window's array ends as the region found it (arrAt0_in). -/
import proofs.«180477_j74028056314061_2_alg».proof.Proof.IdealRegion0
import proofs.«180477_j74028056314061_2_alg».proof.Proof.Gen.KernelIdeal.Points
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Hand

open Cert.KernelIdeal Cert.KernelIdeal.Gen Idealize.ShloMosaic Idealize.ShloMosaic.TcCoe Idealize.SL.Sem
open Idealize.ShloMosaic.ValueIdx
open Idealize.ShloMosaic.Pipeline (Dat)
open scoped BigOperators

/-! ## An input window's array ends as the region found it -/

section Inputs
variable {F : FTy → Type} [FloatOps F] [Named F]
variable (V : (c : Dev nD) → (b : Ref sig .tc) → Buf (Elt F) ((c : Thread nD τ).loc b))

/-- An input window's array is never written back: after any number of points it is the region-entry contents. -/
theorem arrAt0_in (c : Dev nD) (w : Fin cfg0.W) (hw : (cfg0.win w).isOut = false) (n : ℕ) :
    (dat0 V c).arrAt w n = V c (Pipeline.arrRef spec0 w) :=
  ((dat0 V c).arrAt_in w hw n).trans (A_eq0 V c w)

/-- The three input windows, after the whole grid. -/
theorem arrAt0_in_0 (c : Dev nD) : (dat0 V c).arrAt 0 cfg0.N = V c (Pipeline.arrRef spec0 0) := arrAt0_in V c 0 rfl _
theorem arrAt0_in_1 (c : Dev nD) : (dat0 V c).arrAt 1 cfg0.N = V c (Pipeline.arrRef spec0 1) := arrAt0_in V c 1 rfl _
theorem arrAt0_in_2 (c : Dev nD) : (dat0 V c).arrAt 2 cfg0.N = V c (Pipeline.arrRef spec0 2) := arrAt0_in V c 2 rfl _

end Inputs

/-! ## The body's payload at an index

The payload is a matrix product into a zero accumulator plus the bias row broadcast over the rows, rounded; at the
extended reals a rounding is the identity, a cast to the same shape is the identity, and the product at (p, e) is the
sum over the one contracted axis. -/

/-- The product's left operand index at output index j and contraction position q: row j 0, -/
theorem mm0_lhs_0 (j : S512x3072.Idx) (q : dot_S512x1024_S1024x3072_S512x3072_1_0_0_1_n_n.contr.Idx) :
    (dot_S512x1024_S1024x3072_S512x3072_1_0_0_1_n_n.lhsIdx j q 0).val = (j 0).val := by
  unfold DotDims.lhsIdx
  rw [dif_neg (show ¬(0 : Fin S512x1024.rank) ∈ dot_S512x1024_S1024x3072_S512x3072_1_0_0_1_n_n.lhsBatch by decide), dif_pos (show (0 : Fin S512x1024.rank) ∈ dot_S512x1024_S1024x3072_S512x3072_1_0_0_1_n_n.lhsNonContracting by decide)]
  rfl
/-- column the contraction position's one coordinate; -/
theorem mm0_lhs_1 (j : S512x3072.Idx) (q : dot_S512x1024_S1024x3072_S512x3072_1_0_0_1_n_n.contr.Idx) :
    (dot_S512x1024_S1024x3072_S512x3072_1_0_0_1_n_n.lhsIdx j q 1).val = (q ⟨0, by decide⟩).val :=
  dot_S512x1024_S1024x3072_S512x3072_1_0_0_1_n_n.lhsIdx_val_of_single rfl j q
/-- the right operand's: row the contraction position's one coordinate, -/
theorem mm0_rhs_0 (j : S512x3072.Idx) (q : dot_S512x1024_S1024x3072_S512x3072_1_0_0_1_n_n.contr.Idx) :
    (dot_S512x1024_S1024x3072_S512x3072_1_0_0_1_n_n.rhsIdx j q 0).val = (q ⟨0, by decide⟩).val :=
  dot_S512x1024_S1024x3072_S512x3072_1_0_0_1_n_n.rhsIdx_val_of_single rfl j q
/-- column j 1. -/
theorem mm0_rhs_1 (j : S512x3072.Idx) (q : dot_S512x1024_S1024x3072_S512x3072_1_0_0_1_n_n.contr.Idx) :
    (dot_S512x1024_S1024x3072_S512x3072_1_0_0_1_n_n.rhsIdx j q 1).val = (j 1).val := by
  unfold DotDims.rhsIdx
  rw [dif_neg (show ¬(1 : Fin S1024x3072.rank) ∈ dot_S512x1024_S1024x3072_S512x3072_1_0_0_1_n_n.rhsBatch by decide), dif_pos (show (1 : Fin S1024x3072.rank) ∈ dot_S512x1024_S1024x3072_S512x3072_1_0_0_1_n_n.rhsNonContracting by decide)]
  rfl

/-- The payload of the three loaded blocks at (p, e): the sum over k of x0 (p, k) · x1 (k, e), plus the bias at e. -/
theorem pay0_apply (x0 : Vec Ideal S512x1024 .f32) (x1 : Vec Ideal S1024x3072 .bf16) (x2 : Vec Ideal S1x3072 .f32) (p : Fin 512) (e : Fin 3072) :
    k0_pay1 (F := Ideal) x0 x1 x2 (ix2 p e) = (∑ k : Fin 1024, x0 (ix2 p k) * x1 (ix2 k e)) + x2 (ix2 0 e) := by
  unfold k0_pay1
  rw [truncf_apply, addf_apply, shapeCast_self, shapeCast_self, shapeCast_self]
  refine congrArg₂ (· + ·) ?_ (broadcastTo_1b_ab_apply x2 _ p e)
  refine (Ideal.matmul_constant_zero_apply (φ₁ := .bf16) (φ₂ := .bf16) dot_S512x1024_S1024x3072_S512x3072_1_0_0_1_n_n none _ _ (ix2 p e)).trans ?_
  rw [← Equiv.sum_comp (contrEquiv1 dot_S512x1024_S1024x3072_S512x3072_1_0_0_1_n_n 1024 rfl rfl).symm]
  refine Finset.sum_congr rfl fun k _ => ?_
  have hk := contrEquiv1_symm_val dot_S512x1024_S1024x3072_S512x3072_1_0_0_1_n_n 1024 rfl rfl k
  have el : dot_S512x1024_S1024x3072_S512x3072_1_0_0_1_n_n.lhsIdx (ix2 p e) ((contrEquiv1 dot_S512x1024_S1024x3072_S512x3072_1_0_0_1_n_n 1024 rfl rfl).symm k) = ix2 p k := funext fun a => Fin.ext (by
    match a with
    | ⟨0, _⟩ => exact mm0_lhs_0 _ _
    | ⟨1, _⟩ => exact (mm0_lhs_1 _ _).trans hk)
  have er : dot_S512x1024_S1024x3072_S512x3072_1_0_0_1_n_n.rhsIdx (ix2 p e) ((contrEquiv1 dot_S512x1024_S1024x3072_S512x3072_1_0_0_1_n_n 1024 rfl rfl).symm k) = ix2 k e := funext fun a => Fin.ext (by
    match a with
    | ⟨0, _⟩ => exact (mm0_rhs_0 _ _).trans hk
    | ⟨1, _⟩ => exact mm0_rhs_1 _ _)
  rw [el, er]
  rfl

/-! ## From blocks to the array -/

-- the TensorCore's buffer contents when the region is entered, at the extended reals
variable (V : (c : Dev nD) → (b : Ref sig .tc) → Buf (Elt Ideal) ((c : Thread nD τ).loc b))

/-- The rows' array times the weight plus the bias row, index by index: what the output array ends holding. -/
abbrev lin0 (a0 : S8192x1024.Idx → EReal) (a1 : S1024x3072.Idx → EReal) (a2 : S1x3072.Idx → EReal) : S8192x3072.Idx → EReal :=
  fun i => (∑ k : Fin 1024, a0 (ix2 ⟨(i 0).val, (i 0).isLt⟩ k) * a1 (ix2 k ⟨(i 1).val, (i 1).isLt⟩)) + a2 (ix2 0 ⟨(i 1).val, (i 1).isLt⟩)

/-- The printed index maps, decided over the grid: at point t the rows' block and the output's block are the t-th
    blocks of rows, all columns; the weight's and the bias's blocks are the whole arrays. -/
theorem blockIdx0 : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0 :=
  (by decide +kernel : ∀ t : Fin grid0.N, _)

/-- Every block of rows of the output array is some point's. -/
theorem rowBlock0 : ∀ q : Fin 16, ∃ t : Fin cfg0.N, win0_3.index t = ![q.val, 0] :=
  (by decide +kernel : ∀ q : Fin 16, ∃ t : Fin grid0.N, win0_3.index t = ![q.val, 0])

/-- What point t writes back is block t of that one function of the arrays as the region finds them: the payload at
    (p, e) reads the rows' block at (p, k), the weight at (k, e) and the bias at e, which are the arrays at the
    output block's row, at k and at the output block's column. -/
theorem flushed0_3_eq (c : Dev nD) (t : Fin cfg0.N) :
    (dat0 (F := Ideal) V c).flushed 3 t = ((cfg0.win 3).blk t).view.read (Elt Ideal) (lin0 (V c main_v0) (V c main_v5) (V c main_v7)) := by
  show (cfg0.win 3).cut (grid0.coords t) ((dat0 V c).after 3 t) = _
  rw [after0_3, out0_3_eq]
  obtain ⟨e00, e01, e10, e11, e20, e21, e30, e31⟩ := blockIdx0 t
  funext j
  obtain ⟨p, e, rfl⟩ : ∃ (p : Fin 512) (e : Fin 3072), j = ix2 p e := ⟨j 0, j 1, eq_ix2 j⟩
  show k0_pay1 (F := Ideal) (iblk0 V c 0 t) (iblk0 V c 1 t) (iblk0 V c 2 t) (ix2 p e)
      = lin0 (V c main_v0) (V c main_v5) (V c main_v7) (((cfg0.win 3).blk t).view.emb (ix2 p e))
  refine (pay0_apply (iblk0 V c 0 t) (iblk0 V c 1 t) (iblk0 V c 2 t) p e).trans ?_
  have h0 : ∀ k : Fin 1024, ((cfg0.win 0).blk t).view.emb (ix2 p k)
      = (ix2 ⟨((((cfg0.win 3).blk t).view.emb (ix2 p e)) 0).val, ((((cfg0.win 3).blk t).view.emb (ix2 p e)) 0).isLt⟩ k : S8192x1024.Idx) := fun k => by
    funext a; apply Fin.ext
    match a with
    | ⟨0, _⟩ => show win0_0.index t (0 : Fin 2) * 512 + 1 * p.val = win0_3.index t (0 : Fin 2) * 512 + 1 * p.val; omega
    | ⟨1, _⟩ => show win0_0.index t (1 : Fin 2) * 1024 + 1 * k.val = k.val; omega
  have h1 : ∀ k : Fin 1024, ((cfg0.win 1).blk t).view.emb (ix2 k e)
      = (ix2 k ⟨((((cfg0.win 3).blk t).view.emb (ix2 p e)) 1).val, ((((cfg0.win 3).blk t).view.emb (ix2 p e)) 1).isLt⟩ : S1024x3072.Idx) := fun k => by
    funext a; apply Fin.ext
    match a with
    | ⟨0, _⟩ => show win0_1.index t (0 : Fin 2) * 1024 + 1 * k.val = k.val; omega
    | ⟨1, _⟩ => show win0_1.index t (1 : Fin 2) * 3072 + 1 * e.val = win0_3.index t (1 : Fin 2) * 3072 + 1 * e.val; omega
  have h2 : ((cfg0.win 2).blk t).view.emb (ix2 (0 : Fin 1) e)
      = (ix2 (0 : Fin 1) ⟨((((cfg0.win 3).blk t).view.emb (ix2 p e)) 1).val, ((((cfg0.win 3).blk t).view.emb (ix2 p e)) 1).isLt⟩ : S1x3072.Idx) := by
    funext a; apply Fin.ext
    match a with
    | ⟨0, _⟩ => show win0_2.index t (0 : Fin 2) * 1 + 1 * 0 = 0; omega
    | ⟨1, _⟩ => show win0_2.index t (1 : Fin 2) * 3072 + 1 * e.val = win0_3.index t (1 : Fin 2) * 3072 + 1 * e.val; omega
  refine congrArg₂ (· + ·) (Finset.sum_congr rfl fun k _ => ?_) ?_
  · have f0 : iblk0 V c 0 t (ix2 p k) = V c main_v0 (ix2 ⟨((((cfg0.win 3).blk t).view.emb (ix2 p e)) 0).val, ((((cfg0.win 3).blk t).view.emb (ix2 p e)) 0).isLt⟩ k : S8192x1024.Idx) := congrArg (V c main_v0) (h0 k)
    have f1 : iblk0 V c 1 t (ix2 k e) = V c main_v5 (ix2 k ⟨((((cfg0.win 3).blk t).view.emb (ix2 p e)) 1).val, ((((cfg0.win 3).blk t).view.emb (ix2 p e)) 1).isLt⟩ : S1024x3072.Idx) := congrArg (V c main_v5) (h1 k)
    rw [f0, f1]
  · exact congrArg (V c main_v7) h2

/-- An index of the output array is in point t's block iff each coordinate is in the block's range on its axis. -/
theorem mem_blk0_3 (t : Fin cfg0.N) (i : S8192x3072.Idx) :
    i ∈ ((cfg0.win 3).blk t).view.set ↔ ∀ a : Fin 2, win0_3.index t a * S512x3072.size a ≤ (i a).val ∧ (i a).val < win0_3.index t a * S512x3072.size a + S512x3072.size a := by
  show i ∈ ((View.whole main_v8).slice (win0_3.rect t)).set ↔ _
  rw [View.set_slice_whole, Rect.mem_set_unit]
  exact Iff.rfl

/-- The output's blocks fill the array: row r is in the block of point r / 512, which is written back. -/
theorem covered0_3 (i : S8192x3072.Idx) :
    ∃ t : Fin cfg0.N, (cfg0.win 3).flush t = true ∧ i ∈ ((cfg0.win 3).blk t).view.set := by
  have hi0 : (i 0).val < 8192 := (i 0).isLt
  have hi1 : (i 1).val < 3072 := (i 1).isLt
  obtain ⟨t, ht⟩ := rowBlock0 ⟨(i 0).val / 512, by omega⟩
  have q0 : win0_3.index t (0 : Fin 2) = (i 0).val / 512 := congrFun ht 0
  have q1 : win0_3.index t (1 : Fin 2) = 0 := congrFun ht 1
  refine ⟨t, flush0_3 t, ?_⟩
  rw [mem_blk0_3]
  intro a
  match a with
  | ⟨0, _⟩ => show win0_3.index t (0 : Fin 2) * 512 ≤ (i 0).val ∧ (i 0).val < win0_3.index t (0 : Fin 2) * 512 + 512; omega
  | ⟨1, _⟩ => show win0_3.index t (1 : Fin 2) * 3072 ≤ (i 1).val ∧ (i 1).val < win0_3.index t (1 : Fin 2) * 3072 + 3072; omega

/-- THE OUTPUT ARRAY after the region: the rows' array times the weight plus the bias row, as the region found them. -/
theorem final0 (c : Dev nD) : ((dat0 (F := Ideal) V c).arrAt 3 cfg0.N : S8192x3072.Idx → EReal)
    = lin0 (V c main_v0) (V c main_v5) (V c main_v7) :=
  (dat0 (F := Ideal) V c).arrAt_eq_of_cover 3 (lin0 (V c main_v0) (V c main_v5) (V c main_v7)) (fun t _ => flushed0_3_eq V c t) (covered0_3)

/-- The same at an index. -/
theorem final0_apply (c : Dev nD) (i : S8192x3072.Idx) :
    ((dat0 (F := Ideal) V c).arrAt 3 cfg0.N : S8192x3072.Idx → EReal) i = lin0 (V c main_v0) (V c main_v5) (V c main_v7) i :=
  congrFun (final0 V c) i

/-- That function, spelt out: at row r and column e the sum over k of rows (r, k) · weight (k, e), plus bias e. -/
theorem lin0_apply (a0 : S8192x1024.Idx → EReal) (a1 : S1024x3072.Idx → EReal) (a2 : S1x3072.Idx → EReal) (i : S8192x3072.Idx) :
    lin0 a0 a1 a2 i = (∑ k : Fin 1024, a0 (ix2 ⟨(i 0).val, (i 0).isLt⟩ k) * a1 (ix2 k ⟨(i 1).val, (i 1).isLt⟩)) + a2 (ix2 0 ⟨(i 1).val, (i 1).isLt⟩) := rfl

end Cert.KernelIdeal.Hand

end
-- ==== Proof.IdealValue2.lean ====
/- The VALUE of region 2 of @main at the extended reals: what the output array holds after the region, as ONE
   function of the arrays the region was entered with. Here: the rows' array (8192×1024) times the
   weight (1024×1024) plus the bias row (1×1024), index by index; nothing is rounded.
   First the body's payload at an index (pay2_apply): a rounding is the identity at the extended reals, a cast to the
   same shape is the identity, the product into a zero accumulator at (p, e) is the sum over the one contracted axis,
   and the bias row broadcast over the rows reads the bias at e. Then from blocks to the array: the index maps
   decided over the grid (blockIdx2, rowBlock2); what point t writes back is block t of the one function lin2 of the
   arrays (flushed2_3_eq); the output's blocks fill the array (mem_blk2_3, covered2_3); so the array ends holding
   lin2 of the arrays (final2). An input window's array ends as the region found it (arrAt2_in). -/
import proofs.«180477_j74028056314061_2_alg».proof.Proof.IdealRegion2
import proofs.«180477_j74028056314061_2_alg».proof.Proof.Gen.KernelIdeal.Points
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Hand

open Cert.KernelIdeal Cert.KernelIdeal.Gen Idealize.ShloMosaic Idealize.ShloMosaic.TcCoe Idealize.SL.Sem
open Idealize.ShloMosaic.ValueIdx
open Idealize.ShloMosaic.Pipeline (Dat)
open scoped BigOperators

/-! ## An input window's array ends as the region found it -/

section Inputs
variable {F : FTy → Type} [FloatOps F] [Named F]
variable (V : (c : Dev nD) → (b : Ref sig .tc) → Buf (Elt F) ((c : Thread nD τ).loc b))

/-- An input window's array is never written back: after any number of points it is the region-entry contents. -/
theorem arrAt2_in (c : Dev nD) (w : Fin cfg2.W) (hw : (cfg2.win w).isOut = false) (n : ℕ) :
    (dat2 V c).arrAt w n = V c (Pipeline.arrRef spec2 w) :=
  ((dat2 V c).arrAt_in w hw n).trans (A_eq2 V c w)

/-- The three input windows, after the whole grid. -/
theorem arrAt2_in_0 (c : Dev nD) : (dat2 V c).arrAt 0 cfg2.N = V c (Pipeline.arrRef spec2 0) := arrAt2_in V c 0 rfl _
theorem arrAt2_in_1 (c : Dev nD) : (dat2 V c).arrAt 1 cfg2.N = V c (Pipeline.arrRef spec2 1) := arrAt2_in V c 1 rfl _
theorem arrAt2_in_2 (c : Dev nD) : (dat2 V c).arrAt 2 cfg2.N = V c (Pipeline.arrRef spec2 2) := arrAt2_in V c 2 rfl _

end Inputs

/-! ## The body's payload at an index

The payload is a matrix product into a zero accumulator plus the bias row broadcast over the rows; at the
extended reals a rounding is the identity, a cast to the same shape is the identity, and the product at (p, e) is the
sum over the one contracted axis. -/

/-- The product's left operand index at output index j and contraction position q: row j 0, -/
theorem mm2_lhs_0 (j : S512x1024.Idx) (q : dot_S512x1024_S1024x1024_S512x1024_1_0_0_1_n_n.contr.Idx) :
    (dot_S512x1024_S1024x1024_S512x1024_1_0_0_1_n_n.lhsIdx j q 0).val = (j 0).val := by
  unfold DotDims.lhsIdx
  rw [dif_neg (show ¬(0 : Fin S512x1024.rank) ∈ dot_S512x1024_S1024x1024_S512x1024_1_0_0_1_n_n.lhsBatch by decide), dif_pos (show (0 : Fin S512x1024.rank) ∈ dot_S512x1024_S1024x1024_S512x1024_1_0_0_1_n_n.lhsNonContracting by decide)]
  rfl
/-- column the contraction position's one coordinate; -/
theorem mm2_lhs_1 (j : S512x1024.Idx) (q : dot_S512x1024_S1024x1024_S512x1024_1_0_0_1_n_n.contr.Idx) :
    (dot_S512x1024_S1024x1024_S512x1024_1_0_0_1_n_n.lhsIdx j q 1).val = (q ⟨0, by decide⟩).val :=
  dot_S512x1024_S1024x1024_S512x1024_1_0_0_1_n_n.lhsIdx_val_of_single rfl j q
/-- the right operand's: row the contraction position's one coordinate, -/
theorem mm2_rhs_0 (j : S512x1024.Idx) (q : dot_S512x1024_S1024x1024_S512x1024_1_0_0_1_n_n.contr.Idx) :
    (dot_S512x1024_S1024x1024_S512x1024_1_0_0_1_n_n.rhsIdx j q 0).val = (q ⟨0, by decide⟩).val :=
  dot_S512x1024_S1024x1024_S512x1024_1_0_0_1_n_n.rhsIdx_val_of_single rfl j q
/-- column j 1. -/
theorem mm2_rhs_1 (j : S512x1024.Idx) (q : dot_S512x1024_S1024x1024_S512x1024_1_0_0_1_n_n.contr.Idx) :
    (dot_S512x1024_S1024x1024_S512x1024_1_0_0_1_n_n.rhsIdx j q 1).val = (j 1).val := by
  unfold DotDims.rhsIdx
  rw [dif_neg (show ¬(1 : Fin S1024x1024.rank) ∈ dot_S512x1024_S1024x1024_S512x1024_1_0_0_1_n_n.rhsBatch by decide), dif_pos (show (1 : Fin S1024x1024.rank) ∈ dot_S512x1024_S1024x1024_S512x1024_1_0_0_1_n_n.rhsNonContracting by decide)]
  rfl

/-- The payload of the three loaded blocks at (p, e): the sum over k of x0 (p, k) · x1 (k, e), plus the bias at e. -/
theorem pay2_apply (x0 : Vec Ideal S512x1024 .bf16) (x1 : Vec Ideal S1024x1024 .bf16) (x2 : Vec Ideal S1x1024 .f32) (p : Fin 512) (e : Fin 1024) :
    k2_pay1 (F := Ideal) x0 x1 x2 (ix2 p e) = (∑ k : Fin 1024, x0 (ix2 p k) * x1 (ix2 k e)) + x2 (ix2 0 e) := by
  unfold k2_pay1
  rw [addf_apply, shapeCast_self, shapeCast_self, shapeCast_self]
  refine congrArg₂ (· + ·) ?_ (broadcastTo_1b_ab_apply x2 _ p e)
  refine (Ideal.matmul_constant_zero_apply (φ₁ := .bf16) (φ₂ := .bf16) dot_S512x1024_S1024x1024_S512x1024_1_0_0_1_n_n none _ _ (ix2 p e)).trans ?_
  rw [← Equiv.sum_comp (contrEquiv1 dot_S512x1024_S1024x1024_S512x1024_1_0_0_1_n_n 1024 rfl rfl).symm]
  refine Finset.sum_congr rfl fun k _ => ?_
  have hk := contrEquiv1_symm_val dot_S512x1024_S1024x1024_S512x1024_1_0_0_1_n_n 1024 rfl rfl k
  have el : dot_S512x1024_S1024x1024_S512x1024_1_0_0_1_n_n.lhsIdx (ix2 p e) ((contrEquiv1 dot_S512x1024_S1024x1024_S512x1024_1_0_0_1_n_n 1024 rfl rfl).symm k) = ix2 p k := funext fun a => Fin.ext (by
    match a with
    | ⟨0, _⟩ => exact mm2_lhs_0 _ _
    | ⟨1, _⟩ => exact (mm2_lhs_1 _ _).trans hk)
  have er : dot_S512x1024_S1024x1024_S512x1024_1_0_0_1_n_n.rhsIdx (ix2 p e) ((contrEquiv1 dot_S512x1024_S1024x1024_S512x1024_1_0_0_1_n_n 1024 rfl rfl).symm k) = ix2 k e := funext fun a => Fin.ext (by
    match a with
    | ⟨0, _⟩ => exact (mm2_rhs_0 _ _).trans hk
    | ⟨1, _⟩ => exact mm2_rhs_1 _ _)
  rw [el, er]

/-! ## From blocks to the array -/

-- the TensorCore's buffer contents when the region is entered, at the extended reals
variable (V : (c : Dev nD) → (b : Ref sig .tc) → Buf (Elt Ideal) ((c : Thread nD τ).loc b))

/-- The rows' array times the weight plus the bias row, index by index: what the output array ends holding. -/
abbrev lin2 (a0 : S8192x1024.Idx → EReal) (a1 : S1024x1024.Idx → EReal) (a2 : S1x1024.Idx → EReal) : S8192x1024.Idx → EReal :=
  fun i => (∑ k : Fin 1024, a0 (ix2 ⟨(i 0).val, (i 0).isLt⟩ k) * a1 (ix2 k ⟨(i 1).val, (i 1).isLt⟩)) + a2 (ix2 0 ⟨(i 1).val, (i 1).isLt⟩)

/-- The printed index maps, decided over the grid: at point t the rows' block and the output's block are the t-th
    blocks of rows, all columns; the weight's and the bias's blocks are the whole arrays. -/
theorem blockIdx2 : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 2) = 0 ∧ win2_2.index t (1 : Fin 2) = 0
    ∧ win2_3.index t (0 : Fin 2) = t.val ∧ win2_3.index t (1 : Fin 2) = 0 :=
  (by decide +kernel : ∀ t : Fin grid2.N, _)

/-- Every block of rows of the output array is some point's. -/
theorem rowBlock2 : ∀ q : Fin 16, ∃ t : Fin cfg2.N, win2_3.index t = ![q.val, 0] :=
  (by decide +kernel : ∀ q : Fin 16, ∃ t : Fin grid2.N, win2_3.index t = ![q.val, 0])

/-- What point t writes back is block t of that one function of the arrays as the region finds them: the payload at
    (p, e) reads the rows' block at (p, k), the weight at (k, e) and the bias at e, which are the arrays at the
    output block's row, at k and at the output block's column. -/
theorem flushed2_3_eq (c : Dev nD) (t : Fin cfg2.N) :
    (dat2 (F := Ideal) V c).flushed 3 t = ((cfg2.win 3).blk t).view.read (Elt Ideal) (lin2 (V c main_v16) (V c main_v18) (V c main_v19)) := by
  show (cfg2.win 3).cut (grid2.coords t) ((dat2 V c).after 3 t) = _
  rw [after2_3, out2_3_eq]
  obtain ⟨e00, e01, e10, e11, e20, e21, e30, e31⟩ := blockIdx2 t
  funext j
  obtain ⟨p, e, rfl⟩ : ∃ (p : Fin 512) (e : Fin 1024), j = ix2 p e := ⟨j 0, j 1, eq_ix2 j⟩
  show k2_pay1 (F := Ideal) (iblk2 V c 0 t) (iblk2 V c 1 t) (iblk2 V c 2 t) (ix2 p e)
      = lin2 (V c main_v16) (V c main_v18) (V c main_v19) (((cfg2.win 3).blk t).view.emb (ix2 p e))
  refine (pay2_apply (iblk2 V c 0 t) (iblk2 V c 1 t) (iblk2 V c 2 t) p e).trans ?_
  have h0 : ∀ k : Fin 1024, ((cfg2.win 0).blk t).view.emb (ix2 p k)
      = (ix2 ⟨((((cfg2.win 3).blk t).view.emb (ix2 p e)) 0).val, ((((cfg2.win 3).blk t).view.emb (ix2 p e)) 0).isLt⟩ k : S8192x1024.Idx) := fun k => by
    funext a; apply Fin.ext
    match a with
    | ⟨0, _⟩ => show win2_0.index t (0 : Fin 2) * 512 + 1 * p.val = win2_3.index t (0 : Fin 2) * 512 + 1 * p.val; omega
    | ⟨1, _⟩ => show win2_0.index t (1 : Fin 2) * 1024 + 1 * k.val = k.val; omega
  have h1 : ∀ k : Fin 1024, ((cfg2.win 1).blk t).view.emb (ix2 k e)
      = (ix2 k ⟨((((cfg2.win 3).blk t).view.emb (ix2 p e)) 1).val, ((((cfg2.win 3).blk t).view.emb (ix2 p e)) 1).isLt⟩ : S1024x1024.Idx) := fun k => by
    funext a; apply Fin.ext
    match a with
    | ⟨0, _⟩ => show win2_1.index t (0 : Fin 2) * 1024 + 1 * k.val = k.val; omega
    | ⟨1, _⟩ => show win2_1.index t (1 : Fin 2) * 1024 + 1 * e.val = win2_3.index t (1 : Fin 2) * 1024 + 1 * e.val; omega
  have h2 : ((cfg2.win 2).blk t).view.emb (ix2 (0 : Fin 1) e)
      = (ix2 (0 : Fin 1) ⟨((((cfg2.win 3).blk t).view.emb (ix2 p e)) 1).val, ((((cfg2.win 3).blk t).view.emb (ix2 p e)) 1).isLt⟩ : S1x1024.Idx) := by
    funext a; apply Fin.ext
    match a with
    | ⟨0, _⟩ => show win2_2.index t (0 : Fin 2) * 1 + 1 * 0 = 0; omega
    | ⟨1, _⟩ => show win2_2.index t (1 : Fin 2) * 1024 + 1 * e.val = win2_3.index t (1 : Fin 2) * 1024 + 1 * e.val; omega
  refine congrArg₂ (· + ·) (Finset.sum_congr rfl fun k _ => ?_) ?_
  · have f0 : iblk2 V c 0 t (ix2 p k) = V c main_v16 (ix2 ⟨((((cfg2.win 3).blk t).view.emb (ix2 p e)) 0).val, ((((cfg2.win 3).blk t).view.emb (ix2 p e)) 0).isLt⟩ k : S8192x1024.Idx) := congrArg (V c main_v16) (h0 k)
    have f1 : iblk2 V c 1 t (ix2 k e) = V c main_v18 (ix2 k ⟨((((cfg2.win 3).blk t).view.emb (ix2 p e)) 1).val, ((((cfg2.win 3).blk t).view.emb (ix2 p e)) 1).isLt⟩ : S1024x1024.Idx) := congrArg (V c main_v18) (h1 k)
    rw [f0, f1]
  · exact congrArg (V c main_v19) h2

/-- An index of the output array is in point t's block iff each coordinate is in the block's range on its axis. -/
theorem mem_blk2_3 (t : Fin cfg2.N) (i : S8192x1024.Idx) :
    i ∈ ((cfg2.win 3).blk t).view.set ↔ ∀ a : Fin 2, win2_3.index t a * S512x1024.size a ≤ (i a).val ∧ (i a).val < win2_3.index t a * S512x1024.size a + S512x1024.size a := by
  show i ∈ ((View.whole main_v20).slice (win2_3.rect t)).set ↔ _
  rw [View.set_slice_whole, Rect.mem_set_unit]
  exact Iff.rfl

/-- The output's blocks fill the array: row r is in the block of point r / 512, which is written back. -/
theorem covered2_3 (i : S8192x1024.Idx) :
    ∃ t : Fin cfg2.N, (cfg2.win 3).flush t = true ∧ i ∈ ((cfg2.win 3).blk t).view.set := by
  have hi0 : (i 0).val < 8192 := (i 0).isLt
  have hi1 : (i 1).val < 1024 := (i 1).isLt
  obtain ⟨t, ht⟩ := rowBlock2 ⟨(i 0).val / 512, by omega⟩
  have q0 : win2_3.index t (0 : Fin 2) = (i 0).val / 512 := congrFun ht 0
  have q1 : win2_3.index t (1 : Fin 2) = 0 := congrFun ht 1
  refine ⟨t, flush2_3 t, ?_⟩
  rw [mem_blk2_3]
  intro a
  match a with
  | ⟨0, _⟩ => show win2_3.index t (0 : Fin 2) * 512 ≤ (i 0).val ∧ (i 0).val < win2_3.index t (0 : Fin 2) * 512 + 512; omega
  | ⟨1, _⟩ => show win2_3.index t (1 : Fin 2) * 1024 ≤ (i 1).val ∧ (i 1).val < win2_3.index t (1 : Fin 2) * 1024 + 1024; omega

/-- THE OUTPUT ARRAY after the region: the rows' array times the weight plus the bias row, as the region found them. -/
theorem final2 (c : Dev nD) : ((dat2 (F := Ideal) V c).arrAt 3 cfg2.N : S8192x1024.Idx → EReal)
    = lin2 (V c main_v16) (V c main_v18) (V c main_v19) :=
  (dat2 (F := Ideal) V c).arrAt_eq_of_cover 3 (lin2 (V c main_v16) (V c main_v18) (V c main_v19)) (fun t _ => flushed2_3_eq V c t) (covered2_3)

/-- The same at an index. -/
theorem final2_apply (c : Dev nD) (i : S8192x1024.Idx) :
    ((dat2 (F := Ideal) V c).arrAt 3 cfg2.N : S8192x1024.Idx → EReal) i = lin2 (V c main_v16) (V c main_v18) (V c main_v19) i :=
  congrFun (final2 V c) i

/-- That function, spelt out: at row r and column e the sum over k of rows (r, k) · weight (k, e), plus bias e. -/
theorem lin2_apply (a0 : S8192x1024.Idx → EReal) (a1 : S1024x1024.Idx → EReal) (a2 : S1x1024.Idx → EReal) (i : S8192x1024.Idx) :
    lin2 a0 a1 a2 i = (∑ k : Fin 1024, a0 (ix2 ⟨(i 0).val, (i 0).isLt⟩ k) * a1 (ix2 k ⟨(i 1).val, (i 1).isLt⟩)) + a2 (ix2 0 ⟨(i 1).val, (i 1).isLt⟩) := rfl

end Cert.KernelIdeal.Hand

end
-- ==== Proof.IdealChain.lean ====
/- The value chain of the kernel program around its attention region, at the extended reals.  The buffers' contents
   at the boundaries between @main's seven items are a fold from the launch memory; read index by index they are the
   layers of the function the program computes.  With x0 … x8 the nine argument arrays as launched:
   * no item writes an argument, so at every boundary each argument buffer holds its launch contents;
   * the first region leaves in its output the fused product, whose three column bands are the query, key and value
     layers lin (act x0) x1 x2, lin (act x0) x3 x4, lin (act x0) x5 x6, row R = 2048 n + s being position s of batch
     entry n — the region computes rows times the fused weight plus the fused bias, and the host stretch before it
     built the rows from x0 and the fused weight and bias from the three layers' transposed weights and biases;
   * so the attention region is entered with exactly those three layers in its three input arrays;
   * and GIVEN what the attention region leaves in its output array, an activation C, the program's result is the
     output layer lin C x7 x8: the last region computes rows times the transposed output weight plus the bias row,
     the rows being C merged, and the last host operation splits the product back into batch entries. -/
import proofs.«180477_j74028056314061_2_alg».proof.Proof.IdealEnds
import proofs.«180477_j74028056314061_2_alg».proof.Proof.IdealHostGlue
import proofs.«180477_j74028056314061_2_alg».proof.Proof.IdealValue0
import proofs.«180477_j74028056314061_2_alg».proof.Proof.IdealValue2
import proofs.«180477_j74028056314061_2_alg».proof.Proof.Spec

set_option maxRecDepth 16384

noncomputable section

namespace Cert.KernelIdeal.Hand

open Cert.KernelIdeal Cert.KernelIdeal.Gen
open Idealize.ShloMosaic Idealize.ShloMosaic.TcCoe Idealize.ShloMosaic.ValueIdx
open Idealize.SL Idealize.SL.Sem
open Cert.Attn (lin act)
open scoped BigOperators

variable (m : (ℓ : Loc nD τ sig) → Buf (Elt Ideal) ℓ) (ρ : Dev nD → PrngReg) (c : Dev nD)

/-! ## The arguments as launched -/

/-- The input, as launched. -/
abbrev x0 : Cert.Attn.Arr3 := m ((c : Thread nD τ).loc main_arg0)
/-- The query layer's weight and bias, as launched. -/
abbrev x1 : Cert.Attn.Arr2 := m ((c : Thread nD τ).loc main_arg1)
abbrev x2 : Cert.Attn.Arr1 := m ((c : Thread nD τ).loc main_arg2)
/-- The key layer's weight and bias, as launched. -/
abbrev x3 : Cert.Attn.Arr2 := m ((c : Thread nD τ).loc main_arg3)
abbrev x4 : Cert.Attn.Arr1 := m ((c : Thread nD τ).loc main_arg4)
/-- The value layer's weight and bias, as launched. -/
abbrev x5 : Cert.Attn.Arr2 := m ((c : Thread nD τ).loc main_arg5)
abbrev x6 : Cert.Attn.Arr1 := m ((c : Thread nD τ).loc main_arg6)
/-- The output layer's weight and bias, as launched. -/
abbrev x7 : Cert.Attn.Arr2 := m ((c : Thread nD τ).loc main_arg7)
abbrev x8 : Cert.Attn.Arr1 := m ((c : Thread nD τ).loc main_arg8)

/-! ## The arguments through the boundaries -/

/-- No argument is a window array of any region. -/
theorem args_not_window (b : Ref sig .tc) (hb : b ∈ ([main_arg0, main_arg1, main_arg2, main_arg3, main_arg4, main_arg5, main_arg6, main_arg7, main_arg8] : List (Ref sig .tc))) :
    b ∉ ([main_v0, main_v5, main_v7, main_v8] : List (Ref sig .tc))
    ∧ b ∉ ([main_v12, main_v13, main_v14, main_v15] : List (Ref sig .tc))
    ∧ b ∉ ([main_v16, main_v18, main_v19, main_v20] : List (Ref sig .tc)) := by
  revert b
  decide

/-- An argument buffer holds its launch contents after the first host stretch. -/
theorem W1_arg (b : Ref sig .tc) (hb : b ∈ ([main_arg0, main_arg1, main_arg2, main_arg3, main_arg4, main_arg5, main_arg6, main_arg7, main_arg8] : List (Ref sig .tc))) :
    W1 m ρ c (Proc.devRef .tc b) = m ((c : Thread nD τ).loc b) :=
  (kept0 (W0 m ρ c) b (args_not_written b hb).1).trans rfl

/-- An argument buffer holds its launch contents at the first region's exit. -/
theorem W2_arg (b : Ref sig .tc) (hb : b ∈ ([main_arg0, main_arg1, main_arg2, main_arg3, main_arg4, main_arg5, main_arg6, main_arg7, main_arg8] : List (Ref sig .tc))) :
    W2 m ρ c (Proc.devRef .tc b) = m ((c : Thread nD τ).loc b) :=
  (W2_of_ne m ρ c b (arr0_ne b (args_not_window b hb).1)).trans (W1_arg m ρ c b hb)

/-- An argument buffer holds its launch contents after the second host stretch. -/
theorem W3_arg (b : Ref sig .tc) (hb : b ∈ ([main_arg0, main_arg1, main_arg2, main_arg3, main_arg4, main_arg5, main_arg6, main_arg7, main_arg8] : List (Ref sig .tc))) :
    W3 m ρ c (Proc.devRef .tc b) = m ((c : Thread nD τ).loc b) :=
  (kept1 (W2 m ρ c) b (args_not_written b hb).2.1).trans (W2_arg m ρ c b hb)

/-- An argument buffer holds its launch contents at the attention region's exit. -/
theorem W4_arg (b : Ref sig .tc) (hb : b ∈ ([main_arg0, main_arg1, main_arg2, main_arg3, main_arg4, main_arg5, main_arg6, main_arg7, main_arg8] : List (Ref sig .tc))) :
    W4 m ρ c (Proc.devRef .tc b) = m ((c : Thread nD τ).loc b) :=
  (W4_of_ne m ρ c b (arr1_ne b (args_not_window b hb).2.1)).trans (W3_arg m ρ c b hb)

/-- An argument buffer holds its launch contents after the third host stretch. -/
theorem W5_arg (b : Ref sig .tc) (hb : b ∈ ([main_arg0, main_arg1, main_arg2, main_arg3, main_arg4, main_arg5, main_arg6, main_arg7, main_arg8] : List (Ref sig .tc))) :
    W5 m ρ c (Proc.devRef .tc b) = m ((c : Thread nD τ).loc b) :=
  (kept2 (W4 m ρ c) b (args_not_written b hb).2.2.1).trans (W4_arg m ρ c b hb)

/-- An argument buffer holds its launch contents at the last region's exit. -/
theorem W6_arg (b : Ref sig .tc) (hb : b ∈ ([main_arg0, main_arg1, main_arg2, main_arg3, main_arg4, main_arg5, main_arg6, main_arg7, main_arg8] : List (Ref sig .tc))) :
    W6 m ρ c (Proc.devRef .tc b) = m ((c : Thread nD τ).loc b) :=
  (W6_of_ne m ρ c b (arr2_ne b (args_not_window b hb).2.2)).trans (W5_arg m ρ c b hb)

/-! ## A linear region's formula is the layer

A linear region leaves in its output array rows times weight plus the bias row.  When the rows' array at row R reads
an activation X at (n, s), the weight array's column e reads row e' of a weight matrix, and the bias row's entry e
reads entry e' of a bias, that is the layer lin X W b at (n, s, e'). -/

/-- The first region's formula (fused weight, 3072 columns) against a layer. -/
theorem lin0_eq_lin (a0 : S8192x1024.Idx → EReal) (a1 : S1024x3072.Idx → EReal) (a2 : S1x3072.Idx → EReal)
    (X : Cert.Attn.Act) (Wt : Cert.Attn.Arr2) (bb : Cert.Attn.Arr1)
    (R : Fin 8192) (e : Fin 3072) (n : Fin 4) (s : Fin 2048) (e' : Fin 1024)
    (h0 : ∀ k, a0 (ix2 R k) = X n s k) (h1 : ∀ k, a1 (ix2 k e) = Wt (ix2 e' k))
    (h2 : a2 (ix2 (0 : Fin 1) e) = bb (ix1 e')) :
    lin0 a0 a1 a2 (ix2 R e) = lin X Wt bb n s e' := by
  show (∑ k : Fin 1024, a0 (ix2 R k) * a1 (ix2 k e)) + a2 (ix2 (0 : Fin 1) e)
    = (∑ d : Fin 1024, X n s d * Wt (ix2 e' d)) + bb (ix1 e')
  rw [h2]
  congr 1
  exact Finset.sum_congr rfl fun k _ => by rw [h0, h1]

/-- The last region's formula (1024 columns) against a layer. -/
theorem lin2_eq_lin (a0 : S8192x1024.Idx → EReal) (a1 : S1024x1024.Idx → EReal) (a2 : S1x1024.Idx → EReal)
    (X : Cert.Attn.Act) (Wt : Cert.Attn.Arr2) (bb : Cert.Attn.Arr1)
    (R : Fin 8192) (e : Fin 1024) (n : Fin 4) (s : Fin 2048)
    (h0 : ∀ k, a0 (ix2 R k) = X n s k) (h1 : ∀ k, a1 (ix2 k e) = Wt (ix2 e k))
    (h2 : a2 (ix2 (0 : Fin 1) e) = bb (ix1 e)) :
    lin2 a0 a1 a2 (ix2 R e) = lin X Wt bb n s e := by
  show (∑ k : Fin 1024, a0 (ix2 R k) * a1 (ix2 k e)) + a2 (ix2 (0 : Fin 1) e)
    = (∑ d : Fin 1024, X n s d * Wt (ix2 e d)) + bb (ix1 e)
  rw [h2]
  congr 1
  exact Finset.sum_congr rfl fun k _ => by rw [h0, h1]

/-- An activation at coordinates equal as numbers. -/
theorem act_idx_congr (f : Cert.Attn.Act) {n n' : Fin 4} {s s' : Fin 2048} {d d' : Fin 1024}
    (hn : n.val = n'.val) (hs : s.val = s'.val) (hd : d.val = d'.val) : f n s d = f n' s' d' := by
  obtain rfl := Fin.ext hn
  obtain rfl := Fin.ext hs
  obtain rfl := Fin.ext hd
  rfl

/-! ## The first region's output: the three layers, band by band -/

/-- The first region's output array is rows times fused weight plus fused bias row, of the arrays it was entered with. -/
theorem V2_v8 :
    (V2 m ρ c main_v8 : S8192x3072.Idx → EReal)
      = lin0 (V1 m ρ c main_v0) (V1 m ρ c main_v5) (V1 m ρ c main_v7) :=
  (hF0 m ρ c 3).symm.trans (final0 (V1 m ρ) c)

/-- The fused product at row R and a column below 1024: the query layer at (R / 2048, R % 2048). -/
theorem c1_first (R : Fin 8192) (e : Fin 3072) (he : e.val < 1024) :
    (V2 m ρ c main_v8 : S8192x3072.Idx → EReal) (ix2 R e)
      = lin (act (x0 m c)) (x1 m c) (x2 m c) ⟨R.val / 2048, by have := R.isLt; omega⟩ ⟨R.val % 2048, by omega⟩
          ⟨e.val, he⟩ := by
  rw [V2_v8]
  exact lin0_eq_lin _ _ _ _ _ _ R e _ _ _ (fun k => g0a_v0 (W0 m ρ c) R k) (fun k => g0b_v5_first (W0 m ρ c) k e he)
    (g0c_v7_first (W0 m ρ c) e he)

/-- The fused product at row R and a column from 1024 to 2048: the key layer at (R / 2048, R % 2048). -/
theorem c1_second (R : Fin 8192) (e : Fin 3072) (h1 : 1024 ≤ e.val) (h2 : e.val < 2048) :
    (V2 m ρ c main_v8 : S8192x3072.Idx → EReal) (ix2 R e)
      = lin (act (x0 m c)) (x3 m c) (x4 m c) ⟨R.val / 2048, by have := R.isLt; omega⟩ ⟨R.val % 2048, by omega⟩
          ⟨e.val - 1024, by omega⟩ := by
  rw [V2_v8]
  exact lin0_eq_lin _ _ _ _ _ _ R e _ _ _ (fun k => g0a_v0 (W0 m ρ c) R k) (fun k => g0b_v5_second (W0 m ρ c) k e h1 h2)
    (g0c_v7_second (W0 m ρ c) e h1 h2)

/-- The fused product at row R and a column from 2048 on: the value layer at (R / 2048, R % 2048). -/
theorem c1_third (R : Fin 8192) (e : Fin 3072) (h1 : 2048 ≤ e.val) :
    (V2 m ρ c main_v8 : S8192x3072.Idx → EReal) (ix2 R e)
      = lin (act (x0 m c)) (x5 m c) (x6 m c) ⟨R.val / 2048, by have := R.isLt; omega⟩ ⟨R.val % 2048, by omega⟩
          ⟨e.val - 1024 - 1024, by have := e.isLt; omega⟩ := by
  rw [V2_v8]
  exact lin0_eq_lin _ _ _ _ _ _ R e _ _ _ (fun k => g0a_v0 (W0 m ρ c) R k) (fun k => g0b_v5_third (W0 m ρ c) k e h1)
    (g0c_v7_third (W0 m ρ c) e h1)

/-! ## The attention region's inputs: the three layers -/

/-- The attention region's query input is the query layer. -/
theorem c2_v12 (n : Fin 4) (s : Fin 2048) (d : Fin 1024) :
    (V3 m ρ c main_v12 : S4x2048x1024.Idx → EReal) (ix3 n s d) = lin (act (x0 m c)) (x1 m c) (x2 m c) n s d := by
  refine (g1_v12 (W2 m ρ c) n s d).trans ?_
  refine (c1_first m ρ c ⟨2048 * n.val + s.val, by have := n.isLt; have := s.isLt; omega⟩
    ⟨0 + d.val, by have := d.isLt; omega⟩ (by show 0 + d.val < 1024; have := d.isLt; omega)).trans ?_
  have hn := n.isLt
  have hs := s.isLt
  exact act_idx_congr _ (by show (2048 * n.val + s.val) / 2048 = n.val; omega)
    (by show (2048 * n.val + s.val) % 2048 = s.val; omega)
    (by show 0 + d.val = d.val; omega)

/-- The attention region's key input is the key layer. -/
theorem c2_v13 (n : Fin 4) (s : Fin 2048) (d : Fin 1024) :
    (V3 m ρ c main_v13 : S4x2048x1024.Idx → EReal) (ix3 n s d) = lin (act (x0 m c)) (x3 m c) (x4 m c) n s d := by
  refine (g1_v13 (W2 m ρ c) n s d).trans ?_
  refine (c1_second m ρ c ⟨2048 * n.val + s.val, by have := n.isLt; have := s.isLt; omega⟩
    ⟨1024 + d.val, by have := d.isLt; omega⟩ (by show 1024 ≤ 1024 + d.val; omega) (by show 1024 + d.val < 2048; have := d.isLt; omega)).trans ?_
  have hn := n.isLt
  have hs := s.isLt
  exact act_idx_congr _ (by show (2048 * n.val + s.val) / 2048 = n.val; omega)
    (by show (2048 * n.val + s.val) % 2048 = s.val; omega)
    (by show 1024 + d.val - 1024 = d.val; omega)

/-- The attention region's value input is the value layer. -/
theorem c2_v14 (n : Fin 4) (s : Fin 2048) (d : Fin 1024) :
    (V3 m ρ c main_v14 : S4x2048x1024.Idx → EReal) (ix3 n s d) = lin (act (x0 m c)) (x5 m c) (x6 m c) n s d := by
  refine (g1_v14 (W2 m ρ c) n s d).trans ?_
  refine (c1_third m ρ c ⟨2048 * n.val + s.val, by have := n.isLt; have := s.isLt; omega⟩
    ⟨2048 + d.val, by have := d.isLt; omega⟩ (by show 2048 ≤ 2048 + d.val; omega)).trans ?_
  have hn := n.isLt
  have hs := s.isLt
  exact act_idx_congr _ (by show (2048 * n.val + s.val) / 2048 = n.val; omega)
    (by show (2048 * n.val + s.val) % 2048 = s.val; omega)
    (by show 2048 + d.val - 1024 - 1024 = d.val; omega)

/-! ## After the attention region: the output layer of what it leaves -/

/-- The last region's output array is rows times weight plus bias row, of the arrays it was entered with. -/
theorem V6_v20 :
    (W6 m ρ c (Proc.devRef .tc main_v20) : S8192x1024.Idx → EReal)
      = lin2 (V5 m ρ c main_v16) (V5 m ρ c main_v18) (V5 m ρ c main_v19) :=
  (W6_arr m ρ c 3).trans (final2 (V5 m ρ) c)

/-- GIVEN that the attention region leaves the activation C in its output array, the program's result is the
    output layer of C. -/
theorem out_of_ctx (C : Cert.Attn.Act)
    (hC : ∀ n s d, (V4 m ρ c main_v15 : S4x2048x1024.Idx → EReal) (ix3 n s d) = C n s d)
    (n : Fin 4) (s : Fin 2048) (e : Fin 1024) :
    (W7 m ρ c (Proc.devRef .tc main_v21) : S4x2048x1024.Idx → EReal) (ix3 n s e)
      = lin C (x7 m c) (x8 m c) n s e := by
  refine (g3_v21 (W6 m ρ c) n s e).trans ?_
  rw [V6_v20]
  have hn := n.isLt
  have hs := s.isLt
  refine lin2_eq_lin _ _ _ C (x7 m c) (x8 m c) _ e n s (fun k => ?_) (fun k => ?_) ?_
  · refine (g2_v16 (W4 m ρ c) _ k).trans ?_
    refine (hC _ _ k).trans ?_
    exact act_idx_congr C (by show (2048 * n.val + s.val) / 2048 = n.val; omega)
      (by show (2048 * n.val + s.val) % 2048 = s.val; omega) rfl
  · refine (g2_v18 (W4 m ρ c) k e).trans ?_
    exact congrFun (W4_arg m ρ c main_arg7 (by decide)) (ix2 e k)
  · refine (g2_v19 (W4 m ρ c) e).trans ?_
    exact congrFun (W4_arg m ρ c main_arg8 (by decide)) (ix1 e)

end Cert.KernelIdeal.Hand
-- ==== Proof.IdealValue1.lean ====
import proofs.«180477_j74028056314061_2_alg».proof.Proof.IdealRegion1
import Idealize.ShloMosaic.Lib.Pipeline.Value
import Idealize.ShloMosaic.Lib.ValueIdx
import Idealize.ShloMosaic.Lib.ValueLayout

set_option maxRecDepth 16384

noncomputable section

namespace Cert.KernelIdeal.Hand

open Cert.KernelIdeal Cert.KernelIdeal.Gen
open Idealize.ShloMosaic Idealize.ShloMosaic.TcCoe Idealize.ShloMosaic.ValueIdx Idealize.SL.Sem
open Idealize.ShloMosaic.Pipeline (Dat)

-- the TensorCore's buffer contents when the region is entered, at the exact instance
variable (V : (c : Dev nD) → (b : Ref sig .tc) → Buf (Elt Ideal) ((c : Thread nD τ).loc b))

/-! # Region 1 at the exact instance: the arrays after the region, index by index -/

/-! ## The input arrays end as entered -/

/-- An input window's array is never written back: it ends as the region found it. -/
theorem arrAt1_in (c : Dev nD) (w : Fin cfg1.W) (hw : (cfg1.win w).isOut = false) :
    (dat1 (F := Ideal) V c).arrAt w cfg1.N = V c (Pipeline.arrRef spec1 w) :=
  ((dat1 (F := Ideal) V c).arrAt_in w hw _).trans (A_eq1 V c w)

theorem arrAt1_in0 (c : Dev nD) : (dat1 (F := Ideal) V c).arrAt 0 cfg1.N = V c (Pipeline.arrRef spec1 0) := arrAt1_in V c 0 rfl
theorem arrAt1_in1 (c : Dev nD) : (dat1 (F := Ideal) V c).arrAt 1 cfg1.N = V c (Pipeline.arrRef spec1 1) := arrAt1_in V c 1 rfl
theorem arrAt1_in2 (c : Dev nD) : (dat1 (F := Ideal) V c).arrAt 2 cfg1.N = V c (Pipeline.arrRef spec1 2) := arrAt1_in V c 2 rfl

/-! ## The output array -/

/-- The output block the body leaves after point `n`: the normalised accumulator of the scratch after that point. -/
def outAt1 (c : Dev nD) (n : ℕ) (h : n < cfg1.N) : S1x512x1024.Idx → Elt Ideal .bf16 :=
  k1_pay6 (F := Ideal) (scrAt1 V c (n + 1) h).1 (scrAt1 V c (n + 1) h).2.2

theorem outAt1_congr (c : Dev nD) {n n' : ℕ} (e : n = n') (h : n < cfg1.N) (h' : n' < cfg1.N) :
    outAt1 V c n h = outAt1 V c n' h' := by subst e; rfl

/-- The last point of the query tile of row `s` of batch entry `n`. -/
theorem tlast_lt (n : Fin 4) (s : Fin 2048) : 16 * n.val + 4 * (s.val / 512) + 3 < cfg1.N :=
  lt_of_lt_of_eq (by have := n.isLt; have := s.isLt; omega) N_1.symm

/-- What the output array ends holding: at (n, s, d), row s mod 512 and column d of the block that the last point of
    the query tile s / 512 of batch entry n leaves. -/
def G1 (c : Dev nD) : S4x2048x1024.Idx → Elt Ideal .bf16 := fun i =>
  outAt1 V c (16 * (i 0).val + 4 * ((i 1).val / 512) + 3) (tlast_lt (i 0) (i 1))
    (ix3 (0 : Fin 1) (⟨(i 1).val % 512, Nat.mod_lt _ (by decide)⟩ : Fin 512) (i 2))

/-- `G1` at an index read through any spelling of the point and of the index inside the block. -/
theorem G1_at (c : Dev nD) (n : Fin 4) (s : Fin 2048) (d : Fin 1024) (m : ℕ) (hm : m < cfg1.N)
    (em : 16 * n.val + 4 * (s.val / 512) + 3 = m) (j : S1x512x1024.Idx) (hj1 : (j 1).val = s.val % 512) (hj2 : (j 2).val = d.val) :
    G1 V c (ix3 n s d) = outAt1 V c m hm j := by
  subst em
  show outAt1 V c _ _ (ix3 (0 : Fin 1) (⟨s.val % 512, _⟩ : Fin 512) d) = outAt1 V c _ _ j
  congr 1
  funext a; apply Fin.ext
  match a with
  | ⟨0, _⟩ => show 0 = (j 0).val; have : (j 0).val < 1 := (j 0).isLt; omega
  | ⟨1, _⟩ => exact hj1.symm
  | ⟨2, _⟩ => exact hj2.symm

/-- The output window's block index at a point, decided over the grid: (batch entry, query tile, 0). -/
theorem idx_facts3 : ∀ t : Fin cfg1.N, win1_3.index t (0 : Fin 3) = t.val / 16
    ∧ win1_3.index t (1 : Fin 3) = (t.val / 4) % 4 ∧ win1_3.index t (2 : Fin 3) = 0 :=
  (by decide +kernel : ∀ t : Fin grid1.N, _)

/-- What a last-key-block point writes back is its block of `G1`. -/
theorem flushed3_eq (c : Dev nD) (t : Fin cfg1.N) (hf : (cfg1.win 3).flush t = true) :
    (dat1 (F := Ideal) V c).flushed 3 t = ((cfg1.win 3).blk t).view.read (Elt Ideal) (G1 V c) := by
  show (cfg1.win 3).cut (grid1.coords t) ((dat1 (F := Ideal) V c).after 3 t) = _
  rw [after1_3']
  have h3 : t.val % 4 = 3 := (flush1_3 t).mp hf
  have hN : t.val < 64 := lt_of_lt_of_eq t.isLt N_1
  obtain ⟨e0, e1, e2⟩ := idx_facts3 t
  funext j
  have hj0 : (j 0).val < 1 := (j 0).isLt
  have hj1 : (j 1).val < 512 := (j 1).isLt
  have hj2 : (j 2).val < 1024 := (j 2).isLt
  show outAt1 V c t.val t.isLt j = G1 V c (((cfg1.win 3).blk t).view.emb j)
  have hemb : ((cfg1.win 3).blk t).view.emb j
      = ix3 (⟨t.val / 16, by omega⟩ : Fin 4) (⟨512 * ((t.val / 4) % 4) + (j 1).val, by omega⟩ : Fin 2048) (⟨(j 2).val, hj2⟩ : Fin 1024) := by
    funext a; apply Fin.ext
    match a with
    | ⟨0, _⟩ => show win1_3.index t (0 : Fin 3) * 1 + 1 * (j 0).val = t.val / 16; omega
    | ⟨1, _⟩ => show win1_3.index t (1 : Fin 3) * 512 + 1 * (j 1).val = 512 * ((t.val / 4) % 4) + (j 1).val; omega
    | ⟨2, _⟩ => show win1_3.index t (2 : Fin 3) * 1024 + 1 * (j 2).val = (j 2).val; omega
  rw [hemb]
  exact (G1_at V c _ _ _ t.val t.isLt (by show 16 * (t.val / 16) + 4 * ((512 * ((t.val / 4) % 4) + (j 1).val) / 512) + 3 = t.val; omega) j
    (by show (j 1).val = (512 * ((t.val / 4) % 4) + (j 1).val) % 512; omega) rfl).symm

/-- An index of the array is in point `t`'s block iff each coordinate is in the block's range on its axis. -/
theorem mem_blk3 (t : Fin cfg1.N) (i : S4x2048x1024.Idx) :
    i ∈ ((cfg1.win 3).blk t).view.set ↔ ∀ a : Fin 3, win1_3.index t a * S1x512x1024.size a ≤ (i a).val ∧ (i a).val < win1_3.index t a * S1x512x1024.size a + S1x512x1024.size a := by
  show i ∈ ((View.whole main_v15).slice (win1_3.rect t)).set ↔ _
  rw [View.set_slice_whole, Rect.mem_set_unit]
  exact Iff.rfl

/-- Every index of the output array lies in the block of a point that writes back: the last point of its query tile. -/
theorem cover3 (i : S4x2048x1024.Idx) :
    ∃ t : Fin cfg1.N, (cfg1.win 3).flush t = true ∧ i ∈ ((cfg1.win 3).blk t).view.set := by
  have hi0 : (i 0).val < 4 := (i 0).isLt
  have hi1 : (i 1).val < 2048 := (i 1).isLt
  have hi2 : (i 2).val < 1024 := (i 2).isLt
  obtain ⟨t, tv⟩ : ∃ t : Fin cfg1.N, t.val = 16 * (i 0).val + 4 * ((i 1).val / 512) + 3 := ⟨⟨_, tlast_lt (i 0) (i 1)⟩, rfl⟩
  obtain ⟨e0, e1, e2⟩ := idx_facts3 t
  refine ⟨t, (flush1_3 t).mpr (by omega), ?_⟩
  rw [mem_blk3]
  intro a
  match a with
  | ⟨0, _⟩ => show win1_3.index t (0 : Fin 3) * 1 ≤ (i 0).val ∧ (i 0).val < win1_3.index t (0 : Fin 3) * 1 + 1; omega
  | ⟨1, _⟩ => show win1_3.index t (1 : Fin 3) * 512 ≤ (i 1).val ∧ (i 1).val < win1_3.index t (1 : Fin 3) * 512 + 512; omega
  | ⟨2, _⟩ => show win1_3.index t (2 : Fin 3) * 1024 ≤ (i 2).val ∧ (i 2).val < win1_3.index t (2 : Fin 3) * 1024 + 1024; omega

/-- THE OUTPUT ARRAY after the region: `G1`. -/
theorem final1 (c : Dev nD) : (dat1 (F := Ideal) V c).arrAt 3 cfg1.N = G1 V c :=
  (dat1 (F := Ideal) V c).arrAt_eq_of_cover 3 (G1 V c) (fun t ht => flushed3_eq V c t ht) (cover3)

/-- The output array at an index: row s mod 512, column d of the normalised accumulator that the last point of the
    query tile s / 512 of batch entry n leaves. -/
theorem final1_at (c : Dev nD) (n : Fin 4) (s : Fin 2048) (d : Fin 1024) :
    ((dat1 (F := Ideal) V c).arrAt 3 cfg1.N : S4x2048x1024.Idx → EReal) (ix3 n s d)
      = k1_pay6 (F := Ideal) (scrAt1 V c (16 * n.val + 4 * (s.val / 512) + 3 + 1) (tlast_lt n s)).1
          (scrAt1 V c (16 * n.val + 4 * (s.val / 512) + 3 + 1) (tlast_lt n s)).2.2
          (ix3 (0 : Fin 1) (⟨s.val % 512, Nat.mod_lt _ (by decide)⟩ : Fin 512) d) := by
  rw [final1 V c]
  rfl

/-! ## The input blocks and the point's coordinates, in coordinates -/

/-- The point of batch entry `n`, query tile `qi`, key tile `ki`. -/
def pt1 (n qi ki : Fin 4) : Fin cfg1.N :=
  ⟨16 * n.val + 4 * qi.val + ki.val, lt_of_lt_of_eq (by have := n.isLt; have := qi.isLt; have := ki.isLt; omega) N_1.symm⟩

theorem pt1_val (n qi ki : Fin 4) : (pt1 n qi ki).val = 16 * n.val + 4 * qi.val + ki.val := rfl

/-- The grid's coordinates of a point, decided over the grid. -/
theorem coords_facts1 : ∀ t : Fin cfg1.N, (grid1.coords t 0).val = t.val / 16
    ∧ (grid1.coords t 1).val = (t.val / 4) % 4 ∧ (grid1.coords t 2).val = t.val % 4 :=
  (by decide +kernel : ∀ t : Fin grid1.N, _)

theorem coords1_q (n qi ki : Fin 4) (t : Fin cfg1.N) (ht : t.val = 16 * n.val + 4 * qi.val + ki.val) :
    (grid1.coords t 1).val = qi.val := by
  have := (coords_facts1 t).2.1; have := n.isLt; have := qi.isLt; have := ki.isLt; omega

theorem coords1_k (n qi ki : Fin 4) (t : Fin cfg1.N) (ht : t.val = 16 * n.val + 4 * qi.val + ki.val) :
    (grid1.coords t 2).val = ki.val := by
  have := (coords_facts1 t).2.2; have := n.isLt; have := qi.isLt; have := ki.isLt; omega

/-- The input windows' block indices at a point, decided over the grid: the query window follows the query tile, the key
    and value windows the smaller of the key tile and the query tile. -/
theorem idx_facts0 : ∀ t : Fin cfg1.N, win1_0.index t (0 : Fin 3) = t.val / 16
    ∧ win1_0.index t (1 : Fin 3) = (t.val / 4) % 4 ∧ win1_0.index t (2 : Fin 3) = 0 :=
  (by decide +kernel : ∀ t : Fin grid1.N, _)
theorem idx_facts1 : ∀ t : Fin cfg1.N, win1_1.index t (0 : Fin 3) = t.val / 16
    ∧ win1_1.index t (1 : Fin 3) = min (t.val % 4) ((t.val / 4) % 4) ∧ win1_1.index t (2 : Fin 3) = 0 :=
  (by decide +kernel : ∀ t : Fin grid1.N, _)
theorem idx_facts2 : ∀ t : Fin cfg1.N, win1_2.index t (0 : Fin 3) = t.val / 16
    ∧ win1_2.index t (1 : Fin 3) = min (t.val % 4) ((t.val / 4) % 4) ∧ win1_2.index t (2 : Fin 3) = 0 :=
  (by decide +kernel : ∀ t : Fin grid1.N, _)

/-- The query block at a point: rows 512·qi … of batch entry n of the query array. -/
theorem iblk1_q (c : Dev nD) (n qi ki : Fin 4) (r : Fin 512) (d : Fin 1024) (t : Fin cfg1.N)
    (ht : t.val = 16 * n.val + 4 * qi.val + ki.val) :
    iblk1 V c 0 t (ix3 (0 : Fin 1) r d)
      = (V c main_v12 : S4x2048x1024.Idx → EReal) (ix3 n (⟨512 * qi.val + r.val, by have := qi.isLt; have := r.isLt; omega⟩ : Fin 2048) d) := by
  obtain ⟨e0, e1, e2⟩ := idx_facts0 t
  have := n.isLt; have := qi.isLt; have := ki.isLt
  show V c main_v12 (((cfg1.win 0).blk t).view.emb (ix3 (0 : Fin 1) r d)) = _
  congr 1
  funext a; apply Fin.ext
  match a with
  | ⟨0, _⟩ => show win1_0.index t (0 : Fin 3) * 1 + 1 * 0 = n.val; omega
  | ⟨1, _⟩ => show win1_0.index t (1 : Fin 3) * 512 + 1 * r.val = 512 * qi.val + r.val; omega
  | ⟨2, _⟩ => show win1_0.index t (2 : Fin 3) * 1024 + 1 * d.val = d.val; omega

/-- The key block at a point at or below the diagonal: rows 512·ki … of batch entry n of the key array. -/
theorem iblk1_k (c : Dev nD) (n qi ki : Fin 4) (r : Fin 512) (d : Fin 1024) (t : Fin cfg1.N)
    (ht : t.val = 16 * n.val + 4 * qi.val + ki.val) (hle : ki.val ≤ qi.val) :
    iblk1 V c 1 t (ix3 (0 : Fin 1) r d)
      = (V c main_v13 : S4x2048x1024.Idx → EReal) (ix3 n (⟨512 * ki.val + r.val, by have := ki.isLt; have := r.isLt; omega⟩ : Fin 2048) d) := by
  obtain ⟨e0, e1, e2⟩ := idx_facts1 t
  have := n.isLt; have := qi.isLt; have := ki.isLt
  show V c main_v13 (((cfg1.win 1).blk t).view.emb (ix3 (0 : Fin 1) r d)) = _
  congr 1
  funext a; apply Fin.ext
  match a with
  | ⟨0, _⟩ => show win1_1.index t (0 : Fin 3) * 1 + 1 * 0 = n.val; omega
  | ⟨1, _⟩ => show win1_1.index t (1 : Fin 3) * 512 + 1 * r.val = 512 * ki.val + r.val; omega
  | ⟨2, _⟩ => show win1_1.index t (2 : Fin 3) * 1024 + 1 * d.val = d.val; omega

/-- The value block at a point at or below the diagonal: rows 512·ki … of batch entry n of the value array. -/
theorem iblk1_v (c : Dev nD) (n qi ki : Fin 4) (r : Fin 512) (d : Fin 1024) (t : Fin cfg1.N)
    (ht : t.val = 16 * n.val + 4 * qi.val + ki.val) (hle : ki.val ≤ qi.val) :
    iblk1 V c 2 t (ix3 (0 : Fin 1) r d)
      = (V c main_v14 : S4x2048x1024.Idx → EReal) (ix3 n (⟨512 * ki.val + r.val, by have := ki.isLt; have := r.isLt; omega⟩ : Fin 2048) d) := by
  obtain ⟨e0, e1, e2⟩ := idx_facts2 t
  have := n.isLt; have := qi.isLt; have := ki.isLt
  show V c main_v14 (((cfg1.win 2).blk t).view.emb (ix3 (0 : Fin 1) r d)) = _
  congr 1
  funext a; apply Fin.ext
  match a with
  | ⟨0, _⟩ => show win1_2.index t (0 : Fin 3) * 1 + 1 * 0 = n.val; omega
  | ⟨1, _⟩ => show win1_2.index t (1 : Fin 3) * 512 + 1 * r.val = 512 * ki.val + r.val; omega
  | ⟨2, _⟩ => show win1_2.index t (2 : Fin 3) * 1024 + 1 * d.val = d.val; omega

/-! ## The scratch recursion per query tile -/

/-- The scratch after the point (n, qi, ki): at or below the diagonal the online-softmax step, from the initial state at
    the first key tile and from what the point before left at a later one; above the diagonal what the point before left. -/
theorem scrAt1_tile (c : Dev nD) (n qi ki : Fin 4) (t : Fin cfg1.N) (ht : t.val = 16 * n.val + 4 * qi.val + ki.val) :
    scrAt1 V c (t.val + 1) t.isLt
      = if ki.val ≤ qi.val then
          step1 (grid1.coords t) (iblk1 V c 0 t) (iblk1 V c 1 t) (iblk1 V c 2 t)
            (if ki.val = 0 then init1 else scrAt1 V c t.val (Nat.le_of_lt t.isLt))
        else scrAt1 V c t.val (Nat.le_of_lt t.isLt) := by
  have := n.isLt; have := qi.isLt; have := ki.isLt
  have hk : t.val % 4 = ki.val := by omega
  have hq : (t.val / 4) % 4 = qi.val := by omega
  by_cases h0 : ki.val = 0
  · rw [scrAt1_A V c t (by omega), if_pos (by omega), if_pos h0]
  · by_cases hle : ki.val ≤ qi.val
    · rw [scrAt1_step V c t (by omega) (by omega), if_pos hle, if_neg h0]
    · rw [scrAt1_keep V c t (by omega) (by omega), if_neg hle]

end Cert.KernelIdeal.Hand

end
-- ==== Proof.LibLayout.lean ====
/-
  Unit axes added by a shape cast and filled by a broadcast, read at coordinates.

  A row statistic (a maximum or a sum along the last axis of an `[a, b]` array) comes back as an `[a]` vector; to
  combine it with the array again it is cast to a column `[a, 1]` and broadcast to `[a, b]`: entry (p, c) of the
  result is entry p of the vector. The same happens one rank up when every row of one `[a, c]` array is paired with
  every row of another `[b, c]` array: the first is cast to `[a, 1, c]` and broadcast along the new middle axis, the
  second, as `[1, b, c]`, along a new leading axis; entry (p, q, l) of the two results is entry (p, l) of the first and
  entry (q, l) of the second. Each lemma states one such step for arbitrary extents; a cast keeps the row-major
  position, a broadcast reads coordinate 0 on an axis of extent one and the same coordinate elsewhere.
-/
import Idealize.ShloMosaic.Lib.ValueLayout
import Idealize.ShloMosaic.Lib.Pipeline.Value
import Idealize.ShloMosaic.Lib.ValueIdx

noncomputable section

namespace Cert.LibLayout

open Idealize.ShloMosaic Idealize.ShloMosaic.ValueIdx

variable {α : Type}

/-- An `[a]` vector cast to a column `[a, 1]` reads, at `(i, u)`, the operand at `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast to `[a, b]` reads, at `(p, c)`, the column's entry of row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- An `[a, c]` array cast to `[a, 1, c]` reads, at `(i, u, l)`, the operand at `(i, l)`. -/
theorem shapeCast_ac_a1c_apply {a c : ℕ} (x : (⟨2, ![a, c]⟩ : Shape).Idx → α) (h : (⟨2, ![a, c]⟩ : Shape).ShapeCasts ⟨3, ![a, 1, c]⟩)
    (i : Fin a) (u : Fin 1) (l : Fin c) : shapeCast ⟨3, ![a, 1, c]⟩ x h (ix3 i u l) = x (ix2 i l) :=
  shapeCast_apply x h _ _ (by
    have hu : u.val = 0 := by omega
    rw [Shape.rowMajor_val_three, Shape.rowMajor_val_two]
    show i.val * c + l.val = (i.val * 1 + u.val) * c + l.val
    rw [hu, Nat.mul_one, Nat.add_zero])

/-- An `[a, 1, c]` array broadcast to `[a, b, c]` reads, at `(p, q, l)`, the operand at `(p, 0, l)`. -/
theorem broadcastTo_a1c_abc_apply {a b c : ℕ} (v : (⟨3, ![a, 1, c]⟩ : Shape).Idx → α)
    (h : (⟨3, ![a, 1, c]⟩ : Shape).Broadcasts ⟨3, ![a, b, c]⟩) (p : Fin a) (q : Fin b) (l : Fin c) :
    broadcastTo ⟨3, ![a, b, c]⟩ v h (ix3 p q l) = v (ix3 p (0 : Fin 1) l) := by
  refine broadcastTo_apply v h (ix3 p q l) (ix3 p (0 : Fin 1) l) fun ax => ?_
  match ax with
  | ⟨0, _⟩ =>
    show p.val = if a = 1 then 0 else p.val
    split
    · have := p.isLt; omega
    · rfl
  | ⟨1, _⟩ => rfl
  | ⟨2, _⟩ =>
    show l.val = if c = 1 then 0 else l.val
    split
    · have := l.isLt; omega
    · rfl

/-- A `[1, b, c]` array broadcast to `[a, b, c]` reads, at `(p, q, l)`, the operand at `(0, q, l)`. -/
theorem broadcastTo_1bc_abc_apply {a b c : ℕ} (v : (⟨3, ![1, b, c]⟩ : Shape).Idx → α)
    (h : (⟨3, ![1, b, c]⟩ : Shape).Broadcasts ⟨3, ![a, b, c]⟩) (p : Fin a) (q : Fin b) (l : Fin c) :
    broadcastTo ⟨3, ![a, b, c]⟩ v h (ix3 p q l) = v (ix3 (0 : Fin 1) q l) := by
  refine broadcastTo_apply v h (ix3 p q l) (ix3 (0 : Fin 1) q l) fun ax => ?_
  match ax with
  | ⟨0, _⟩ => rfl
  | ⟨1, _⟩ =>
    show q.val = if b = 1 then 0 else q.val
    split
    · have := q.isLt; omega
    · rfl
  | ⟨2, _⟩ =>
    show l.val = if c = 1 then 0 else l.val
    split
    · have := l.isLt; omega
    · rfl

end Cert.LibLayout

end
-- ==== Proof.LibPlainDot.lean ====
/-
  A plain matrix product read at an index, for any extents.

  For the dimension numbers of an `[M, K]` by `[K, N]` product (contract the left operand's columns with the right
  operand's rows, no batch axis), both the kernel's matrix unit accumulating into zero and the host's `dot_general`,
  read at the extended reals at entry `(r, c)`, are the sum over `k` of `lhs (r, k) * rhs (k, c)`.
-/
import Idealize.ShloMosaic.Lib.ValueIdx
import Idealize.ShloMosaic.PureOps.Ideal.Laws

noncomputable section

namespace Cert.Sage

open Idealize.ShloMosaic Idealize.ShloMosaic.ValueIdx

/-- The left operand's row coordinate is the result's row. -/
theorem plain_lhs_row {M K N : ℕ} (j : (⟨2, ![M, N]⟩ : Shape).Idx) (q : (DotDims.plain M K N).contr.Idx) :
    ((DotDims.plain M K N).lhsIdx j q 0).val = (j 0).val := by
  unfold DotDims.lhsIdx
  rw [dif_neg (show ¬(0 : Fin (⟨2, ![M, K]⟩ : Shape).rank) ∈ (DotDims.plain M K N).lhsBatch from List.not_mem_nil),
    dif_pos (show (0 : Fin (⟨2, ![M, K]⟩ : Shape).rank) ∈ (DotDims.plain M K N).lhsNonContracting from List.mem_singleton.mpr rfl)]
  rfl

/-- The right operand's column coordinate is the result's column. -/
theorem plain_rhs_col {M K N : ℕ} (j : (⟨2, ![M, N]⟩ : Shape).Idx) (q : (DotDims.plain M K N).contr.Idx) :
    ((DotDims.plain M K N).rhsIdx j q 1).val = (j 1).val := by
  unfold DotDims.rhsIdx
  rw [dif_neg (show ¬(1 : Fin (⟨2, ![K, N]⟩ : Shape).rank) ∈ (DotDims.plain M K N).rhsBatch from List.not_mem_nil),
    dif_pos (show (1 : Fin (⟨2, ![K, N]⟩ : Shape).rank) ∈ (DotDims.plain M K N).rhsNonContracting from List.mem_singleton.mpr rfl)]
  rfl

/-- The left operand's index at result entry `(r, c)` and the contraction index carrying `k` is `(r, k)`. -/
theorem plain_lhsIdx {M K N : ℕ} (r : Fin M) (c : Fin N) (k : Fin K) :
    (DotDims.plain M K N).lhsIdx (ix2 r c) ((contrEquiv1 (DotDims.plain M K N) K rfl rfl).symm k) = ix2 r k := by
  have hk := contrEquiv1_symm_val (DotDims.plain M K N) K rfl rfl k
  funext a
  refine Fin.ext ?_
  match a with
  | ⟨0, _⟩ => exact plain_lhs_row _ _
  | ⟨1, _⟩ => exact ((DotDims.plain M K N).lhsIdx_val_of_single rfl (ix2 r c) _).trans hk

/-- The right operand's index at result entry `(r, c)` and the contraction index carrying `k` is `(k, c)`. -/
theorem plain_rhsIdx {M K N : ℕ} (r : Fin M) (c : Fin N) (k : Fin K) :
    (DotDims.plain M K N).rhsIdx (ix2 r c) ((contrEquiv1 (DotDims.plain M K N) K rfl rfl).symm k) = ix2 k c := by
  have hk := contrEquiv1_symm_val (DotDims.plain M K N) K rfl rfl k
  funext a
  refine Fin.ext ?_
  match a with
  | ⟨0, _⟩ => exact ((DotDims.plain M K N).rhsIdx_val_of_single rfl (ix2 r c) _).trans hk
  | ⟨1, _⟩ => exact plain_rhs_col _ _

/-- The contraction sum of a plain product at entry `(r, c)`, re-indexed by the contracted coordinate. -/
theorem plain_contraction {M K N : ℕ} (lhs : (⟨2, ![M, K]⟩ : Shape).Idx → EReal) (rhs : (⟨2, ![K, N]⟩ : Shape).Idx → EReal)
    (r : Fin M) (c : Fin N) :
    (∑ q : (DotDims.plain M K N).contr.Idx,
        lhs ((DotDims.plain M K N).lhsIdx (ix2 r c) q) * rhs ((DotDims.plain M K N).rhsIdx (ix2 r c) q))
      = ∑ k : Fin K, lhs (ix2 r k) * rhs (ix2 k c) := by
  rw [← Equiv.sum_comp (contrEquiv1 (DotDims.plain M K N) K rfl rfl).symm]
  refine Finset.sum_congr rfl fun k _ => ?_
  rw [plain_lhsIdx, plain_rhsIdx]

/-- The matrix unit accumulating into the zero splat, at entry `(r, c)`. -/
theorem matmul_plain_zero_apply {M K N : ℕ} {φ₁ φ₂ : FTy} (prec : Option ContractPrecision)
    (lhs : FVec Ideal ⟨2, ![M, K]⟩ φ₁) (rhs : FVec Ideal ⟨2, ![K, N]⟩ φ₂) (r : Fin M) (c : Fin N) :
    FloatOps.matmul (DotDims.plain M K N) prec lhs rhs (constant (F := Ideal) ⟨2, ![M, N]⟩ .f32 0x00000000#32) (ix2 r c)
      = ∑ k : Fin K, lhs (ix2 r k) * rhs (ix2 k c) :=
  (Ideal.matmul_constant_zero_apply (DotDims.plain M K N) prec lhs rhs (ix2 r c)).trans (plain_contraction lhs rhs r c)

/-- The host's `dot_general`, at entry `(r, c)`. -/
theorem dotGeneral_plain_apply {M K N : ℕ} {φ₁ φ₂ : FTy} (prec : Option ContractPrecision) (sched : HostSchedule)
    (lhs : FVec Ideal ⟨2, ![M, K]⟩ φ₁) (rhs : FVec Ideal ⟨2, ![K, N]⟩ φ₂) (r : Fin M) (c : Fin N) :
    FloatOps.dotGeneral (DotDims.plain M K N) prec sched lhs rhs (ix2 r c)
      = ∑ k : Fin K, lhs (ix2 r k) * rhs (ix2 k c) :=
  (Ideal.dotGeneral_apply (DotDims.plain M K N) prec sched lhs rhs (ix2 r c)).trans (plain_contraction lhs rhs r c)

end Cert.Sage

end
-- ==== Proof.IdealAttnBody.lean ====
/-
  The attention kernel's body read at an index, at the exact values.

  For one grid point (q-tile qi, k-tile ki) with blocks q, k, v of 512 rows and 1024 features, the
  payloads are, row r and column c of the tile:
    the score   s(r, c) = ⟨q(r, ·), k(c, ·)⟩ / 32  if the key 512·ki + c does not come after the query
                 512·qi + r, and −∞ otherwise;
    the new running maximum   m'(r) = max (m(r), max_c s(r, c));
    the rescaling factor   exp (m(r) − m'(r));   the tile's weights   exp (s(r, c) − m'(r));
    the new normaliser   exp (m − m')·l(r) + Σ_c exp (s(r, c) − m'(r));
    the new accumulator   exp (m − m')·acc(r, d) + Σ_c exp (s(r, c) − m'(r))·v(c, d).
  Row by row and feature by feature this is one update of the online-softmax recurrence.
-/
import proofs.«180477_j74028056314061_2_alg».proof.Proof.Gen.KernelIdeal.Skeleton
import proofs.«180477_j74028056314061_2_alg».proof.Proof.Spec
import proofs.«180477_j74028056314061_2_alg».proof.Proof.LibLayout
import proofs.«180477_j74028056314061_2_alg».proof.Proof.LibPlainDot
import proofs.«180477_j74028056314061_2_alg».proof.Proof.LibOnlineSoftmax
import Idealize.ShloMosaic.Lib.Affine
import Idealize.ShloMosaic.Lib.ValueIdx
import Idealize.ShloMosaic.Lib.ValueLayout
import Idealize.ShloMosaic.Lib.Pipeline.Value
import Idealize.ShloMosaic.PureOps.Ideal.Laws
import Idealize.ShloMosaic.PureOps.IdealRules

noncomputable section

namespace Cert.KernelIdeal.Body

open Cert.KernelIdeal Cert.KernelIdeal.Gen
open Idealize.ShloMosaic Idealize.ShloMosaic.ValueIdx
open Cert.Attn
open scoped BigOperators

/-! ## Words -/

theorem toInt_small (a : Nat) (h : a < 4096) : (BitVec.ofNat 32 a).toInt = (a : Int) := by
  have hn : (BitVec.ofNat 32 a).toNat = a := by
    rw [BitVec.toNat_ofNat]; exact Nat.mod_eq_of_lt (by omega)
  rw [BitVec.toInt_eq_toNat_cond, hn]
  split
  · rfl
  · omega

/-- A position inside a tile as a word: tile number times 512 plus the offset. -/
theorem pos_word (j o : Nat) :
    IntOp.addi (Scalar.muli (BitVec.ofNat 32 j) 512#32) (BitVec.ofNat 32 o) = BitVec.ofNat 32 (512 * j + o) := by
  show BitVec.ofNat 32 j * BitVec.ofNat 32 512 + BitVec.ofNat 32 o = _
  rw [← BitVec.ofNat_mul, ← BitVec.ofNat_add, Nat.mul_comm]

/-- The tile's causal mask: query position 512·qi + r against key position 512·ki + c, as signed words. -/
theorem mask_word (qi ki : Nat) (hqi : qi < 4) (hki : ki < 4) (r c : Fin 512) :
    IntOp.cmpi .sge (IntOp.addi (Scalar.muli (BitVec.ofNat 32 qi) 512#32) (BitVec.ofNat 32 r.val))
        (IntOp.addi (Scalar.muli (BitVec.ofNat 32 ki) 512#32) (BitVec.ofNat 32 c.val))
      = if 512 * ki + c.val ≤ 512 * qi + r.val then 1#1 else 0#1 := by
  rw [pos_word, pos_word]
  have hr := r.isLt; have hc := c.isLt
  by_cases h : 512 * ki + c.val ≤ 512 * qi + r.val
  · rw [if_pos h]
    exact IntOp.cmpi_sge.mpr (by rw [toInt_small _ (by omega), toInt_small _ (by omega)]; exact_mod_cast h)
  · rw [if_neg h]
    refine eq_zero_of_ne_one fun h1 => h ?_
    have := IntOp.cmpi_sge.mp h1
    rw [toInt_small _ (by omega), toInt_small _ (by omega)] at this
    exact_mod_cast this

theorem ofBits_scale : Ideal.ofBits .f32 0x3D000000#32 = scale := by
  unfold scale
  simp [Ideal.ofBits, Ideal.ieee, -EReal.coe_mul]; norm_num

theorem ofBits_neg_inf : Ideal.ofBits .f32 0xFF800000#32 = ⊥ := by
  simp [Ideal.ofBits, Ideal.ieee]

theorem ofBits_zero : Ideal.ofBits .f32 0x00000000#32 = 0 := by
  simp [Ideal.ofBits, Ideal.ieee]

/-- The named fill is −∞ at the exact values. -/
theorem neg_big_val : Named.named (F := Ideal) κ "neg_big" (φ := .f32) 0xFF333332#32 = (⊥ : EReal) :=
  IdealRules.named_const.ideal_named_scalar _ _ _ _ rfl

/-! ## The scores -/

/-- The tile's masked, scaled score at (r, c). -/
theorem pay8_apply (qi ki : Nat) (hqi : qi < 4) (hki : ki < 4) (q k : Vec Ideal S1x512x1024 .bf16) (r c : Fin 512) :
    k1_pay8 (F := Ideal) (BitVec.ofNat 32 qi) (BitVec.ofNat 32 ki) q k (ix2 r c)
      = if 512 * ki + c.val ≤ 512 * qi + r.val
        then (∑ d : Fin 1024, q (ix3 (0 : Fin 1) r d) * k (ix3 (0 : Fin 1) c d)) * scale else ⊥ := by
  unfold k1_pay8
  dsimp only
  rw [select_apply]
  have hm : (cmpi CmpIPredicate.sge
        (addi (broadcast S512x512 (Scalar.muli (BitVec.ofNat 32 qi) 512#32)) (iota Kind.tc S512x512 32 [0] iota_S512x512_d0_w32))
        (addi (broadcast S512x512 (Scalar.muli (BitVec.ofNat 32 ki) 512#32)) (iota Kind.tc S512x512 32 [1] iota_S512x512_d1_w32)))
        (ix2 r c) = if 512 * ki + c.val ≤ 512 * qi + r.val then 1#1 else 0#1 := by
    show IntOp.cmpi .sge (IntOp.addi (Scalar.muli (BitVec.ofNat 32 qi) 512#32) (iota Kind.tc S512x512 32 [0] iota_S512x512_d0_w32 (ix2 r c)))
      (IntOp.addi (Scalar.muli (BitVec.ofNat 32 ki) 512#32) (iota Kind.tc S512x512 32 [1] iota_S512x512_d1_w32 (ix2 r c))) = _
    rw [iota_single_apply, iota_single_apply]
    exact mask_word qi ki hqi hki r c
  rw [hm]
  by_cases h : 512 * ki + c.val ≤ 512 * qi + r.val
  · rw [if_pos h, if_pos h, select_one, mulf_apply, broadcast_apply]
    show _ * Ideal.ofBits .f32 0x3D000000#32 = _
    rw [ofBits_scale]
    refine congrArg (· * scale) ?_
    refine (Cert.Sage.matmul_plain_zero_apply (φ₁ := .bf16) (φ₂ := .bf16) none _ _ r c).trans ?_
    refine Finset.sum_congr rfl fun d _ => ?_
    rw [shapeCast_1ab_ab_apply,
      transpose_apply [1, 0] _ transposes_S512x1024_p1_0_S1024x512 (ix2 d c) (ix2 c d)
        (fun b => by match b with | ⟨0, _⟩ => rfl | ⟨1, _⟩ => rfl),
      shapeCast_1ab_ab_apply]
  · rw [if_neg h, if_neg h, select_zero, broadcast_apply]
    exact neg_big_val

/-! ## The running maximum, the weights, the normaliser and the accumulator -/

/-- A row's index with the column inserted. -/
theorem lift512 (h : S512x512.Reduces [1] S512) (r : Fin 512) (c : Fin (S512x512.size 1)) :
    h.lift (ix1 r : S512.Idx) c = (ix2 r (⟨c.val, c.isLt⟩ : Fin 512) : S512x512.Idx) := by
  funext a; apply Fin.ext
  rw [Shape.Reduces.lift_val]
  match a with
  | ⟨0, _⟩ => simp [Shape.Reduces.liftVal]
  | ⟨1, _⟩ => simp [Shape.Reduces.liftVal]

/-- The new running maximum of row r: the old one against the tile's largest score. -/
theorem pay9_apply (a1 a2 : BitVec 32) (q k : Vec Ideal S1x512x1024 .bf16) (mx : Vec Ideal S512x1 .f32) (r : Fin 512) :
    k1_pay9 (F := Ideal) a1 a2 q k mx (ix2 r (0 : Fin 1))
      = max (mx (ix2 r (0 : Fin 1))) ((Finset.univ : Finset (Fin 512)).fold max ⊥ (fun c => k1_pay8 (F := Ideal) a1 a2 q k (ix2 r c))) := by
  unfold k1_pay9
  dsimp only
  rw [maximumf_apply, Cert.LibLayout.shapeCast_a_a1_apply]
  refine congrArg (max _) ?_
  refine (Ideal.multiReduction_maximumf_single _ _ _ _ _ (ix1 r)).trans ?_
  rw [Ideal.ofBits_def, ofBits_neg_inf]
  show (Finset.univ : Finset (Fin (S512x512.size 1))).fold max ⊥ _ = (Finset.univ : Finset (Fin (S512x512.size 1))).fold max ⊥ _
  refine Finset.fold_congr fun c _ => ?_
  rw [Function.comp_apply, lift512]
  rfl

/-- The rescaling factor of row r. -/
theorem pay10_apply (a1 a2 : BitVec 32) (q k : Vec Ideal S1x512x1024 .bf16) (mx : Vec Ideal S512x1 .f32) (r : Fin 512) :
    k1_pay10 (F := Ideal) a1 a2 q k mx (ix2 r (0 : Fin 1))
      = Ideal.exp (mx (ix2 r (0 : Fin 1)) - k1_pay9 (F := Ideal) a1 a2 q k mx (ix2 r (0 : Fin 1))) := by
  unfold k1_pay10
  rfl

/-- The tile's weight at (r, c). -/
theorem pay11_apply (a1 a2 : BitVec 32) (q k : Vec Ideal S1x512x1024 .bf16) (mx : Vec Ideal S512x1 .f32) (r c : Fin 512) :
    k1_pay11 (F := Ideal) a1 a2 q k mx (ix2 r c)
      = Ideal.exp (k1_pay8 (F := Ideal) a1 a2 q k (ix2 r c) - k1_pay9 (F := Ideal) a1 a2 q k mx (ix2 r (0 : Fin 1))) := by
  unfold k1_pay11
  show Ideal.exp (_ - broadcastTo S512x512 _ _ (ix2 r c)) = _
  rw [Cert.LibLayout.broadcastTo_a1_ab_apply]

/-- The new normaliser of row r. -/
theorem pay12_apply (a1 a2 : BitVec 32) (q k : Vec Ideal S1x512x1024 .bf16) (mx l : Vec Ideal S512x1 .f32) (r : Fin 512) :
    k1_pay12 (F := Ideal) a1 a2 q k mx l (ix2 r (0 : Fin 1))
      = k1_pay10 (F := Ideal) a1 a2 q k mx (ix2 r (0 : Fin 1)) * l (ix2 r (0 : Fin 1))
        + ∑ c : Fin 512, k1_pay11 (F := Ideal) a1 a2 q k mx (ix2 r c) := by
  unfold k1_pay12
  dsimp only
  rw [shapeCast_self, addf_apply, mulf_apply, Cert.LibLayout.shapeCast_a_a1_apply]
  congr 1
  refine (Ideal.multiReduction_add_single _ _ _ _ _ (ix1 r)).trans ?_
  show ∑ c : Fin (S512x512.size 1), _ = ∑ c : Fin (S512x512.size 1), _
  refine Finset.sum_congr rfl fun c _ => ?_
  rw [lift512]
  rfl

/-- The value block with its unit axis dropped. -/
theorem pay7_apply (v : Vec Ideal S1x512x1024 .bf16) (c : Fin 512) (d : Fin 1024) :
    k1_pay7 (F := Ideal) v (ix2 c d) = v (ix3 (0 : Fin 1) c d) := by
  unfold k1_pay7
  exact shapeCast_1ab_ab_apply _ _ c d

/-- The new accumulator at (r, d). -/
theorem pay4_apply (vv : FVec Ideal S512x1024 .bf16) (al : FVec Ideal S512x1 .f32) (p : FVec Ideal S512x512 .f32)
    (acc : Vec Ideal S512x1024 .f32) (r : Fin 512) (d : Fin 1024) :
    k1_pay4 (F := Ideal) vv al p acc (ix2 r d)
      = al (ix2 r (0 : Fin 1)) * acc (ix2 r d) + ∑ c : Fin 512, p (ix2 r c) * vv (ix2 c d) := by
  unfold k1_pay4
  rw [shapeCast_self, addf_apply, mulf_apply, Cert.LibLayout.broadcastTo_a1_ab_apply]
  congr 1
  exact Cert.Sage.matmul_plain_zero_apply (φ₁ := .bf16) (φ₂ := .bf16) none _ _ r d

/-- The stored running maximum is the computed one. -/
theorem pay5_eq (x : FVec Ideal S512x1 .f32) : k1_pay5 (F := Ideal) x = x := by
  unfold k1_pay5
  exact shapeCast_self _ _

/-- The output block at (r, d): the accumulator over the normaliser. -/
theorem pay6_apply (acc : Vec Ideal S512x1024 .f32) (l : Vec Ideal S512x1 .f32) (r : Fin 512) (d : Fin 1024) :
    k1_pay6 (F := Ideal) acc l (ix3 (0 : Fin 1) r d) = Ideal.div (acc (ix2 r d)) (l (ix2 r (0 : Fin 1))) := by
  unfold k1_pay6
  rw [shapeCast_ab_1ab_apply, truncf_apply, divf_apply, Cert.LibLayout.broadcastTo_a1_ab_apply]

/-- The initial running maximum is −∞, the initial normaliser and accumulator are 0. -/
theorem pay1_apply (i : S512x1.Idx) : k1_pay1 (F := Ideal) i = ⊥ := by
  unfold k1_pay1
  rw [shapeCast_self, broadcast_apply]
  exact ofBits_neg_inf
theorem pay2_apply (i : S512x1.Idx) : k1_pay2 (F := Ideal) i = 0 := by
  unfold k1_pay2
  rw [shapeCast_self, broadcast_apply]
  exact ofBits_zero
theorem pay3_apply (i : S512x1024.Idx) : k1_pay3 (F := Ideal) i = 0 := by
  unfold k1_pay3
  rw [shapeCast_self, broadcast_apply]
  exact ofBits_zero

/-! ## One grid point is one update of the recurrence -/

/-- Row r, feature d of the state after the point, from the state before it: the online-softmax update with the
    tile's masked scores of row r and the value block's column d. -/
theorem step_row (a1 a2 : BitVec 32) (q k v : Vec Ideal S1x512x1024 .bf16)
    (acc : Vec Ideal S512x1024 .f32) (mx l : Vec Ideal S512x1 .f32) (r : Fin 512) (d : Fin 1024) :
    (k1_pay5 (F := Ideal) (k1_pay9 (F := Ideal) a1 a2 q k mx) (ix2 r (0 : Fin 1)),
      k1_pay12 (F := Ideal) a1 a2 q k mx l (ix2 r (0 : Fin 1)),
      k1_pay4 (F := Ideal) (k1_pay7 v) (k1_pay10 a1 a2 q k mx) (k1_pay11 a1 a2 q k mx) acc (ix2 r d))
      = Cert.Online.upd (fun c : Fin 512 => k1_pay8 (F := Ideal) a1 a2 q k (ix2 r c)) (fun c : Fin 512 => v (ix3 (0 : Fin 1) c d))
          (mx (ix2 r (0 : Fin 1)), l (ix2 r (0 : Fin 1)), acc (ix2 r d)) := by
  rw [pay5_eq, pay12_apply, pay4_apply, pay10_apply]
  unfold Cert.Online.upd
  simp only [pay11_apply, pay9_apply, pay7_apply]

end Cert.KernelIdeal.Body

end
-- ==== Proof.LibSumBlocks.lean ====
/-
  A finite sum taken block by block.

  A sum of `m * n` terms in a commutative additive monoid is the sum, over `m` consecutive blocks, of
  each block's `n` terms: term `b` of block `a` is term `b + n * a` of the whole. Only commutativity and
  associativity of the addition are used, so the law holds on the extended reals with no finiteness
  assumption: a contraction of length 4096 accumulated as 16 partial contractions of length 256 is the
  one contraction.
-/
import Mathlib.Algebra.BigOperators.Fin
import Mathlib.Logic.Equiv.Fin.Basic

namespace Cert.SumBlocks

open Finset

/-- The whole sum is the sum over blocks of the blocks' sums; `finProdFinEquiv (a, b)` is position
    `b` of block `a`. -/
theorem sum_blocks {M : Type*} [AddCommMonoid M] (m n : ℕ) (f : Fin (m * n) → M) :
    ∑ k : Fin (m * n), f k = ∑ a : Fin m, ∑ b : Fin n, f (finProdFinEquiv (a, b)) :=
  (Equiv.sum_comp finProdFinEquiv f).symm.trans (Fintype.sum_prod_type _)

/-- Position `b` of block `a` is term `b + n * a`. -/
theorem block_pos (m n : ℕ) (a : Fin m) (b : Fin n) :
    (finProdFinEquiv (a, b) : Fin (m * n)).val = b.val + n * a.val := rfl

end Cert.SumBlocks
-- ==== Proof.LibTiledInf.lean ====
/-
  A meet over `m * n` consecutive entries, taken block by block.

  Split the index range of length `m * n` into `m` consecutive blocks of length `n`: block `a` holds the
  entries at `b + n * a` for `b` below `n`. The meet of all the entries is the meet, over the blocks, of
  each block's own meet, because every index is `b + n * a` for exactly one pair (a, b) and a meet over pairs is
  an iterated meet. And a running meet — start at the top, visit the blocks in order, each time replace the
  accumulator by its meet with the visited block's meet — ends at the meet over the blocks, because the meet is
  associative, commutative and idempotent with the top as its identity, so the order of the visits and the
  bracketing do not matter. Together: a scan that keeps a running minimum over `m` tiles of `n` keys computes
  the minimum over all `m * n` keys at once.

  Nothing but a meet-semilattice with a top is used (every complete lattice and every linear order with a top
  is one: there the meet of two elements is their minimum), so no entry has to be finite or even comparable to
  another. The same holds with joins, from the bottom, on a join-semilattice with a bottom: a running maximum.

  Two forms. `tiled_inf` / `tiled_sup`: the entries indexed by `Fin (m * n)`, the running meet a `Fin.foldl`
  over the `m` blocks, block `a`'s meet over `b : Fin n` at the index `⟨b + n * a, _⟩`. `tiled_inf_nat` /
  `tiled_sup_nat`: the entries a function of a natural number, the running meet a `List.foldl` over
  `List.range m`, block `a`'s meet over `Finset.range n` at `b + n * a`, the whole over
  `Finset.range (m * n)`; no bound has to be carried. The steps are stated on their own: a running meet over
  any list from any initial value (`foldl_inf_eq`), the regrouping into blocks (`inf_univ_eq_inf_blocks`,
  `inf_range_eq_inf_blocks`).
-/
import Mathlib.Data.Finset.Lattice.Prod
import Mathlib.Data.Fintype.Basic
import Mathlib.Data.Fintype.Prod
import Mathlib.Logic.Equiv.Fin.Basic

namespace Cert.LibTiledInf

variable {α : Type*}

/-- Entry `b` of block `a` lies inside the range: `b + n * a < m * n` for `a < m` and `b < n`. -/
theorem block_lt {m n : ℕ} (a : Fin m) (b : Fin n) : b.val + n * a.val < m * n :=
  (finProdFinEquiv (a, b)).isLt

/-- The visited indices of `List.range m` are the naturals below `m`. -/
theorem toFinset_range (m : ℕ) : (List.range m).toFinset = Finset.range m := by
  ext i; simp

/-! ## Meets -/

section Inf
variable [SemilatticeInf α] [OrderTop α]

/-- A RUNNING MEET over a list, from any initial value, is the initial value met with the meet over the list's
    elements: visiting `a` first and then the rest is meeting with `g a` and then with the rest's meet. -/
theorem foldl_inf_eq {ι : Type*} [DecidableEq ι] (l : List ι) (g : ι → α) (init : α) :
    l.foldl (fun acc a => acc ⊓ g a) init = init ⊓ l.toFinset.inf g := by
  induction l generalizing init with
  | nil => simp
  | cons a l ih => rw [List.foldl_cons, ih, List.toFinset_cons, Finset.inf_insert, inf_assoc]

/-- From the top, over the `m` indices in order, it is the meet over them. -/
theorem finFoldl_inf_eq (m : ℕ) (g : Fin m → α) :
    Fin.foldl m (fun acc a => acc ⊓ g a) ⊤ = Finset.univ.inf g := by
  rw [Fin.foldl_eq_finRange_foldl, foldl_inf_eq, List.toFinset_finRange, top_inf_eq]

/-- Written out for three indices: the running meet is the left-nested meet from the top. -/
example (g : Fin 3 → α) : ((⊤ ⊓ g 0) ⊓ g 1) ⊓ g 2 = Finset.univ.inf g := finFoldl_inf_eq 3 g

/-- The same over the naturals below `m`. -/
theorem rangeFoldl_inf_eq (m : ℕ) (g : ℕ → α) :
    (List.range m).foldl (fun acc a => acc ⊓ g a) ⊤ = (Finset.range m).inf g := by
  rw [foldl_inf_eq, toFinset_range, top_inf_eq]

/-- THE REGROUPING: the meet over all `m * n` entries is the meet over the blocks of each block's meet. Every
    index is `b + n * a` for one pair (a, b), so the meet is one over pairs, and a meet over pairs is iterated. -/
theorem inf_univ_eq_inf_blocks (m n : ℕ) (f : Fin (m * n) → α) :
    Finset.univ.inf f
      = Finset.univ.inf fun a : Fin m => Finset.univ.inf fun b : Fin n => f ⟨b.val + n * a.val, block_lt a b⟩ := by
  rw [← Finset.map_univ_equiv (finProdFinEquiv (m := m) (n := n)), Finset.inf_map, ← Finset.univ_product_univ,
    Finset.inf_product_left]
  rfl

/-- A RUNNING MEET OVER `m` TILES OF `n`, from the top, is the meet over all `m * n` entries. -/
theorem tiled_inf (m n : ℕ) (f : Fin (m * n) → α) :
    Fin.foldl m (fun acc a => acc ⊓ Finset.univ.inf fun b : Fin n => f ⟨b.val + n * a.val, block_lt a b⟩) ⊤
      = Finset.univ.inf f := by
  rw [finFoldl_inf_eq, inf_univ_eq_inf_blocks]

/-- The meet over the naturals below `k` is the meet over `Fin k` of the same entries: each bounds the other
    entry by entry. -/
theorem inf_range_eq_inf_univ (k : ℕ) (F : ℕ → α) :
    (Finset.range k).inf F = Finset.univ.inf fun i : Fin k => F i.val :=
  le_antisymm (Finset.le_inf fun i _ => Finset.inf_le (Finset.mem_range.2 i.isLt))
    (Finset.le_inf fun j hj => Finset.inf_le (f := fun i : Fin k => F i.val) (Finset.mem_univ ⟨j, Finset.mem_range.1 hj⟩))

/-- The regrouping for entries indexed by naturals. -/
theorem inf_range_eq_inf_blocks (m n : ℕ) (F : ℕ → α) :
    (Finset.range (m * n)).inf F = (Finset.range m).inf fun a => (Finset.range n).inf fun b => F (b + n * a) := by
  rw [inf_range_eq_inf_univ, inf_univ_eq_inf_blocks m n fun i => F i.val, inf_range_eq_inf_univ]
  exact Finset.inf_congr rfl fun a _ => (inf_range_eq_inf_univ n fun b => F (b + n * a.val)).symm

/-- The running meet over `m` tiles of `n`, the entries indexed by naturals: no bound to carry. -/
theorem tiled_inf_nat (m n : ℕ) (F : ℕ → α) :
    (List.range m).foldl (fun acc a => acc ⊓ (Finset.range n).inf fun b => F (b + n * a)) ⊤
      = (Finset.range (m * n)).inf F := by
  rw [rangeFoldl_inf_eq, inf_range_eq_inf_blocks]

end Inf

/-! ## Joins -/

section Sup
variable [SemilatticeSup α] [OrderBot α]

/-- A RUNNING JOIN over a list, from any initial value, is the initial value joined with the join over the list's
    elements. -/
theorem foldl_sup_eq {ι : Type*} [DecidableEq ι] (l : List ι) (g : ι → α) (init : α) :
    l.foldl (fun acc a => acc ⊔ g a) init = init ⊔ l.toFinset.sup g := by
  induction l generalizing init with
  | nil => simp
  | cons a l ih => rw [List.foldl_cons, ih, List.toFinset_cons, Finset.sup_insert, sup_assoc]

/-- From the bottom, over the `m` indices in order, it is the join over them. -/
theorem finFoldl_sup_eq (m : ℕ) (g : Fin m → α) :
    Fin.foldl m (fun acc a => acc ⊔ g a) ⊥ = Finset.univ.sup g := by
  rw [Fin.foldl_eq_finRange_foldl, foldl_sup_eq, List.toFinset_finRange, bot_sup_eq]

/-- The same over the naturals below `m`. -/
theorem rangeFoldl_sup_eq (m : ℕ) (g : ℕ → α) :
    (List.range m).foldl (fun acc a => acc ⊔ g a) ⊥ = (Finset.range m).sup g := by
  rw [foldl_sup_eq, toFinset_range, bot_sup_eq]

/-- THE REGROUPING: the join over all `m * n` entries is the join over the blocks of each block's join. -/
theorem sup_univ_eq_sup_blocks (m n : ℕ) (f : Fin (m * n) → α) :
    Finset.univ.sup f
      = Finset.univ.sup fun a : Fin m => Finset.univ.sup fun b : Fin n => f ⟨b.val + n * a.val, block_lt a b⟩ := by
  rw [← Finset.map_univ_equiv (finProdFinEquiv (m := m) (n := n)), Finset.sup_map, ← Finset.univ_product_univ,
    Finset.sup_product_left]
  rfl

/-- A RUNNING JOIN OVER `m` TILES OF `n`, from the bottom, is the join over all `m * n` entries. -/
theorem tiled_sup (m n : ℕ) (f : Fin (m * n) → α) :
    Fin.foldl m (fun acc a => acc ⊔ Finset.univ.sup fun b : Fin n => f ⟨b.val + n * a.val, block_lt a b⟩) ⊥
      = Finset.univ.sup f := by
  rw [finFoldl_sup_eq, sup_univ_eq_sup_blocks]

/-- The join over the naturals below `k` is the join over `Fin k` of the same entries. -/
theorem sup_range_eq_sup_univ (k : ℕ) (F : ℕ → α) :
    (Finset.range k).sup F = Finset.univ.sup fun i : Fin k => F i.val :=
  le_antisymm
    (Finset.sup_le fun j hj => Finset.le_sup (f := fun i : Fin k => F i.val) (Finset.mem_univ ⟨j, Finset.mem_range.1 hj⟩))
    (Finset.sup_le fun i _ => Finset.le_sup (Finset.mem_range.2 i.isLt))

/-- The regrouping for entries indexed by naturals. -/
theorem sup_range_eq_sup_blocks (m n : ℕ) (F : ℕ → α) :
    (Finset.range (m * n)).sup F = (Finset.range m).sup fun a => (Finset.range n).sup fun b => F (b + n * a) := by
  rw [sup_range_eq_sup_univ, sup_univ_eq_sup_blocks m n fun i => F i.val, sup_range_eq_sup_univ]
  exact Finset.sup_congr rfl fun a _ => (sup_range_eq_sup_univ n fun b => F (b + n * a.val)).symm

/-- The running join over `m` tiles of `n`, the entries indexed by naturals. -/
theorem tiled_sup_nat (m n : ℕ) (F : ℕ → α) :
    (List.range m).foldl (fun acc a => acc ⊔ (Finset.range n).sup fun b => F (b + n * a)) ⊥
      = (Finset.range (m * n)).sup F := by
  rw [rangeFoldl_sup_eq, sup_range_eq_sup_blocks]

end Sup

end Cert.LibTiledInf
-- ==== Proof.LibOnlineSoftmaxMasked.lean ====
import proofs.«180477_j74028056314061_2_alg».proof.Proof.LibOnlineSoftmax
import proofs.«180477_j74028056314061_2_alg».proof.Proof.LibSumBlocks
import proofs.«180477_j74028056314061_2_alg».proof.Proof.LibTiledInf

/-!
# The online softmax recurrence with masked scores

A row of scores is read in `J` tiles of `K` scores each, and some of the scores are `⊥`
(minus infinity: a masked position, as under a causal mask); the others are real.  The
recurrence is the one of `Cert.Online`: a state `(m, l, a)` — running maximum, running
normaliser, running weighted sum — starts at `(⊥, 0, 0)`, and one tile raises the maximum to
`m' = max m T` (`T` the tile's maximum), rescales `l` and `a` by `exp (m - m')`, and adds the
tile's terms `exp (e k - m')` (times the value `h k` for the weighted sum).

A masked score weighs nothing: `exp (⊥ - m) = exp ⊥ = 0` for a real `m`.  So as soon as the
running maximum is a real number — which it is after the first tile, provided that tile holds
one real score — every later tile, masked in part or in whole, keeps the state three reals:
the maximum of the scores read so far, the sum over them of the weights `w e m` (`exp (e - m)`
for a real score, `0` for a masked one), and the sum of the weights times the values.  The
rescaling identity `exp (m - m') * w e m = w e m'` holds for masked scores too (`0 = 0`), and the
induction of the all-real case goes through word for word.  After all the tiles: `m` is the
maximum `M` of the whole row, a real; `l` is `∑ exp (e - M)`, a positive real; and `a / l` is the
softmax-weighted sum `∑ (exp (e - M) / l) * h`, the masked positions weighing `0`.

A tile whose scores are all `⊥` changes nothing in a state with a real maximum
(`upd_all_bot`): the maximum stays, the rescaling factor is `exp 0 = 1`, and every new term is
`0`.  So a scan that skips such tiles is the full recurrence.

The last section restates the result for a row given as one family over `Fin (J * K)`, entry `k`
of tile `j` being the entry at `k + K * j`, with single sums and a single maximum.
-/

noncomputable section

namespace Cert.OnlineMasked

open Idealize.ShloMosaic
open Cert.Online
open scoped BigOperators

/-! ## The weight of a score against a real maximum -/

/-- The weight of the score `x` against the real reference maximum `M`: `exp (x - M)` for a real
    score, `0` for the masked score `⊥`. -/
def w (x : EReal) (M : ℝ) : ℝ := if x = ⊥ then 0 else Real.exp (x.toReal - M)

theorem w_bot (M : ℝ) : w ⊥ M = 0 := if_pos rfl

theorem w_coe (x M : ℝ) : w (x : EReal) M = Real.exp (x - M) := by
  rw [w, if_neg (EReal.coe_ne_bot x), EReal.toReal_coe]

theorem w_nonneg (x : EReal) (M : ℝ) : 0 ≤ w x M := by
  unfold w
  split_ifs
  · exact le_rfl
  · exact (Real.exp_pos _).le

theorem w_pos {x : EReal} (hx : x ≠ ⊥) (M : ℝ) : 0 < w x M := by
  rw [w, if_neg hx]
  exact Real.exp_pos _

/-- On the extended reals, `exp (x - M)` for a score `x < ⊤` and a real `M` is the real weight. -/
theorem exp_sub_coe {x : EReal} (hx : x ≠ ⊤) (M : ℝ) :
    Ideal.exp (x - (M : EReal)) = ((w x M : ℝ) : EReal) := by
  induction x using EReal.rec with
  | bot => rw [EReal.bot_sub, Ideal.exp_bot, w_bot, EReal.coe_zero]
  | coe r => rw [← EReal.coe_sub, Ideal.exp_coe, w_coe]
  | top => exact absurd rfl hx

/-- The rescaling of one weight when the reference maximum moves from `M` to `M'`; a masked
    score weighs `0` before and after. -/
theorem w_rescale (M M' : ℝ) (x : EReal) : Real.exp (M - M') * w x M = w x M' := by
  unfold w
  split_ifs
  · exact mul_zero _
  · exact exp_rescale M M' x.toReal

/-! ## Maxima of scores below `⊤` -/

/-- A finite supremum of extended reals none of which is `⊤` is not `⊤`. -/
theorem sup_ne_top {ι : Type*} (s : Finset ι) (f : ι → EReal) (hf : ∀ i ∈ s, f i ≠ ⊤) :
    s.sup f ≠ ⊤ :=
  ((Finset.sup_lt_iff bot_lt_top).2 fun i hi => lt_top_iff_ne_top.2 (hf i hi)).ne

/-- A finite supremum of extended reals, none `⊤` and one of them not `⊥`, is a real. -/
theorem exists_coe_eq_sup_masked {ι : Type*} (s : Finset ι) (f : ι → EReal)
    (hf : ∀ i ∈ s, f i ≠ ⊤) (h0 : ∃ i ∈ s, f i ≠ ⊥) : ∃ T : ℝ, (T : EReal) = s.sup f := by
  obtain ⟨i, hi, hne⟩ := h0
  have hle : f i ≤ s.sup f := Finset.le_sup hi
  have hbot : s.sup f ≠ ⊥ := fun hb => hne (le_bot_iff.1 (hb ▸ hle))
  exact ⟨(s.sup f).toReal, EReal.coe_toReal (sup_ne_top s f hf) hbot⟩

/-- The maximum of a real and an extended real other than `⊤` is a real. -/
theorem exists_coe_eq_max (M : ℝ) {T : EReal} (hT : T ≠ ⊤) :
    ∃ M' : ℝ, (M' : EReal) = max (M : EReal) T := by
  induction T using EReal.rec with
  | bot => exact ⟨M, by rw [max_bot_right]⟩
  | coe t => exact ⟨max M t, coe_max M t⟩
  | top => exact absurd rfl hT

/-! ## One tile -/

/-- One tile's update of a state of three reals, the tile's scores real or `⊥`, its values
    real, and `M'` the new maximum: the new state is again three reals, the masked scores
    weighing `0`. -/
theorem upd_masked {K : ℕ} (e : Fin K → EReal) (he : ∀ k, e k ≠ ⊤) (h : Fin K → ℝ) (M l a M' : ℝ)
    (hM' : (M' : EReal) = max (M : EReal) ((Finset.univ : Finset (Fin K)).sup e)) :
    upd e (fun k => (h k : EReal)) ((M : EReal), (l : EReal), (a : EReal))
      = ((M' : EReal),
         ((Real.exp (M - M') * l + ∑ k, w (e k) M' : ℝ) : EReal),
         ((Real.exp (M - M') * a + ∑ k, w (e k) M' * h k : ℝ) : EReal)) := by
  have hmax : max (M : EReal) ((Finset.univ : Finset (Fin K)).fold max ⊥ e) = (M' : EReal) := by
    rw [fold_max_eq_sup, ← hM']
  simp only [upd, hmax, exp_sub_coe (he _), ← EReal.coe_sub, Ideal.exp_coe, ← EReal.coe_mul, ← coe_sum,
    ← EReal.coe_add]

/-- The first tile's update, from the empty history `(⊥, 0, 0)`, the tile's maximum `T` being a
    real: the state becomes the tile's own maximum, normaliser and weighted sum. -/
theorem upd_bot_masked {K : ℕ} (e : Fin K → EReal) (he : ∀ k, e k ≠ ⊤) (h : Fin K → ℝ) (T : ℝ)
    (hT : (T : EReal) = (Finset.univ : Finset (Fin K)).sup e) :
    upd e (fun k => (h k : EReal)) (⊥, 0, 0)
      = ((T : EReal), ((∑ k, w (e k) T : ℝ) : EReal), ((∑ k, w (e k) T * h k : ℝ) : EReal)) := by
  have hmax : max (⊥ : EReal) ((Finset.univ : Finset (Fin K)).fold max ⊥ e) = (T : EReal) := by
    rw [fold_max_eq_sup, ← hT, max_bot_left]
  simp only [upd, hmax, EReal.bot_sub, Ideal.exp_bot, zero_mul, zero_add, exp_sub_coe (he _),
    ← EReal.coe_mul, ← coe_sum]

/-- **A fully masked tile changes nothing.**  A tile whose scores are all `⊥` leaves a state
    with a real maximum as it is, whatever the tile's values. -/
theorem upd_all_bot {K : ℕ} (h' : Fin K → EReal) (m l a : ℝ) :
    upd (fun _ : Fin K => (⊥ : EReal)) h' ((m : EReal), (l : EReal), (a : EReal))
      = ((m : EReal), (l : EReal), (a : EReal)) := by
  have hmax : max (m : EReal) ((Finset.univ : Finset (Fin K)).fold max ⊥ (fun _ => (⊥ : EReal)))
      = (m : EReal) := by
    rw [fold_max_eq_sup, Finset.sup_bot, max_bot_right]
  have h1 : Ideal.exp ((m : EReal) - (m : EReal)) = 1 := by
    rw [← EReal.coe_sub, sub_self, Ideal.exp_coe, Real.exp_zero, EReal.coe_one]
  simp only [upd, hmax, h1, one_mul, EReal.bot_sub, Ideal.exp_bot, zero_mul, Finset.sum_const_zero,
    add_zero]

/-! ## All the tiles -/

/-- The invariant of the recurrence.  The scores are real or `⊥`, the first tile holds a real
    score, the values are real.  After `n + 1` tiles the state is three reals: the maximum `M` of
    the scores read so far, the sum over them of the weights against `M`, and the sum of the
    weights times the values. -/
theorem after_succ_masked {J K : ℕ} (hJ : 0 < J) (e : Fin J → Fin K → EReal)
    (he : ∀ j k, e j k ≠ ⊤) (h0 : ∃ k, e ⟨0, hJ⟩ k ≠ ⊥) (h : Fin J → Fin K → ℝ) :
    ∀ (n : ℕ) (hn : n + 1 ≤ J), ∃ M : ℝ,
      (M : EReal) = (Finset.univ.filter (fun j : Fin J => j.val < n + 1)).sup
          (fun j => (Finset.univ : Finset (Fin K)).sup (fun k => e j k))
      ∧ after e (fun j k => ((h j k : ℝ) : EReal)) (n + 1) hn
        = ((M : EReal),
           ((∑ j ∈ Finset.univ.filter (fun j : Fin J => j.val < n + 1), ∑ k, w (e j k) M : ℝ) : EReal),
           ((∑ j ∈ Finset.univ.filter (fun j : Fin J => j.val < n + 1), ∑ k, w (e j k) M * h j k : ℝ) : EReal)) := by
  intro n
  induction n with
  | zero =>
    intro hn
    obtain ⟨k0, hk0⟩ := h0
    obtain ⟨T, hT⟩ := exists_coe_eq_sup_masked Finset.univ (e ⟨0, hn⟩) (fun k _ => he _ k)
      ⟨k0, Finset.mem_univ _, hk0⟩
    have hS : Finset.univ.filter (fun j : Fin J => j.val < 0 + 1) = {⟨0, hn⟩} := by
      ext j; simp [Fin.ext_iff]
    refine ⟨T, ?_, ?_⟩
    · rw [hS, Finset.sup_singleton]; exact hT
    · rw [hS, Finset.sum_singleton, Finset.sum_singleton]
      exact upd_bot_masked (e ⟨0, hn⟩) (he _) (h ⟨0, hn⟩) T hT
  | succ n ih =>
    intro hn
    obtain ⟨M, hM, hA⟩ := ih (Nat.le_of_succ_le hn)
    obtain ⟨M', hM'⟩ := exists_coe_eq_max M
      (sup_ne_top Finset.univ (e ⟨n + 1, hn⟩) (fun k _ => he _ k))
    have hS : Finset.univ.filter (fun j : Fin J => j.val < n + 1 + 1)
        = insert ⟨n + 1, hn⟩ (Finset.univ.filter (fun j : Fin J => j.val < n + 1)) := by
      ext j; simp [Fin.ext_iff]; omega
    have hnot : (⟨n + 1, hn⟩ : Fin J) ∉ Finset.univ.filter (fun j : Fin J => j.val < n + 1) := by
      simp
    refine ⟨M', ?_, ?_⟩
    · rw [hS, Finset.sup_insert, ← hM, hM']
      exact max_comm _ _
    · have step : after e (fun j k => ((h j k : ℝ) : EReal)) (n + 1 + 1) hn
          = upd (e ⟨n + 1, hn⟩) (fun k => ((h ⟨n + 1, hn⟩ k : ℝ) : EReal))
              (after e (fun j k => ((h j k : ℝ) : EReal)) (n + 1) (Nat.le_of_succ_le hn)) := rfl
      rw [step, hA, upd_masked (e ⟨n + 1, hn⟩) (he _) (h ⟨n + 1, hn⟩) M _ _ M' hM', hS,
        Finset.sum_insert hnot, Finset.sum_insert hnot]
      have e1 : Real.exp (M - M')
            * ∑ j ∈ Finset.univ.filter (fun j : Fin J => j.val < n + 1), ∑ k, w (e j k) M
          = ∑ j ∈ Finset.univ.filter (fun j : Fin J => j.val < n + 1), ∑ k, w (e j k) M' := by
        rw [Finset.mul_sum]
        refine Finset.sum_congr rfl fun j _ => ?_
        rw [Finset.mul_sum]
        exact Finset.sum_congr rfl fun k _ => w_rescale _ _ _
      have e2 : Real.exp (M - M')
            * ∑ j ∈ Finset.univ.filter (fun j : Fin J => j.val < n + 1), ∑ k, w (e j k) M * h j k
          = ∑ j ∈ Finset.univ.filter (fun j : Fin J => j.val < n + 1), ∑ k, w (e j k) M' * h j k := by
        rw [Finset.mul_sum]
        refine Finset.sum_congr rfl fun j _ => ?_
        rw [Finset.mul_sum]
        refine Finset.sum_congr rfl fun k _ => ?_
        rw [← mul_assoc, w_rescale]
      rw [e1, e2, add_comm (∑ j ∈ _, ∑ k, w (e j k) M'),
        add_comm (∑ j ∈ _, ∑ k, w (e j k) M' * h j k)]

/-- The final state in the reals.  After all `J` tiles the state is `(M, L, A)` with `M` the
    (real) maximum of all the scores, `L` the (positive) sum of all the weights against `M`, and
    `A` the sum of the weights times the values. -/
theorem after_all_real {J K : ℕ} (hJ : 0 < J) (e : Fin J → Fin K → EReal)
    (he : ∀ j k, e j k ≠ ⊤) (h0 : ∃ k, e ⟨0, hJ⟩ k ≠ ⊥) (h : Fin J → Fin K → ℝ) :
    ∃ M : ℝ,
      (M : EReal) = (Finset.univ : Finset (Fin J)).sup
          (fun j => (Finset.univ : Finset (Fin K)).sup (fun k => e j k))
      ∧ 0 < ∑ j : Fin J, ∑ k : Fin K, w (e j k) M
      ∧ after e (fun j k => ((h j k : ℝ) : EReal)) J le_rfl
        = ((M : EReal), ((∑ j : Fin J, ∑ k : Fin K, w (e j k) M : ℝ) : EReal),
           ((∑ j : Fin J, ∑ k : Fin K, w (e j k) M * h j k : ℝ) : EReal)) := by
  obtain ⟨n, rfl⟩ : ∃ n, J = n + 1 := ⟨J - 1, by omega⟩
  obtain ⟨M, hM, hA⟩ := after_succ_masked hJ e he h0 h n le_rfl
  have hS : Finset.univ.filter (fun j : Fin (n + 1) => j.val < n + 1) = Finset.univ :=
    Finset.filter_true_of_mem fun j _ => j.isLt
  rw [hS] at hM hA
  obtain ⟨k0, hk0⟩ := h0
  refine ⟨M, hM, ?_, hA⟩
  refine Finset.sum_pos' (fun j _ => Finset.sum_nonneg fun k _ => w_nonneg _ _)
    ⟨⟨0, hJ⟩, Finset.mem_univ _, ?_⟩
  exact Finset.sum_pos' (fun k _ => w_nonneg _ _) ⟨k0, Finset.mem_univ _, w_pos hk0 M⟩

/-- The maximum of all the scores is a real. -/
theorem sup_real {J K : ℕ} (hJ : 0 < J) (e : Fin J → Fin K → EReal)
    (he : ∀ j k, e j k ≠ ⊤) (h0 : ∃ k, e ⟨0, hJ⟩ k ≠ ⊥) :
    ∃ r : ℝ, (r : EReal) = (Finset.univ : Finset (Fin J)).sup
        (fun j => (Finset.univ : Finset (Fin K)).sup (fun k => e j k)) := by
  obtain ⟨M, hM, _, _⟩ := after_all_real hJ e he h0 (fun _ _ => 0)
  exact ⟨M, hM⟩

/-- The final normaliser is a positive real. -/
theorem normaliser_pos {J K : ℕ} (hJ : 0 < J) (e : Fin J → Fin K → EReal)
    (he : ∀ j k, e j k ≠ ⊤) (h0 : ∃ k, e ⟨0, hJ⟩ k ≠ ⊥) (h : Fin J → Fin K → ℝ) :
    ∃ l : ℝ, 0 < l ∧ (l : EReal) = (after e (fun j k => ((h j k : ℝ) : EReal)) J le_rfl).2.1 := by
  obtain ⟨M, _, hl, hA⟩ := after_all_real hJ e he h0 h
  exact ⟨_, hl, by rw [hA]⟩

/-- **The online softmax recurrence is the plain softmax, masked scores allowed.**  For `J ≥ 1`
    tiles of `K` scores `e j k`, each real or `⊥`, the first tile holding a real score, with real
    values `h j k`, the state `(m, l, a)` after all `J` tiles satisfies: `m` is the maximum of all
    the scores; `l` is the sum over all scores of `exp (e - m)`; and the quotient `a / l` is the
    softmax-weighted sum of the values, `∑ (exp (e - m) / l) * h`. -/
theorem after_all_masked {J K : ℕ} (hJ : 0 < J) (e : Fin J → Fin K → EReal)
    (he : ∀ j k, e j k ≠ ⊤) (h0 : ∃ k, e ⟨0, hJ⟩ k ≠ ⊥) (h : Fin J → Fin K → ℝ) :
    (after e (fun j k => ((h j k : ℝ) : EReal)) J le_rfl).1
        = (Finset.univ : Finset (Fin J)).sup (fun j => (Finset.univ : Finset (Fin K)).sup (fun k => e j k))
    ∧ (after e (fun j k => ((h j k : ℝ) : EReal)) J le_rfl).2.1
        = ∑ j : Fin J, ∑ k : Fin K, Ideal.exp (e j k - (Finset.univ : Finset (Fin J)).sup (fun j => (Finset.univ : Finset (Fin K)).sup (fun k => e j k)))
    ∧ Ideal.div (after e (fun j k => ((h j k : ℝ) : EReal)) J le_rfl).2.2 (after e (fun j k => ((h j k : ℝ) : EReal)) J le_rfl).2.1
        = ∑ j : Fin J, ∑ k : Fin K, Ideal.div (Ideal.exp (e j k - (Finset.univ : Finset (Fin J)).sup (fun j => (Finset.univ : Finset (Fin K)).sup (fun k => e j k)))) (∑ j : Fin J, ∑ k : Fin K, Ideal.exp (e j k - (Finset.univ : Finset (Fin J)).sup (fun j => (Finset.univ : Finset (Fin K)).sup (fun k => e j k)))) * ((h j k : ℝ) : EReal) := by
  obtain ⟨M, hM, hl, hA⟩ := after_all_real hJ e he h0 h
  rw [hA, ← hM]
  have hsum : ∑ j : Fin J, ∑ k : Fin K, Ideal.exp (e j k - (M : EReal))
      = ((∑ j : Fin J, ∑ k : Fin K, w (e j k) M : ℝ) : EReal) := by
    simp only [exp_sub_coe (he _ _), ← coe_sum]
  refine ⟨rfl, hsum.symm, ?_⟩
  rw [hsum]
  simp only [Ideal.div_coe hl.ne', exp_sub_coe (he _ _), ← EReal.coe_mul, ← coe_sum]
  congr 1
  rw [Finset.sum_mul]
  refine Finset.sum_congr rfl fun j _ => ?_
  rw [Finset.sum_mul]
  refine Finset.sum_congr rfl fun k _ => ?_
  ring

/-! ## A row given as one family -/

/-- A family over `Fin (J * K)` read in `J` tiles of `K`: entry `k` of tile `j` is the entry at
    `k + K * j`. -/
def tiles {α : Type*} {J K : ℕ} (f : Fin (J * K) → α) : Fin J → Fin K → α :=
  fun j k => f ⟨k.val + K * j.val, Cert.LibTiledInf.block_lt j k⟩

theorem tiles_apply {α : Type*} {J K : ℕ} (f : Fin (J * K) → α) (j : Fin J) (k : Fin K) :
    tiles f j k = f ⟨k.val + K * j.val, Cert.LibTiledInf.block_lt j k⟩ := rfl

/-- The maximum over the tiles of the tiles' maxima is the maximum of the row. -/
theorem sup_tiles {J K : ℕ} (f : Fin (J * K) → EReal) :
    (Finset.univ : Finset (Fin J)).sup (fun j => (Finset.univ : Finset (Fin K)).sup (fun k => tiles f j k))
      = Finset.univ.sup f :=
  (Cert.LibTiledInf.sup_univ_eq_sup_blocks J K f).symm

/-- The sum over the tiles of the tiles' sums is the sum over the row. -/
theorem sum_tiles {J K : ℕ} (F : Fin (J * K) → EReal) :
    ∑ j : Fin J, ∑ k : Fin K, tiles F j k = ∑ i, F i :=
  (Cert.SumBlocks.sum_blocks J K F).symm

/-- **The online softmax recurrence over a row of `J * K` scores, masked scores allowed.**  The
    row `f` (each score real or `⊥`, one of the first `K` real) with real values `g` is read in
    `J` tiles of `K`.  The state `(m, l, a)` after all the tiles satisfies: `m` is the maximum of the
    row; `l` is `∑ exp (f - m)` over the row; `a / l` is `∑ (exp (f - m) / l) * g` over the row. -/
theorem after_all_masked_row {J K : ℕ} (hJ : 0 < J) (f : Fin (J * K) → EReal)
    (hf : ∀ i, f i ≠ ⊤) (h0 : ∃ i : Fin (J * K), i.val < K ∧ f i ≠ ⊥) (g : Fin (J * K) → ℝ) :
    (after (tiles f) (fun j k => ((tiles g j k : ℝ) : EReal)) J le_rfl).1 = Finset.univ.sup f
    ∧ (after (tiles f) (fun j k => ((tiles g j k : ℝ) : EReal)) J le_rfl).2.1
        = ∑ i : Fin (J * K), Ideal.exp (f i - Finset.univ.sup f)
    ∧ Ideal.div (after (tiles f) (fun j k => ((tiles g j k : ℝ) : EReal)) J le_rfl).2.2
          (after (tiles f) (fun j k => ((tiles g j k : ℝ) : EReal)) J le_rfl).2.1
        = ∑ i : Fin (J * K), Ideal.div (Ideal.exp (f i - Finset.univ.sup f))
            (∑ i : Fin (J * K), Ideal.exp (f i - Finset.univ.sup f)) * ((g i : ℝ) : EReal) := by
  have h0' : ∃ k, tiles f ⟨0, hJ⟩ k ≠ ⊥ := by
    obtain ⟨i, hi, hne⟩ := h0
    refine ⟨⟨i.val, hi⟩, ?_⟩
    have hidx : (⟨(⟨i.val, hi⟩ : Fin K).val + K * (⟨0, hJ⟩ : Fin J).val,
        Cert.LibTiledInf.block_lt (⟨0, hJ⟩ : Fin J) (⟨i.val, hi⟩ : Fin K)⟩ : Fin (J * K)) = i :=
      Fin.ext (by simp)
    rw [tiles_apply, hidx]
    exact hne
  obtain ⟨A1, A2, A3⟩ := after_all_masked hJ (tiles f) (fun j k => hf _) h0' (tiles g)
  rw [sup_tiles] at A1 A2 A3
  have hden : ∑ j : Fin J, ∑ k : Fin K, Ideal.exp (tiles f j k - Finset.univ.sup f)
      = ∑ i : Fin (J * K), Ideal.exp (f i - Finset.univ.sup f) :=
    sum_tiles (fun i => Ideal.exp (f i - Finset.univ.sup f))
  rw [hden] at A2 A3
  exact ⟨A1, A2, A3.trans (sum_tiles (fun i => Ideal.div (Ideal.exp (f i - Finset.univ.sup f))
    (∑ i : Fin (J * K), Ideal.exp (f i - Finset.univ.sup f)) * ((g i : ℝ) : EReal)))⟩

end Cert.OnlineMasked
-- ==== Proof.IdealAttn.lean ====
import proofs.«180477_j74028056314061_2_alg».proof.Proof.IdealValue1
import proofs.«180477_j74028056314061_2_alg».proof.Proof.IdealAttnBody
import proofs.«180477_j74028056314061_2_alg».proof.Proof.LibOnlineSoftmaxMasked
import proofs.«180477_j74028056314061_2_alg».proof.Proof.Spec

set_option maxRecDepth 16384

noncomputable section

namespace Cert.KernelIdeal.Hand

open Cert.KernelIdeal Cert.KernelIdeal.Gen Cert.KernelIdeal.Body
open Idealize.ShloMosaic Idealize.ShloMosaic.TcCoe Idealize.ShloMosaic.ValueIdx Idealize.SL.Sem
open Cert.Attn Cert.Online Cert.OnlineMasked
open scoped BigOperators

/-! # The attention region computes causal softmax attention

Row by row the carried scratch is the state of the online-softmax recurrence over the key tiles: a key tile at or below
the diagonal is one update with that tile's masked scores, a key tile above the diagonal is a fully masked tile, which
changes nothing. After the last key tile the output block is the accumulator over the normaliser: the softmax-weighted
sum of the values. -/

/-! ## A row of the state -/

/-- Row `r`, feature `d` of a state: (running maximum, running normaliser, running weighted sum). -/
def rowOf (S : St1 (F := Ideal)) (r : Fin 512) (d : Fin 1024) : EReal × EReal × EReal :=
  (S.2.1 (ix2 r (0 : Fin 1)), S.2.2 (ix2 r (0 : Fin 1)), S.1 (ix2 r d))

/-- The initial state's rows are the recurrence's empty history. -/
theorem rowOf_init (r : Fin 512) (d : Fin 1024) : rowOf init1 r d = (⊥, 0, 0) := by
  show (k1_pay1 (F := Ideal) (ix2 r (0 : Fin 1)), k1_pay2 (F := Ideal) (ix2 r (0 : Fin 1)), k1_pay3 (F := Ideal) (ix2 r d)) = _
  rw [pay1_apply, pay2_apply, pay3_apply]

/-- One step of the body, on a row, is one update of the recurrence. -/
theorem rowOf_step (i : grid1.Coords) (q k v : Vec Ideal S1x512x1024 .bf16) (S : St1 (F := Ideal)) (r : Fin 512) (d : Fin 1024) :
    rowOf (step1 i q k v S) r d
      = upd (fun cc : Fin 512 => k1_pay8 (F := Ideal) (BitVec.ofNat 32 (i 1).val) (BitVec.ofNat 32 (i 2).val) q k (ix2 r cc))
          (fun cc : Fin 512 => v (ix3 (0 : Fin 1) cc d)) (rowOf S r d) := by
  obtain ⟨acc, mx, l⟩ := S
  exact step_row _ _ q k v acc mx l r d

theorem scrAt1_congr {F : FTy → Type} [FloatOps F] [Named F] (V : (c : Dev nD) → (b : Ref sig .tc) → Buf (Elt F) ((c : Thread nD τ).loc b))
    (c : Dev nD) {a b : ℕ} (e : a = b) (ha : a ≤ cfg1.N) (hb : b ≤ cfg1.N) :
    scrAt1 V c a ha = scrAt1 V c b hb := by subst e; rfl

/-! ## Scores of real activations -/

/-- A score at or before the query position is a real. -/
theorem score_real (Q K : Act) (hQ : ∀ n s d, ∃ x : ℝ, Q n s d = (x : EReal)) (hK : ∀ n s d, ∃ x : ℝ, K n s d = (x : EReal))
    (n : Fin 4) (s t : Fin 2048) (h : t.val ≤ s.val) : ∃ x : ℝ, score Q K n s t = (x : EReal) := by
  choose a ha using hQ n s
  choose b hb using hK n t
  refine ⟨(∑ d : Fin 1024, a d * b d) * (1 / 32 : ℝ), ?_⟩
  unfold score scale
  rw [if_pos h]
  simp only [ha, hb, ← EReal.coe_mul, ← coe_sum]

theorem score_ne_bot (Q K : Act) (hQ : ∀ n s d, ∃ x : ℝ, Q n s d = (x : EReal)) (hK : ∀ n s d, ∃ x : ℝ, K n s d = (x : EReal))
    (n : Fin 4) (s t : Fin 2048) (h : t.val ≤ s.val) : score Q K n s t ≠ ⊥ := by
  obtain ⟨x, hx⟩ := score_real Q K hQ hK n s t h
  rw [hx]; exact EReal.coe_ne_bot x

/-- A score is never plus infinity. -/
theorem score_ne_top (Q K : Act) (hQ : ∀ n s d, ∃ x : ℝ, Q n s d = (x : EReal)) (hK : ∀ n s d, ∃ x : ℝ, K n s d = (x : EReal))
    (n : Fin 4) (s t : Fin 2048) : score Q K n s t ≠ ⊤ := by
  by_cases h : t.val ≤ s.val
  · obtain ⟨x, hx⟩ := score_real Q K hQ hK n s t h
    rw [hx]; exact EReal.coe_ne_top x
  · unfold score; rw [if_neg h]; exact bot_ne_top

section Row

variable (V : (c : Dev nD) → (b : Ref sig .tc) → Buf (Elt Ideal) ((c : Thread nD τ).loc b)) (c : Dev nD)

/-- The query tile and the row inside it of a position. -/
abbrev qOf (s : Fin 2048) : Fin 4 := ⟨s.val / 512, by have := s.isLt; omega⟩
abbrev rOf (s : Fin 2048) : Fin 512 := ⟨s.val % 512, Nat.mod_lt _ (by decide)⟩

/-- The row of scores of query position `s` of batch entry `n`, as one family of 4 tiles of 512. -/
def fRow (n : Fin 4) (s : Fin 2048) : Fin (4 * 512) → EReal :=
  fun t => score (act (V c main_v12)) (act (V c main_v13)) n s ⟨t.val, by have := t.isLt; omega⟩

/-- Column `d` of the values of batch entry `n`, as reals. -/
def gRow (n : Fin 4) (d : Fin 1024) : Fin (4 * 512) → ℝ :=
  fun t => (act (V c main_v14) n ⟨t.val, by have := t.isLt; omega⟩ d).toReal

theorem after_succ_eq {J K : ℕ} (e h : Fin J → Fin K → EReal) (m : ℕ) (hm : m + 1 ≤ J) :
    after e h (m + 1) hm = upd (e ⟨m, hm⟩) (h ⟨m, hm⟩) (after e h m (Nat.le_of_succ_le hm)) := rfl

/-- A key tile at or below the diagonal: the body's masked scores of row `r` are that tile of the row of scores. -/
theorem live_scores (n : Fin 4) (s : Fin 2048) (ki : Fin 4) (hle : ki.val ≤ (qOf s).val) (t : Fin cfg1.N)
    (ht : t.val = 16 * n.val + 4 * (qOf s).val + ki.val) :
    (fun cc : Fin 512 => k1_pay8 (F := Ideal) (BitVec.ofNat 32 (grid1.coords t 1).val) (BitVec.ofNat 32 (grid1.coords t 2).val)
        (iblk1 V c 0 t) (iblk1 V c 1 t) (ix2 (rOf s) cc))
      = tiles (fRow V c n s) ki := by
  funext cc
  rw [coords1_q n (qOf s) ki t ht, coords1_k n (qOf s) ki t ht]
  rw [pay8_apply (qOf s).val ki.val (qOf s).isLt ki.isLt (iblk1 V c 0 t) (iblk1 V c 1 t) (rOf s) cc]
  have hs : s.val = 512 * (qOf s).val + (rOf s).val := by show s.val = 512 * (s.val / 512) + s.val % 512; omega
  have hcc := cc.isLt
  have hki := ki.isLt
  have es : (⟨512 * (qOf s).val + (rOf s).val, by have := s.isLt; omega⟩ : Fin 2048) = s := Fin.ext hs.symm
  show _ = score (act (V c main_v12)) (act (V c main_v13)) n s ⟨cc.val + 512 * ki.val, _⟩
  unfold score
  by_cases hc : 512 * ki.val + cc.val ≤ 512 * (qOf s).val + (rOf s).val
  · rw [if_pos hc, if_pos (by show cc.val + 512 * ki.val ≤ s.val; omega)]
    congr 1
    refine Finset.sum_congr rfl fun d' _ => ?_
    rw [iblk1_q V c n (qOf s) ki (rOf s) d' t ht, iblk1_k V c n (qOf s) ki cc d' t ht hle, es]
    have ek : (⟨512 * ki.val + cc.val, by omega⟩ : Fin 2048) = ⟨cc.val + 512 * ki.val, by omega⟩ :=
      Fin.ext (show 512 * ki.val + cc.val = cc.val + 512 * ki.val by omega)
    rw [ek]
    rfl
  · rw [if_neg hc, if_neg (by show ¬(cc.val + 512 * ki.val ≤ s.val); omega)]

/-- and the value block's column `d` is that tile of the column of values. -/
theorem live_values (hv : ∀ i, ∃ x : ℝ, (V c main_v14 : S4x2048x1024.Idx → EReal) i = (x : EReal))
    (n : Fin 4) (s : Fin 2048) (d : Fin 1024) (ki : Fin 4) (hle : ki.val ≤ (qOf s).val) (t : Fin cfg1.N)
    (ht : t.val = 16 * n.val + 4 * (qOf s).val + ki.val) :
    (fun cc : Fin 512 => iblk1 V c 2 t (ix3 (0 : Fin 1) cc d))
      = fun cc : Fin 512 => ((tiles (gRow V c n d) ki cc : ℝ) : EReal) := by
  funext cc
  have hcc := cc.isLt
  have hki := ki.isLt
  rw [iblk1_v V c n (qOf s) ki cc d t ht hle]
  have ek : (⟨512 * ki.val + cc.val, by omega⟩ : Fin 2048) = ⟨cc.val + 512 * ki.val, by omega⟩ :=
      Fin.ext (show 512 * ki.val + cc.val = cc.val + 512 * ki.val by omega)
  rw [ek]
  obtain ⟨x, hx⟩ := hv (ix3 n (⟨cc.val + 512 * ki.val, by omega⟩ : Fin 2048) d)
  show _ = (((act (V c main_v14) n ⟨cc.val + 512 * ki.val, _⟩ d).toReal : ℝ) : EReal)
  show _ = ((((V c main_v14 : S4x2048x1024.Idx → EReal) (ix3 n (⟨cc.val + 512 * ki.val, by omega⟩ : Fin 2048) d)).toReal : ℝ) : EReal)
  rw [hx, EReal.toReal_coe]

/-- A key tile above the diagonal is fully masked. -/
theorem masked_tile (n : Fin 4) (s : Fin 2048) (ki : Fin 4) (hgt : ¬ki.val ≤ (qOf s).val) :
    tiles (fRow V c n s) ki = fun _ : Fin 512 => (⊥ : EReal) := by
  funext cc
  have hcc := cc.isLt
  show score (act (V c main_v12)) (act (V c main_v13)) n s ⟨cc.val + 512 * ki.val, _⟩ = ⊥
  unfold score
  rw [if_neg (by show ¬(cc.val + 512 * ki.val ≤ s.val); have : (qOf s).val = s.val / 512 := rfl; omega)]

variable (hq : ∀ i, ∃ x : ℝ, (V c main_v12 : S4x2048x1024.Idx → EReal) i = (x : EReal))
  (hk : ∀ i, ∃ x : ℝ, (V c main_v13 : S4x2048x1024.Idx → EReal) i = (x : EReal))

include hq hk in
theorem fRow_ne_top (n : Fin 4) (s : Fin 2048) (i : Fin (4 * 512)) : fRow V c n s i ≠ ⊤ :=
  score_ne_top _ _ (fun n s d => hq (ix3 n s d)) (fun n s d => hk (ix3 n s d)) n s _

include hq hk in
theorem fRow_zero_ne_bot (n : Fin 4) (s : Fin 2048) : fRow V c n s ⟨0, by norm_num⟩ ≠ ⊥ :=
  score_ne_bot _ _ (fun n s d => hq (ix3 n s d)) (fun n s d => hk (ix3 n s d)) n s _ (Nat.zero_le _)

include hq hk in
/-- The recurrence's state after any positive number of tiles of the row is three reals. -/
theorem after_real (n : Fin 4) (s : Fin 2048) (g : Fin 4 → Fin 512 → ℝ) (m : ℕ) (hm : m + 1 ≤ 4) :
    ∃ M l a : ℝ, after (tiles (fRow V c n s)) (fun j k => ((g j k : ℝ) : EReal)) (m + 1) hm = ((M : EReal), (l : EReal), (a : EReal)) := by
  obtain ⟨M, -, hA⟩ := after_succ_masked (J := 4) (K := 512) (by norm_num) (tiles (fRow V c n s))
    (fun j k => fRow_ne_top V c hq hk n s _) ⟨⟨0, by norm_num⟩, fRow_zero_ne_bot V c hq hk n s⟩ g m hm
  exact ⟨M, _, _, hA⟩

include hq hk in
/-- THE INVARIANT: after the point of key tile `ki` of the query tile of `s`, row `s mod 512`, feature `d` of the scratch
    is the recurrence's state after `ki + 1` tiles of the row of scores and the column of values. -/
theorem row_inv (hv : ∀ i, ∃ x : ℝ, (V c main_v14 : S4x2048x1024.Idx → EReal) i = (x : EReal))
    (n : Fin 4) (s : Fin 2048) (d : Fin 1024) :
    ∀ (ki : ℕ) (hki : ki < 4) (t : Fin cfg1.N) (ht : t.val = 16 * n.val + 4 * (qOf s).val + ki),
      rowOf (scrAt1 V c (t.val + 1) t.isLt) (rOf s) d
        = after (tiles (fRow V c n s)) (fun j k => ((tiles (gRow V c n d) j k : ℝ) : EReal)) (ki + 1) hki := by
  intro ki
  induction ki with
  | zero =>
    intro hki t ht
    have e : scrAt1 V c (t.val + 1) t.isLt
        = if 0 ≤ (qOf s).val then
            step1 (grid1.coords t) (iblk1 V c 0 t) (iblk1 V c 1 t) (iblk1 V c 2 t)
              (if 0 = 0 then init1 else scrAt1 V c t.val (Nat.le_of_lt t.isLt))
          else scrAt1 V c t.val (Nat.le_of_lt t.isLt) := scrAt1_tile V c n (qOf s) (⟨0, hki⟩ : Fin 4) t ht
    rw [e, if_pos (Nat.zero_le _), if_pos rfl]
    refine (rowOf_step (grid1.coords t) (iblk1 V c 0 t) (iblk1 V c 1 t) (iblk1 V c 2 t) init1 (rOf s) d).trans ?_
    rw [rowOf_init, live_scores V c n s (⟨0, hki⟩ : Fin 4) (Nat.zero_le _) t ht,
      live_values V c hv n s d (⟨0, hki⟩ : Fin 4) (Nat.zero_le _) t ht]
    rfl
  | succ ki ih =>
    intro hki t ht
    have e : scrAt1 V c (t.val + 1) t.isLt
        = if ki + 1 ≤ (qOf s).val then
            step1 (grid1.coords t) (iblk1 V c 0 t) (iblk1 V c 1 t) (iblk1 V c 2 t)
              (if ki + 1 = 0 then init1 else scrAt1 V c t.val (Nat.le_of_lt t.isLt))
          else scrAt1 V c t.val (Nat.le_of_lt t.isLt) := scrAt1_tile V c n (qOf s) (⟨ki + 1, hki⟩ : Fin 4) t ht
    have hN : t.val < 64 := lt_of_lt_of_eq t.isLt N_1
    have hprev : rowOf (scrAt1 V c t.val (Nat.le_of_lt t.isLt)) (rOf s) d
        = after (tiles (fRow V c n s)) (fun j k => ((tiles (gRow V c n d) j k : ℝ) : EReal)) (ki + 1) (Nat.lt_of_succ_lt hki) := by
      have h' := ih (Nat.lt_of_succ_lt hki) (⟨t.val - 1, lt_of_lt_of_eq (by omega) N_1.symm⟩ : Fin cfg1.N) (by show t.val - 1 = _; omega)
      rw [← h']
      exact congrArg (fun S => rowOf S (rOf s) d) (scrAt1_congr V c (by show t.val = t.val - 1 + 1; omega) _ _)
    rw [e, after_succ_eq]
    by_cases hle : ki + 1 ≤ (qOf s).val
    · rw [if_pos hle, if_neg (Nat.succ_ne_zero ki)]
      refine (rowOf_step (grid1.coords t) (iblk1 V c 0 t) (iblk1 V c 1 t) (iblk1 V c 2 t) _ (rOf s) d).trans ?_
      rw [hprev, live_scores V c n s (⟨ki + 1, hki⟩ : Fin 4) hle t ht,
        live_values V c hv n s d (⟨ki + 1, hki⟩ : Fin 4) hle t ht]
    · rw [if_neg hle, hprev]
      obtain ⟨M, l, a, hA⟩ := after_real V c hq hk n s (tiles (gRow V c n d)) ki (Nat.lt_of_succ_lt hki)
      rw [hA, masked_tile V c n s (⟨ki + 1, hki⟩ : Fin 4) hle, upd_all_bot]

end Row

/-! ## The region's value -/

/-- THE ATTENTION REGION'S VALUE: with real query, key and value arrays at entry, the output array after the region is
    the causal softmax attention of them, index by index. -/
theorem ctx_val (V : (c : Dev nD) → (b : Ref sig .tc) → Buf (Elt Ideal) ((c : Thread nD τ).loc b)) (c : Dev nD)
    (hq : ∀ i, ∃ r : ℝ, (V c main_v12 : S4x2048x1024.Idx → EReal) i = (r : EReal))
    (hk : ∀ i, ∃ r : ℝ, (V c main_v13 : S4x2048x1024.Idx → EReal) i = (r : EReal))
    (hv : ∀ i, ∃ r : ℝ, (V c main_v14 : S4x2048x1024.Idx → EReal) i = (r : EReal))
    (n : Fin 4) (s : Fin 2048) (d : Fin 1024) :
    ((dat1 (F := Ideal) V c).arrAt 3 cfg1.N : S4x2048x1024.Idx → EReal) (ix3 n s d)
      = Cert.Attn.ctx (Cert.Attn.act (V c main_v12)) (Cert.Attn.act (V c main_v13)) (Cert.Attn.act (V c main_v14)) n s d := by
  rw [final1_at V c n s d, pay6_apply]
  have inv := row_inv V c hq hk hv n s d 3 (by norm_num) (⟨16 * n.val + 4 * (s.val / 512) + 3, tlast_lt n s⟩ : Fin cfg1.N) rfl
  have h1 := congrArg (fun x : EReal × EReal × EReal => x.2.2) inv
  have h2 := congrArg (fun x : EReal × EReal × EReal => x.2.1) inv
  obtain ⟨-, -, A3⟩ := after_all_masked_row (J := 4) (K := 512) (by norm_num) (fRow V c n s)
    (fRow_ne_top V c hq hk n s) ⟨⟨0, by norm_num⟩, by norm_num, fRow_zero_ne_bot V c hq hk n s⟩ (gRow V c n d)
  refine (congrArg₂ Ideal.div h1 h2).trans (A3.trans ?_)
  show ∑ i : Fin 2048, _ = ∑ t : Fin 2048, _
  refine Finset.sum_congr rfl fun i _ => ?_
  obtain ⟨x, hx⟩ := hv (ix3 n i d)
  have eg : ((gRow V c n d i : ℝ) : EReal) = act (V c main_v14) n i d := by
    show ((((V c main_v14 : S4x2048x1024.Idx → EReal) (ix3 n i d)).toReal : ℝ) : EReal) = (V c main_v14 : S4x2048x1024.Idx → EReal) (ix3 n i d)
    rw [hx, EReal.toReal_coe]
  rw [eg]
  rfl

end Cert.KernelIdeal.Hand

end
-- ==== Proof.IdealFinal.lean ====
/- The kernel's VALUE at the extended reals: under the printed precondition (every argument array real-valued)
   the result array the run leaves is the one function G of the nine argument arrays — one head of causal
   self-attention between four linear layers. The composition is stated first over typed arrays (value_core), then
   at the run's boundary valuations (kernel_value_of), where its hypotheses are what the three stretches of the run
   establish: the three projections, the context the attention region leaves, the output layer. -/
import proofs.«180477_j74028056314061_2_alg».proof.Defs
import proofs.«180477_j74028056314061_2_alg».proof.Proof.Gen.Pre_finite_inputs
import proofs.«180477_j74028056314061_2_alg».proof.Proof.Spec
import proofs.«180477_j74028056314061_2_alg».proof.Proof.SpecReal
import proofs.«180477_j74028056314061_2_alg».proof.Proof.Finite
import proofs.«180477_j74028056314061_2_alg».proof.Proof.IdealRun
import proofs.«180477_j74028056314061_2_alg».proof.Proof.IdealChain
import proofs.«180477_j74028056314061_2_alg».proof.Proof.IdealAttn
import Idealize.ShloMosaic.Lib.ValueIdx

set_option maxRecDepth 16384

noncomputable section

namespace Cert.KernelIdeal.Hand

open Cert.KernelIdeal Cert.KernelIdeal.Gen Idealize.ShloMosaic Idealize.ShloMosaic.TcCoe Idealize.SL.Sem
open Idealize.ShloMosaic.ValueIdx
open Idealize.ShloMosaic.Pipeline (Dat)
open Cert.Attn
open scoped BigOperators

/-! ## The composition, over typed arrays

With the nine argument arrays real-valued: the three projections q, k, v of the rows are real-valued (a linear
layer of reals is real), so the attention region, handed them, leaves the context of those three projections; the
last region and the host operations around it apply the output layer to whatever context they are handed; and the
whole function at an index is the output layer of that context at the index's coordinates. -/

/-- An array given at every coordinate triple by a real-valued activation is real-valued. -/
theorem real_of_coords (a : Arr3) (A : Act) (hA : ∀ n s d, ∃ r : ℝ, A n s d = (r : EReal))
    (h : ∀ n s d, a (ix3 n s d) = A n s d) (i : (⟨3, ![4, 2048, 1024]⟩ : Shape).Idx) : ∃ r : ℝ, a i = (r : EReal) := by
  obtain ⟨n, s, d, rfl⟩ : ∃ (n : Fin 4) (s : Fin 2048) (d : Fin 1024), i = ix3 n s d := ⟨i 0, i 1, i 2, eq_ix3 i⟩
  rw [h]; exact hA n s d

/-- An array given at every coordinate triple by an activation, read by coordinates, is that activation. -/
theorem act_of_coords (a : Arr3) (A : Act) (h : ∀ n s d, a (ix3 n s d) = A n s d) : act a = A :=
  funext fun n => funext fun s => funext fun d => h n s d

/-- The result array is the whole function of the nine argument arrays. -/
theorem value_core (x0 : Arr3) (x1 : Arr2) (x2 : Arr1) (x3 : Arr2) (x4 : Arr1) (x5 : Arr2) (x6 : Arr1) (x7 : Arr2) (x8 : Arr1)
    (q k v o out : Arr3)
    (h0 : ∀ i, ∃ r : ℝ, x0 i = (r : EReal)) (h1 : ∀ i, ∃ r : ℝ, x1 i = (r : EReal)) (h2 : ∀ i, ∃ r : ℝ, x2 i = (r : EReal))
    (h3 : ∀ i, ∃ r : ℝ, x3 i = (r : EReal)) (h4 : ∀ i, ∃ r : ℝ, x4 i = (r : EReal)) (h5 : ∀ i, ∃ r : ℝ, x5 i = (r : EReal))
    (h6 : ∀ i, ∃ r : ℝ, x6 i = (r : EReal))
    (hq : ∀ n s d, q (ix3 n s d) = lin (act x0) x1 x2 n s d)
    (hk : ∀ n s d, k (ix3 n s d) = lin (act x0) x3 x4 n s d)
    (hv : ∀ n s d, v (ix3 n s d) = lin (act x0) x5 x6 n s d)
    (hctx : (∀ i, ∃ r : ℝ, q i = (r : EReal)) → (∀ i, ∃ r : ℝ, k i = (r : EReal)) → (∀ i, ∃ r : ℝ, v i = (r : EReal)) →
      ∀ n s d, o (ix3 n s d) = ctx (act q) (act k) (act v) n s d)
    (hout : ∀ C : Act, (∀ n s d, o (ix3 n s d) = C n s d) → ∀ n s e, out (ix3 n s e) = lin C x7 x8 n s e) :
    out = G x0 x1 x2 x3 x4 x5 x6 x7 x8 := by
  have hx : ∀ n s d, ∃ r : ℝ, act x0 n s d = (r : EReal) := act_real x0 h0
  have ho := hctx (real_of_coords q _ (lin_real (act x0) x1 x2 hx h1 h2) hq)
    (real_of_coords k _ (lin_real (act x0) x3 x4 hx h3 h4) hk)
    (real_of_coords v _ (lin_real (act x0) x5 x6 hx h5 h6) hv)
  rw [act_of_coords q _ hq, act_of_coords k _ hk, act_of_coords v _ hv] at ho
  funext i
  obtain ⟨n, s, e, rfl⟩ : ∃ (n : Fin 4) (s : Fin 2048) (e : Fin 1024), i = ix3 n s e := ⟨i 0, i 1, i 2, eq_ix3 i⟩
  rw [hout _ ho n s e]
  rfl

/-! ## At the run's valuations -/

variable (m : (ℓ : Loc nD τ sig) → Buf (Elt Ideal) ℓ) (ρ : Dev nD → PrngReg)

/-- The same at the run's boundary valuations, given what the three stretches of the run establish: the host
    operations and the first region leave the three projections (hq, hk, hv); the attention region, handed
    real-valued projections, leaves their context (hctx); the last stretch applies the output layer (hout). -/
theorem kernel_value_of (hpre : Cert.Pre_KernelIdeal m) (c : Dev nD)
    (hq : ∀ n s d, (V3 m ρ c main_v12 : S4x2048x1024.Idx → EReal) (ix3 n s d)
      = lin (act (m ((c.tc : Thread nD τ).loc main_arg0))) (m ((c.tc : Thread nD τ).loc main_arg1)) (m ((c.tc : Thread nD τ).loc main_arg2)) n s d)
    (hk : ∀ n s d, (V3 m ρ c main_v13 : S4x2048x1024.Idx → EReal) (ix3 n s d)
      = lin (act (m ((c.tc : Thread nD τ).loc main_arg0))) (m ((c.tc : Thread nD τ).loc main_arg3)) (m ((c.tc : Thread nD τ).loc main_arg4)) n s d)
    (hv : ∀ n s d, (V3 m ρ c main_v14 : S4x2048x1024.Idx → EReal) (ix3 n s d)
      = lin (act (m ((c.tc : Thread nD τ).loc main_arg0))) (m ((c.tc : Thread nD τ).loc main_arg5)) (m ((c.tc : Thread nD τ).loc main_arg6)) n s d)
    (hctx : (∀ i, ∃ r : ℝ, (V3 m ρ c main_v12 : S4x2048x1024.Idx → EReal) i = (r : EReal)) →
      (∀ i, ∃ r : ℝ, (V3 m ρ c main_v13 : S4x2048x1024.Idx → EReal) i = (r : EReal)) →
      (∀ i, ∃ r : ℝ, (V3 m ρ c main_v14 : S4x2048x1024.Idx → EReal) i = (r : EReal)) →
      ∀ (n : Fin 4) (s : Fin 2048) (d : Fin 1024), ((dat1 (F := Ideal) (V3 m ρ) c).arrAt 3 cfg1.N : S4x2048x1024.Idx → EReal) (ix3 n s d)
        = ctx (act (V3 m ρ c main_v12)) (act (V3 m ρ c main_v13)) (act (V3 m ρ c main_v14)) n s d)
    (hout : ∀ C : Act, (∀ n s d, (V4 m ρ c main_v15 : S4x2048x1024.Idx → EReal) (ix3 n s d) = C n s d) →
      ∀ n s e, (W7 m ρ c (Proc.devRef .tc main_v21) : S4x2048x1024.Idx → EReal) (ix3 n s e)
        = lin C (m ((c.tc : Thread nD τ).loc main_arg7)) (m ((c.tc : Thread nD τ).loc main_arg8)) n s e) :
    W7 m ρ c (Proc.devRef .tc main_v21)
      = (G (m ((c.tc : Thread nD τ).loc main_arg0)) (m ((c.tc : Thread nD τ).loc main_arg1)) (m ((c.tc : Thread nD τ).loc main_arg2))
          (m ((c.tc : Thread nD τ).loc main_arg3)) (m ((c.tc : Thread nD τ).loc main_arg4)) (m ((c.tc : Thread nD τ).loc main_arg5))
          (m ((c.tc : Thread nD τ).loc main_arg6)) (m ((c.tc : Thread nD τ).loc main_arg7)) (m ((c.tc : Thread nD τ).loc main_arg8)) : S4x2048x1024.Idx → EReal) := by
  obtain ⟨h0, h1, h2, h3, h4, h5, h6, h7, h8⟩ := Cert.Pre_finite_inputs.Hand.finite_of_pre _ _ _ _ _ _ _ _ _ (hpre c)
  have hF : (dat1 (F := Ideal) (V3 m ρ) c).arrAt 3 cfg1.N = V4 m ρ c main_v15 := hF1 m ρ c 3
  refine value_core _ _ _ _ _ _ _ _ _ (V3 m ρ c main_v12) (V3 m ρ c main_v13) (V3 m ρ c main_v14) (V4 m ρ c main_v15) _
    h0 h1 h2 h3 h4 h5 h6 hq hk hv (fun rq rk rv n s d => ?_) hout
  rw [← hF]
  exact hctx rq rk rv n s d

/-- With the three projections and the output layer established by the run's first and last stretches, all that is
    left to know is the context the attention region leaves. -/
theorem kernel_value_of_ctx (hpre : Cert.Pre_KernelIdeal m) (c : Dev nD)
    (hctx : (∀ i, ∃ r : ℝ, (V3 m ρ c main_v12 : S4x2048x1024.Idx → EReal) i = (r : EReal)) →
      (∀ i, ∃ r : ℝ, (V3 m ρ c main_v13 : S4x2048x1024.Idx → EReal) i = (r : EReal)) →
      (∀ i, ∃ r : ℝ, (V3 m ρ c main_v14 : S4x2048x1024.Idx → EReal) i = (r : EReal)) →
      ∀ (n : Fin 4) (s : Fin 2048) (d : Fin 1024), ((dat1 (F := Ideal) (V3 m ρ) c).arrAt 3 cfg1.N : S4x2048x1024.Idx → EReal) (ix3 n s d)
        = ctx (act (V3 m ρ c main_v12)) (act (V3 m ρ c main_v13)) (act (V3 m ρ c main_v14)) n s d) :
    W7 m ρ c (Proc.devRef .tc main_v21)
      = (G (m ((c.tc : Thread nD τ).loc main_arg0)) (m ((c.tc : Thread nD τ).loc main_arg1)) (m ((c.tc : Thread nD τ).loc main_arg2))
          (m ((c.tc : Thread nD τ).loc main_arg3)) (m ((c.tc : Thread nD τ).loc main_arg4)) (m ((c.tc : Thread nD τ).loc main_arg5))
          (m ((c.tc : Thread nD τ).loc main_arg6)) (m ((c.tc : Thread nD τ).loc main_arg7)) (m ((c.tc : Thread nD τ).loc main_arg8)) : S4x2048x1024.Idx → EReal) :=
  kernel_value_of m ρ hpre c (c2_v12 m ρ c) (c2_v13 m ρ c) (c2_v14 m ρ c) hctx (fun C hC n s e => out_of_ctx m ρ c C hC n s e)

/-! ## The kernel's value -/

/-- THE KERNEL'S VALUE: under the printed precondition the result array the run leaves is the function G of the
    nine argument arrays — the attention region, handed real-valued projections, leaves their context. -/
theorem kernel_value (m : (ℓ : Loc nD τ sig) → Buf (Elt Ideal) ℓ) (ρ : Dev nD → PrngReg) (hpre : Cert.Pre_KernelIdeal m) (c : Dev nD) :
    W7 m ρ c (Proc.devRef .tc main_v21)
      = (Cert.Attn.G (m ((c.tc : Thread nD τ).loc main_arg0)) (m ((c.tc : Thread nD τ).loc main_arg1)) (m ((c.tc : Thread nD τ).loc main_arg2))
          (m ((c.tc : Thread nD τ).loc main_arg3)) (m ((c.tc : Thread nD τ).loc main_arg4)) (m ((c.tc : Thread nD τ).loc main_arg5))
          (m ((c.tc : Thread nD τ).loc main_arg6)) (m ((c.tc : Thread nD τ).loc main_arg7)) (m ((c.tc : Thread nD τ).loc main_arg8)) : S4x2048x1024.Idx → EReal) :=
  kernel_value_of_ctx m ρ hpre c (fun rq rk rv n s d => ctx_val (V3 m ρ) c rq rk rv n s d)

end Cert.KernelIdeal.Hand

end
-- ==== Proof.RefValue.lean ====
/-
  The reference program read at an index.  Its run ends with the result buffer holding the
  operations' composed term of the nine argument arrays; read one operation at a time at an index
  built from coordinates, that term is the specification `Cert.Attn.G`: three linear layers, the
  scaled inner products masked to −∞ above the diagonal, each row's maximum, the exponentials of
  the differences, their sum, the quotients, the weighted sum of the values, and the last linear layer.
-/
import proofs.«180477_j74028056314061_2_alg».proof.Proof.Gen.ReferenceIdeal.Read
import proofs.«180477_j74028056314061_2_alg».proof.Proof.Spec
import Idealize.ShloMosaic.Lib.Affine
import Idealize.ShloMosaic.PureOps.Reduce

noncomputable section

namespace Cert.ReferenceIdeal.RefValue

open Cert.ReferenceIdeal Cert.ReferenceIdeal.Gen Cert.ReferenceIdeal.Read Idealize.ShloMosaic Idealize.ShloMosaic.ValueIdx
open Cert.Attn
open scoped BigOperators

/-! ## Indices from coordinates -/

theorem l3_eq (n : Fin 4) (s : Fin 2048) (e : Fin 1024) (d : Fin 1024) :
    (fun a : Fin 3 => match a with
      | ⟨0, _⟩ => (⟨((ix3 n s e : S4x2048x1024.Idx) 0).val, ((ix3 n s e : S4x2048x1024.Idx) 0).isLt⟩ : Fin 4)
      | ⟨1, _⟩ => ⟨((ix3 n s e : S4x2048x1024.Idx) 1).val, ((ix3 n s e : S4x2048x1024.Idx) 1).isLt⟩
      | ⟨2, _⟩ => ⟨d.val, d.isLt⟩ : S4x2048x1024.Idx) = ix3 n s d := by
  funext a; apply Fin.ext; match a with | ⟨0, _⟩ => rfl | ⟨1, _⟩ => rfl | ⟨2, _⟩ => rfl

theorem r2_eq (n : Fin 4) (s : Fin 2048) (e d : Fin 1024) :
    (fun a : Fin 2 => match a with
      | ⟨0, _⟩ => (⟨((ix3 n s e : S4x2048x1024.Idx) 2).val, ((ix3 n s e : S4x2048x1024.Idx) 2).isLt⟩ : Fin 1024)
      | ⟨1, _⟩ => ⟨d.val, d.isLt⟩ : S1024x1024.Idx) = ix2 e d := by
  funext a; apply Fin.ext; match a with | ⟨0, _⟩ => rfl | ⟨1, _⟩ => rfl

theorem b1_eq (n : Fin 4) (s : Fin 2048) (e : Fin 1024) :
    idx_main_v3 (idx_main_v4 (ix3 n s e : S4x2048x1024.Idx)) = (ix1 e : S1024.Idx) := by
  funext a; apply Fin.ext; match a with | ⟨0, _⟩ => rfl

/-! ## The three linear layers -/

/-- The query layer at (n, s, e): row (n, s) of x against row e of the weight, plus the bias entry. -/
theorem q_eq (x0 : S4x2048x1024.Idx → EReal) (x1 : S1024x1024.Idx → EReal) (x2 : S1024.Idx → EReal)
    (n : Fin 4) (s : Fin 2048) (e : Fin 1024) :
    val_main_v5 (F := Ideal) x0 x1 x2 (ix3 n s e) = lin (act x0) x1 x2 n s e := by
  rw [val_main_v5_apply, val_main_v2_apply, val_main_v4_apply, val_main_v3_apply, b1_eq]
  simp only [Ideal.addf_def, lin, act]
  refine congrArg (· + _) (Finset.sum_congr rfl fun d _ => ?_)
  rw [show lidx_main_v2 (ix3 n s e) d = ix3 n s d from l3_eq n s e d,
    show ridx_main_v2 (ix3 n s e) d = ix2 e d from r2_eq n s e d]

/-- The key layer. -/
theorem k_eq (x0 : S4x2048x1024.Idx → EReal) (x3 : S1024x1024.Idx → EReal) (x4 : S1024.Idx → EReal)
    (n : Fin 4) (s : Fin 2048) (e : Fin 1024) :
    val_main_v9 (F := Ideal) x0 x3 x4 (ix3 n s e) = lin (act x0) x3 x4 n s e := by
  rw [val_main_v9_apply, val_main_v6_apply, val_main_v8_apply, val_main_v7_apply,
    show idx_main_v7 (idx_main_v8 (ix3 n s e : S4x2048x1024.Idx)) = (ix1 e : S1024.Idx) from b1_eq n s e]
  simp only [Ideal.addf_def, lin, act]
  refine congrArg (· + _) (Finset.sum_congr rfl fun d _ => ?_)
  rw [show lidx_main_v6 (ix3 n s e) d = ix3 n s d from l3_eq n s e d,
    show ridx_main_v6 (ix3 n s e) d = ix2 e d from r2_eq n s e d]

/-- The value layer. -/
theorem v_eq (x0 : S4x2048x1024.Idx → EReal) (x5 : S1024x1024.Idx → EReal) (x6 : S1024.Idx → EReal)
    (n : Fin 4) (s : Fin 2048) (e : Fin 1024) :
    val_main_v13 (F := Ideal) x0 x5 x6 (ix3 n s e) = lin (act x0) x5 x6 n s e := by
  rw [val_main_v13_apply, val_main_v10_apply, val_main_v12_apply, val_main_v11_apply,
    show idx_main_v11 (idx_main_v12 (ix3 n s e : S4x2048x1024.Idx)) = (ix1 e : S1024.Idx) from b1_eq n s e]
  simp only [Ideal.addf_def, lin, act]
  refine congrArg (· + _) (Finset.sum_congr rfl fun d _ => ?_)
  rw [show lidx_main_v10 (ix3 n s e) d = ix3 n s d from l3_eq n s e d,
    show ridx_main_v10 (ix3 n s e) d = ix2 e d from r2_eq n s e d]

/-! ## Small numbers and words -/

theorem toInt_small (a : Nat) (h : a < 2048) : (BitVec.ofNat 32 a).toInt = (a : Int) := by
  have hn : (BitVec.ofNat 32 a).toNat = a := by
    rw [BitVec.toNat_ofNat]; exact Nat.mod_eq_of_lt (by omega)
  rw [BitVec.toInt_eq_toNat_cond, hn]
  split
  · rfl
  · omega

/-- The signed comparison "row ≥ column" of two positions below 2048, as 32-bit words. -/
theorem sge_small (a b : Nat) (ha : a < 2048) (hb : b < 2048) :
    IntOp.cmpi .sge (IntOp.addi (BitVec.ofNat 32 a) 0#32) (BitVec.ofNat 32 b) = if b ≤ a then 1#1 else 0#1 := by
  have h0 : IntOp.addi (BitVec.ofNat 32 a) 0#32 = BitVec.ofNat 32 a := by simp [IntOp.addi]
  rw [h0]
  by_cases h : b ≤ a
  · rw [if_pos h]; exact IntOp.cmpi_sge.mpr (by rw [toInt_small a ha, toInt_small b hb]; exact_mod_cast h)
  · rw [if_neg h]
    refine eq_zero_of_ne_one fun h1 => h ?_
    have := IntOp.cmpi_sge.mp h1
    rw [toInt_small a ha, toInt_small b hb] at this
    exact_mod_cast this

theorem ofBits_1024 : Ideal.ofBits .f32 0x44800000#32 = ((1024 : ℝ) : EReal) := by
  simp [Ideal.ofBits, Ideal.ieee, -EReal.coe_mul]; norm_num

theorem ofBits_one : Ideal.ofBits .f32 0x3F800000#32 = ((1 : ℝ) : EReal) := by
  simp [Ideal.ofBits, Ideal.ieee, -EReal.coe_mul]; norm_num

theorem ofBits_neg_inf : Ideal.ofBits .f32 0xFF800000#32 = ⊥ := by
  simp [Ideal.ofBits, Ideal.ieee]

theorem ofBits_zero : Ideal.ofBits .f32 0x00000000#32 = 0 := by
  simp [Ideal.ofBits, Ideal.ieee]

/-- √1024 = 32, so the reference's 1 / √1024 is the scale 1 / 32. -/
theorem scale_val : Ideal.div ((1 : ℝ) : EReal) (Ideal.sqrt ((1024 : ℝ) : EReal)) = scale := by
  have h32 : Ideal.sqrt ((1024 : ℝ) : EReal) = ((32 : ℝ) : EReal) := by
    rw [Ideal.sqrt_coe, if_neg (by norm_num)]
    congr 1
    rw [show (1024 : ℝ) = 32 ^ 2 by norm_num]
    exact Real.sqrt_sq (by norm_num)
  rw [h32, Ideal.div_coe (by norm_num : (32 : ℝ) ≠ 0), ← EReal.coe_mul]; unfold scale; norm_num

/-! ## The causal mask and the scores -/

/-- The mask at (n, s, t) is 1 exactly when the key position t does not come after the query position s. -/
theorem mask_eq (n : Fin 4) (s t : Fin 2048) :
    val_main_call1_v1 (F := Ideal) (ix3 n s t : S4x2048x2048.Idx) = if t.val ≤ s.val then 1#1 else 0#1 := by
  rw [val_main_call1_v1_apply, val_main_v19_apply, val_main_v18_apply, val_main_call0_v4_apply,
    val_main_call0_v2_apply, val_main_call0_v0_apply, val_main_call0_v1_apply, val_main_call0_c_apply,
    val_main_call0_v3_apply, val_main_v17_apply, val_main_c_apply, val_main_call0_v5_apply, val_main_call0_c_0_apply]
  show Scalar.select (IntOp.cmpi .sge (IntOp.addi (BitVec.ofNat 32 s.val) 0#32) (BitVec.ofNat 32 t.val)) 1#1 0#1 = _
  rw [sge_small s.val t.val s.isLt t.isLt]
  by_cases h : t.val ≤ s.val
  · rw [if_pos h]; exact select_one _ _
  · rw [if_neg h]; exact select_zero _ _

/-- The masked, scaled score at (n, s, t). -/
theorem sc_eq (x0 : S4x2048x1024.Idx → EReal) (x1 : S1024x1024.Idx → EReal) (x2 : S1024.Idx → EReal)
    (x3 : S1024x1024.Idx → EReal) (x4 : S1024.Idx → EReal) (n : Fin 4) (s t : Fin 2048) :
    val_main_v20 (F := Ideal) x0 x1 x2 x3 x4 (ix3 n s t)
      = score (lin (act x0) x1 x2) (lin (act x0) x3 x4) n s t := by
  rw [val_main_v20_apply, mask_eq, val_main_v16_apply, val_main_v14_apply, val_main_v15_apply, val_main_v1_apply,
    val_main_v0_apply, val_main_cst_apply, val_main_cst_0_apply, val_main_call1_v2_apply, val_main_call1_v0_apply,
    val_main_cst_1_apply]
  simp only [Ideal.mulf_def, Ideal.hostDivf_def, Ideal.hostUnary_sqrt_def, Ideal.ofBits_def, ofBits_1024, ofBits_one,
    ofBits_neg_inf, scale_val]
  unfold score
  by_cases h : t.val ≤ s.val
  · rw [if_pos h, if_pos h, select_one]
    refine congrArg (· * scale) (Finset.sum_congr rfl fun d _ => ?_)
    rw [show lidx_main_v14 (ix3 n s t) d = ix3 n s d from by
          funext a; apply Fin.ext; match a with | ⟨0, _⟩ => rfl | ⟨1, _⟩ => rfl | ⟨2, _⟩ => rfl,
      show ridx_main_v14 (ix3 n s t) d = ix3 n t d from by
          funext a; apply Fin.ext; match a with | ⟨0, _⟩ => rfl | ⟨1, _⟩ => rfl | ⟨2, _⟩ => rfl,
      q_eq, k_eq]
  · rw [if_neg h, if_neg h, select_zero]

/-! ## The row maximum -/

/-- A row's index with the key coordinate inserted. -/
theorem lift_eq (h : S4x2048x2048.Reduces [2] S4x2048) (n : Fin 4) (s : Fin 2048) (t : Fin (S4x2048x2048.size 2)) :
    h.lift (ix2 n s : S4x2048.Idx) t = (ix3 n s (⟨t.val, t.isLt⟩ : Fin 2048) : S4x2048x2048.Idx) := by
  funext a; apply Fin.ext
  rw [Shape.Reduces.lift_val]
  match a with
  | ⟨0, _⟩ => simp [Shape.Reduces.liftVal]
  | ⟨1, _⟩ => simp [Shape.Reduces.liftVal]
  | ⟨2, _⟩ => simp [Shape.Reduces.liftVal]

/-- The reference's row maximum (a reduce by maximum from −∞, then a maximum with −∞) is the supremum of the row's scores. -/
theorem max_eq (x0 : S4x2048x1024.Idx → EReal) (x1 : S1024x1024.Idx → EReal) (x2 : S1024.Idx → EReal)
    (x3 : S1024x1024.Idx → EReal) (x4 : S1024.Idx → EReal) (n : Fin 4) (s : Fin 2048) :
    val_main_v23 (F := Ideal) x0 x1 x2 x3 x4 (ix2 n s)
      = rowMax (lin (act x0) x1 x2) (lin (act x0) x3 x4) n s := by
  rw [val_main_v23_apply, val_main_v22_apply, val_main_cst_3_apply]
  unfold val_main_v21
  rw [Host.reduce_eq_fold_single FloatOps.maximumf _ _ reducesTo_S4x2048x2048_S4x2048_d2 (by decide) h_S_]
  rw [val_main_cst_2_apply]
  simp only [Ideal.maximumf_def, Ideal.ofBits_def, ofBits_neg_inf, bot_le, max_eq_right]
  unfold rowMax
  show (Finset.univ : Finset (Fin (S4x2048x2048.size 2))).sup _ = (Finset.univ : Finset (Fin (S4x2048x2048.size 2))).sup _
  refine Finset.sup_congr rfl fun t _ => ?_
  rw [Function.comp_apply, lift_eq, sc_eq]
  rfl

/-! ## The softmax weights, the context and the output layer -/

/-- A key's unnormalised weight. -/
theorem wexp_eq (x0 : S4x2048x1024.Idx → EReal) (x1 : S1024x1024.Idx → EReal) (x2 : S1024.Idx → EReal)
    (x3 : S1024x1024.Idx → EReal) (x4 : S1024.Idx → EReal) (n : Fin 4) (s t : Fin 2048) :
    val_main_v27 (F := Ideal) x0 x1 x2 x3 x4 (ix3 n s t)
      = wexp (lin (act x0) x1 x2) (lin (act x0) x3 x4) n s t := by
  rw [val_main_v27_apply, val_main_v26_apply, val_main_v25_apply, val_main_v24_apply,
    show idx_main_v24 (idx_main_v25 (ix3 n s t : S4x2048x2048.Idx)) = (ix2 n s : S4x2048.Idx) from by
      funext a; apply Fin.ext; match a with | ⟨0, _⟩ => rfl | ⟨1, _⟩ => rfl,
    max_eq, sc_eq]
  simp only [Ideal.hostUnary_exp_def, Ideal.subf_def]
  rfl

/-- The row's normaliser: the reference's sum starts from the word 0. -/
theorem sum_eq (x0 : S4x2048x1024.Idx → EReal) (x1 : S1024x1024.Idx → EReal) (x2 : S1024.Idx → EReal)
    (x3 : S1024x1024.Idx → EReal) (x4 : S1024.Idx → EReal) (n : Fin 4) (s : Fin 2048) :
    val_main_v28 (F := Ideal) x0 x1 x2 x3 x4 (ix2 n s)
      = rowSum (lin (act x0) x1 x2) (lin (act x0) x3 x4) n s := by
  rw [val_main_v28_apply, val_main_cst_4_apply]
  simp only [Ideal.ofBits_def, ofBits_zero, zero_add]
  unfold rowSum
  refine Finset.sum_congr rfl fun t _ => ?_
  rw [show idx_main_v28 (ix2 n s) t = (ix3 n s t : S4x2048x2048.Idx) from by
      funext a; apply Fin.ext; match a with | ⟨0, _⟩ => rfl | ⟨1, _⟩ => rfl | ⟨2, _⟩ => rfl,
    wexp_eq]

/-- A key's softmax weight. -/
theorem p_eq (x0 : S4x2048x1024.Idx → EReal) (x1 : S1024x1024.Idx → EReal) (x2 : S1024.Idx → EReal)
    (x3 : S1024x1024.Idx → EReal) (x4 : S1024.Idx → EReal) (n : Fin 4) (s t : Fin 2048) :
    val_main_v31 (F := Ideal) x0 x1 x2 x3 x4 (ix3 n s t)
      = Ideal.div (wexp (lin (act x0) x1 x2) (lin (act x0) x3 x4) n s t)
          (rowSum (lin (act x0) x1 x2) (lin (act x0) x3 x4) n s) := by
  rw [val_main_v31_apply, val_main_v30_apply, val_main_v29_apply,
    show idx_main_v29 (idx_main_v30 (ix3 n s t : S4x2048x2048.Idx)) = (ix2 n s : S4x2048.Idx) from by
      funext a; apply Fin.ext; match a with | ⟨0, _⟩ => rfl | ⟨1, _⟩ => rfl,
    sum_eq, wexp_eq]
  simp only [Ideal.hostDivf_def]

/-- The context: the values averaged with the softmax weights. -/
theorem ctx_eq (x0 : S4x2048x1024.Idx → EReal) (x1 : S1024x1024.Idx → EReal) (x2 : S1024.Idx → EReal)
    (x3 : S1024x1024.Idx → EReal) (x4 : S1024.Idx → EReal) (x5 : S1024x1024.Idx → EReal) (x6 : S1024.Idx → EReal)
    (n : Fin 4) (s : Fin 2048) (d : Fin 1024) :
    val_main_v32 (F := Ideal) x0 x1 x2 x3 x4 x5 x6 (ix3 n s d)
      = ctx (lin (act x0) x1 x2) (lin (act x0) x3 x4) (lin (act x0) x5 x6) n s d := by
  rw [val_main_v32_apply]
  unfold ctx
  refine Finset.sum_congr rfl fun t _ => ?_
  rw [show lidx_main_v32 (ix3 n s d) t = (ix3 n s t : S4x2048x2048.Idx) from by
      funext a; apply Fin.ext; match a with | ⟨0, _⟩ => rfl | ⟨1, _⟩ => rfl | ⟨2, _⟩ => rfl,
    show ridx_main_v32 (ix3 n s d) t = (ix3 n t d : S4x2048x1024.Idx) from by
      funext a; apply Fin.ext; match a with | ⟨0, _⟩ => rfl | ⟨1, _⟩ => rfl | ⟨2, _⟩ => rfl,
    p_eq, v_eq]

/-- The output layer. -/
theorem out_eq (x0 : S4x2048x1024.Idx → EReal) (x1 : S1024x1024.Idx → EReal) (x2 : S1024.Idx → EReal)
    (x3 : S1024x1024.Idx → EReal) (x4 : S1024.Idx → EReal) (x5 : S1024x1024.Idx → EReal) (x6 : S1024.Idx → EReal)
    (x7 : S1024x1024.Idx → EReal) (x8 : S1024.Idx → EReal) (n : Fin 4) (s : Fin 2048) (e : Fin 1024) :
    val_main_v36 (F := Ideal) x0 x1 x2 x3 x4 x5 x6 x7 x8 (ix3 n s e)
      = lin (ctx (lin (act x0) x1 x2) (lin (act x0) x3 x4) (lin (act x0) x5 x6)) x7 x8 n s e := by
  rw [val_main_v36_apply, val_main_v33_apply, val_main_v35_apply, val_main_v34_apply,
    show idx_main_v34 (idx_main_v35 (ix3 n s e : S4x2048x1024.Idx)) = (ix1 e : S1024.Idx) from b1_eq n s e]
  simp only [Ideal.addf_def, lin]
  refine congrArg (· + _) (Finset.sum_congr rfl fun d _ => ?_)
  rw [show lidx_main_v33 (ix3 n s e) d = ix3 n s d from l3_eq n s e d,
    show ridx_main_v33 (ix3 n s e) d = ix2 e d from r2_eq n s e d, ctx_eq]

/-- **The reference's result is the specification**, index by index. -/
theorem ref_eq_G (x0 : S4x2048x1024.Idx → EReal) (x1 : S1024x1024.Idx → EReal) (x2 : S1024.Idx → EReal)
    (x3 : S1024x1024.Idx → EReal) (x4 : S1024.Idx → EReal) (x5 : S1024x1024.Idx → EReal) (x6 : S1024.Idx → EReal)
    (x7 : S1024x1024.Idx → EReal) (x8 : S1024.Idx → EReal) :
    val_main_v36 (F := Ideal) x0 x1 x2 x3 x4 x5 x6 x7 x8 = G x0 x1 x2 x3 x4 x5 x6 x7 x8 := by
  funext i
  obtain ⟨n, s, e, rfl⟩ : ∃ (n : Fin 4) (s : Fin 2048) (e : Fin 1024), i = ix3 n s e := ⟨i 0, i 1, i 2, eq_ix3 i⟩
  rw [out_eq]
  rfl

end Cert.ReferenceIdeal.RefValue

end
-- ==== Proof.lean ====
/-
  The certificate of the causal self-attention kernel against its reference.

  Both kernel programs (the word-level one and its idealization) run to the end, fault nowhere and leave
  their nine argument arrays unchanged: @main is seven items — host stretches around three regions — and
  the run is the library's launch over those items, each region a record built from its own body's
  triples (the two linear regions have one control case; the attention region has five and carries its
  accumulator, running maximum and normaliser in scratch between grid points).  The reference's frame is
  its generated run.  The idealization's one rewrite names the kernel's finite mask fill −∞.
  On the extended reals the two idealized programs compute one function of the arguments (Proof/Spec.lean):
  the reference read operation by operation is that function; the kernel's result buffer is read back
  through its three regions — a linear layer per block of rows, the online-softmax recurrence over the
  key tiles up to the causal diagonal, which is the plain softmax of the masked row, and the last layer.
-/
import proofs.«180477_j74028056314061_2_alg».proof.Defs
import proofs.«180477_j74028056314061_2_alg».proof.Proof.Gen.Kernel
import proofs.«180477_j74028056314061_2_alg».proof.Proof.Gen.KernelIdeal
import proofs.«180477_j74028056314061_2_alg».proof.Proof.Gen.ReferenceIdeal
import proofs.«180477_j74028056314061_2_alg».proof.Proof.Gen.Pre_finite_inputs
import proofs.«180477_j74028056314061_2_alg».proof.Proof.KernelEnds
import proofs.«180477_j74028056314061_2_alg».proof.Proof.IdealEnds
import proofs.«180477_j74028056314061_2_alg».proof.Proof.IdealFinal
import proofs.«180477_j74028056314061_2_alg».proof.Proof.RefValue
import Idealize.ShloMosaic.Adequacy
import Idealize.ShloMosaic.Init

noncomputable section

namespace Cert.Proof

open Idealize.ShloMosaic Idealize.SL.Sem

/-- The word-level kernel runs and leaves its arguments as launched. -/
theorem frame_k : Cert.frame_Kernel := fun m ρ _ =>
  (θ_run Cert.Kernel.defs _ _).mono (fun _ h c => (h c).2) (Cert.Kernel.Hand.run_ends (F := Bits) m ρ)

/-- So does its idealization. -/
theorem frame_ki : Cert.frame_KernelIdeal := fun m ρ _ =>
  (θ_run Cert.KernelIdeal.defs _ _).mono (fun _ h c => (h c).2) (Cert.KernelIdeal.Hand.run_ends (F := Ideal) m ρ)

/-- The reference is host operations only: its run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- The one rewrite of the idealization: the mask fill −0.7·(largest finite f32) is named −∞. -/
theorem preserves : Cert.preserves_Kernel_KernelIdeal :=
  IdealRules.named_const.statement Cert.KernelIdeal.κ "neg_big" .f32 0xFF333332#32 ⊥ rfl

/-- On the extended reals, from memories agreeing on the arguments, both idealized programs end with the
    specification's function of the arguments in their result buffers. -/
theorem algebraic : Cert.algebraic_KernelIdeal_ReferenceIdeal := by
  intro m ρ m' ρ' hpre hagree
  refine ⟨fun c => (Cert.Attn.G (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))), ?_, ?_⟩
  · exact (θ_run Cert.KernelIdeal.defs _ _).mono
      (fun _ h c => ⟨(h c).1.trans (Cert.KernelIdeal.Hand.kernel_value m ρ hpre c), (h c).2⟩)
      (Cert.KernelIdeal.Hand.run_ends (F := Ideal) m ρ)
  · refine (θ_run Cert.ReferenceIdeal.defs _ _).mono (fun _ h c => ⟨(h c).1.trans ?_, (h c).2⟩)
      (Cert.ReferenceIdeal.Value.run (F := Ideal) m' ρ')
    obtain ⟨h0, h1, h2, h3, h4, h5, h6, h7, h8⟩ := hagree c
    rw [Cert.ReferenceIdeal.Read.val_main_v36_eq, Cert.ReferenceIdeal.RefValue.ref_eq_G, h0, h1, h2, h3, h4, h5, h6, h7, h8]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
